-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16x64 : Shape := ⟨3, ![512, 16, 64]⟩
abbrev S64x16x64 : Shape := ⟨3, ![64, 16, 64]⟩
abbrev S64x64x64 : Shape := ⟨3, ![64, 64, 64]⟩
abbrev S64 : Shape := ⟨1, ![64]⟩
abbrev S64x64 : Shape := ⟨2, ![64, 64]⟩
abbrev S_ : Shape := ⟨0, ![]⟩

class Facts : Prop where
  bcast_S_S512x16x64 : S_.BroadcastsInDim S512x16x64 (![] : Fin 0 → Fin S512x16x64.rank)
  reducesTo_S512x16x64_S_d0_1_2 : S512x16x64.ReducesTo [0, 1, 2] S_
  h_S_ : 0 < S_.numel
  bcast_S_S64x16x64 : S_.BroadcastsInDim S64x16x64 (![] : Fin 0 → Fin S64x16x64.rank)
  reducesTo_S64x16x64_S_d0_1_2 : S64x16x64.ReducesTo [0, 1, 2] S_
  bcast_S_S64x64x64 : S_.BroadcastsInDim S64x64x64 (![] : Fin 0 → Fin S64x64x64.rank)
  reducesTo_S64x64x64_S_d0_1_2 : S64x64x64.ReducesTo [0, 1, 2] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S64 .f32) (main_arg8 : FVec F S64 .f32) (main_arg9 : FVec F S64 .f32) (main_arg10 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S64x64x64 .f32) (main_arg5 : FVec F S64x64x64 .f32) (main_arg6 : FVec F S64x16x64 .f32) (main_arg7 : FVec F S64 .f32) (main_arg8 : FVec F S64 .f32) (main_arg9 : FVec F S64 .f32) (main_arg10 : FVec F S64 .f32) (main_v13 : IVec S_ 1) (main_v16 : IVec S64x16x64 1) : IVec S_ 1 :=
  let main_c_5 : IVec S_ 1 := constantI S_ 1 1#1
  let main_v17 : IVec S_ 1 := (fun x v => Host.reduce IntOp.andi x v reducesTo_S64x16x64_S_d0_1_2 h_S_) main_v16 main_c_5
  let main_v18 : IVec S_ 1 := andi main_v13 main_v17
  let main_v19 : FVec F S64x64x64 .f32 := Host.absf main_arg4
  let main_cst_6 : FVec F S_ .f32 := constant S_ .f32 0x7F800000#32
  let main_v20 : FVec F S64x64x64 .f32 := broadcastInDim S64x64x64 ![] bcast_S_S64x64x64 main_cst_6
  let main_v21 : IVec S64x64x64 1 := cmpf .olt main_v19 main_v20
  let main_c_7 : IVec S_ 1 := constantI S_ 1 1#1
  let main_v22 : IVec S_ 1 := (fun x v => Host.reduce IntOp.andi x v reducesTo_S64x64x64_S_d0_1_2 h_S_) main_v21 main_c_7
  let main_v23 : IVec S_ 1 := andi main_v18 main_v22
  let main_v24 : FVec F S64x64x64 .f32 := Host.absf main_arg5
  let main_cst_8 : FVec F S_ .f32 := constant S_ .f32 0x7F800000#32
  let main_v25 : FVec F S64x64x64 .f32 := broadcastInDim S64x64x64 ![] bcast_S_S64x64x64 main_cst_8
  let main_v26 : IVec S64x64x64 1 := cmpf .olt main_v24 main_v25
  let main_c_9 : IVec S_ 1 := constantI S_ 1 1#1
  let main_v27 : IVec S_ 1 := (fun x v => Host.reduce IntOp.andi x v reducesTo_S64x64x64_S_d0_1_2 h_S_) main_v26 main_c_9
  let main_v28 : IVec S_ 1 := andi main_v23 main_v27
  let main_v29 : FVec F S64x16x64 .f32 := Host.absf main_arg6
  let main_cst_10 : FVec F S_ .f32 := constant S_ .f32 0x7F800000#32
  let main_v30 : FVec F S64x16x64 .f32 := broadcastInDim S64x16x64 ![] bcast_S_S64x16x64 main_cst_10
  let main_v31 : IVec S64x16x64 1 := cmpf .olt main_v29 main_v30
  let main_c_11 : IVec S_ 1 := constantI S_ 1 1#1
  let main_v32 : IVec S_ 1 := (fun x v => Host.reduce IntOp.andi x v reducesTo_S64x16x64_S_d0_1_2 h_S_) main_v31 main_c_11
  let main_v33 : IVec S_ 1 := andi main_v28 main_v32
  fn_part2 (F := F) main_arg7 main_arg8 main_arg9 main_arg10 main_v33

def fn {F : FTy → Type} [FloatOps F] (main_arg0 : FVec F S512x16x64 .f32) (main_arg1 : FVec F S64x16x64 .f32) (main_arg2 : FVec F S64x64x64 .f32) (main_arg3 : FVec F S64x16x64 .f32) (main_arg4 : FVec F S64x64x64 .f32) (main_arg5 : FVec F S64x64x64 .f32) (main_arg6 : FVec F S64x16x64 .f32) (main_arg7 : FVec F S64 .f32) (main_arg8 : FVec F S64 .f32) (main_arg9 : FVec F S64 .f32) (main_arg10 : FVec F S64 .f32) (main_arg11 : IVec S64x64 32) (main_arg12 : IVec S64x64 32) (main_arg13 : IVec S64x64 32) (main_arg14 : IVec S64x64 32) (main_arg15 : IVec S64x64 32) (main_arg16 : IVec S64x64 32) : IVec S_ 1 :=
  let main_v0 : FVec F S512x16x64 .f32 := Host.absf main_arg0
  let main_cst : FVec F S_ .f32 := constant S_ .f32 0x7F800000#32
  let main_v1 : FVec F S512x16x64 .f32 := broadcastInDim S512x16x64 ![] bcast_S_S512x16x64 main_cst
  let main_v2 : IVec S512x16x64 1 := cmpf .olt main_v0 main_v1
  let main_c : IVec S_ 1 := constantI S_ 1 1#1
  let main_v3 : IVec S_ 1 := (fun x v => Host.reduce IntOp.andi x v reducesTo_S512x16x64_S_d0_1_2 h_S_) main_v2 main_c
  let main_v4 : FVec F S64x16x64 .f32 := Host.absf main_arg1
  let main_cst_0 : FVec F S_ .f32 := constant S_ .f32 0x7F800000#32
  let main_v5 : FVec F S64x16x64 .f32 := broadcastInDim S64x16x64 ![] bcast_S_S64x16x64 main_cst_0
  let main_v6 : IVec S64x16x64 1 := cmpf .olt main_v4 main_v5
  let main_c_1 : IVec S_ 1 := constantI S_ 1 1#1
  let main_v7 : IVec S_ 1 := (fun x v => Host.reduce IntOp.andi x v reducesTo_S64x16x64_S_d0_1_2 h_S_) main_v6 main_c_1
  let main_v8 : IVec S_ 1 := andi main_v3 main_v7
  let main_v9 : FVec F S64x64x64 .f32 := Host.absf main_arg2
  let main_cst_2 : FVec F S_ .f32 := constant S_ .f32 0x7F800000#32
  let main_v10 : FVec F S64x64x64 .f32 := broadcastInDim S64x64x64 ![] bcast_S_S64x64x64 main_cst_2
  let main_v11 : IVec S64x64x64 1 := cmpf .olt main_v9 main_v10
  let main_c_3 : IVec S_ 1 := constantI S_ 1 1#1
  let main_v12 : IVec S_ 1 := (fun x v => Host.reduce IntOp.andi x v reducesTo_S64x64x64_S_d0_1_2 h_S_) main_v11 main_c_3
  let main_v13 : IVec S_ 1 := andi main_v8 main_v12
  let main_v14 : FVec F S64x16x64 .f32 := Host.absf main_arg3
  let main_cst_4 : FVec F S_ .f32 := constant S_ .f32 0x7F800000#32
  let main_v15 : FVec F S64x16x64 .f32 := broadcastInDim S64x16x64 ![] bcast_S_S64x16x64 main_cst_4
  let main_v16 : IVec S64x16x64 1 := cmpf .olt main_v14 main_v15
  fn_part1 (F := F) main_arg4 main_arg5 main_arg6 main_arg7 main_arg8 main_arg9 main_arg10 main_v13 main_v16
-- ==== Kernel.lean ====
abbrev S512x16x64 : Shape := ⟨3, ![512, 16, 64]⟩
abbrev S64x16x64 : Shape := ⟨3, ![64, 16, 64]⟩
abbrev S64x64x64 : Shape := ⟨3, ![64, 64, 64]⟩
abbrev S64 : Shape := ⟨1, ![64]⟩
abbrev S64x64 : Shape := ⟨2, ![64, 64]⟩
abbrev S512x64x16 : Shape := ⟨3, ![512, 64, 16]⟩
abbrev S512x1024 : Shape := ⟨2, ![512, 1024]⟩
abbrev S_ : Shape := ⟨0, ![]⟩
abbrev S64x64x1 : Shape := ⟨3, ![64, 64, 1]⟩
abbrev S1 : Shape := ⟨1, ![1]⟩
abbrev S1x1x1 : Shape := ⟨3, ![1, 1, 1]⟩
abbrev S64x16x64x64 : Shape := ⟨4, ![64, 16, 64, 64]⟩
abbrev S1x1x64x64 : Shape := ⟨4, ![1, 1, 64, 64]⟩
abbrev S1024x4096 : Shape := ⟨2, ![1024, 4096]⟩
abbrev S512x4096 : Shape := ⟨2, ![512, 4096]⟩
abbrev S1024x1024 : Shape := ⟨2, ![1024, 1024]⟩
abbrev S512x64x64 : Shape := ⟨3, ![512, 64, 64]⟩
abbrev S1x1x64 : Shape := ⟨3, ![1, 1, 64]⟩
abbrev S512x5120 : Shape := ⟨2, ![512, 5120]⟩
abbrev S64x64x64x64 : Shape := ⟨4, ![64, 64, 64, 64]⟩
abbrev S4096x4096 : Shape := ⟨2, ![4096, 4096]⟩
abbrev S5120x4096 : Shape := ⟨2, ![5120, 4096]⟩
abbrev S512x9216 : Shape := ⟨2, ![512, 9216]⟩
abbrev S9216x4096 : Shape := ⟨2, ![9216, 4096]⟩

abbrev nBuf : Space → Nat
  | .hbm => 328
  | .vmem => 20
  | .smem => 0
  | _ => 0

abbrev hbmTy0_0 (i : Nat) : BufTy := match i % 128 with
  | 0 => ⟨S512x16x64, .f32⟩
  | 1 => ⟨S64x16x64, .f32⟩
  | 2 => ⟨S64x64x64, .f32⟩
  | 3 => ⟨S64x16x64, .f32⟩
  | 4 => ⟨S64x64x64, .f32⟩
  | 5 => ⟨S64x64x64, .f32⟩
  | 6 => ⟨S64x16x64, .f32⟩
  | 7 => ⟨S64, .f32⟩
  | 8 => ⟨S64, .f32⟩
  | 9 => ⟨S64, .f32⟩
  | 10 => ⟨S64, .f32⟩
  | 11 => ⟨S64x64, .i32⟩
  | 12 => ⟨S64x64, .i32⟩
  | 13 => ⟨S64x64, .i32⟩
  | 14 => ⟨S64x64, .i32⟩
  | 15 => ⟨S64x64, .i32⟩
  | 16 => ⟨S64x64, .i32⟩
  | 17 => ⟨S512x64x16, .f32⟩
  | 18 => ⟨S512x1024, .f32⟩
  | 19 => ⟨S64x64, .i32⟩
  | 20 => ⟨S64x64, .f32⟩
  | 21 => ⟨S64x64, .i32⟩
  | 22 => ⟨S_, .i32⟩
  | 23 => ⟨S64x64, .i32⟩
  | 24 => ⟨S64x64, .i32⟩
  | 25 => ⟨S_, .i32⟩
  | 26 => ⟨S64x64, .i32⟩
  | 27 => ⟨S64x64, .i1⟩
  | 28 => ⟨S_, .i32⟩
  | 29 => ⟨S64x64, .i32⟩
  | 30 => ⟨S64x64, .i32⟩
  | 31 => ⟨S64x64, .i32⟩
  | 32 => ⟨S64x64x1, .i32⟩
  | 33 => ⟨S1, .i32⟩
  | 34 => ⟨S_, .i32⟩
  | 35 => ⟨S64x64x1, .i32⟩
  | 36 => ⟨S64x64x1, .i1⟩
  | 37 => ⟨S1x1x1, .i32⟩
  | 38 => ⟨S64x64x1, .i32⟩
  | 39 => ⟨S64x64x1, .i1⟩
  | 40 => ⟨S64x64x1, .i1⟩
  | 41 => ⟨S_, .i1⟩
  | 42 => ⟨S64x64, .i1⟩
  | 43 => ⟨S64x16x64x64, .f32⟩
  | 44 => ⟨S64x16x64x64, .i1⟩
  | 45 => ⟨S_, .f32⟩
  | 46 => ⟨S64x16x64x64, .f32⟩
  | 47 => ⟨S64x16x64x64, .f32⟩
  | 48 => ⟨S1x1x64x64, .f32⟩
  | 49 => ⟨S64x16x64x64, .f32⟩
  | 50 => ⟨S64x16x64x64, .f32⟩
  | 51 => ⟨S64x16x64x64, .f32⟩
  | 52 => ⟨S1024x4096, .f32⟩
  | 53 => ⟨S1024x4096, .bf16⟩
  | 54 => ⟨S512x1024, .bf16⟩
  | 55 => ⟨S512x4096, .f32⟩
  | 56 => ⟨S512x64x64, .f32⟩
  | 57 => ⟨S_, .f32⟩
  | 58 => ⟨S64, .f32⟩
  | 59 => ⟨S_, .f32⟩
  | 60 => ⟨S64, .f32⟩
  | 61 => ⟨S64, .f32⟩
  | 62 => ⟨S_, .i32⟩
  | 63 => ⟨S_, .f32⟩
  | 64 => ⟨S64, .f32⟩
  | 65 => ⟨S1x1x64, .f32⟩
  | 66 => ⟨S_, .f32⟩
  | 67 => ⟨S1x1x64, .f32⟩
  | 68 => ⟨S1x1x64, .f32⟩
  | 69 => ⟨S512x64x64, .f32⟩
  | 70 => ⟨S512x64x64, .f32⟩
  | 71 => ⟨S512x64x64, .f32⟩
  | 72 => ⟨S_, .f32⟩
  | 73 => ⟨S_, .f32⟩
  | 74 => ⟨S_, .f32⟩
  | 75 => ⟨S_, .f32⟩
  | 76 => ⟨S64, .f32⟩
  | 77 => ⟨S64, .f32⟩
  | 78 => ⟨S64, .f32⟩
  | 79 => ⟨S_, .f32⟩
  | 80 => ⟨S_, .i1⟩
  | 81 => ⟨S_, .f32⟩
  | 82 => ⟨S_, .f32⟩
  | 83 => ⟨S64, .f32⟩
  | 84 => ⟨S64, .f32⟩
  | 85 => ⟨S1x1x64, .f32⟩
  | 86 => ⟨S512x64x64, .f32⟩
  | 87 => ⟨S512x64x64, .f32⟩
  | 88 => ⟨S_, .f32⟩
  | 89 => ⟨S64, .f32⟩
  | 90 => ⟨S64, .f32⟩
  | 91 => ⟨S64, .f32⟩
  | 92 => ⟨S1x1x64, .f32⟩
  | 93 => ⟨S512x64x64, .f32⟩
  | 94 => ⟨S512x64x64, .f32⟩
  | 95 => ⟨S1x1x64, .f32⟩
  | 96 => ⟨S512x64x64, .f32⟩
  | 97 => ⟨S512x64x64, .f32⟩
  | 98 => ⟨S1x1x64, .f32⟩
  | 99 => ⟨S512x64x64, .f32⟩
  | 100 => ⟨S512x64x64, .f32⟩
  | 101 => ⟨S512x4096, .f32⟩
  | 102 => ⟨S512x5120, .f32⟩
  | 103 => ⟨S64x64, .i32⟩
  | 104 => ⟨S64x64, .f32⟩
  | 105 => ⟨S64x64, .i32⟩
  | 106 => ⟨S_, .i32⟩
  | 107 => ⟨S64x64, .i32⟩
  | 108 => ⟨S64x64, .i32⟩
  | 109 => ⟨S_, .i32⟩
  | 110 => ⟨S64x64, .i32⟩
  | 111 => ⟨S64x64, .i1⟩
  | 112 => ⟨S_, .i32⟩
  | 113 => ⟨S64x64, .i32⟩
  | 114 => ⟨S64x64, .i32⟩
  | 115 => ⟨S64x64, .i32⟩
  | 116 => ⟨S64x64x1, .i32⟩
  | 117 => ⟨S1, .i32⟩
  | 118 => ⟨S_, .i32⟩
  | 119 => ⟨S64x64x1, .i32⟩
  | 120 => ⟨S64x64x1, .i1⟩
  | 121 => ⟨S1x1x1, .i32⟩
  | 122 => ⟨S64x64x1, .i32⟩
  | 123 => ⟨S64x64x1, .i1⟩
  | 124 => ⟨S64x64x1, .i1⟩
  | 125 => ⟨S_, .i1⟩
  | 126 => ⟨S64x64, .i1⟩
  | 127 => ⟨S64x64x64x64, .f32⟩
  | _ => ⟨S512x16x64, .f32⟩

abbrev hbmTy0_1 (i : Nat) : BufTy := match i % 128 with
  | 0 => ⟨S64x64x64x64, .i1⟩
  | 1 => ⟨S_, .f32⟩
  | 2 => ⟨S64x64x64x64, .f32⟩
  | 3 => ⟨S64x64x64x64, .f32⟩
  | 4 => ⟨S1x1x64x64, .f32⟩
  | 5 => ⟨S64x64x64x64, .f32⟩
  | 6 => ⟨S64x64x64x64, .f32⟩
  | 7 => ⟨S64x64x64x64, .f32⟩
  | 8 => ⟨S4096x4096, .f32⟩
  | 9 => ⟨S64x64, .i32⟩
  | 10 => ⟨S64x64, .f32⟩
  | 11 => ⟨S64x64, .i32⟩
  | 12 => ⟨S_, .i32⟩
  | 13 => ⟨S64x64, .i32⟩
  | 14 => ⟨S64x64, .i32⟩
  | 15 => ⟨S_, .i32⟩
  | 16 => ⟨S64x64, .i32⟩
  | 17 => ⟨S64x64, .i1⟩
  | 18 => ⟨S_, .i32⟩
  | 19 => ⟨S64x64, .i32⟩
  | 20 => ⟨S64x64, .i32⟩
  | 21 => ⟨S64x64, .i32⟩
  | 22 => ⟨S64x64x1, .i32⟩
  | 23 => ⟨S1, .i32⟩
  | 24 => ⟨S_, .i32⟩
  | 25 => ⟨S64x64x1, .i32⟩
  | 26 => ⟨S64x64x1, .i1⟩
  | 27 => ⟨S1x1x1, .i32⟩
  | 28 => ⟨S64x64x1, .i32⟩
  | 29 => ⟨S64x64x1, .i1⟩
  | 30 => ⟨S64x64x1, .i1⟩
  | 31 => ⟨S_, .i1⟩
  | 32 => ⟨S64x64, .i1⟩
  | 33 => ⟨S64x16x64x64, .f32⟩
  | 34 => ⟨S64x16x64x64, .i1⟩
  | 35 => ⟨S_, .f32⟩
  | 36 => ⟨S64x16x64x64, .f32⟩
  | 37 => ⟨S64x16x64x64, .f32⟩
  | 38 => ⟨S1x1x64x64, .f32⟩
  | 39 => ⟨S64x16x64x64, .f32⟩
  | 40 => ⟨S64x16x64x64, .f32⟩
  | 41 => ⟨S64x16x64x64, .f32⟩
  | 42 => ⟨S1024x4096, .f32⟩
  | 43 => ⟨S5120x4096, .f32⟩
  | 44 => ⟨S5120x4096, .bf16⟩
  | 45 => ⟨S512x5120, .bf16⟩
  | 46 => ⟨S512x4096, .f32⟩
  | 47 => ⟨S512x64x64, .f32⟩
  | 48 => ⟨S_, .f32⟩
  | 49 => ⟨S64, .f32⟩
  | 50 => ⟨S_, .f32⟩
  | 51 => ⟨S64, .f32⟩
  | 52 => ⟨S64, .f32⟩
  | 53 => ⟨S_, .i32⟩
  | 54 => ⟨S_, .f32⟩
  | 55 => ⟨S64, .f32⟩
  | 56 => ⟨S1x1x64, .f32⟩
  | 57 => ⟨S_, .f32⟩
  | 58 => ⟨S1x1x64, .f32⟩
  | 59 => ⟨S1x1x64, .f32⟩
  | 60 => ⟨S512x64x64, .f32⟩
  | 61 => ⟨S512x64x64, .f32⟩
  | 62 => ⟨S512x64x64, .f32⟩
  | 63 => ⟨S_, .f32⟩
  | 64 => ⟨S_, .f32⟩
  | 65 => ⟨S_, .f32⟩
  | 66 => ⟨S_, .f32⟩
  | 67 => ⟨S64, .f32⟩
  | 68 => ⟨S64, .f32⟩
  | 69 => ⟨S64, .f32⟩
  | 70 => ⟨S_, .f32⟩
  | 71 => ⟨S_, .i1⟩
  | 72 => ⟨S_, .f32⟩
  | 73 => ⟨S_, .f32⟩
  | 74 => ⟨S64, .f32⟩
  | 75 => ⟨S64, .f32⟩
  | 76 => ⟨S1x1x64, .f32⟩
  | 77 => ⟨S512x64x64, .f32⟩
  | 78 => ⟨S512x64x64, .f32⟩
  | 79 => ⟨S_, .f32⟩
  | 80 => ⟨S64, .f32⟩
  | 81 => ⟨S64, .f32⟩
  | 82 => ⟨S64, .f32⟩
  | 83 => ⟨S1x1x64, .f32⟩
  | 84 => ⟨S512x64x64, .f32⟩
  | 85 => ⟨S512x64x64, .f32⟩
  | 86 => ⟨S1x1x64, .f32⟩
  | 87 => ⟨S512x64x64, .f32⟩
  | 88 => ⟨S512x64x64, .f32⟩
  | 89 => ⟨S1x1x64, .f32⟩
  | 90 => ⟨S512x64x64, .f32⟩
  | 91 => ⟨S512x64x64, .f32⟩
  | 92 => ⟨S512x4096, .f32⟩
  | 93 => ⟨S512x9216, .f32⟩
  | 94 => ⟨S64x64, .i32⟩
  | 95 => ⟨S64x64, .f32⟩
  | 96 => ⟨S64x64, .i32⟩
  | 97 => ⟨S_, .i32⟩
  | 98 => ⟨S64x64, .i32⟩
  | 99 => ⟨S64x64, .i32⟩
  | 100 => ⟨S_, .i32⟩
  | 101 => ⟨S64x64, .i32⟩
  | 102 => ⟨S64x64, .i1⟩
  | 103 => ⟨S_, .i32⟩
  | 104 => ⟨S64x64, .i32⟩
  | 105 => ⟨S64x64, .i32⟩
  | 106 => ⟨S64x64, .i32⟩
  | 107 => ⟨S64x64x1, .i32⟩
  | 108 => ⟨S1, .i32⟩
  | 109 => ⟨S_, .i32⟩
  | 110 => ⟨S64x64x1, .i32⟩
  | 111 => ⟨S64x64x1, .i1⟩
  | 112 => ⟨S1x1x1, .i32⟩
  | 113 => ⟨S64x64x1, .i32⟩
  | 114 => ⟨S64x64x1, .i1⟩
  | 115 => ⟨S64x64x1, .i1⟩
  | 116 => ⟨S_, .i1⟩
  | 117 => ⟨S64x64, .i1⟩
  | 118 => ⟨S64x64x64x64, .f32⟩
  | 119 => ⟨S64x64x64x64, .i1⟩
  | 120 => ⟨S_, .f32⟩
  | 121 => ⟨S64x64x64x64, .f32⟩
  | 122 => ⟨S64x64x64x64, .f32⟩
  | 123 => ⟨S1x1x64x64, .f32⟩
  | 124 => ⟨S64x64x64x64, .f32⟩
  | 125 => ⟨S64x64x64x64, .f32⟩
  | 126 => ⟨S64x64x64x64, .f32⟩
  | 127 => ⟨S4096x4096, .f32⟩
  | _ => ⟨S512x16x64, .f32⟩

abbrev hbmTy0_2 (i : Nat) : BufTy := match i % 128 with
  | 0 => ⟨S64x64, .i32⟩
  | 1 => ⟨S64x64, .f32⟩
  | 2 => ⟨S64x64, .i32⟩
  | 3 => ⟨S_, .i32⟩
  | 4 => ⟨S64x64, .i32⟩
  | 5 => ⟨S64x64, .i32⟩
  | 6 => ⟨S_, .i32⟩
  | 7 => ⟨S64x64, .i32⟩
  | 8 => ⟨S64x64, .i1⟩
  | 9 => ⟨S_, .i32⟩
  | 10 => ⟨S64x64, .i32⟩
  | 11 => ⟨S64x64, .i32⟩
  | 12 => ⟨S64x64, .i32⟩
  | 13 => ⟨S64x64x1, .i32⟩
  | 14 => ⟨S1, .i32⟩
  | 15 => ⟨S_, .i32⟩
  | 16 => ⟨S64x64x1, .i32⟩
  | 17 => ⟨S64x64x1, .i1⟩
  | 18 => ⟨S1x1x1, .i32⟩
  | 19 => ⟨S64x64x1, .i32⟩
  | 20 => ⟨S64x64x1, .i1⟩
  | 21 => ⟨S64x64x1, .i1⟩
  | 22 => ⟨S_, .i1⟩
  | 23 => ⟨S64x64, .i1⟩
  | 24 => ⟨S64x64x64x64, .f32⟩
  | 25 => ⟨S64x64x64x64, .i1⟩
  | 26 => ⟨S_, .f32⟩
  | 27 => ⟨S64x64x64x64, .f32⟩
  | 28 => ⟨S64x64x64x64, .f32⟩
  | 29 => ⟨S1x1x64x64, .f32⟩
  | 30 => ⟨S64x64x64x64, .f32⟩
  | 31 => ⟨S64x64x64x64, .f32⟩
  | 32 => ⟨S64x64x64x64, .f32⟩
  | 33 => ⟨S4096x4096, .f32⟩
  | 34 => ⟨S64x64, .i32⟩
  | 35 => ⟨S64x64, .f32⟩
  | 36 => ⟨S64x64, .i32⟩
  | 37 => ⟨S_, .i32⟩
  | 38 => ⟨S64x64, .i32⟩
  | 39 => ⟨S64x64, .i32⟩
  | 40 => ⟨S_, .i32⟩
  | 41 => ⟨S64x64, .i32⟩
  | 42 => ⟨S64x64, .i1⟩
  | 43 => ⟨S_, .i32⟩
  | 44 => ⟨S64x64, .i32⟩
  | 45 => ⟨S64x64, .i32⟩
  | 46 => ⟨S64x64, .i32⟩
  | 47 => ⟨S64x64x1, .i32⟩
  | 48 => ⟨S1, .i32⟩
  | 49 => ⟨S_, .i32⟩
  | 50 => ⟨S64x64x1, .i32⟩
  | 51 => ⟨S64x64x1, .i1⟩
  | 52 => ⟨S1x1x1, .i32⟩
  | 53 => ⟨S64x64x1, .i32⟩
  | 54 => ⟨S64x64x1, .i1⟩
  | 55 => ⟨S64x64x1, .i1⟩
  | 56 => ⟨S_, .i1⟩
  | 57 => ⟨S64x64, .i1⟩
  | 58 => ⟨S64x16x64x64, .f32⟩
  | 59 => ⟨S64x16x64x64, .i1⟩
  | 60 => ⟨S_, .f32⟩
  | 61 => ⟨S64x16x64x64, .f32⟩
  | 62 => ⟨S64x16x64x64, .f32⟩
  | 63 => ⟨S1x1x64x64, .f32⟩
  | 64 => ⟨S64x16x64x64, .f32⟩
  | 65 => ⟨S64x16x64x64, .f32⟩
  | 66 => ⟨S64x16x64x64, .f32⟩
  | 67 => ⟨S1024x4096, .f32⟩
  | 68 => ⟨S9216x4096, .f32⟩
  | 69 => ⟨S9216x4096, .bf16⟩
  | 70 => ⟨S512x9216, .bf16⟩
  | 71 => ⟨S512x4096, .f32⟩
  | _ => ⟨S512x16x64, .f32⟩

abbrev hbmTy (i : Nat) : BufTy := match i / 128 with
  | 0 => hbmTy0_0 i
  | 1 => hbmTy0_1 i
  | 2 => hbmTy0_2 i
  | _ => ⟨S512x16x64, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S1024x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | _, _ => ⟨S512x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst : Ref sig .tc := ⟨.hbm, 57, rfl⟩
abbrev main_v17 : Ref sig .tc := ⟨.hbm, 58, rfl⟩
abbrev main_cst_0 : Ref sig .tc := ⟨.hbm, 59, rfl⟩
abbrev main_v18 : Ref sig .tc := ⟨.hbm, 60, rfl⟩
abbrev main_v19 : Ref sig .tc := ⟨.hbm, 61, rfl⟩
abbrev main_c_1 : Ref sig .tc := ⟨.hbm, 62, rfl⟩
abbrev main_call1_cst : Ref sig .tc := ⟨.hbm, 63, rfl⟩
abbrev main_call1_v0 : Ref sig .tc := ⟨.hbm, 64, rfl⟩
abbrev main_call1_v1 : Ref sig .tc := ⟨.hbm, 65, rfl⟩
abbrev main_call1_cst_0 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_cst_1 : Ref sig .tc := ⟨.hbm, 73, rfl⟩
abbrev main_call1_v8 : Ref sig .tc := ⟨.hbm, 74, rfl⟩
abbrev main_call1_cst_2 : Ref sig .tc := ⟨.hbm, 75, rfl⟩
abbrev main_call1_v9 : Ref sig .tc := ⟨.hbm, 76, rfl⟩
abbrev main_call1_v10 : Ref sig .tc := ⟨.hbm, 77, rfl⟩
abbrev main_call1_v11 : Ref sig .tc := ⟨.hbm, 78, rfl⟩
abbrev main_call1_cst_3 : Ref sig .tc := ⟨.hbm, 79, rfl⟩
abbrev main_call1_v12 : Ref sig .tc := ⟨.hbm, 80, rfl⟩
abbrev main_call1_cst_4 : Ref sig .tc := ⟨.hbm, 81, rfl⟩
abbrev main_call1_call0_v0 : Ref sig .tc := ⟨.hbm, 82, rfl⟩
abbrev main_call1_call0_v1 : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_v23 : Ref sig .tc := ⟨.hbm, 87, rfl⟩
abbrev main_cst_2 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_c_3 : Ref sig .tc := ⟨.hbm, 106, rfl⟩
abbrev main_v41 : Ref sig .tc := ⟨.hbm, 107, rfl⟩
abbrev main_v42 : Ref sig .tc := ⟨.hbm, 108, rfl⟩
abbrev main_call2_c : Ref sig .tc := ⟨.hbm, 109, rfl⟩
abbrev main_call2_v0 : Ref sig .tc := ⟨.hbm, 110, rfl⟩
abbrev main_call2_v1 : Ref sig .tc := ⟨.hbm, 111, rfl⟩
abbrev main_call2_c_0 : Ref sig .tc := ⟨.hbm, 112, rfl⟩
abbrev main_call2_v2 : Ref sig .tc := ⟨.hbm, 113, rfl⟩
abbrev main_call2_v3 : Ref sig .tc := ⟨.hbm, 114, rfl⟩
abbrev main_call2_v4 : Ref sig .tc := ⟨.hbm, 115, rfl⟩
abbrev main_call2_v5 : Ref sig .tc := ⟨.hbm, 116, rfl⟩
abbrev main_call2_c_1 : Ref sig .tc := ⟨.hbm, 117, rfl⟩
abbrev main_call2_c_2 : Ref sig .tc := ⟨.hbm, 118, rfl⟩
abbrev main_call2_v6 : Ref sig .tc := ⟨.hbm, 119, rfl⟩
abbrev main_call2_v7 : Ref sig .tc := ⟨.hbm, 120, rfl⟩
abbrev main_call2_v8 : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_3 : Ref sig .tc := ⟨.hbm, 125, rfl⟩
abbrev main_call2_v12 : Ref sig .tc := ⟨.hbm, 126, rfl⟩
abbrev main_call2_v13 : Ref sig .tc := ⟨.hbm, 127, rfl⟩
abbrev main_call2_v14 : Ref sig .tc := ⟨.hbm, 128, rfl⟩
abbrev main_call2_cst : Ref sig .tc := ⟨.hbm, 129, rfl⟩
abbrev main_call2_v15 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_c_4 : Ref sig .tc := ⟨.hbm, 140, rfl⟩
abbrev main_v52 : Ref sig .tc := ⟨.hbm, 141, rfl⟩
abbrev main_v53 : Ref sig .tc := ⟨.hbm, 142, rfl⟩
abbrev main_call3_c : Ref sig .tc := ⟨.hbm, 143, rfl⟩
abbrev main_call3_v0 : Ref sig .tc := ⟨.hbm, 144, rfl⟩
abbrev main_call3_v1 : Ref sig .tc := ⟨.hbm, 145, rfl⟩
abbrev main_call3_c_0 : Ref sig .tc := ⟨.hbm, 146, rfl⟩
abbrev main_call3_v2 : Ref sig .tc := ⟨.hbm, 147, rfl⟩
abbrev main_call3_v3 : Ref sig .tc := ⟨.hbm, 148, rfl⟩
abbrev main_call3_v4 : Ref sig .tc := ⟨.hbm, 149, rfl⟩
abbrev main_call3_v5 : Ref sig .tc := ⟨.hbm, 150, rfl⟩
abbrev main_call3_c_1 : Ref sig .tc := ⟨.hbm, 151, rfl⟩
abbrev main_call3_c_2 : Ref sig .tc := ⟨.hbm, 152, rfl⟩
abbrev main_call3_v6 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_call3_v11 : Ref sig .tc := ⟨.hbm, 158, rfl⟩
abbrev main_call3_c_3 : Ref sig .tc := ⟨.hbm, 159, rfl⟩
abbrev main_call3_v12 : Ref sig .tc := ⟨.hbm, 160, rfl⟩
abbrev main_call3_v13 : Ref sig .tc := ⟨.hbm, 161, rfl⟩
abbrev main_call3_v14 : Ref sig .tc := ⟨.hbm, 162, rfl⟩
abbrev main_call3_cst : Ref sig .tc := ⟨.hbm, 163, rfl⟩
abbrev main_call3_v15 : Ref sig .tc := ⟨.hbm, 164, rfl⟩
abbrev main_v54 : Ref sig .tc := ⟨.hbm, 165, rfl⟩
abbrev main_v55 : Ref sig .tc := ⟨.hbm, 166, rfl⟩
abbrev main_v56 : Ref sig .tc := ⟨.hbm, 167, rfl⟩
abbrev main_v57 : Ref sig .tc := ⟨.hbm, 168, rfl⟩
abbrev main_v58 : Ref sig .tc := ⟨.hbm, 169, rfl⟩
abbrev main_v59 : Ref sig .tc := ⟨.hbm, 170, rfl⟩
abbrev main_v60 : Ref sig .tc := ⟨.hbm, 171, rfl⟩
abbrev main_v61 : Ref sig .tc := ⟨.hbm, 172, rfl⟩
abbrev main_v62 : Ref sig .tc := ⟨.hbm, 173, rfl⟩
abbrev main_v63 : Ref sig .tc := ⟨.hbm, 174, rfl⟩
abbrev main_v64 : Ref sig .tc := ⟨.hbm, 175, rfl⟩
abbrev main_cst_5 : Ref sig .tc := ⟨.hbm, 176, rfl⟩
abbrev main_v65 : Ref sig .tc := ⟨.hbm, 177, rfl⟩
abbrev main_cst_6 : Ref sig .tc := ⟨.hbm, 178, rfl⟩
abbrev main_v66 : Ref sig .tc := ⟨.hbm, 179, rfl⟩
abbrev main_v67 : Ref sig .tc := ⟨.hbm, 180, rfl⟩
abbrev main_c_7 : Ref sig .tc := ⟨.hbm, 181, rfl⟩
abbrev main_call4_cst : Ref sig .tc := ⟨.hbm, 182, rfl⟩
abbrev main_call4_v0 : Ref sig .tc := ⟨.hbm, 183, rfl⟩
abbrev main_call4_v1 : Ref sig .tc := ⟨.hbm, 184, rfl⟩
abbrev main_call4_cst_0 : Ref sig .tc := ⟨.hbm, 185, rfl⟩
abbrev main_call4_v2 : Ref sig .tc := ⟨.hbm, 186, rfl⟩
abbrev main_call4_v3 : Ref sig .tc := ⟨.hbm, 187, rfl⟩
abbrev main_call4_v4 : Ref sig .tc := ⟨.hbm, 188, rfl⟩
abbrev main_call4_v5 : Ref sig .tc := ⟨.hbm, 189, rfl⟩
abbrev main_call4_v6 : Ref sig .tc := ⟨.hbm, 190, rfl⟩
abbrev main_call4_v7 : Ref sig .tc := ⟨.hbm, 191, rfl⟩
abbrev main_call4_cst_1 : Ref sig .tc := ⟨.hbm, 192, rfl⟩
abbrev main_call4_v8 : Ref sig .tc := ⟨.hbm, 193, rfl⟩
abbrev main_call4_cst_2 : Ref sig .tc := ⟨.hbm, 194, rfl⟩
abbrev main_call4_v9 : Ref sig .tc := ⟨.hbm, 195, rfl⟩
abbrev main_call4_v10 : Ref sig .tc := ⟨.hbm, 196, rfl⟩
abbrev main_call4_v11 : Ref sig .tc := ⟨.hbm, 197, rfl⟩
abbrev main_call4_cst_3 : Ref sig .tc := ⟨.hbm, 198, rfl⟩
abbrev main_call4_v12 : Ref sig .tc := ⟨.hbm, 199, rfl⟩
abbrev main_call4_cst_4 : Ref sig .tc := ⟨.hbm, 200, rfl⟩
abbrev main_call4_call0_v0 : Ref sig .tc := ⟨.hbm, 201, rfl⟩
abbrev main_call4_call0_v1 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_cst_8 : Ref sig .tc := ⟨.hbm, 207, rfl⟩
abbrev main_v72 : Ref sig .tc := ⟨.hbm, 208, rfl⟩
abbrev main_v73 : Ref sig .tc := ⟨.hbm, 209, rfl⟩
abbrev main_v74 : Ref sig .tc := ⟨.hbm, 210, rfl⟩
abbrev main_v75 : Ref sig .tc := ⟨.hbm, 211, rfl⟩
abbrev main_v76 : Ref sig .tc := ⟨.hbm, 212, rfl⟩
abbrev main_v77 : Ref sig .tc := ⟨.hbm, 213, rfl⟩
abbrev main_v78 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_v82 : Ref sig .tc := ⟨.hbm, 218, rfl⟩
abbrev main_v83 : Ref sig .tc := ⟨.hbm, 219, rfl⟩
abbrev main_v84 : Ref sig .tc := ⟨.hbm, 220, rfl⟩
abbrev main_v85 : Ref sig .tc := ⟨.hbm, 221, rfl⟩
abbrev main_v86 : Ref sig .tc := ⟨.hbm, 222, rfl⟩
abbrev main_v87 : Ref sig .tc := ⟨.hbm, 223, rfl⟩
abbrev main_v88 : Ref sig .tc := ⟨.hbm, 224, rfl⟩
abbrev main_c_9 : Ref sig .tc := ⟨.hbm, 225, rfl⟩
abbrev main_v89 : Ref sig .tc := ⟨.hbm, 226, rfl⟩
abbrev main_v90 : Ref sig .tc := ⟨.hbm, 227, rfl⟩
abbrev main_call5_c : Ref sig .tc := ⟨.hbm, 228, rfl⟩
abbrev main_call5_v0 : Ref sig .tc := ⟨.hbm, 229, rfl⟩
abbrev main_call5_v1 : Ref sig .tc := ⟨.hbm, 230, rfl⟩
abbrev main_call5_c_0 : Ref sig .tc := ⟨.hbm, 231, rfl⟩
abbrev main_call5_v2 : Ref sig .tc := ⟨.hbm, 232, rfl⟩
abbrev main_call5_v3 : Ref sig .tc := ⟨.hbm, 233, rfl⟩
abbrev main_call5_v4 : Ref sig .tc := ⟨.hbm, 234, rfl⟩
abbrev main_call5_v5 : Ref sig .tc := ⟨.hbm, 235, rfl⟩
abbrev main_call5_c_1 : Ref sig .tc := ⟨.hbm, 236, rfl⟩
abbrev main_call5_c_2 : Ref sig .tc := ⟨.hbm, 237, rfl⟩
abbrev main_call5_v6 : Ref sig .tc := ⟨.hbm, 238, rfl⟩
abbrev main_call5_v7 : Ref sig .tc := ⟨.hbm, 239, rfl⟩
abbrev main_call5_v8 : Ref sig .tc := ⟨.hbm, 240, rfl⟩
abbrev main_call5_v9 : Ref sig .tc := ⟨.hbm, 241, rfl⟩
abbrev main_call5_v10 : Ref sig .tc := ⟨.hbm, 242, rfl⟩
abbrev main_call5_v11 : Ref sig .tc := ⟨.hbm, 243, rfl⟩
abbrev main_call5_c_3 : Ref sig .tc := ⟨.hbm, 244, rfl⟩
abbrev main_call5_v12 : Ref sig .tc := ⟨.hbm, 245, rfl⟩
abbrev main_call5_v13 : Ref sig .tc := ⟨.hbm, 246, rfl⟩
abbrev main_call5_v14 : Ref sig .tc := ⟨.hbm, 247, rfl⟩
abbrev main_call5_cst : Ref sig .tc := ⟨.hbm, 248, rfl⟩
abbrev main_call5_v15 : Ref sig .tc := ⟨.hbm, 249, rfl⟩
abbrev main_v91 : Ref sig .tc := ⟨.hbm, 250, rfl⟩
abbrev main_v92 : Ref sig .tc := ⟨.hbm, 251, rfl⟩
abbrev main_v93 : Ref sig .tc := ⟨.hbm, 252, rfl⟩
abbrev main_v94 : Ref sig .tc := ⟨.hbm, 253, rfl⟩
abbrev main_v95 : Ref sig .tc := ⟨.hbm, 254, rfl⟩
abbrev main_v96 : Ref sig .tc := ⟨.hbm, 255, rfl⟩
abbrev main_v97 : Ref sig .tc := ⟨.hbm, 256, rfl⟩
abbrev main_v98 : Ref sig .tc := ⟨.hbm, 257, rfl⟩
abbrev main_v99 : Ref sig .tc := ⟨.hbm, 258, rfl⟩
abbrev main_c_10 : Ref sig .tc := ⟨.hbm, 259, rfl⟩
abbrev main_v100 : Ref sig .tc := ⟨.hbm, 260, rfl⟩
abbrev main_v101 : Ref sig .tc := ⟨.hbm, 261, rfl⟩
abbrev main_call6_c : Ref sig .tc := ⟨.hbm, 262, rfl⟩
abbrev main_call6_v0 : Ref sig .tc := ⟨.hbm, 263, rfl⟩
abbrev main_call6_v1 : Ref sig .tc := ⟨.hbm, 264, rfl⟩
abbrev main_call6_c_0 : Ref sig .tc := ⟨.hbm, 265, rfl⟩
abbrev main_call6_v2 : Ref sig .tc := ⟨.hbm, 266, rfl⟩
abbrev main_call6_v3 : Ref sig .tc := ⟨.hbm, 267, rfl⟩
abbrev main_call6_v4 : Ref sig .tc := ⟨.hbm, 268, rfl⟩
abbrev main_call6_v5 : Ref sig .tc := ⟨.hbm, 269, rfl⟩
abbrev main_call6_c_1 : Ref sig .tc := ⟨.hbm, 270, rfl⟩
abbrev main_call6_c_2 : Ref sig .tc := ⟨.hbm, 271, rfl⟩
abbrev main_call6_v6 : Ref sig .tc := ⟨.hbm, 272, rfl⟩
abbrev main_call6_v7 : Ref sig .tc := ⟨.hbm, 273, rfl⟩
abbrev main_call6_v8 : Ref sig .tc := ⟨.hbm, 274, rfl⟩
abbrev main_call6_v9 : Ref sig .tc := ⟨.hbm, 275, rfl⟩
abbrev main_call6_v10 : Ref sig .tc := ⟨.hbm, 276, rfl⟩
abbrev main_call6_v11 : Ref sig .tc := ⟨.hbm, 277, rfl⟩
abbrev main_call6_c_3 : Ref sig .tc := ⟨.hbm, 278, rfl⟩
abbrev main_call6_v12 : Ref sig .tc := ⟨.hbm, 279, rfl⟩
abbrev main_call6_v13 : Ref sig .tc := ⟨.hbm, 280, rfl⟩
abbrev main_call6_v14 : Ref sig .tc := ⟨.hbm, 281, rfl⟩
abbrev main_call6_cst : Ref sig .tc := ⟨.hbm, 282, rfl⟩
abbrev main_call6_v15 : Ref sig .tc := ⟨.hbm, 283, rfl⟩
abbrev main_v102 : Ref sig .tc := ⟨.hbm, 284, rfl⟩
abbrev main_v103 : Ref sig .tc := ⟨.hbm, 285, rfl⟩
abbrev main_v104 : Ref sig .tc := ⟨.hbm, 286, rfl⟩
abbrev main_v105 : Ref sig .tc := ⟨.hbm, 287, rfl⟩
abbrev main_v106 : Ref sig .tc := ⟨.hbm, 288, rfl⟩
abbrev main_v107 : Ref sig .tc := ⟨.hbm, 289, rfl⟩
abbrev main_v108 : Ref sig .tc := ⟨.hbm, 290, rfl⟩
abbrev main_v109 : Ref sig .tc := ⟨.hbm, 291, rfl⟩
abbrev main_v110 : Ref sig .tc := ⟨.hbm, 292, rfl⟩
abbrev main_c_11 : Ref sig .tc := ⟨.hbm, 293, rfl⟩
abbrev main_v111 : Ref sig .tc := ⟨.hbm, 294, rfl⟩
abbrev main_v112 : Ref sig .tc := ⟨.hbm, 295, rfl⟩
abbrev main_call7_c : Ref sig .tc := ⟨.hbm, 296, rfl⟩
abbrev main_call7_v0 : Ref sig .tc := ⟨.hbm, 297, rfl⟩
abbrev main_call7_v1 : Ref sig .tc := ⟨.hbm, 298, rfl⟩
abbrev main_call7_c_0 : Ref sig .tc := ⟨.hbm, 299, rfl⟩
abbrev main_call7_v2 : Ref sig .tc := ⟨.hbm, 300, rfl⟩
abbrev main_call7_v3 : Ref sig .tc := ⟨.hbm, 301, rfl⟩
abbrev main_call7_v4 : Ref sig .tc := ⟨.hbm, 302, rfl⟩
abbrev main_call7_v5 : Ref sig .tc := ⟨.hbm, 303, rfl⟩
abbrev main_call7_c_1 : Ref sig .tc := ⟨.hbm, 304, rfl⟩
abbrev main_call7_c_2 : Ref sig .tc := ⟨.hbm, 305, rfl⟩
abbrev main_call7_v6 : Ref sig .tc := ⟨.hbm, 306, rfl⟩
abbrev main_call7_v7 : Ref sig .tc := ⟨.hbm, 307, rfl⟩
abbrev main_call7_v8 : Ref sig .tc := ⟨.hbm, 308, rfl⟩
abbrev main_call7_v9 : Ref sig .tc := ⟨.hbm, 309, rfl⟩
abbrev main_call7_v10 : Ref sig .tc := ⟨.hbm, 310, rfl⟩
abbrev main_call7_v11 : Ref sig .tc := ⟨.hbm, 311, rfl⟩
abbrev main_call7_c_3 : Ref sig .tc := ⟨.hbm, 312, rfl⟩
abbrev main_call7_v12 : Ref sig .tc := ⟨.hbm, 313, rfl⟩
abbrev main_call7_v13 : Ref sig .tc := ⟨.hbm, 314, rfl⟩
abbrev main_call7_v14 : Ref sig .tc := ⟨.hbm, 315, rfl⟩
abbrev main_call7_cst : Ref sig .tc := ⟨.hbm, 316, rfl⟩
abbrev main_call7_v15 : Ref sig .tc := ⟨.hbm, 317, rfl⟩
abbrev main_v113 : Ref sig .tc := ⟨.hbm, 318, rfl⟩
abbrev main_v114 : Ref sig .tc := ⟨.hbm, 319, rfl⟩
abbrev main_v115 : Ref sig .tc := ⟨.hbm, 320, rfl⟩
abbrev main_v116 : Ref sig .tc := ⟨.hbm, 321, rfl⟩
abbrev main_v117 : Ref sig .tc := ⟨.hbm, 322, rfl⟩
abbrev main_v118 : Ref sig .tc := ⟨.hbm, 323, rfl⟩
abbrev main_v119 : Ref sig .tc := ⟨.hbm, 324, rfl⟩
abbrev main_v120 : Ref sig .tc := ⟨.hbm, 325, rfl⟩
abbrev main_v121 : Ref sig .tc := ⟨.hbm, 326, rfl⟩
abbrev main_v122 : Ref sig .tc := ⟨.hbm, 327, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 5], ![false, false]⟩

def k1_cond2 (i : grid1.Coords) : BitVec 1 :=
  let arg1 : BitVec 32 := BitVec.ofNat 32 (i 1).val
  let c4_i32 : BitVec 32 := 4#32
  let v13 : BitVec 1 := Scalar.cmpi .eq arg1 c4_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![4, 9], ![false, false]⟩

def k2_cond2 (i : grid2.Coords) : BitVec 1 :=
  let arg1 : BitVec 32 := BitVec.ofNat 32 (i 1).val
  let c8_i32 : BitVec 32 := 8#32
  let v13 : BitVec 1 := Scalar.cmpi .eq arg1 c8_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  transposes_S512x16x64_S512x64x16_0_2_1 : S512x16x64.Transposes [0, 2, 1] S512x64x16
  shapeCasts_S512x64x16_S512x1024 : S512x64x16.ShapeCasts S512x1024
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S1_S1x1x1_2 : S1.BroadcastsInDim S1x1x1 (![2] : Fin 1 → Fin S1x1x1.rank)
  bcast_S1x1x1_S64x64x1_0_1_2 : S1x1x1.BroadcastsInDim S64x64x1 (![0, 1, 2] : Fin 3 → Fin S64x64x1.rank)
  reducesTo_S64x64x1_S64x64_d2 : S64x64x1.ReducesTo [2] S64x64
  h_S_ : 0 < S_.numel
  bcast_S64x64_S64x16x64x64_2_3 : S64x64.BroadcastsInDim S64x16x64x64 (![2, 3] : Fin 2 → Fin S64x16x64x64.rank)
  bcast_S_S64x16x64x64 : S_.BroadcastsInDim S64x16x64x64 (![] : Fin 0 → Fin S64x16x64x64.rank)
  bcast_S64x64_S1x1x64x64_2_3 : S64x64.BroadcastsInDim S1x1x64x64 (![2, 3] : Fin 2 → Fin S1x1x64x64.rank)
  bcast_S1x1x64x64_S64x16x64x64_0_1_2_3 : S1x1x64x64.BroadcastsInDim S64x16x64x64 (![0, 1, 2, 3] : Fin 4 → Fin S64x16x64x64.rank)
  transposes_S64x16x64x64_S64x16x64x64_3_1_2_0 : S64x16x64x64.Transposes [3, 1, 2, 0] S64x16x64x64
  shapeCasts_S64x16x64x64_S1024x4096 : S64x16x64x64.ShapeCasts S1024x4096
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x4096_S512x64x64 : S512x4096.ShapeCasts S512x64x64
  reducesTo_S512x64x64_S64_d0_1 : S512x64x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S512x64x64_0_1_2 : S1x1x64.BroadcastsInDim S512x64x64 (![0, 1, 2] : Fin 3 → Fin S512x64x64.rank)
  shapeCasts_S512x64x64_S512x4096 : S512x64x64.ShapeCasts S512x4096
  concatenates_S512x4096_S512x1024_S512x5120_d1 : Shape.Concatenates [S512x4096, S512x1024] S512x5120 1
  bcast_S64x64_S64x64x64x64_2_3 : S64x64.BroadcastsInDim S64x64x64x64 (![2, 3] : Fin 2 → Fin S64x64x64x64.rank)
  bcast_S_S64x64x64x64 : S_.BroadcastsInDim S64x64x64x64 (![] : Fin 0 → Fin S64x64x64x64.rank)
  bcast_S1x1x64x64_S64x64x64x64_0_1_2_3 : S1x1x64x64.BroadcastsInDim S64x64x64x64 (![0, 1, 2, 3] : Fin 4 → Fin S64x64x64x64.rank)
  transposes_S64x64x64x64_S64x64x64x64_3_1_2_0 : S64x64x64x64.Transposes [3, 1, 2, 0] S64x64x64x64
  shapeCasts_S64x64x64x64_S4096x4096 : S64x64x64x64.ShapeCasts S4096x4096
  concatenates_S4096x4096_S1024x4096_S5120x4096_d0 : Shape.Concatenates [S4096x4096, S1024x4096] S5120x4096 0
  concatenates_S512x4096_S512x5120_S512x9216_d1 : Shape.Concatenates [S512x4096, S512x5120] S512x9216 1
  concatenates_S4096x4096_S4096x4096_S1024x4096_S9216x4096_d0 : Shape.Concatenates [S4096x4096, S4096x4096, S1024x4096] S9216x4096 0
  gather_S64x16x64_S64x64x1_S64x16x64x64_01_2_n_n_2_2_64161_wf : GatherDims.WF S64x16x64 S64x64x1 S64x16x64x64 [0, 1] [2] [] [2] [] 2 ![64, 16, 1]
  dot_S512x1024_S1024x1024_S512x1024_1_0_0_1_n_n_wf : DotDims.WF S512x1024 S1024x1024 S512x1024 [1] [0] [0] [1] [] []
  gather_S64x64x64_S64x64x1_S64x64x64x64_01_2_n_n_2_2_64641_wf : GatherDims.WF S64x64x64 S64x64x1 S64x64x64x64 [0, 1] [2] [] [2] [] 2 ![64, 64, 1]
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S512x1024.size a
  hwx0_0 : ∀ i : grid0.Coords, EltTy.bits .bf16 = 32 ∨ (Rect.block (s := S512x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .bf16 = 32 ∨ (Rect.block (s := S1024x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x4096.size a
  hwx0_2 : ∀ i : grid0.Coords, EltTy.bits .f32 = 32 ∨ (Rect.block (s := S512x4096) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S512x5120.size a
  hwx1_0 : ∀ i : grid1.Coords, EltTy.bits .bf16 = 32 ∨ (Rect.block (s := S512x5120) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S5120x4096.size a
  hwx1_1 : ∀ i : grid1.Coords, EltTy.bits .bf16 = 32 ∨ (Rect.block (s := S5120x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S512x4096.size a
  hwx1_2 : ∀ i : grid1.Coords, EltTy.bits .f32 = 32 ∨ (Rect.block (s := S512x4096) S512x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S512x9216.size a
  hwx2_0 : ∀ i : grid2.Coords, EltTy.bits .bf16 = 32 ∨ (Rect.block (s := S512x9216) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S9216x4096.size a
  hwx2_1 : ∀ i : grid2.Coords, EltTy.bits .bf16 = 32 ∨ (Rect.block (s := S9216x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S512x4096.size a
  hwx2_2 : ∀ i : grid2.Coords, EltTy.bits .f32 = 32 ∨ (Rect.block (s := S512x4096) S512x1024.size (cc2_transform_2 i) (hinb2_2 i)).WholeWords (EltTy.packing .f32)

variable [Facts₀]

def gather_S64x16x64_S64x64x1_S64x16x64x64_01_2_n_n_2_2_64161 : GatherDims S64x16x64 S64x64x1 S64x16x64x64 where
  offsetDims := [0, 1]
  collapsedSliceDims := [2]
  operandBatchingDims := []
  startIndicesBatchingDims := []
  startIndexMap := [2]
  indexVectorDim := 2
  sliceSizes := ![64, 16, 1]
  wf := gather_S64x16x64_S64x64x1_S64x16x64x64_01_2_n_n_2_2_64161_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def gather_S64x64x64_S64x64x1_S64x64x64x64_01_2_n_n_2_2_64641 : GatherDims S64x64x64 S64x64x1 S64x64x64x64 where
  offsetDims := [0, 1]
  collapsedSliceDims := [2]
  operandBatchingDims := []
  startIndicesBatchingDims := []
  startIndexMap := [2]
  indexVectorDim := 2
  sliceSizes := ![64, 64, 1]
  wf := gather_S64x64x64_S64x64x1_S64x64x64x64_01_2_n_n_2_2_64641_wf

abbrev win0_0 : Pipeline.Window sig grid0 :=
  Pipeline.Window.ofSpec (Memref.whole main_v14) S512x1024.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v62) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v61) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v121) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v120) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v122) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S512x16x64 : Shape := ⟨3, ![512, 16, 64]⟩
abbrev S64x16x64 : Shape := ⟨3, ![64, 16, 64]⟩
abbrev S64x64x64 : Shape := ⟨3, ![64, 64, 64]⟩
abbrev S64 : Shape := ⟨1, ![64]⟩
abbrev S64x64 : Shape := ⟨2, ![64, 64]⟩
abbrev S512x64x16 : Shape := ⟨3, ![512, 64, 16]⟩
abbrev S512x1024 : Shape := ⟨2, ![512, 1024]⟩
abbrev S_ : Shape := ⟨0, ![]⟩
abbrev S64x64x1 : Shape := ⟨3, ![64, 64, 1]⟩
abbrev S1 : Shape := ⟨1, ![1]⟩
abbrev S1x1x1 : Shape := ⟨3, ![1, 1, 1]⟩
abbrev S64x16x64x64 : Shape := ⟨4, ![64, 16, 64, 64]⟩
abbrev S1x1x64x64 : Shape := ⟨4, ![1, 1, 64, 64]⟩
abbrev S64x64x64x16 : Shape := ⟨4, ![64, 64, 64, 16]⟩
abbrev S4096x1024 : Shape := ⟨2, ![4096, 1024]⟩
abbrev S1024x4096 : Shape := ⟨2, ![1024, 4096]⟩
abbrev S512x4096 : Shape := ⟨2, ![512, 4096]⟩
abbrev S512x64x64 : Shape := ⟨3, ![512, 64, 64]⟩
abbrev S1x1x64 : Shape := ⟨3, ![1, 1, 64]⟩
abbrev S512x5120 : Shape := ⟨2, ![512, 5120]⟩
abbrev S64x64x64x64 : Shape := ⟨4, ![64, 64, 64, 64]⟩
abbrev S4096x4096 : Shape := ⟨2, ![4096, 4096]⟩
abbrev S4096x5120 : Shape := ⟨2, ![4096, 5120]⟩
abbrev S5120x4096 : Shape := ⟨2, ![5120, 4096]⟩
abbrev S512x9216 : Shape := ⟨2, ![512, 9216]⟩
abbrev S4096x9216 : Shape := ⟨2, ![4096, 9216]⟩
abbrev S9216x4096 : Shape := ⟨2, ![9216, 4096]⟩

abbrev nBuf : Space → Nat
  | .hbm => 339
  | .vmem => 0
  | .smem => 0
  | _ => 0

abbrev hbmTy0_0 (i : Nat) : BufTy := match i % 128 with
  | 0 => ⟨S512x16x64, .f32⟩
  | 1 => ⟨S64x16x64, .f32⟩
  | 2 => ⟨S64x64x64, .f32⟩
  | 3 => ⟨S64x16x64, .f32⟩
  | 4 => ⟨S64x64x64, .f32⟩
  | 5 => ⟨S64x64x64, .f32⟩
  | 6 => ⟨S64x16x64, .f32⟩
  | 7 => ⟨S64, .f32⟩
  | 8 => ⟨S64, .f32⟩
  | 9 => ⟨S64, .f32⟩
  | 10 => ⟨S64, .f32⟩
  | 11 => ⟨S64x64, .i32⟩
  | 12 => ⟨S64x64, .i32⟩
  | 13 => ⟨S64x64, .i32⟩
  | 14 => ⟨S64x64, .i32⟩
  | 15 => ⟨S64x64, .i32⟩
  | 16 => ⟨S64x64, .i32⟩
  | 17 => ⟨S512x64x16, .f32⟩
  | 18 => ⟨S512x1024, .f32⟩
  | 19 => ⟨S64x64, .i32⟩
  | 20 => ⟨S64x64, .f32⟩
  | 21 => ⟨S64x64, .i32⟩
  | 22 => ⟨S_, .i32⟩
  | 23 => ⟨S64x64, .i32⟩
  | 24 => ⟨S64x64, .i32⟩
  | 25 => ⟨S_, .i32⟩
  | 26 => ⟨S64x64, .i32⟩
  | 27 => ⟨S64x64, .i1⟩
  | 28 => ⟨S_, .i32⟩
  | 29 => ⟨S64x64, .i32⟩
  | 30 => ⟨S64x64, .i32⟩
  | 31 => ⟨S64x64, .i32⟩
  | 32 => ⟨S64x64x1, .i32⟩
  | 33 => ⟨S1, .i32⟩
  | 34 => ⟨S_, .i32⟩
  | 35 => ⟨S64x64x1, .i32⟩
  | 36 => ⟨S64x64x1, .i1⟩
  | 37 => ⟨S1x1x1, .i32⟩
  | 38 => ⟨S64x64x1, .i32⟩
  | 39 => ⟨S64x64x1, .i1⟩
  | 40 => ⟨S64x64x1, .i1⟩
  | 41 => ⟨S_, .i1⟩
  | 42 => ⟨S64x64, .i1⟩
  | 43 => ⟨S64x16x64x64, .f32⟩
  | 44 => ⟨S64x16x64x64, .i1⟩
  | 45 => ⟨S_, .f32⟩
  | 46 => ⟨S64x16x64x64, .f32⟩
  | 47 => ⟨S64x16x64x64, .f32⟩
  | 48 => ⟨S1x1x64x64, .f32⟩
  | 49 => ⟨S64x16x64x64, .f32⟩
  | 50 => ⟨S64x16x64x64, .f32⟩
  | 51 => ⟨S64x64x64x16, .f32⟩
  | 52 => ⟨S4096x1024, .f32⟩
  | 53 => ⟨S1024x4096, .f32⟩
  | 54 => ⟨S512x4096, .f32⟩
  | 55 => ⟨S_, .f32⟩
  | 56 => ⟨S512x4096, .f32⟩
  | 57 => ⟨S512x4096, .f32⟩
  | 58 => ⟨S_, .f32⟩
  | 59 => ⟨S512x4096, .f32⟩
  | 60 => ⟨S512x4096, .f32⟩
  | 61 => ⟨S512x4096, .f32⟩
  | 62 => ⟨S512x64x64, .f32⟩
  | 63 => ⟨S_, .f32⟩
  | 64 => ⟨S64, .f32⟩
  | 65 => ⟨S_, .f32⟩
  | 66 => ⟨S64, .f32⟩
  | 67 => ⟨S64, .f32⟩
  | 68 => ⟨S_, .i32⟩
  | 69 => ⟨S_, .f32⟩
  | 70 => ⟨S64, .f32⟩
  | 71 => ⟨S1x1x64, .f32⟩
  | 72 => ⟨S_, .f32⟩
  | 73 => ⟨S1x1x64, .f32⟩
  | 74 => ⟨S1x1x64, .f32⟩
  | 75 => ⟨S512x64x64, .f32⟩
  | 76 => ⟨S512x64x64, .f32⟩
  | 77 => ⟨S512x64x64, .f32⟩
  | 78 => ⟨S_, .f32⟩
  | 79 => ⟨S_, .f32⟩
  | 80 => ⟨S_, .f32⟩
  | 81 => ⟨S_, .f32⟩
  | 82 => ⟨S64, .f32⟩
  | 83 => ⟨S64, .f32⟩
  | 84 => ⟨S64, .f32⟩
  | 85 => ⟨S_, .f32⟩
  | 86 => ⟨S_, .i1⟩
  | 87 => ⟨S_, .f32⟩
  | 88 => ⟨S_, .f32⟩
  | 89 => ⟨S64, .f32⟩
  | 90 => ⟨S64, .f32⟩
  | 91 => ⟨S1x1x64, .f32⟩
  | 92 => ⟨S512x64x64, .f32⟩
  | 93 => ⟨S512x64x64, .f32⟩
  | 94 => ⟨S_, .f32⟩
  | 95 => ⟨S64, .f32⟩
  | 96 => ⟨S64, .f32⟩
  | 97 => ⟨S64, .f32⟩
  | 98 => ⟨S1x1x64, .f32⟩
  | 99 => ⟨S512x64x64, .f32⟩
  | 100 => ⟨S512x64x64, .f32⟩
  | 101 => ⟨S1x1x64, .f32⟩
  | 102 => ⟨S512x64x64, .f32⟩
  | 103 => ⟨S512x64x64, .f32⟩
  | 104 => ⟨S1x1x64, .f32⟩
  | 105 => ⟨S512x64x64, .f32⟩
  | 106 => ⟨S512x64x64, .f32⟩
  | 107 => ⟨S512x4096, .f32⟩
  | 108 => ⟨S512x5120, .f32⟩
  | 109 => ⟨S64x64, .i32⟩
  | 110 => ⟨S64x64, .f32⟩
  | 111 => ⟨S64x64, .i32⟩
  | 112 => ⟨S_, .i32⟩
  | 113 => ⟨S64x64, .i32⟩
  | 114 => ⟨S64x64, .i32⟩
  | 115 => ⟨S_, .i32⟩
  | 116 => ⟨S64x64, .i32⟩
  | 117 => ⟨S64x64, .i1⟩
  | 118 => ⟨S_, .i32⟩
  | 119 => ⟨S64x64, .i32⟩
  | 120 => ⟨S64x64, .i32⟩
  | 121 => ⟨S64x64, .i32⟩
  | 122 => ⟨S64x64x1, .i32⟩
  | 123 => ⟨S1, .i32⟩
  | 124 => ⟨S_, .i32⟩
  | 125 => ⟨S64x64x1, .i32⟩
  | 126 => ⟨S64x64x1, .i1⟩
  | 127 => ⟨S1x1x1, .i32⟩
  | _ => ⟨S512x16x64, .f32⟩

abbrev hbmTy0_1 (i : Nat) : BufTy := match i % 128 with
  | 0 => ⟨S64x64x1, .i32⟩
  | 1 => ⟨S64x64x1, .i1⟩
  | 2 => ⟨S64x64x1, .i1⟩
  | 3 => ⟨S_, .i1⟩
  | 4 => ⟨S64x64, .i1⟩
  | 5 => ⟨S64x64x64x64, .f32⟩
  | 6 => ⟨S64x64x64x64, .i1⟩
  | 7 => ⟨S_, .f32⟩
  | 8 => ⟨S64x64x64x64, .f32⟩
  | 9 => ⟨S64x64x64x64, .f32⟩
  | 10 => ⟨S1x1x64x64, .f32⟩
  | 11 => ⟨S64x64x64x64, .f32⟩
  | 12 => ⟨S64x64x64x64, .f32⟩
  | 13 => ⟨S64x64x64x64, .f32⟩
  | 14 => ⟨S4096x4096, .f32⟩
  | 15 => ⟨S64x64, .i32⟩
  | 16 => ⟨S64x64, .f32⟩
  | 17 => ⟨S64x64, .i32⟩
  | 18 => ⟨S_, .i32⟩
  | 19 => ⟨S64x64, .i32⟩
  | 20 => ⟨S64x64, .i32⟩
  | 21 => ⟨S_, .i32⟩
  | 22 => ⟨S64x64, .i32⟩
  | 23 => ⟨S64x64, .i1⟩
  | 24 => ⟨S_, .i32⟩
  | 25 => ⟨S64x64, .i32⟩
  | 26 => ⟨S64x64, .i32⟩
  | 27 => ⟨S64x64, .i32⟩
  | 28 => ⟨S64x64x1, .i32⟩
  | 29 => ⟨S1, .i32⟩
  | 30 => ⟨S_, .i32⟩
  | 31 => ⟨S64x64x1, .i32⟩
  | 32 => ⟨S64x64x1, .i1⟩
  | 33 => ⟨S1x1x1, .i32⟩
  | 34 => ⟨S64x64x1, .i32⟩
  | 35 => ⟨S64x64x1, .i1⟩
  | 36 => ⟨S64x64x1, .i1⟩
  | 37 => ⟨S_, .i1⟩
  | 38 => ⟨S64x64, .i1⟩
  | 39 => ⟨S64x16x64x64, .f32⟩
  | 40 => ⟨S64x16x64x64, .i1⟩
  | 41 => ⟨S_, .f32⟩
  | 42 => ⟨S64x16x64x64, .f32⟩
  | 43 => ⟨S64x16x64x64, .f32⟩
  | 44 => ⟨S1x1x64x64, .f32⟩
  | 45 => ⟨S64x16x64x64, .f32⟩
  | 46 => ⟨S64x16x64x64, .f32⟩
  | 47 => ⟨S64x64x64x16, .f32⟩
  | 48 => ⟨S4096x1024, .f32⟩
  | 49 => ⟨S4096x5120, .f32⟩
  | 50 => ⟨S5120x4096, .f32⟩
  | 51 => ⟨S512x4096, .f32⟩
  | 52 => ⟨S_, .f32⟩
  | 53 => ⟨S512x4096, .f32⟩
  | 54 => ⟨S512x4096, .f32⟩
  | 55 => ⟨S_, .f32⟩
  | 56 => ⟨S512x4096, .f32⟩
  | 57 => ⟨S512x4096, .f32⟩
  | 58 => ⟨S512x4096, .f32⟩
  | 59 => ⟨S512x64x64, .f32⟩
  | 60 => ⟨S_, .f32⟩
  | 61 => ⟨S64, .f32⟩
  | 62 => ⟨S_, .f32⟩
  | 63 => ⟨S64, .f32⟩
  | 64 => ⟨S64, .f32⟩
  | 65 => ⟨S_, .i32⟩
  | 66 => ⟨S_, .f32⟩
  | 67 => ⟨S64, .f32⟩
  | 68 => ⟨S1x1x64, .f32⟩
  | 69 => ⟨S_, .f32⟩
  | 70 => ⟨S1x1x64, .f32⟩
  | 71 => ⟨S1x1x64, .f32⟩
  | 72 => ⟨S512x64x64, .f32⟩
  | 73 => ⟨S512x64x64, .f32⟩
  | 74 => ⟨S512x64x64, .f32⟩
  | 75 => ⟨S_, .f32⟩
  | 76 => ⟨S_, .f32⟩
  | 77 => ⟨S_, .f32⟩
  | 78 => ⟨S_, .f32⟩
  | 79 => ⟨S64, .f32⟩
  | 80 => ⟨S64, .f32⟩
  | 81 => ⟨S64, .f32⟩
  | 82 => ⟨S_, .f32⟩
  | 83 => ⟨S_, .i1⟩
  | 84 => ⟨S_, .f32⟩
  | 85 => ⟨S_, .f32⟩
  | 86 => ⟨S64, .f32⟩
  | 87 => ⟨S64, .f32⟩
  | 88 => ⟨S1x1x64, .f32⟩
  | 89 => ⟨S512x64x64, .f32⟩
  | 90 => ⟨S512x64x64, .f32⟩
  | 91 => ⟨S_, .f32⟩
  | 92 => ⟨S64, .f32⟩
  | 93 => ⟨S64, .f32⟩
  | 94 => ⟨S64, .f32⟩
  | 95 => ⟨S1x1x64, .f32⟩
  | 96 => ⟨S512x64x64, .f32⟩
  | 97 => ⟨S512x64x64, .f32⟩
  | 98 => ⟨S1x1x64, .f32⟩
  | 99 => ⟨S512x64x64, .f32⟩
  | 100 => ⟨S512x64x64, .f32⟩
  | 101 => ⟨S1x1x64, .f32⟩
  | 102 => ⟨S512x64x64, .f32⟩
  | 103 => ⟨S512x64x64, .f32⟩
  | 104 => ⟨S512x4096, .f32⟩
  | 105 => ⟨S512x9216, .f32⟩
  | 106 => ⟨S64x64, .i32⟩
  | 107 => ⟨S64x64, .f32⟩
  | 108 => ⟨S64x64, .i32⟩
  | 109 => ⟨S_, .i32⟩
  | 110 => ⟨S64x64, .i32⟩
  | 111 => ⟨S64x64, .i32⟩
  | 112 => ⟨S_, .i32⟩
  | 113 => ⟨S64x64, .i32⟩
  | 114 => ⟨S64x64, .i1⟩
  | 115 => ⟨S_, .i32⟩
  | 116 => ⟨S64x64, .i32⟩
  | 117 => ⟨S64x64, .i32⟩
  | 118 => ⟨S64x64, .i32⟩
  | 119 => ⟨S64x64x1, .i32⟩
  | 120 => ⟨S1, .i32⟩
  | 121 => ⟨S_, .i32⟩
  | 122 => ⟨S64x64x1, .i32⟩
  | 123 => ⟨S64x64x1, .i1⟩
  | 124 => ⟨S1x1x1, .i32⟩
  | 125 => ⟨S64x64x1, .i32⟩
  | 126 => ⟨S64x64x1, .i1⟩
  | 127 => ⟨S64x64x1, .i1⟩
  | _ => ⟨S512x16x64, .f32⟩

abbrev hbmTy0_2 (i : Nat) : BufTy := match i % 128 with
  | 0 => ⟨S_, .i1⟩
  | 1 => ⟨S64x64, .i1⟩
  | 2 => ⟨S64x64x64x64, .f32⟩
  | 3 => ⟨S64x64x64x64, .i1⟩
  | 4 => ⟨S_, .f32⟩
  | 5 => ⟨S64x64x64x64, .f32⟩
  | 6 => ⟨S64x64x64x64, .f32⟩
  | 7 => ⟨S1x1x64x64, .f32⟩
  | 8 => ⟨S64x64x64x64, .f32⟩
  | 9 => ⟨S64x64x64x64, .f32⟩
  | 10 => ⟨S64x64x64x64, .f32⟩
  | 11 => ⟨S4096x4096, .f32⟩
  | 12 => ⟨S64x64, .i32⟩
  | 13 => ⟨S64x64, .f32⟩
  | 14 => ⟨S64x64, .i32⟩
  | 15 => ⟨S_, .i32⟩
  | 16 => ⟨S64x64, .i32⟩
  | 17 => ⟨S64x64, .i32⟩
  | 18 => ⟨S_, .i32⟩
  | 19 => ⟨S64x64, .i32⟩
  | 20 => ⟨S64x64, .i1⟩
  | 21 => ⟨S_, .i32⟩
  | 22 => ⟨S64x64, .i32⟩
  | 23 => ⟨S64x64, .i32⟩
  | 24 => ⟨S64x64, .i32⟩
  | 25 => ⟨S64x64x1, .i32⟩
  | 26 => ⟨S1, .i32⟩
  | 27 => ⟨S_, .i32⟩
  | 28 => ⟨S64x64x1, .i32⟩
  | 29 => ⟨S64x64x1, .i1⟩
  | 30 => ⟨S1x1x1, .i32⟩
  | 31 => ⟨S64x64x1, .i32⟩
  | 32 => ⟨S64x64x1, .i1⟩
  | 33 => ⟨S64x64x1, .i1⟩
  | 34 => ⟨S_, .i1⟩
  | 35 => ⟨S64x64, .i1⟩
  | 36 => ⟨S64x64x64x64, .f32⟩
  | 37 => ⟨S64x64x64x64, .i1⟩
  | 38 => ⟨S_, .f32⟩
  | 39 => ⟨S64x64x64x64, .f32⟩
  | 40 => ⟨S64x64x64x64, .f32⟩
  | 41 => ⟨S1x1x64x64, .f32⟩
  | 42 => ⟨S64x64x64x64, .f32⟩
  | 43 => ⟨S64x64x64x64, .f32⟩
  | 44 => ⟨S64x64x64x64, .f32⟩
  | 45 => ⟨S4096x4096, .f32⟩
  | 46 => ⟨S64x64, .i32⟩
  | 47 => ⟨S64x64, .f32⟩
  | 48 => ⟨S64x64, .i32⟩
  | 49 => ⟨S_, .i32⟩
  | 50 => ⟨S64x64, .i32⟩
  | 51 => ⟨S64x64, .i32⟩
  | 52 => ⟨S_, .i32⟩
  | 53 => ⟨S64x64, .i32⟩
  | 54 => ⟨S64x64, .i1⟩
  | 55 => ⟨S_, .i32⟩
  | 56 => ⟨S64x64, .i32⟩
  | 57 => ⟨S64x64, .i32⟩
  | 58 => ⟨S64x64, .i32⟩
  | 59 => ⟨S64x64x1, .i32⟩
  | 60 => ⟨S1, .i32⟩
  | 61 => ⟨S_, .i32⟩
  | 62 => ⟨S64x64x1, .i32⟩
  | 63 => ⟨S64x64x1, .i1⟩
  | 64 => ⟨S1x1x1, .i32⟩
  | 65 => ⟨S64x64x1, .i32⟩
  | 66 => ⟨S64x64x1, .i1⟩
  | 67 => ⟨S64x64x1, .i1⟩
  | 68 => ⟨S_, .i1⟩
  | 69 => ⟨S64x64, .i1⟩
  | 70 => ⟨S64x16x64x64, .f32⟩
  | 71 => ⟨S64x16x64x64, .i1⟩
  | 72 => ⟨S_, .f32⟩
  | 73 => ⟨S64x16x64x64, .f32⟩
  | 74 => ⟨S64x16x64x64, .f32⟩
  | 75 => ⟨S1x1x64x64, .f32⟩
  | 76 => ⟨S64x16x64x64, .f32⟩
  | 77 => ⟨S64x16x64x64, .f32⟩
  | 78 => ⟨S64x64x64x16, .f32⟩
  | 79 => ⟨S4096x1024, .f32⟩
  | 80 => ⟨S4096x9216, .f32⟩
  | 81 => ⟨S9216x4096, .f32⟩
  | 82 => ⟨S512x4096, .f32⟩
  | _ => ⟨S512x16x64, .f32⟩

abbrev hbmTy (i : Nat) : BufTy := match i / 128 with
  | 0 => hbmTy0_0 i
  | 1 => hbmTy0_1 i
  | 2 => hbmTy0_2 i
  | _ => ⟨S512x16x64, .f32⟩

abbrev bufTy : (tb : Table) → Fin (tcTables nBuf tb) → BufTy
  | .hbm, ⟨i, _⟩ => hbmTy i
  | _, _ => ⟨S512x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_c : Ref sig .tc := ⟨.hbm, 22, rfl⟩
abbrev main_v5 : Ref sig .tc := ⟨.hbm, 23, rfl⟩
abbrev main_v6 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v7 : Ref sig .tc := ⟨.hbm, 47, rfl⟩
abbrev main_v8 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_call1_cst : Ref sig .tc := ⟨.hbm, 55, rfl⟩
abbrev main_call1_v0 : Ref sig .tc := ⟨.hbm, 56, rfl⟩
abbrev main_v15 : Ref sig .tc := ⟨.hbm, 57, rfl⟩
abbrev main_cst : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_cst_0 : Ref sig .tc := ⟨.hbm, 63, rfl⟩
abbrev main_v20 : Ref sig .tc := ⟨.hbm, 64, rfl⟩
abbrev main_cst_1 : Ref sig .tc := ⟨.hbm, 65, rfl⟩
abbrev main_v21 : Ref sig .tc := ⟨.hbm, 66, rfl⟩
abbrev main_v22 : Ref sig .tc := ⟨.hbm, 67, rfl⟩
abbrev main_c_2 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_cst_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_cst_1 : Ref sig .tc := ⟨.hbm, 79, rfl⟩
abbrev main_call2_v8 : Ref sig .tc := ⟨.hbm, 80, rfl⟩
abbrev main_call2_cst_2 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_cst_3 : Ref sig .tc := ⟨.hbm, 85, rfl⟩
abbrev main_call2_v12 : Ref sig .tc := ⟨.hbm, 86, rfl⟩
abbrev main_call2_cst_4 : Ref sig .tc := ⟨.hbm, 87, rfl⟩
abbrev main_call2_call0_v0 : Ref sig .tc := ⟨.hbm, 88, rfl⟩
abbrev main_call2_call0_v1 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_cst_3 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_v43 : Ref sig .tc := ⟨.hbm, 111, rfl⟩
abbrev main_c_4 : Ref sig .tc := ⟨.hbm, 112, rfl⟩
abbrev main_v44 : Ref sig .tc := ⟨.hbm, 113, rfl⟩
abbrev main_v45 : Ref sig .tc := ⟨.hbm, 114, rfl⟩
abbrev main_call3_c : Ref sig .tc := ⟨.hbm, 115, rfl⟩
abbrev main_call3_v0 : Ref sig .tc := ⟨.hbm, 116, rfl⟩
abbrev main_call3_v1 : Ref sig .tc := ⟨.hbm, 117, rfl⟩
abbrev main_call3_c_0 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_c_1 : Ref sig .tc := ⟨.hbm, 123, rfl⟩
abbrev main_call3_c_2 : Ref sig .tc := ⟨.hbm, 124, rfl⟩
abbrev main_call3_v6 : Ref sig .tc := ⟨.hbm, 125, rfl⟩
abbrev main_call3_v7 : Ref sig .tc := ⟨.hbm, 126, rfl⟩
abbrev main_call3_v8 : Ref sig .tc := ⟨.hbm, 127, rfl⟩
abbrev main_call3_v9 : Ref sig .tc := ⟨.hbm, 128, rfl⟩
abbrev main_call3_v10 : Ref sig .tc := ⟨.hbm, 129, rfl⟩
abbrev main_call3_v11 : Ref sig .tc := ⟨.hbm, 130, rfl⟩
abbrev main_call3_c_3 : Ref sig .tc := ⟨.hbm, 131, rfl⟩
abbrev main_call3_v12 : Ref sig .tc := ⟨.hbm, 132, rfl⟩
abbrev main_call3_v13 : Ref sig .tc := ⟨.hbm, 133, rfl⟩
abbrev main_call3_v14 : Ref sig .tc := ⟨.hbm, 134, rfl⟩
abbrev main_call3_cst : Ref sig .tc := ⟨.hbm, 135, rfl⟩
abbrev main_call3_v15 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_v50 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_c_5 : Ref sig .tc := ⟨.hbm, 146, rfl⟩
abbrev main_v55 : Ref sig .tc := ⟨.hbm, 147, rfl⟩
abbrev main_v56 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_c_1 : Ref sig .tc := ⟨.hbm, 157, rfl⟩
abbrev main_call4_c_2 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_c_3 : Ref sig .tc := ⟨.hbm, 165, rfl⟩
abbrev main_call4_v12 : Ref sig .tc := ⟨.hbm, 166, rfl⟩
abbrev main_call4_v13 : Ref sig .tc := ⟨.hbm, 167, rfl⟩
abbrev main_call4_v14 : Ref sig .tc := ⟨.hbm, 168, rfl⟩
abbrev main_call4_cst : Ref sig .tc := ⟨.hbm, 169, rfl⟩
abbrev main_call4_v15 : Ref sig .tc := ⟨.hbm, 170, rfl⟩
abbrev main_v57 : Ref sig .tc := ⟨.hbm, 171, rfl⟩
abbrev main_v58 : Ref sig .tc := ⟨.hbm, 172, rfl⟩
abbrev main_v59 : Ref sig .tc := ⟨.hbm, 173, rfl⟩
abbrev main_v60 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩
abbrev main_call5_cst : Ref sig .tc := ⟨.hbm, 180, rfl⟩
abbrev main_call5_v0 : Ref sig .tc := ⟨.hbm, 181, rfl⟩
abbrev main_v66 : Ref sig .tc := ⟨.hbm, 182, rfl⟩
abbrev main_cst_6 : Ref sig .tc := ⟨.hbm, 183, rfl⟩
abbrev main_v67 : Ref sig .tc := ⟨.hbm, 184, rfl⟩
abbrev main_v68 : Ref sig .tc := ⟨.hbm, 185, rfl⟩
abbrev main_v69 : Ref sig .tc := ⟨.hbm, 186, rfl⟩
abbrev main_v70 : Ref sig .tc := ⟨.hbm, 187, rfl⟩
abbrev main_cst_7 : Ref sig .tc := ⟨.hbm, 188, rfl⟩
abbrev main_v71 : Ref sig .tc := ⟨.hbm, 189, rfl⟩
abbrev main_cst_8 : Ref sig .tc := ⟨.hbm, 190, rfl⟩
abbrev main_v72 : Ref sig .tc := ⟨.hbm, 191, rfl⟩
abbrev main_v73 : Ref sig .tc := ⟨.hbm, 192, rfl⟩
abbrev main_c_9 : Ref sig .tc := ⟨.hbm, 193, rfl⟩
abbrev main_call6_cst : Ref sig .tc := ⟨.hbm, 194, rfl⟩
abbrev main_call6_v0 : Ref sig .tc := ⟨.hbm, 195, rfl⟩
abbrev main_call6_v1 : Ref sig .tc := ⟨.hbm, 196, rfl⟩
abbrev main_call6_cst_0 : Ref sig .tc := ⟨.hbm, 197, rfl⟩
abbrev main_call6_v2 : Ref sig .tc := ⟨.hbm, 198, rfl⟩
abbrev main_call6_v3 : Ref sig .tc := ⟨.hbm, 199, rfl⟩
abbrev main_call6_v4 : Ref sig .tc := ⟨.hbm, 200, rfl⟩
abbrev main_call6_v5 : Ref sig .tc := ⟨.hbm, 201, rfl⟩
abbrev main_call6_v6 : Ref sig .tc := ⟨.hbm, 202, rfl⟩
abbrev main_call6_v7 : Ref sig .tc := ⟨.hbm, 203, rfl⟩
abbrev main_call6_cst_1 : Ref sig .tc := ⟨.hbm, 204, rfl⟩
abbrev main_call6_v8 : Ref sig .tc := ⟨.hbm, 205, rfl⟩
abbrev main_call6_cst_2 : Ref sig .tc := ⟨.hbm, 206, rfl⟩
abbrev main_call6_v9 : Ref sig .tc := ⟨.hbm, 207, rfl⟩
abbrev main_call6_v10 : Ref sig .tc := ⟨.hbm, 208, rfl⟩
abbrev main_call6_v11 : Ref sig .tc := ⟨.hbm, 209, rfl⟩
abbrev main_call6_cst_3 : Ref sig .tc := ⟨.hbm, 210, rfl⟩
abbrev main_call6_v12 : Ref sig .tc := ⟨.hbm, 211, rfl⟩
abbrev main_call6_cst_4 : Ref sig .tc := ⟨.hbm, 212, rfl⟩
abbrev main_call6_call0_v0 : Ref sig .tc := ⟨.hbm, 213, rfl⟩
abbrev main_call6_call0_v1 : Ref sig .tc := ⟨.hbm, 214, rfl⟩
abbrev main_v74 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_cst_10 : Ref sig .tc := ⟨.hbm, 219, rfl⟩
abbrev main_v78 : Ref sig .tc := ⟨.hbm, 220, rfl⟩
abbrev main_v79 : Ref sig .tc := ⟨.hbm, 221, rfl⟩
abbrev main_v80 : Ref sig .tc := ⟨.hbm, 222, rfl⟩
abbrev main_v81 : Ref sig .tc := ⟨.hbm, 223, rfl⟩
abbrev main_v82 : Ref sig .tc := ⟨.hbm, 224, rfl⟩
abbrev main_v83 : Ref sig .tc := ⟨.hbm, 225, rfl⟩
abbrev main_v84 : Ref sig .tc := ⟨.hbm, 226, rfl⟩
abbrev main_v85 : Ref sig .tc := ⟨.hbm, 227, rfl⟩
abbrev main_v86 : Ref sig .tc := ⟨.hbm, 228, rfl⟩
abbrev main_v87 : Ref sig .tc := ⟨.hbm, 229, rfl⟩
abbrev main_v88 : Ref sig .tc := ⟨.hbm, 230, rfl⟩
abbrev main_v89 : Ref sig .tc := ⟨.hbm, 231, rfl⟩
abbrev main_v90 : Ref sig .tc := ⟨.hbm, 232, rfl⟩
abbrev main_v91 : Ref sig .tc := ⟨.hbm, 233, rfl⟩
abbrev main_v92 : Ref sig .tc := ⟨.hbm, 234, rfl⟩
abbrev main_v93 : Ref sig .tc := ⟨.hbm, 235, rfl⟩
abbrev main_v94 : Ref sig .tc := ⟨.hbm, 236, rfl⟩
abbrev main_c_11 : Ref sig .tc := ⟨.hbm, 237, rfl⟩
abbrev main_v95 : Ref sig .tc := ⟨.hbm, 238, rfl⟩
abbrev main_v96 : Ref sig .tc := ⟨.hbm, 239, rfl⟩
abbrev main_call7_c : Ref sig .tc := ⟨.hbm, 240, rfl⟩
abbrev main_call7_v0 : Ref sig .tc := ⟨.hbm, 241, rfl⟩
abbrev main_call7_v1 : Ref sig .tc := ⟨.hbm, 242, rfl⟩
abbrev main_call7_c_0 : Ref sig .tc := ⟨.hbm, 243, rfl⟩
abbrev main_call7_v2 : Ref sig .tc := ⟨.hbm, 244, rfl⟩
abbrev main_call7_v3 : Ref sig .tc := ⟨.hbm, 245, rfl⟩
abbrev main_call7_v4 : Ref sig .tc := ⟨.hbm, 246, rfl⟩
abbrev main_call7_v5 : Ref sig .tc := ⟨.hbm, 247, rfl⟩
abbrev main_call7_c_1 : Ref sig .tc := ⟨.hbm, 248, rfl⟩
abbrev main_call7_c_2 : Ref sig .tc := ⟨.hbm, 249, rfl⟩
abbrev main_call7_v6 : Ref sig .tc := ⟨.hbm, 250, rfl⟩
abbrev main_call7_v7 : Ref sig .tc := ⟨.hbm, 251, rfl⟩
abbrev main_call7_v8 : Ref sig .tc := ⟨.hbm, 252, rfl⟩
abbrev main_call7_v9 : Ref sig .tc := ⟨.hbm, 253, rfl⟩
abbrev main_call7_v10 : Ref sig .tc := ⟨.hbm, 254, rfl⟩
abbrev main_call7_v11 : Ref sig .tc := ⟨.hbm, 255, rfl⟩
abbrev main_call7_c_3 : Ref sig .tc := ⟨.hbm, 256, rfl⟩
abbrev main_call7_v12 : Ref sig .tc := ⟨.hbm, 257, rfl⟩
abbrev main_call7_v13 : Ref sig .tc := ⟨.hbm, 258, rfl⟩
abbrev main_call7_v14 : Ref sig .tc := ⟨.hbm, 259, rfl⟩
abbrev main_call7_cst : Ref sig .tc := ⟨.hbm, 260, rfl⟩
abbrev main_call7_v15 : Ref sig .tc := ⟨.hbm, 261, rfl⟩
abbrev main_v97 : Ref sig .tc := ⟨.hbm, 262, rfl⟩
abbrev main_v98 : Ref sig .tc := ⟨.hbm, 263, rfl⟩
abbrev main_v99 : Ref sig .tc := ⟨.hbm, 264, rfl⟩
abbrev main_v100 : Ref sig .tc := ⟨.hbm, 265, rfl⟩
abbrev main_v101 : Ref sig .tc := ⟨.hbm, 266, rfl⟩
abbrev main_v102 : Ref sig .tc := ⟨.hbm, 267, rfl⟩
abbrev main_v103 : Ref sig .tc := ⟨.hbm, 268, rfl⟩
abbrev main_v104 : Ref sig .tc := ⟨.hbm, 269, rfl⟩
abbrev main_v105 : Ref sig .tc := ⟨.hbm, 270, rfl⟩
abbrev main_c_12 : Ref sig .tc := ⟨.hbm, 271, rfl⟩
abbrev main_v106 : Ref sig .tc := ⟨.hbm, 272, rfl⟩
abbrev main_v107 : Ref sig .tc := ⟨.hbm, 273, rfl⟩
abbrev main_call8_c : Ref sig .tc := ⟨.hbm, 274, rfl⟩
abbrev main_call8_v0 : Ref sig .tc := ⟨.hbm, 275, rfl⟩
abbrev main_call8_v1 : Ref sig .tc := ⟨.hbm, 276, rfl⟩
abbrev main_call8_c_0 : Ref sig .tc := ⟨.hbm, 277, rfl⟩
abbrev main_call8_v2 : Ref sig .tc := ⟨.hbm, 278, rfl⟩
abbrev main_call8_v3 : Ref sig .tc := ⟨.hbm, 279, rfl⟩
abbrev main_call8_v4 : Ref sig .tc := ⟨.hbm, 280, rfl⟩
abbrev main_call8_v5 : Ref sig .tc := ⟨.hbm, 281, rfl⟩
abbrev main_call8_c_1 : Ref sig .tc := ⟨.hbm, 282, rfl⟩
abbrev main_call8_c_2 : Ref sig .tc := ⟨.hbm, 283, rfl⟩
abbrev main_call8_v6 : Ref sig .tc := ⟨.hbm, 284, rfl⟩
abbrev main_call8_v7 : Ref sig .tc := ⟨.hbm, 285, rfl⟩
abbrev main_call8_v8 : Ref sig .tc := ⟨.hbm, 286, rfl⟩
abbrev main_call8_v9 : Ref sig .tc := ⟨.hbm, 287, rfl⟩
abbrev main_call8_v10 : Ref sig .tc := ⟨.hbm, 288, rfl⟩
abbrev main_call8_v11 : Ref sig .tc := ⟨.hbm, 289, rfl⟩
abbrev main_call8_c_3 : Ref sig .tc := ⟨.hbm, 290, rfl⟩
abbrev main_call8_v12 : Ref sig .tc := ⟨.hbm, 291, rfl⟩
abbrev main_call8_v13 : Ref sig .tc := ⟨.hbm, 292, rfl⟩
abbrev main_call8_v14 : Ref sig .tc := ⟨.hbm, 293, rfl⟩
abbrev main_call8_cst : Ref sig .tc := ⟨.hbm, 294, rfl⟩
abbrev main_call8_v15 : Ref sig .tc := ⟨.hbm, 295, rfl⟩
abbrev main_v108 : Ref sig .tc := ⟨.hbm, 296, rfl⟩
abbrev main_v109 : Ref sig .tc := ⟨.hbm, 297, rfl⟩
abbrev main_v110 : Ref sig .tc := ⟨.hbm, 298, rfl⟩
abbrev main_v111 : Ref sig .tc := ⟨.hbm, 299, rfl⟩
abbrev main_v112 : Ref sig .tc := ⟨.hbm, 300, rfl⟩
abbrev main_v113 : Ref sig .tc := ⟨.hbm, 301, rfl⟩
abbrev main_v114 : Ref sig .tc := ⟨.hbm, 302, rfl⟩
abbrev main_v115 : Ref sig .tc := ⟨.hbm, 303, rfl⟩
abbrev main_v116 : Ref sig .tc := ⟨.hbm, 304, rfl⟩
abbrev main_c_13 : Ref sig .tc := ⟨.hbm, 305, rfl⟩
abbrev main_v117 : Ref sig .tc := ⟨.hbm, 306, rfl⟩
abbrev main_v118 : Ref sig .tc := ⟨.hbm, 307, rfl⟩
abbrev main_call9_c : Ref sig .tc := ⟨.hbm, 308, rfl⟩
abbrev main_call9_v0 : Ref sig .tc := ⟨.hbm, 309, rfl⟩
abbrev main_call9_v1 : Ref sig .tc := ⟨.hbm, 310, rfl⟩
abbrev main_call9_c_0 : Ref sig .tc := ⟨.hbm, 311, rfl⟩
abbrev main_call9_v2 : Ref sig .tc := ⟨.hbm, 312, rfl⟩
abbrev main_call9_v3 : Ref sig .tc := ⟨.hbm, 313, rfl⟩
abbrev main_call9_v4 : Ref sig .tc := ⟨.hbm, 314, rfl⟩
abbrev main_call9_v5 : Ref sig .tc := ⟨.hbm, 315, rfl⟩
abbrev main_call9_c_1 : Ref sig .tc := ⟨.hbm, 316, rfl⟩
abbrev main_call9_c_2 : Ref sig .tc := ⟨.hbm, 317, rfl⟩
abbrev main_call9_v6 : Ref sig .tc := ⟨.hbm, 318, rfl⟩
abbrev main_call9_v7 : Ref sig .tc := ⟨.hbm, 319, rfl⟩
abbrev main_call9_v8 : Ref sig .tc := ⟨.hbm, 320, rfl⟩
abbrev main_call9_v9 : Ref sig .tc := ⟨.hbm, 321, rfl⟩
abbrev main_call9_v10 : Ref sig .tc := ⟨.hbm, 322, rfl⟩
abbrev main_call9_v11 : Ref sig .tc := ⟨.hbm, 323, rfl⟩
abbrev main_call9_c_3 : Ref sig .tc := ⟨.hbm, 324, rfl⟩
abbrev main_call9_v12 : Ref sig .tc := ⟨.hbm, 325, rfl⟩
abbrev main_call9_v13 : Ref sig .tc := ⟨.hbm, 326, rfl⟩
abbrev main_call9_v14 : Ref sig .tc := ⟨.hbm, 327, rfl⟩
abbrev main_call9_cst : Ref sig .tc := ⟨.hbm, 328, rfl⟩
abbrev main_call9_v15 : Ref sig .tc := ⟨.hbm, 329, rfl⟩
abbrev main_v119 : Ref sig .tc := ⟨.hbm, 330, rfl⟩
abbrev main_v120 : Ref sig .tc := ⟨.hbm, 331, rfl⟩
abbrev main_v121 : Ref sig .tc := ⟨.hbm, 332, rfl⟩
abbrev main_v122 : Ref sig .tc := ⟨.hbm, 333, rfl⟩
abbrev main_v123 : Ref sig .tc := ⟨.hbm, 334, rfl⟩
abbrev main_v124 : Ref sig .tc := ⟨.hbm, 335, rfl⟩
abbrev main_v125 : Ref sig .tc := ⟨.hbm, 336, rfl⟩
abbrev main_v126 : Ref sig .tc := ⟨.hbm, 337, rfl⟩
abbrev main_v127 : Ref sig .tc := ⟨.hbm, 338, rfl⟩

abbrev nD : Nat := 1
abbrev τ : Topo := Topo.v7x

variable {F : FTy → Type} [FloatOps F]

class Facts₀ : Prop where
  transposes_S512x16x64_S512x64x16_0_2_1 : S512x16x64.Transposes [0, 2, 1] S512x64x16
  shapeCasts_S512x64x16_S512x1024 : S512x64x16.ShapeCasts S512x1024
  bcast_S_S64x64 : S_.BroadcastsInDim S64x64 (![] : Fin 0 → Fin S64x64.rank)
  bcast_S64x64_S64x64x1_0_1 : S64x64.BroadcastsInDim S64x64x1 (![0, 1] : Fin 2 → Fin S64x64x1.rank)
  bcast_S_S64x64x1 : S_.BroadcastsInDim S64x64x1 (![] : Fin 0 → Fin S64x64x1.rank)
  bcast_S1_S1x1x1_2 : S1.BroadcastsInDim S1x1x1 (![2] : Fin 1 → Fin S1x1x1.rank)
  bcast_S1x1x1_S64x64x1_0_1_2 : S1x1x1.BroadcastsInDim S64x64x1 (![0, 1, 2] : Fin 3 → Fin S64x64x1.rank)
  reducesTo_S64x64x1_S64x64_d2 : S64x64x1.ReducesTo [2] S64x64
  h_S_ : 0 < S_.numel
  bcast_S64x64_S64x16x64x64_2_3 : S64x64.BroadcastsInDim S64x16x64x64 (![2, 3] : Fin 2 → Fin S64x16x64x64.rank)
  bcast_S_S64x16x64x64 : S_.BroadcastsInDim S64x16x64x64 (![] : Fin 0 → Fin S64x16x64x64.rank)
  bcast_S64x64_S1x1x64x64_2_3 : S64x64.BroadcastsInDim S1x1x64x64 (![2, 3] : Fin 2 → Fin S1x1x64x64.rank)
  bcast_S1x1x64x64_S64x16x64x64_0_1_2_3 : S1x1x64x64.BroadcastsInDim S64x16x64x64 (![0, 1, 2, 3] : Fin 4 → Fin S64x16x64x64.rank)
  transposes_S64x16x64x64_S64x64x64x16_2_0_3_1 : S64x16x64x64.Transposes [2, 0, 3, 1] S64x64x64x16
  shapeCasts_S64x64x64x16_S4096x1024 : S64x64x64x16.ShapeCasts S4096x1024
  transposes_S4096x1024_S1024x4096_1_0 : S4096x1024.Transposes [1, 0] S1024x4096
  bcast_S_S512x4096 : S_.BroadcastsInDim S512x4096 (![] : Fin 0 → Fin S512x4096.rank)
  shapeCasts_S512x4096_S512x64x64 : S512x4096.ShapeCasts S512x64x64
  reducesTo_S512x64x64_S64_d0_1 : S512x64x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S512x64x64_0_1_2 : S1x1x64.BroadcastsInDim S512x64x64 (![0, 1, 2] : Fin 3 → Fin S512x64x64.rank)
  shapeCasts_S512x64x64_S512x4096 : S512x64x64.ShapeCasts S512x4096
  concatenates_S512x4096_S512x1024_S512x5120_d1 : Shape.Concatenates [S512x4096, S512x1024] S512x5120 1
  bcast_S64x64_S64x64x64x64_2_3 : S64x64.BroadcastsInDim S64x64x64x64 (![2, 3] : Fin 2 → Fin S64x64x64x64.rank)
  bcast_S_S64x64x64x64 : S_.BroadcastsInDim S64x64x64x64 (![] : Fin 0 → Fin S64x64x64x64.rank)
  bcast_S1x1x64x64_S64x64x64x64_0_1_2_3 : S1x1x64x64.BroadcastsInDim S64x64x64x64 (![0, 1, 2, 3] : Fin 4 → Fin S64x64x64x64.rank)
  transposes_S64x64x64x64_S64x64x64x64_2_0_3_1 : S64x64x64x64.Transposes [2, 0, 3, 1] S64x64x64x64
  shapeCasts_S64x64x64x64_S4096x4096 : S64x64x64x64.ShapeCasts S4096x4096
  concatenates_S4096x4096_S4096x1024_S4096x5120_d1 : Shape.Concatenates [S4096x4096, S4096x1024] S4096x5120 1
  transposes_S4096x5120_S5120x4096_1_0 : S4096x5120.Transposes [1, 0] S5120x4096
  concatenates_S512x4096_S512x5120_S512x9216_d1 : Shape.Concatenates [S512x4096, S512x5120] S512x9216 1
  concatenates_S4096x4096_S4096x4096_S4096x1024_S4096x9216_d1 : Shape.Concatenates [S4096x4096, S4096x4096, S4096x1024] S4096x9216 1
  transposes_S4096x9216_S9216x4096_1_0 : S4096x9216.Transposes [1, 0] S9216x4096
  gather_S64x16x64_S64x64x1_S64x16x64x64_01_2_n_n_2_2_64161_wf : GatherDims.WF S64x16x64 S64x64x1 S64x16x64x64 [0, 1] [2] [] [2] [] 2 ![64, 16, 1]
  dot_S512x1024_S1024x4096_S512x4096_1_0_0_1_n_n_wf : DotDims.WF S512x1024 S1024x4096 S512x4096 [1] [0] [0] [1] [] []
  gather_S64x64x64_S64x64x1_S64x64x64x64_01_2_n_n_2_2_64641_wf : GatherDims.WF S64x64x64 S64x64x1 S64x64x64x64 [0, 1] [2] [] [2] [] 2 ![64, 64, 1]
  dot_S512x5120_S5120x4096_S512x4096_1_0_0_1_n_n_wf : DotDims.WF S512x5120 S5120x4096 S512x4096 [1] [0] [0] [1] [] []
  dot_S512x9216_S9216x4096_S512x4096_1_0_0_1_n_n_wf : DotDims.WF S512x9216 S9216x4096 S512x4096 [1] [0] [0] [1] [] []

variable [Facts₀]

def gather_S64x16x64_S64x64x1_S64x16x64x64_01_2_n_n_2_2_64161 : GatherDims S64x16x64 S64x64x1 S64x16x64x64 where
  offsetDims := [0, 1]
  collapsedSliceDims := [2]
  operandBatchingDims := []
  startIndicesBatchingDims := []
  startIndexMap := [2]
  indexVectorDim := 2
  sliceSizes := ![64, 16, 1]
  wf := gather_S64x16x64_S64x64x1_S64x16x64x64_01_2_n_n_2_2_64161_wf
def dot_S512x1024_S1024x4096_S512x4096_1_0_0_1_n_n : DotDims S512x1024 S1024x4096 S512x4096 where
  lhsContracting := [1]
  rhsContracting := [0]
  lhsNonContracting := [0]
  rhsNonContracting := [1]
  lhsBatch := []
  rhsBatch := []
  wf := dot_S512x1024_S1024x4096_S512x4096_1_0_0_1_n_n_wf
def gather_S64x64x64_S64x64x1_S64x64x64x64_01_2_n_n_2_2_64641 : GatherDims S64x64x64 S64x64x1 S64x64x64x64 where
  offsetDims := [0, 1]
  collapsedSliceDims := [2]
  operandBatchingDims := []
  startIndicesBatchingDims := []
  startIndexMap := [2]
  indexVectorDim := 2
  sliceSizes := ![64, 64, 1]
  wf := gather_S64x64x64_S64x64x1_S64x64x64x64_01_2_n_n_2_2_64641_wf
def dot_S512x5120_S5120x4096_S512x4096_1_0_0_1_n_n : DotDims S512x5120 S5120x4096 S512x4096 where
  lhsContracting := [1]
  rhsContracting := [0]
  lhsNonContracting := [0]
  rhsNonContracting := [1]
  lhsBatch := []
  rhsBatch := []
  wf := dot_S512x5120_S5120x4096_S512x4096_1_0_0_1_n_n_wf
def dot_S512x9216_S9216x4096_S512x4096_1_0_0_1_n_n : DotDims S512x9216 S9216x4096 S512x4096 where
  lhsContracting := [1]
  rhsContracting := [0]
  lhsNonContracting := [0]
  rhsNonContracting := [1]
  lhsBatch := []
  rhsBatch := []
  wf := dot_S512x9216_S9216x4096_S512x4096_1_0_0_1_n_n_wf

class Facts : Prop extends Facts₀ where

variable [Facts]
-- ==== Proof.K.Data.lean ====
/-
  The three matrix-product regions of the program, each at a parameter `V` (the buffers' contents when the
  region is entered): a window's block at a grid point; the accumulator the kernel body keeps in its scratch
  buffer from one point to the next (reset to zero at the first point of a column block, then the block
  product of the point added to what the point before left); what the output window's staging buffer
  holds after the body; the region invariant (the scratch buffer at the accumulator of the point before,
  beside the promise to give the class invariant back for the scratch at any contents); the proof data.
-/
import proofs.«117565_j22136261443720_1_alg».proof.Proof.Gen.Kernel.Launch
import proofs.«117565_j22136261443720_1_alg».proof.Proof.Gen.Kernel.Skeleton
import proofs.«117565_j22136261443720_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: 1 block of the contracted axis per column block -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The kernel's scratch operand: the accumulator's buffer. -/
abbrev scM0 : Memref sig .tc .vmem S512x1024 .f32 := Memref.whole cc0_scratch0

/-- The accumulator after the body at position `n`: the product of the point's two blocks added to zero at
    the first point of a column block (`n` a multiple of 1), to what the point before left otherwise. -/
def accAt0 (c : Dev nD) : (n : ℕ) → n < cfg0.N → Vec F S512x1024 .f32
  | 0, hn => k0_pay2 (k0_pay1 (F := F)) (iblk0 V c 0 ⟨0, hn⟩) (iblk0 V c 1 ⟨0, hn⟩)
  | n + 1, hn => k0_pay2 (if (n + 1) % 1 = 0 then k0_pay1 (F := F) else accAt0 c n (Nat.lt_of_succ_lt hn))
      (iblk0 V c 0 ⟨n + 1, hn⟩) (iblk0 V c 1 ⟨n + 1, hn⟩)

/-- What the output window's staging buffer holds after the body at point `t` (consulted only at the last
    point of a column block, where the body stores it and the pipeline writes it back). -/
def out0 (c : Dev nD) (t : Fin cfg0.N) : Vec F S512x1024 .f32 := k0_pay3 (accAt0 V c t.val t.isLt)

/-- The region invariant before position `n`: the class invariant before the first point; afterwards the scratch
    buffer at the accumulator the point before left, beside the class invariant less that buffer. -/
def Phi0 (c : Dev nD) : (n : ℕ) → n ≤ cfg0.N → sProp 𝕄
  | 0, _ => Pipeline.ΦA spec0 c
  | n + 1, hn => iprop(owns (c : Thread nD τ) scM0 fullShare (accAt0 V c n hn)
      ∗ (iprop(∃ d, owns (c : Thread nD τ) scM0 fullShare d) -∗ Pipeline.ΦA spec0 c))

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]
theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(owns (c : Thread nD τ) scM0 fullShare (accAt0 V c n hn)
      ∗ (iprop(∃ d, owns (c : Thread nD τ) scM0 fullShare d) -∗ Pipeline.ΦA spec0 c)) := rfl
theorem Phi0_pos (c : Dev nD) (n : ℕ) (h : n ≤ cfg0.N) (hz : n ≠ 0) :
    Phi0 V c n h = iprop(owns (c : Thread nD τ) scM0 fullShare (accAt0 V c (n - 1) (by omega))
      ∗ (iprop(∃ d, owns (c : Thread nD τ) scM0 fullShare d) -∗ Pipeline.ΦA spec0 c)) := by
  cases n with
  | zero => exact absurd rfl hz
  | succ n => rfl
theorem Phi0_castSucc (c : Dev nD) (t : Fin cfg0.N) :
    (dat0 V c).Φ t.castSucc = Phi0 V c t.val (Nat.le_of_lt t.isLt) := by
  dsimp only [dat0]; simp only [Fin.coe_castSucc]
theorem accAt0_first (c : Dev nD) (t : Fin cfg0.N) (h : t.val % 1 = 0) :
    accAt0 V c t.val t.isLt = k0_pay2 (k0_pay1 (F := F)) (iblk0 V c 0 t) (iblk0 V c 1 t) := by
  obtain ⟨n, hn⟩ := t
  cases n with
  | zero => rfl
  | succ n => exact congrArg (fun a => k0_pay2 a _ _) (if_pos h)
theorem accAt0_later (c : Dev nD) (t : Fin cfg0.N) (h : ¬ t.val % 1 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact congrArg (fun a => k0_pay2 a _ _) (if_neg h)

/-! ## Region 1: 5 blocks of the contracted axis per column block -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The kernel's scratch operand: the accumulator's buffer. -/
abbrev scM1 : Memref sig .tc .vmem S512x1024 .f32 := Memref.whole cc1_scratch0

/-- The accumulator after the body at position `n`: the product of the point's two blocks added to zero at
    the first point of a column block (`n` a multiple of 5), to what the point before left otherwise. -/
def accAt1 (c : Dev nD) : (n : ℕ) → n < cfg1.N → Vec F S512x1024 .f32
  | 0, hn => k1_pay2 (k1_pay1 (F := F)) (iblk1 V c 0 ⟨0, hn⟩) (iblk1 V c 1 ⟨0, hn⟩)
  | n + 1, hn => k1_pay2 (if (n + 1) % 5 = 0 then k1_pay1 (F := F) else accAt1 c n (Nat.lt_of_succ_lt hn))
      (iblk1 V c 0 ⟨n + 1, hn⟩) (iblk1 V c 1 ⟨n + 1, hn⟩)

/-- What the output window's staging buffer holds after the body at point `t` (consulted only at the last
    point of a column block, where the body stores it and the pipeline writes it back). -/
def out1 (c : Dev nD) (t : Fin cfg1.N) : Vec F S512x1024 .f32 := k1_pay3 (accAt1 V c t.val t.isLt)

/-- The region invariant before position `n`: the class invariant before the first point; afterwards the scratch
    buffer at the accumulator the point before left, beside the class invariant less that buffer. -/
def Phi1 (c : Dev nD) : (n : ℕ) → n ≤ cfg1.N → sProp 𝕄
  | 0, _ => Pipeline.ΦA spec1 c
  | n + 1, hn => iprop(owns (c : Thread nD τ) scM1 fullShare (accAt1 V c n hn)
      ∗ (iprop(∃ d, owns (c : Thread nD τ) scM1 fullShare d) -∗ Pipeline.ΦA spec1 c))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scM1 fullShare (accAt1 V c n hn)
      ∗ (iprop(∃ d, owns (c : Thread nD τ) scM1 fullShare d) -∗ Pipeline.ΦA spec1 c)) := rfl
theorem Phi1_pos (c : Dev nD) (n : ℕ) (h : n ≤ cfg1.N) (hz : n ≠ 0) :
    Phi1 V c n h = iprop(owns (c : Thread nD τ) scM1 fullShare (accAt1 V c (n - 1) (by omega))
      ∗ (iprop(∃ d, owns (c : Thread nD τ) scM1 fullShare d) -∗ Pipeline.ΦA spec1 c)) := by
  cases n with
  | zero => exact absurd rfl hz
  | succ n => rfl
theorem Phi1_castSucc (c : Dev nD) (t : Fin cfg1.N) :
    (dat1 V c).Φ t.castSucc = Phi1 V c t.val (Nat.le_of_lt t.isLt) := by
  dsimp only [dat1]; simp only [Fin.coe_castSucc]
theorem accAt1_first (c : Dev nD) (t : Fin cfg1.N) (h : t.val % 5 = 0) :
    accAt1 V c t.val t.isLt = k1_pay2 (k1_pay1 (F := F)) (iblk1 V c 0 t) (iblk1 V c 1 t) := by
  obtain ⟨n, hn⟩ := t
  cases n with
  | zero => rfl
  | succ n => exact congrArg (fun a => k1_pay2 a _ _) (if_pos h)
theorem accAt1_later (c : Dev nD) (t : Fin cfg1.N) (h : ¬ t.val % 5 = 0) :
    accAt1 V c t.val t.isLt = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact congrArg (fun a => k1_pay2 a _ _) (if_neg h)

/-! ## Region 2: 9 blocks of the contracted axis per column block -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The kernel's scratch operand: the accumulator's buffer. -/
abbrev scM2 : Memref sig .tc .vmem S512x1024 .f32 := Memref.whole cc2_scratch0

/-- The accumulator after the body at position `n`: the product of the point's two blocks added to zero at
    the first point of a column block (`n` a multiple of 9), to what the point before left otherwise. -/
def accAt2 (c : Dev nD) : (n : ℕ) → n < cfg2.N → Vec F S512x1024 .f32
  | 0, hn => k2_pay2 (k2_pay1 (F := F)) (iblk2 V c 0 ⟨0, hn⟩) (iblk2 V c 1 ⟨0, hn⟩)
  | n + 1, hn => k2_pay2 (if (n + 1) % 9 = 0 then k2_pay1 (F := F) else accAt2 c n (Nat.lt_of_succ_lt hn))
      (iblk2 V c 0 ⟨n + 1, hn⟩) (iblk2 V c 1 ⟨n + 1, hn⟩)

/-- What the output window's staging buffer holds after the body at point `t` (consulted only at the last
    point of a column block, where the body stores it and the pipeline writes it back). -/
def out2 (c : Dev nD) (t : Fin cfg2.N) : Vec F S512x1024 .f32 := accAt2 V c t.val t.isLt

/-- The region invariant before position `n`: the class invariant before the first point; afterwards the scratch
    buffer at the accumulator the point before left, beside the class invariant less that buffer. -/
def Phi2 (c : Dev nD) : (n : ℕ) → n ≤ cfg2.N → sProp 𝕄
  | 0, _ => Pipeline.ΦA spec2 c
  | n + 1, hn => iprop(owns (c : Thread nD τ) scM2 fullShare (accAt2 V c n hn)
      ∗ (iprop(∃ d, owns (c : Thread nD τ) scM2 fullShare d) -∗ Pipeline.ΦA spec2 c))

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]
theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(owns (c : Thread nD τ) scM2 fullShare (accAt2 V c n hn)
      ∗ (iprop(∃ d, owns (c : Thread nD τ) scM2 fullShare d) -∗ Pipeline.ΦA spec2 c)) := rfl
theorem Phi2_pos (c : Dev nD) (n : ℕ) (h : n ≤ cfg2.N) (hz : n ≠ 0) :
    Phi2 V c n h = iprop(owns (c : Thread nD τ) scM2 fullShare (accAt2 V c (n - 1) (by omega))
      ∗ (iprop(∃ d, owns (c : Thread nD τ) scM2 fullShare d) -∗ Pipeline.ΦA spec2 c)) := by
  cases n with
  | zero => exact absurd rfl hz
  | succ n => rfl
theorem Phi2_castSucc (c : Dev nD) (t : Fin cfg2.N) :
    (dat2 V c).Φ t.castSucc = Phi2 V c t.val (Nat.le_of_lt t.isLt) := by
  dsimp only [dat2]; simp only [Fin.coe_castSucc]
theorem accAt2_first (c : Dev nD) (t : Fin cfg2.N) (h : t.val % 9 = 0) :
    accAt2 V c t.val t.isLt = k2_pay2 (k2_pay1 (F := F)) (iblk2 V c 0 t) (iblk2 V c 1 t) := by
  obtain ⟨n, hn⟩ := t
  cases n with
  | zero => rfl
  | succ n => exact congrArg (fun a => k2_pay2 a _ _) (if_pos h)
theorem accAt2_later (c : Dev nD) (t : Fin cfg2.N) (h : ¬ t.val % 9 = 0) :
    accAt2 V c t.val t.isLt = k2_pay2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact congrArg (fun a => k2_pay2 a _ _) (if_neg h)

end Cert.Kernel.Hand

end
-- ==== Proof.K.RunCond.lean ====
/-
  The run of the whole program, given one segment record per matrix-product region: every weakly fair
  execution ends, and in the final memory every unscoped buffer of a core holds the last valuation of the
  fold of buffer contents through the program (the launch memory, each stretch of host operations applied
  in turn, each region's output array replaced by what the region leaves). The statement's hypotheses are
  those of the generated conditional frame; what is read at the end is every unscoped buffer, not only the
  arguments, so that the result buffer's contents are named.
-/
import proofs.«117565_j22136261443720_1_alg».proof.Proof.Gen.Kernel.Regions

set_option maxRecDepth 1904

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ) (outs : Outs (F := F))

set_option backward.isDefEq.respectTransparency.types false in
/-- The conditional run: from one segment record per region, entered from the thread state before it and left
    at the one after it, every weakly fair execution of the program ends with every unscoped buffer at the
    last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V21 m outs c) ∗ E 2 c) ⊢ R2.pre c)
    (hpost2 : ∀ c : Dev nD, R2.post c ⊢ iprop(StableHlo.held (c : Thread nD τ) (Pipeline.ucRefs τ sig) (V22 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V22 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m outs c))
    (hch := fun c => ⟨.rfl, .rfl, .rfl, hpre0 c, hpost0 c, .rfl, .rfl, .rfl, .rfl, .rfl, .rfl, hpre1 c, hpost1 c, .rfl, .rfl, .rfl, .rfl, .rfl, .rfl, .rfl, .rfl, hpre2 c, (hpost2 c).trans (sep_mono .rfl (hE3 c))⟩)
    (hinit := ?_) (QY := fun c s => ∀ b ∈ Pipeline.ucRefs τ sig, s.mem (((c : Thread nD τ)).1, b) = V22 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    imodintro
    iapply (pointsTo_read_all (Pipeline.ucRefs τ sig) (fun b => (((c : Thread nD τ)).1, b)) (V22 m outs c) s')
    isplitl [Hh] <;> iassumption

end Cert.Kernel.Hand

end
-- ==== Proof.K.Run.lean ====
/-
  The three matrix-product regions as segments of the program, and the program's run: the fold of buffer
  contents through the program with each region's output array at what the region's write-backs leave
  (the proof data's array after the last grid point), the proof data of the three regions each at its
  entry contents, one segment record per region, and the run with every unscoped buffer of the final memory
  at the last valuation of the fold.
-/
import proofs.«117565_j22136261443720_1_alg».proof.Proof.K.Data
import proofs.«117565_j22136261443720_1_alg».proof.Proof.K.RunCond

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' outputs, stage by stage -/

/-- The buffers' contents when region 0 is entered, read at the TensorCore's references. -/
abbrev U3 : (c : Dev nD) → (b : Ref sig .tc) → Buf (Elt F) ((c : Thread nD τ).loc b) := fun c b => V3 m c b
/-- What region 0 leaves in its output array. -/
def o4 (c : Dev nD) : Buf (Elt F) ((c : Thread nD τ).loc main_v15) := (dat0 (U3 m) c).arrAt 2 cfg0.N
/-- The regions' outputs with region 0's known. -/
def outs1 : Outs (F := F) := fun _ r c => Function.update (V3 m c) main_v15 (o4 m c) r
/-- The buffers' contents when region 1 is entered. -/
abbrev U11a : (c : Dev nD) → (b : Ref sig .tc) → Buf (Elt F) ((c : Thread nD τ).loc b) := fun c b => V11 m (outs1 m) c b
/-- What region 1 leaves in its output array. -/
def o12 (c : Dev nD) : Buf (Elt F) ((c : Thread nD τ).loc main_v63) := (dat1 (U11a m) c).arrAt 2 cfg1.N
/-- The regions' outputs with regions 0 and 1's known. -/
def outs2 : Outs (F := F) := fun n r c => if n = 4 then outs1 m n r c else Function.update (V11 m (outs1 m) c) main_v63 (o12 m c) r
/-- The buffers' contents when region 2 is entered. -/
abbrev U21a : (c : Dev nD) → (b : Ref sig .tc) → Buf (Elt F) ((c : Thread nD τ).loc b) := fun c b => V21 m (outs2 m) c b
/-- What region 2 leaves in its output array: the program's result. -/
def o22 (c : Dev nD) : Buf (Elt F) ((c : Thread nD τ).loc main_v122) := (dat2 (U21a m) c).arrAt 2 cfg2.N
/-- The regions' outputs. -/
def outs : Outs (F := F) := fun n r c => if n = 22 then Function.update (V21 m (outs2 m) c) main_v122 (o22 m c) r else outs2 m n r c

theorem outs_4 (c : Dev nD) : outs m 4 main_v15 c = o4 m c := by
  show Function.update (V3 m c) main_v15 (o4 m c) main_v15 = _
  exact Function.update_self _ _ _
theorem outs_12 (c : Dev nD) : outs m 12 main_v63 c = o12 m c := by
  show Function.update (V11 m (outs1 m) c) main_v63 (o12 m c) main_v63 = _
  exact Function.update_self _ _ _
theorem outs_22 (c : Dev nD) : outs m 22 main_v122 c = o22 m c := by
  show Function.update (V21 m (outs2 m) c) main_v122 (o22 m c) main_v122 = _
  exact Function.update_self _ _ _

/-- The fold up to region 1's entry reads the regions' outputs at region 0's only. -/
theorem V11_outs (c : Dev nD) : V11 m (outs m) c = V11 m (outs1 m) c := rfl
/-- The fold up to region 2's entry reads them at regions 0 and 1's only. -/
theorem V21_outs (c : Dev nD) : V21 m (outs m) c = V21 m (outs2 m) c := rfl

abbrev U4 : (c : Dev nD) → (b : Ref sig .tc) → Buf (Elt F) ((c : Thread nD τ).loc b) := fun c b => V4 m (outs m) c b
abbrev U11 : (c : Dev nD) → (b : Ref sig .tc) → Buf (Elt F) ((c : Thread nD τ).loc b) := fun c b => V11 m (outs1 m) c b
abbrev U12 : (c : Dev nD) → (b : Ref sig .tc) → Buf (Elt F) ((c : Thread nD τ).loc b) := fun c b => V12 m (outs m) c b
abbrev U21 : (c : Dev nD) → (b : Ref sig .tc) → Buf (Elt F) ((c : Thread nD τ).loc b) := fun c b => V21 m (outs2 m) c b
abbrev U22 : (c : Dev nD) → (b : Ref sig .tc) → Buf (Elt F) ((c : Thread nD τ).loc b) := fun c b => V22 m (outs m) c b

/-! ## The proof data family and the thread state -/

/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U11 m) c
  | ⟨2, _⟩ => fun c => dat2 (U21 m) c
abbrev 𝒱₀ : Variants := Variants.none
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)

/-- At region 0's exit each of its arrays holds what the pipeline leaves (the inputs as entered, the output at what
    its write-backs leave) and every other buffer what it held at entry. -/
theorem hF0 (c : Dev nD) (w : Fin cfg0.W) : (dat0 (U3 m) c).arrAt w cfg0.N = U4 m c (Pipeline.arrRef spec0 w) := by
  match w with
  | ⟨0, _⟩ => exact ((dat0 (U3 m) c).arrAt_in 0 rfl _).trans ((A_eq0 (U3 m) c 0).trans (V4_of m (outs m) c _ (by decide)).symm)
  | ⟨1, _⟩ => exact ((dat0 (U3 m) c).arrAt_in 1 rfl _).trans ((A_eq0 (U3 m) c 1).trans (V4_of m (outs m) c _ (by decide)).symm)
  | ⟨2, _⟩ =>
    show _ = Function.update (V3 m c) main_v15 (outs m 4 main_v15 c) main_v15
    rw [Function.update_self, outs_4]; rfl
theorem hrest0 (c : Dev nD) : ∀ b, b ∉ Finset.univ.image (Pipeline.arrRef spec0) → U4 m c b = U3 m c b :=
  fun b hb => V4_of m (outs m) c b (by
    intro h; simp only [List.mem_singleton] at h; subst h
    exact hb (Finset.mem_image.mpr ⟨2, Finset.mem_univ _, rfl⟩))

set_option backward.isDefEq.respectTransparency.types false in
/-- Region 0 as a segment: entered from every unscoped buffer at the contents before it, left at the contents after
    it; its arrays split out of the unscoped buffers and put back at the exit contents; the generator register into
    the region invariant and out; nothing owed; no semaphore of the kernel's own. -/
def reg0 (hb : ∀ c, BodyObligation (dat0 (F := F) (U3 m) c) (defs₀ (F := F)) Variants.none () Set.univ)
    (hi : ∀ c, (Pipeline.ΦA spec0 c : sProp 𝕄) ⊢ (dat0 (U3 m) c).Φ 0)
    (ho : ∀ c, (dat0 (U3 m) c).Φ (Fin.last cfg0.N) ⊢ (Pipeline.ΦA spec0 c : sProp 𝕄)) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine (ho c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves (the inputs as entered, the output at what
    its write-backs leave) and every other buffer what it held at entry. -/
theorem hF1 (c : Dev nD) (w : Fin cfg1.W) : (dat1 (U11 m) c).arrAt w cfg1.N = U12 m c (Pipeline.arrRef spec1 w) := by
  match w with
  | ⟨0, _⟩ => exact ((dat1 (U11 m) c).arrAt_in 0 rfl _).trans ((A_eq1 (U11 m) c 0).trans (V12_of m (outs m) c _ (by decide)).symm)
  | ⟨1, _⟩ => exact ((dat1 (U11 m) c).arrAt_in 1 rfl _).trans ((A_eq1 (U11 m) c 1).trans (V12_of m (outs m) c _ (by decide)).symm)
  | ⟨2, _⟩ =>
    show _ = Function.update (V11 m (outs m) c) main_v63 (outs m 12 main_v63 c) main_v63
    rw [Function.update_self, outs_12]; rfl
theorem hrest1 (c : Dev nD) : ∀ b, b ∉ Finset.univ.image (Pipeline.arrRef spec1) → U12 m c b = U11 m c b :=
  fun b hb => V12_of m (outs m) c b (by
    intro h; simp only [List.mem_singleton] at h; subst h
    exact hb (Finset.mem_image.mpr ⟨2, Finset.mem_univ _, rfl⟩))

set_option backward.isDefEq.respectTransparency.types false in
/-- Region 1 as a segment: entered from every unscoped buffer at the contents before it, left at the contents after
    it; its arrays split out of the unscoped buffers and put back at the exit contents; the generator register into
    the region invariant and out; nothing owed; no semaphore of the kernel's own. -/
def reg1 (hb : ∀ c, BodyObligation (dat1 (F := F) (U11 m) c) (defs₀ (F := F)) Variants.none () Set.univ)
    (hi : ∀ c, (Pipeline.ΦA spec1 c : sProp 𝕄) ⊢ (dat1 (U11 m) c).Φ 0)
    (ho : ∀ c, (dat1 (U11 m) c).Φ (Fin.last cfg1.N) ⊢ (Pipeline.ΦA spec1 c : sProp 𝕄)) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (V11 m (outs1 m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine (ho c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U11 m c) (U12 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves (the inputs as entered, the output at what
    its write-backs leave) and every other buffer what it held at entry. -/
theorem hF2 (c : Dev nD) (w : Fin cfg2.W) : (dat2 (U21 m) c).arrAt w cfg2.N = U22 m c (Pipeline.arrRef spec2 w) := by
  match w with
  | ⟨0, _⟩ => exact ((dat2 (U21 m) c).arrAt_in 0 rfl _).trans ((A_eq2 (U21 m) c 0).trans (V22_of m (outs m) c _ (by decide)).symm)
  | ⟨1, _⟩ => exact ((dat2 (U21 m) c).arrAt_in 1 rfl _).trans ((A_eq2 (U21 m) c 1).trans (V22_of m (outs m) c _ (by decide)).symm)
  | ⟨2, _⟩ =>
    show _ = Function.update (V21 m (outs m) c) main_v122 (outs m 22 main_v122 c) main_v122
    rw [Function.update_self, outs_22]; rfl
theorem hrest2 (c : Dev nD) : ∀ b, b ∉ Finset.univ.image (Pipeline.arrRef spec2) → U22 m c b = U21 m c b :=
  fun b hb => V22_of m (outs m) c b (by
    intro h; simp only [List.mem_singleton] at h; subst h
    exact hb (Finset.mem_image.mpr ⟨2, Finset.mem_univ _, rfl⟩))

set_option backward.isDefEq.respectTransparency.types false in
/-- Region 2 as a segment: entered from every unscoped buffer at the contents before it, left at the contents after
    it; its arrays split out of the unscoped buffers and put back at the exit contents; the generator register into
    the region invariant and out; nothing owed; no semaphore of the kernel's own. -/
def reg2 (hb : ∀ c, BodyObligation (dat2 (F := F) (U21 m) c) (defs₀ (F := F)) Variants.none () Set.univ)
    (hi : ∀ c, (Pipeline.ΦA spec2 c : sProp 𝕄) ⊢ (dat2 (U21 m) c).Φ 0)
    (ho : ∀ c, (dat2 (U21 m) c).Φ (Fin.last cfg2.N) ⊢ (Pipeline.ΦA spec2 c : sProp 𝕄)) :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (V21 m (outs2 m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U21 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine (ho c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U21 m c) (U22 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Main.lean ====
/-
  The program's run from the three regions' body obligations: every weakly fair execution ends; the
  argument arrays end as launched, and the result buffer ends at what the last region's write-backs leave
  in its output array.
-/
import proofs.«117565_j22136261443720_1_alg».proof.Proof.K.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program ends with every unscoped buffer at the last valuation of the fold. -/
theorem run_all
    (hb0 : ∀ c, BodyObligation (dat0 (F := F) (U3 m) c) (defs₀ (F := F)) Variants.none () Set.univ)
    (hi0 : ∀ c, (Pipeline.ΦA spec0 c : sProp 𝕄) ⊢ (dat0 (U3 m) c).Φ 0)
    (ho0 : ∀ c, (dat0 (U3 m) c).Φ (Fin.last cfg0.N) ⊢ (Pipeline.ΦA spec0 c : sProp 𝕄))
    (hb1 : ∀ c, BodyObligation (dat1 (F := F) (U11 m) c) (defs₀ (F := F)) Variants.none () Set.univ)
    (hi1 : ∀ c, (Pipeline.ΦA spec1 c : sProp 𝕄) ⊢ (dat1 (U11 m) c).Φ 0)
    (ho1 : ∀ c, (dat1 (U11 m) c).Φ (Fin.last cfg1.N) ⊢ (Pipeline.ΦA spec1 c : sProp 𝕄))
    (hb2 : ∀ c, BodyObligation (dat2 (F := F) (U21 m) c) (defs₀ (F := F)) Variants.none () Set.univ)
    (hi2 : ∀ c, (Pipeline.ΦA spec2 c : sProp 𝕄) ⊢ (dat2 (U21 m) c).Φ 0)
    (ho2 : ∀ c, (dat2 (U21 m) c).Φ (Fin.last cfg2.N) ⊢ (Pipeline.ΦA spec2 c : sProp 𝕄)) :
    θ_run defs (onTc (τ := τ) (main (F := F))) ⟨m, fun _ => 0, ρ⟩ (fun r => ∀ c : Dev nD,
      ∀ b ∈ Pipeline.ucRefs τ sig, r.2.mem (((c : Thread nD τ)).1, b) = V22 m (outs m) c b) :=
  run_cond m (outs m) emb₁ () 𝒱₀ L lv (fun _ _ => rfl) ρ (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m hb0 hi0 ho0) (fun c => .rfl) (fun c => .rfl)
    (reg1 m hb1 hi1 ho1) (fun c => .rfl) (fun c => .rfl)
    (reg2 m hb2 hi2 ho2) (fun c => .rfl) (fun c => .rfl)

/-- The result buffer is no argument and is written by the last region only. -/
theorem V22_result (c : Dev nD) : V22 m (outs m) c main_v122 = o22 m c := by
  show Function.update (V21 m (outs m) c) main_v122 (outs m 22 main_v122 c) main_v122 = _
  rw [Function.update_self, outs_22]

end Cert.Kernel.Hand

end
-- ==== Proof.LibWhole.lean ====
/-
  Loads and stores through the rectangle of a WHOLE buffer (every coordinate of the shape, from offset zero at
  unit stride): the rectangle places an index at itself, so a load through it reads the buffer's contents as they
  are, and a store through it leaves exactly its payload, whatever the buffer held before.
-/
import Idealize.ShloMosaic.Lib.Pipeline.FrameBody

namespace Idealize.ShloMosaic

variable {sig : RefSig} {κ : Kind} {sp : Space} {s : Shape} {e : EltTy} {Val : EltTy → Type}

/-- The whole rectangle places every index at itself. -/
theorem Rect.unit_whole_idx (off : Fin s.rank → ℕ) (hoff : ∀ a, off a = 0) (inb : ∀ a, off a + s.size a ≤ s.size a)
    (x : s.Idx) : (Rect.unit (s := s) off s.size inb).toLoadRect.idx x = x := by
  funext a
  apply Fin.ext
  show off a + 1 * (x a).val = (x a).val
  rw [hoff a, Nat.zero_add, Nat.one_mul]

/-- Every index lies in the whole rectangle. -/
theorem Rect.unit_whole_mem (off : Fin s.rank → ℕ) (hoff : ∀ a, off a = 0) (inb : ∀ a, off a + s.size a ≤ s.size a)
    (y : s.Idx) : y ∈ (Rect.unit (s := s) off s.size inb).set :=
  Rect.mem_set_unit.mpr fun a => ⟨by rw [hoff a]; exact Nat.zero_le _, by rw [hoff a, Nat.zero_add]; exact (y a).isLt⟩

/-- The offsets `![0, 0]` of a whole rank-2 buffer's rectangle are zero. -/
theorem vecZero2 : ∀ a : Fin 2, (![0, 0] : Fin 2 → ℕ) a = 0 := by decide

namespace View

/-- A load through the whole rectangle reads the contents as they are. -/
theorem readAt_unit_whole (v : View sig κ sp s e) (off : Fin s.rank → ℕ) (hoff : ∀ a, off a = 0)
    (inb : ∀ a, off a + s.size a ≤ s.size a) (f : v.ty.Contents Val) :
    v.readAt Val (Rect.unit (s := s) off s.size inb).toLoadRect f = v.read Val f :=
  funext fun x => congrArg (v.read Val f) (Rect.unit_whole_idx off hoff inb x)

/-- One store through the whole rectangle leaves its payload, whatever was there. -/
theorem read_writes_unit_whole [∀ e, Nonempty (Val e)] (v : View sig κ sp s e) (off : Fin s.rank → ℕ) (hoff : ∀ a, off a = 0)
    (inb : ∀ a, off a + s.size a ≤ s.size a) (f : v.ty.Contents Val) (w : s.Idx → Val e)
    (L : List (Piece Val s e)) :
    v.read Val (v.writes Val f (⟨Rect.unit (s := s) off s.size inb, w⟩ :: L)) = w :=
  funext fun x => by
    have h := read_writes_cons_emb v f (Rect.unit (s := s) off s.size inb) w L x
    rw [show (Rect.unit (s := s) off s.size inb).emb x = x from Rect.unit_whole_idx off hoff inb x] at h
    exact h

end View

end Idealize.ShloMosaic
-- ==== Proof.K.Body0.lean ====
/-
  Region 0 of the program (the matrix product whose contracted axis is cut into 1 block per column block), on one
  core, at any buffer contents `V` on entry: the body's branch conditions in closed form over the grid; where the
  windows are idle; the accumulator's buffer taken out of the class invariant and put back; the input windows'
  buffers at their blocks at every point; the body's triple in each control case (every load and store of the body
  is of a whole buffer, so a store leaves its payload and a load reads what the buffer holds); and from these the
  body obligation of the proof data `dat0`, with the invariant's two ends.
-/
import proofs.«117565_j22136261443720_1_alg».proof.Proof.K.Data
import proofs.«117565_j22136261443720_1_alg».proof.Proof.LibWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: 1 block of the contracted axis per column block -/

/-! ## The body's branch conditions, in closed form over the grid -/

/-- The condition of the body's first `scf.if` (the accumulator is reset), from the grid coordinates. -/
abbrev cond0_0 (i : grid0.Coords) : Prop := (Scalar.cmpi .ne (Scalar.extui (Scalar.cmpi .eq (BitVec.ofNat 32 (i 1).val) 0#32)) 0#32) = 1#1
/-- It holds at the first point of each column block — decided over the grid. -/
theorem hcond0_0 : ∀ t : Fin cfg0.N, cond0_0 (grid0.coords t) ↔ t.val % 1 = 0 :=
  (by decide +kernel : ∀ t : Fin grid0.N, cond0_0 (grid0.coords t) ↔ t.val % 1 = 0)

/-- The condition of the body's second `scf.if` (the output block is stored). -/
abbrev cond0_1 (i : grid0.Coords) : Prop := k0_cond2 i = 1#1
/-- It holds at the last point of each column block — decided over the grid. -/
theorem hcond0_1 : ∀ t : Fin cfg0.N, cond0_1 (grid0.coords t) ↔ t.val % 1 = 0 :=
  (by decide +kernel : ∀ t : Fin grid0.N, cond0_1 (grid0.coords t) ↔ t.val % 1 = 0)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output block is stored at every point: the output window is never idle. -/
theorem liveAt0_2 : ∀ t : Fin cfg0.N, cfg0.idle 2 (grid0.coords t) = false := by decide +kernel

/-! ## The scratch buffer out of the class invariant, and back -/

/-- The class invariant holds the accumulator's buffer at some contents, and is given back for it at any contents:
    the buffer is one of the core's scoped buffers that are no staging buffer of the region. -/
theorem PhiA0_split (c : Dev nD) :
    (Pipeline.ΦA spec0 c : sProp 𝕄) ⊢ iprop(iprop(∃ d, owns (c : Thread nD τ) scM0 fullShare d)
      ∗ (iprop(∃ d, owns (c : Thread nD τ) scM0 fullShare d) -∗ Pipeline.ΦA spec0 c)) := by
  unfold Pipeline.ΦA; rw [scopedRest0_eq]; simp only [scM0, owns_whole]
  iintro ⟨⟨R0, R1, R2, R3, R4, R5, R6, R7, R8, R9, R10, R11, R12, R13, R14⟩, Hg⟩
  isplitl [R0]; · iexact R0
  iintro R0
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iexact R14

/-- Before any point the region invariant holds the accumulator's buffer at some contents, beside the promise. -/
theorem Phi0_open (c : Dev nD) (n : ℕ) (h : n ≤ cfg0.N) :
    Phi0 V c n h ⊢ iprop(iprop(∃ d, owns (c : Thread nD τ) scM0 fullShare d)
      ∗ (iprop(∃ d, owns (c : Thread nD τ) scM0 fullShare d) -∗ Pipeline.ΦA spec0 c)) := by
  cases n with
  | zero => exact PhiA0_split c
  | succ n =>
    rw [Phi0_succ]
    iintro ⟨HS, Hw⟩
    isplitl [HS]; · iexists _; iexact HS
    iexact Hw

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 4 := N_0; omega)]
  iintro ⟨HS, Hw⟩
  iapply Hw
  iexists _; iexact HS

/-! ## The input windows' buffers hold their blocks at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple, one per control case, on any whole staging memrefs

Every load and store of the body is of a WHOLE buffer, so what a buffer holds after a store is the store's payload
and what a load reads is what the buffer holds. -/

set_option maxHeartbeats 1000000 in
/-- Every point is the first and the last of its column block: the accumulator, whatever it held, is reset and the
    product of the point's blocks added, and the output buffer, whatever it held, is stored the gated accumulator. -/
theorem kernel0_AC (c : Dev nD) (E : Set ℕ) (i : grid0.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : cond0_0 i) (hc1 : cond0_1 i)
    (x0 : Vec F S512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay3 (k0_pay2 (k0_pay1 (F := F)) x0 x1))
            ∗ owns (c : Thread nD τ) arg5 fullShare (k0_pay2 (k0_pay1 (F := F)) x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%dout, %fo, -, HO⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    rw [View.read_writes_unit_whole _ _ vecZero2]
    unfold kernel0_AC.sl.v16 kernel0_AC.sl.HS_2
    rw [View.readCov_cons_toLoadRect, View.readAt_unit_whole _ _ vecZero2, View.readAt_unit_whole _ _ vecZero2]
    unfold kernel0_AC.sl.v3 kernel0_AC.sl.HS_1
    rw [View.readCov_cons_toLoadRect]
  iexists _; isplitr
  swap; · iexact HS
  ipureintro
  unfold kernel0_AC.sl.HS_2
  rw [View.read_writes_unit_whole _ _ vecZero2, View.readAt_unit_whole _ _ vecZero2, View.readAt_unit_whole _ _ vecZero2]
  unfold kernel0_AC.sl.v3 kernel0_AC.sl.HS_1
  rw [View.readCov_cons_toLoadRect]

/-! ## The body obligation, at a generic point -/

/-- Each window's current staging memref at point `t`, spelled as the pipeline passes it. -/
abbrev ms0_0 (t : Fin cfg0.N) : Memref sig .tc .vmem S512x1024 .bf16 := win0_0.stage (cfg0.slots t 0)
abbrev ms0_1 (t : Fin cfg0.N) : Memref sig .tc .vmem S1024x1024 .bf16 := win0_1.stage (cfg0.slots t 1)
abbrev ms0_2 (t : Fin cfg0.N) : Memref sig .tc .vmem S512x1024 .f32 := win0_2.stage (cfg0.slots t 2)

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' buffers hold their blocks; the closed forms say which control case the point is
    in; the invariant hands the body the accumulator's buffer at what the point before left (at anything where the
    body resets it) and takes it back at this point's accumulator; an output window the case does not store into
    is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ, Phi0_castSucc]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 4 := lt_of_lt_of_eq t.isLt (show cfg0.N = 4 from N_0)
  have h0 : t.val % 1 = 0 := Nat.mod_one _
  rw [show (dat0 V c).leavesExact 2 t = owns (c : Thread nD τ) (ms0_2 t) fullShare ((dat0 V c).after 2 t) from by
    unfold Dat.leavesExact; rw [liveAt0_2 t], after0_2]
  unfold out0
  rw [accAt0_first V c t h0]
  iintro ⟨HΦ, Ho, ⟨%d0, H0⟩, ⟨%d1, H1⟩, ⟨%d2, H2⟩⟩
  ihave ⟨HS, Hw⟩ := (Phi0_open V c _ _) $$ HΦ
  iapply (kernel0_AC c Set.univ (grid0.coords t) _ _ _ _ _ _ _ _ ((hcond0_0 t).mpr h0) ((hcond0_1 t).mpr h0) (iblk0 V c 0 t) (iblk0 V c 1 t) _)
  isplitl [H0]; · iexact H0
  isplitl [H1]; · iexact H1
  isplitl [H2]; · iexists _; iexact H2
  isplitl [HS]; · iexact HS
  iintro ⟨H0, H1, H2, HS⟩
  isplitl [HS Hw]
  · isplitl [HS]; · iexact HS
    iexact Hw
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 of the program (the matrix product whose contracted axis is cut into 5 blocks per column block), on one
  core, at any buffer contents `V` on entry: the body's branch conditions in closed form over the grid; where the
  windows are idle; the accumulator's buffer taken out of the class invariant and put back; the input windows'
  buffers at their blocks at every point; the body's triple in each control case (every load and store of the body
  is of a whole buffer, so a store leaves its payload and a load reads what the buffer holds); and from these the
  body obligation of the proof data `dat1`, with the invariant's two ends.
-/
import proofs.«117565_j22136261443720_1_alg».proof.Proof.K.Data
import proofs.«117565_j22136261443720_1_alg».proof.Proof.LibWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: 5 blocks of the contracted axis per column block -/

/-! ## The body's branch conditions, in closed form over the grid -/

/-- The condition of the body's first `scf.if` (the accumulator is reset), from the grid coordinates. -/
abbrev cond1_0 (i : grid1.Coords) : Prop := (Scalar.cmpi .ne (Scalar.extui (Scalar.cmpi .eq (BitVec.ofNat 32 (i 1).val) 0#32)) 0#32) = 1#1
/-- It holds at the first point of each column block — decided over the grid. -/
theorem hcond1_0 : ∀ t : Fin cfg1.N, cond1_0 (grid1.coords t) ↔ t.val % 5 = 0 :=
  (by decide +kernel : ∀ t : Fin grid1.N, cond1_0 (grid1.coords t) ↔ t.val % 5 = 0)

/-- The condition of the body's second `scf.if` (the output block is stored). -/
abbrev cond1_1 (i : grid1.Coords) : Prop := k1_cond2 i = 1#1
/-- It holds at the last point of each column block — decided over the grid. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the output block is not stored the output window is idle, and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it is stored the window is live. -/
theorem liveAt1_2 : ∀ t : Fin cfg1.N, cond1_1 (grid1.coords t) → cfg1.idle 2 (grid1.coords t) = false := by decide +kernel

/-! ## The scratch buffer out of the class invariant, and back -/

/-- The class invariant holds the accumulator's buffer at some contents, and is given back for it at any contents:
    the buffer is one of the core's scoped buffers that are no staging buffer of the region. -/
theorem PhiA1_split (c : Dev nD) :
    (Pipeline.ΦA spec1 c : sProp 𝕄) ⊢ iprop(iprop(∃ d, owns (c : Thread nD τ) scM1 fullShare d)
      ∗ (iprop(∃ d, owns (c : Thread nD τ) scM1 fullShare d) -∗ Pipeline.ΦA spec1 c)) := by
  unfold Pipeline.ΦA; rw [scopedRest1_eq]; simp only [scM1, owns_whole]
  iintro ⟨⟨R0, R1, R2, R3, R4, R5, R6, R7, R8, R9, R10, R11, R12, R13⟩, Hg⟩
  isplitl [R6]; · iexact R6
  iintro R6
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

/-- Before any point the region invariant holds the accumulator's buffer at some contents, beside the promise. -/
theorem Phi1_open (c : Dev nD) (n : ℕ) (h : n ≤ cfg1.N) :
    Phi1 V c n h ⊢ iprop(iprop(∃ d, owns (c : Thread nD τ) scM1 fullShare d)
      ∗ (iprop(∃ d, owns (c : Thread nD τ) scM1 fullShare d) -∗ Pipeline.ΦA spec1 c)) := by
  cases n with
  | zero => exact PhiA1_split c
  | succ n =>
    rw [Phi1_succ]
    iintro ⟨HS, Hw⟩
    isplitl [HS]; · iexists _; iexact HS
    iexact Hw

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 20 := N_1; omega)]
  iintro ⟨HS, Hw⟩
  iapply Hw
  iexists _; iexact HS

/-! ## The input windows' buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's triple, one per control case, on any whole staging memrefs

Every load and store of the body is of a WHOLE buffer, so what a buffer holds after a store is the store's payload
and what a load reads is what the buffer holds. -/

set_option maxHeartbeats 1000000 in
/-- First point of a column block (not its last): the accumulator, whatever it held, is reset and the product of the
    point's blocks added; the output buffer is not touched. -/
theorem kernel1_A (c : Dev nD) (E : Set ℕ) (i : grid1.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : cond1_0 i) (hc1 : ¬cond1_1 i)
    (x0 : Vec F S512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 (k1_pay1 (F := F)) x0 x1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_unit_whole _ _ vecZero2, View.readAt_unit_whole _ _ vecZero2, View.readAt_unit_whole _ _ vecZero2]
  unfold kernel1_A.sl.v3 kernel1_A.sl.HS_1
  rw [View.readCov_cons_toLoadRect]

set_option maxHeartbeats 1000000 in
/-- A point neither first nor last of its column block: the product of the point's blocks is added to the
    accumulator; the output buffer is not touched. -/
theorem kernel1_B (c : Dev nD) (E : Set ℕ) (i : grid1.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : ¬cond1_0 i) (hc1 : ¬cond1_1 i)
    (x0 : Vec F S512x1024 .bf16) (x1 : Vec F S1024x1024 .bf16) (s : Vec F S512x1024 .f32) (K : PUnit → sProp 𝕄) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (k1_pay2 s x0 x1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_unit_whole _ _ vecZero2, View.readAt_unit_whole _ _ vecZero2, View.readAt_unit_whole _ _ vecZero2, View.readAt_unit_whole _ _ vecZero2]

set_option maxHeartbeats 1000000 in
/-- Last point of a column block (not its first): the product of the point's blocks is added to the accumulator,
    and the output buffer, whatever it held, is stored the gated accumulator. -/
theorem kernel1_C (c : Dev nD) (E : Set ℕ) (i : grid1.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : ¬cond1_0 i) (hc1 : cond1_1 i)
    (x0 : Vec F S512x1024 .bf16) (x1 : Vec F S1024x1024 .bf16) (s : Vec F S512x1024 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k1_pay3 (k1_pay2 s x0 x1))
            ∗ owns (c : Thread nD τ) arg5 fullShare (k1_pay2 s x0 x1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%dout, %fo, -, HO⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    rw [View.read_writes_unit_whole _ _ vecZero2]
    unfold kernel1_C.sl.v16 kernel1_C.sl.HS_1
    rw [View.readCov_cons_toLoadRect, View.readAt_unit_whole _ _ vecZero2, View.readAt_unit_whole _ _ vecZero2, View.readAt_unit_whole _ _ vecZero2]
  iexists _; isplitr
  swap; · iexact HS
  ipureintro
  unfold kernel1_C.sl.HS_1
  rw [View.read_writes_unit_whole _ _ vecZero2, View.readAt_unit_whole _ _ vecZero2, View.readAt_unit_whole _ _ vecZero2, View.readAt_unit_whole _ _ vecZero2]

/-! ## The body obligation, at a generic point -/

/-- Each window's current staging memref at point `t`, spelled as the pipeline passes it. -/
abbrev ms1_0 (t : Fin cfg1.N) : Memref sig .tc .vmem S512x1024 .bf16 := win1_0.stage (cfg1.slots t 0)
abbrev ms1_1 (t : Fin cfg1.N) : Memref sig .tc .vmem S1024x1024 .bf16 := win1_1.stage (cfg1.slots t 1)
abbrev ms1_2 (t : Fin cfg1.N) : Memref sig .tc .vmem S512x1024 .f32 := win1_2.stage (cfg1.slots t 2)

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' buffers hold their blocks; the closed forms say which control case the point is
    in; the invariant hands the body the accumulator's buffer at what the point before left (at anything where the
    body resets it) and takes it back at this point's accumulator; an output window the case does not store into
    is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ, Phi1_castSucc]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 20 := lt_of_lt_of_eq t.isLt (show cfg1.N = 20 from N_1)
  by_cases h1 : t.val % 5 = 4
  · have h0 : ¬t.val % 5 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    unfold out1
    rw [accAt1_later V c t h0, Phi1_pos V c _ _ hz]
    iintro ⟨⟨HS, Hw⟩, Ho, ⟨%d0, H0⟩, ⟨%d1, H1⟩, ⟨%d2, H2⟩⟩
    iapply (kernel1_C c Set.univ (grid1.coords t) _ _ _ _ _ _ _ _ (fun h => h0 ((hcond1_0 t).mp h)) ((hcond1_1 t).mpr h1) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hw]
    · isplitl [HS]; · iexact HS
      iexact Hw
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 5 = 0
    · rw [accAt1_first V c t h0]
      iintro ⟨HΦ, Ho, ⟨%d0, H0⟩, ⟨%d1, H1⟩, H2⟩
      ihave ⟨HS, Hw⟩ := (Phi1_open V c _ _) $$ HΦ
      iapply (kernel1_A c Set.univ (grid1.coords t) _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexact HS
      iintro ⟨H0, H1, HS⟩
      isplitl [HS Hw]
      · isplitl [HS]; · iexact HS
        iexact Hw
      isplitl [Ho]; · iexact Ho
      isplitl [H0]; · iexact H0
      isplitl [H1]; · iexact H1
      iexact H2
    · have hz : t.val ≠ 0 := fun e => h0 (by rw [e])
      rw [accAt1_later V c t h0, Phi1_pos V c _ _ hz]
      iintro ⟨⟨HS, Hw⟩, Ho, ⟨%d0, H0⟩, ⟨%d1, H1⟩, H2⟩
      iapply (kernel1_B c Set.univ (grid1.coords t) _ _ _ _ _ _ _ _ (fun h => h0 ((hcond1_0 t).mp h)) (fun h => h1 ((hcond1_1 t).mp h)) (iblk1 V c 0 t) (iblk1 V c 1 t) _ _)
      isplitl [H0]; · iexact H0
      isplitl [H1]; · iexact H1
      isplitl [HS]; · iexact HS
      iintro ⟨H0, H1, HS⟩
      isplitl [HS Hw]
      · isplitl [HS]; · iexact HS
        iexact Hw
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2 of the program (the matrix product whose contracted axis is cut into 9 blocks per column block), on one
  core, at any buffer contents `V` on entry: the body's branch conditions in closed form over the grid; where the
  windows are idle; the accumulator's buffer taken out of the class invariant and put back; the input windows'
  buffers at their blocks at every point; the body's triple in each control case (every load and store of the body
  is of a whole buffer, so a store leaves its payload and a load reads what the buffer holds); and from these the
  body obligation of the proof data `dat2`, with the invariant's two ends.
-/
import proofs.«117565_j22136261443720_1_alg».proof.Proof.K.Data
import proofs.«117565_j22136261443720_1_alg».proof.Proof.LibWhole

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: 9 blocks of the contracted axis per column block -/

/-! ## The body's branch conditions, in closed form over the grid -/

/-- The condition of the body's first `scf.if` (the accumulator is reset), from the grid coordinates. -/
abbrev cond2_0 (i : grid2.Coords) : Prop := (Scalar.cmpi .ne (Scalar.extui (Scalar.cmpi .eq (BitVec.ofNat 32 (i 1).val) 0#32)) 0#32) = 1#1
/-- It holds at the first point of each column block — decided over the grid. -/
theorem hcond2_0 : ∀ t : Fin cfg2.N, cond2_0 (grid2.coords t) ↔ t.val % 9 = 0 :=
  (by decide +kernel : ∀ t : Fin grid2.N, cond2_0 (grid2.coords t) ↔ t.val % 9 = 0)

/-- The condition of the body's second `scf.if` (the output block is stored). -/
abbrev cond2_1 (i : grid2.Coords) : Prop := k2_cond2 i = 1#1
/-- It holds at the last point of each column block — decided over the grid. -/
theorem hcond2_1 : ∀ t : Fin cfg2.N, cond2_1 (grid2.coords t) ↔ t.val % 9 = 8 :=
  (by decide +kernel : ∀ t : Fin grid2.N, cond2_1 (grid2.coords t) ↔ t.val % 9 = 8)

/-! ## Where the windows are idle -/

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where the output block is not stored the output window is idle, and the pipeline does not write it back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it is stored the window is live. -/
theorem liveAt2_2 : ∀ t : Fin cfg2.N, cond2_1 (grid2.coords t) → cfg2.idle 2 (grid2.coords t) = false := by decide +kernel

/-! ## The scratch buffer out of the class invariant, and back -/

/-- The class invariant holds the accumulator's buffer at some contents, and is given back for it at any contents:
    the buffer is one of the core's scoped buffers that are no staging buffer of the region. -/
theorem PhiA2_split (c : Dev nD) :
    (Pipeline.ΦA spec2 c : sProp 𝕄) ⊢ iprop(iprop(∃ d, owns (c : Thread nD τ) scM2 fullShare d)
      ∗ (iprop(∃ d, owns (c : Thread nD τ) scM2 fullShare d) -∗ Pipeline.ΦA spec2 c)) := by
  unfold Pipeline.ΦA; rw [scopedRest2_eq]; simp only [scM2, owns_whole]
  iintro ⟨⟨R0, R1, R2, R3, R4, R5, R6, R7, R8, R9, R10, R11, R12, R13⟩, Hg⟩
  isplitl [R13]; · iexact R13
  iintro R13
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

/-- Before any point the region invariant holds the accumulator's buffer at some contents, beside the promise. -/
theorem Phi2_open (c : Dev nD) (n : ℕ) (h : n ≤ cfg2.N) :
    Phi2 V c n h ⊢ iprop(iprop(∃ d, owns (c : Thread nD τ) scM2 fullShare d)
      ∗ (iprop(∃ d, owns (c : Thread nD τ) scM2 fullShare d) -∗ Pipeline.ΦA spec2 c)) := by
  cases n with
  | zero => exact PhiA2_split c
  | succ n =>
    rw [Phi2_succ]
    iintro ⟨HS, Hw⟩
    isplitl [HS]; · iexists _; iexact HS
    iexact Hw

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 36 := N_2; omega)]
  iintro ⟨HS, Hw⟩
  iapply Hw
  iexists _; iexact HS

/-! ## The input windows' buffers hold their blocks at every point -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's triple, one per control case, on any whole staging memrefs

Every load and store of the body is of a WHOLE buffer, so what a buffer holds after a store is the store's payload
and what a load reads is what the buffer holds. -/

set_option maxHeartbeats 1000000 in
/-- First point of a column block (not its last): the accumulator, whatever it held, is reset and the product of the
    point's blocks added; the output buffer is not touched. -/
theorem kernel2_A (c : Dev nD) (E : Set ℕ) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : cond2_0 i) (hc1 : ¬cond2_1 i)
    (x0 : Vec F S512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k2_pay2 (k2_pay1 (F := F)) x0 x1)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_unit_whole _ _ vecZero2, View.readAt_unit_whole _ _ vecZero2, View.readAt_unit_whole _ _ vecZero2]
  unfold kernel2_A.sl.v3 kernel2_A.sl.HS_1
  rw [View.readCov_cons_toLoadRect]

set_option maxHeartbeats 1000000 in
/-- A point neither first nor last of its column block: the product of the point's blocks is added to the
    accumulator; the output buffer is not touched. -/
theorem kernel2_B (c : Dev nD) (E : Set ℕ) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : ¬cond2_0 i) (hc1 : ¬cond2_1 i)
    (x0 : Vec F S512x1024 .bf16) (x1 : Vec F S1024x1024 .bf16) (s : Vec F S512x1024 .f32) (K : PUnit → sProp 𝕄) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (k2_pay2 s x0 x1)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_unit_whole _ _ vecZero2, View.readAt_unit_whole _ _ vecZero2, View.readAt_unit_whole _ _ vecZero2, View.readAt_unit_whole _ _ vecZero2]

set_option maxHeartbeats 1000000 in
/-- Last point of a column block (not its first): the product of the point's blocks is added to the accumulator,
    and the output buffer, whatever it held, is stored the accumulator. -/
theorem kernel2_C (c : Dev nD) (E : Set ℕ) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : ¬cond2_0 i) (hc1 : cond2_1 i)
    (x0 : Vec F S512x1024 .bf16) (x1 : Vec F S1024x1024 .bf16) (s : Vec F S512x1024 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k2_pay2 s x0 x1)
            ∗ owns (c : Thread nD τ) arg5 fullShare (k2_pay2 s x0 x1)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%dout, %fo, -, HO⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    rw [View.read_writes_unit_whole _ _ vecZero2]
    unfold kernel2_C.sl.v16 kernel2_C.sl.HS_1
    rw [View.readCov_cons_toLoadRect, View.readAt_unit_whole _ _ vecZero2, View.readAt_unit_whole _ _ vecZero2, View.readAt_unit_whole _ _ vecZero2]
  iexists _; isplitr
  swap; · iexact HS
  ipureintro
  unfold kernel2_C.sl.HS_1
  rw [View.read_writes_unit_whole _ _ vecZero2, View.readAt_unit_whole _ _ vecZero2, View.readAt_unit_whole _ _ vecZero2, View.readAt_unit_whole _ _ vecZero2]

/-! ## The body obligation, at a generic point -/

/-- Each window's current staging memref at point `t`, spelled as the pipeline passes it. -/
abbrev ms2_0 (t : Fin cfg2.N) : Memref sig .tc .vmem S512x1024 .bf16 := win2_0.stage (cfg2.slots t 0)
abbrev ms2_1 (t : Fin cfg2.N) : Memref sig .tc .vmem S1024x1024 .bf16 := win2_1.stage (cfg2.slots t 1)
abbrev ms2_2 (t : Fin cfg2.N) : Memref sig .tc .vmem S512x1024 .f32 := win2_2.stage (cfg2.slots t 2)

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' buffers hold their blocks; the closed forms say which control case the point is
    in; the invariant hands the body the accumulator's buffer at what the point before left (at anything where the
    body resets it) and takes it back at this point's accumulator; an output window the case does not store into
    is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ, Phi2_castSucc]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 36 := lt_of_lt_of_eq t.isLt (show cfg2.N = 36 from N_2)
  by_cases h1 : t.val % 9 = 8
  · have h0 : ¬t.val % 9 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    unfold out2
    rw [accAt2_later V c t h0, Phi2_pos V c _ _ hz]
    iintro ⟨⟨HS, Hw⟩, Ho, ⟨%d0, H0⟩, ⟨%d1, H1⟩, ⟨%d2, H2⟩⟩
    iapply (kernel2_C c Set.univ (grid2.coords t) _ _ _ _ _ _ _ _ (fun h => h0 ((hcond2_0 t).mp h)) ((hcond2_1 t).mpr h1) (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [HS Hw]
    · isplitl [HS]; · iexact HS
      iexact Hw
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 9 = 0
    · rw [accAt2_first V c t h0]
      iintro ⟨HΦ, Ho, ⟨%d0, H0⟩, ⟨%d1, H1⟩, H2⟩
      ihave ⟨HS, Hw⟩ := (Phi2_open V c _ _) $$ HΦ
      iapply (kernel2_A c Set.univ (grid2.coords t) _ _ _ _ _ _ _ _ ((hcond2_0 t).mpr h0) (fun h => h1 ((hcond2_1 t).mp h)) (iblk2 V c 0 t) (iblk2 V c 1 t) _)
      isplitl [H0]; · iexact H0
      isplitl [H1]; · iexact H1
      isplitl [HS]; · iexact HS
      iintro ⟨H0, H1, HS⟩
      isplitl [HS Hw]
      · isplitl [HS]; · iexact HS
        iexact Hw
      isplitl [Ho]; · iexact Ho
      isplitl [H0]; · iexact H0
      isplitl [H1]; · iexact H1
      iexact H2
    · have hz : t.val ≠ 0 := fun e => h0 (by rw [e])
      rw [accAt2_later V c t h0, Phi2_pos V c _ _ hz]
      iintro ⟨⟨HS, Hw⟩, Ho, ⟨%d0, H0⟩, ⟨%d1, H1⟩, H2⟩
      iapply (kernel2_B c Set.univ (grid2.coords t) _ _ _ _ _ _ _ _ (fun h => h0 ((hcond2_0 t).mp h)) (fun h => h1 ((hcond2_1 t).mp h)) (iblk2 V c 0 t) (iblk2 V c 1 t) _ _)
      isplitl [H0]; · iexact H0
      isplitl [H1]; · iexact H1
      isplitl [HS]; · iexact HS
      iintro ⟨H0, H1, HS⟩
      isplitl [HS Hw]
      · isplitl [HS]; · iexact HS
        iexact Hw
      isplitl [Ho]; · iexact Ho
      isplitl [H0]; · iexact H0
      isplitl [H1]; · iexact H1
      iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body.lean ====
/-
  The three matrix-product regions' body obligations and invariant ends, gathered: for K = 0, 1, 2
  `body_obligationK`, `hinK`, `houtK` over the proof data `datK` at any entry contents `V`.
-/
import proofs.«117565_j22136261443720_1_alg».proof.Proof.K.Body0
import proofs.«117565_j22136261443720_1_alg».proof.Proof.K.Body1
import proofs.«117565_j22136261443720_1_alg».proof.Proof.K.Body2
-- ==== Proof.K.Frame.lean ====
/-
  The frame of the program and its result: every weakly fair execution ends with the argument arrays as
  launched, and with the result buffer at what the last region's write-backs leave in its output array.
-/
import proofs.«117565_j22136261443720_1_alg».proof.Proof.K.Main
import proofs.«117565_j22136261443720_1_alg».proof.Proof.K.Body

set_option maxRecDepth 16384

noncomputable section

namespace Cert.Kernel.Hand

open Idealize.ShloMosaic Idealize.ShloMosaic.TcCoe
open Idealize.SL Idealize.SL.Sem
open Cert.Kernel Cert.Kernel.Gen

variable {F : FTy → Type} [FloatOps F]

variable (m : (ℓ : Loc nD τ sig) → Buf (Elt F) ℓ) (ρ : Dev nD → PrngReg)

/-- The run, with the three regions' body obligations supplied. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = V22 m (outs m) c b) :=
  run_all m ρ (fun c => body_obligation0 (U3 m) c) (fun c => hin0 (U3 m) c) (fun c => hout0 (U3 m) c)
    (fun c => body_obligation1 (U11 m) c) (fun c => hin1 (U11 m) c) (fun c => hout1 (U11 m) c)
    (fun c => body_obligation2 (U21 m) c) (fun c => hin2 (U21 m) c) (fun c => hout2 (U21 m) c)

/-- The result buffer named, and the arguments unchanged. -/
theorem run_result : θ_run defs (onTc (τ := τ) (main (F := F))) ⟨m, fun _ => 0, ρ⟩ (fun r => ∀ c : Dev nD,
      r.2.mem ((c.tc : Thread nD τ).loc main_v122) = o22 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c (Proc.devRef .tc main_v122) (mem_uc main_v122 (by decide))).trans (V22_result m c),
      (h c (Proc.devRef .tc main_arg0) (mem_uc main_arg0 (by decide))).trans (V22_main_arg0 m (outs m) c),
      (h c (Proc.devRef .tc main_arg1) (mem_uc main_arg1 (by decide))).trans (V22_main_arg1 m (outs m) c),
      (h c (Proc.devRef .tc main_arg2) (mem_uc main_arg2 (by decide))).trans (V22_main_arg2 m (outs m) c),
      (h c (Proc.devRef .tc main_arg3) (mem_uc main_arg3 (by decide))).trans (V22_main_arg3 m (outs m) c),
      (h c (Proc.devRef .tc main_arg4) (mem_uc main_arg4 (by decide))).trans (V22_main_arg4 m (outs m) c),
      (h c (Proc.devRef .tc main_arg5) (mem_uc main_arg5 (by decide))).trans (V22_main_arg5 m (outs m) c),
      (h c (Proc.devRef .tc main_arg6) (mem_uc main_arg6 (by decide))).trans (V22_main_arg6 m (outs m) c),
      (h c (Proc.devRef .tc main_arg7) (mem_uc main_arg7 (by decide))).trans (V22_main_arg7 m (outs m) c),
      (h c (Proc.devRef .tc main_arg8) (mem_uc main_arg8 (by decide))).trans (V22_main_arg8 m (outs m) c),
      (h c (Proc.devRef .tc main_arg9) (mem_uc main_arg9 (by decide))).trans (V22_main_arg9 m (outs m) c),
      (h c (Proc.devRef .tc main_arg10) (mem_uc main_arg10 (by decide))).trans (V22_main_arg10 m (outs m) c),
      (h c (Proc.devRef .tc main_arg11) (mem_uc main_arg11 (by decide))).trans (V22_main_arg11 m (outs m) c),
      (h c (Proc.devRef .tc main_arg12) (mem_uc main_arg12 (by decide))).trans (V22_main_arg12 m (outs m) c),
      (h c (Proc.devRef .tc main_arg13) (mem_uc main_arg13 (by decide))).trans (V22_main_arg13 m (outs m) c),
      (h c (Proc.devRef .tc main_arg14) (mem_uc main_arg14 (by decide))).trans (V22_main_arg14 m (outs m) c),
      (h c (Proc.devRef .tc main_arg15) (mem_uc main_arg15 (by decide))).trans (V22_main_arg15 m (outs m) c),
      (h c (Proc.devRef .tc main_arg16) (mem_uc main_arg16 (by decide))).trans (V22_main_arg16 m (outs m) c)⟩) (run_full m ρ)

/-- The frame: the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_result m ρ)

end Cert.Kernel.Hand

end
-- ==== Proof.KI.Data.lean ====
/-
  The three matrix-product regions of the program, each at a parameter `V` (the buffers' contents when the
  region is entered): a window's block at a grid point; the accumulator the kernel body keeps in its scratch
  buffer from one point to the next (reset to zero at the first point of a column block, then the block
  product of the point added to what the point before left); what the output window's staging buffer
  holds after the body; the region invariant (the scratch buffer at the accumulator of the point before,
  beside the promise to give the class invariant back for the scratch at any contents); the proof data.
-/
import proofs.«117565_j22136261443720_1_alg».proof.Proof.Gen.KernelIdeal.Launch
import proofs.«117565_j22136261443720_1_alg».proof.Proof.Gen.KernelIdeal.Skeleton
import proofs.«117565_j22136261443720_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0: 1 block of the contracted axis per column block -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The kernel's scratch operand: the accumulator's buffer. -/
abbrev scM0 : Memref sig .tc .vmem S512x1024 .f32 := Memref.whole cc0_scratch0

/-- The accumulator after the body at position `n`: the product of the point's two blocks added to zero at
    the first point of a column block (`n` a multiple of 1), to what the point before left otherwise. -/
def accAt0 (c : Dev nD) : (n : ℕ) → n < cfg0.N → Vec F S512x1024 .f32
  | 0, hn => k0_pay2 (k0_pay1 (F := F)) (iblk0 V c 0 ⟨0, hn⟩) (iblk0 V c 1 ⟨0, hn⟩)
  | n + 1, hn => k0_pay2 (if (n + 1) % 1 = 0 then k0_pay1 (F := F) else accAt0 c n (Nat.lt_of_succ_lt hn))
      (iblk0 V c 0 ⟨n + 1, hn⟩) (iblk0 V c 1 ⟨n + 1, hn⟩)

/-- What the output window's staging buffer holds after the body at point `t` (consulted only at the last
    point of a column block, where the body stores it and the pipeline writes it back). -/
def out0 (c : Dev nD) (t : Fin cfg0.N) : Vec F S512x1024 .f32 := k0_pay3 (accAt0 V c t.val t.isLt)

/-- The region invariant before position `n`: the class invariant before the first point; afterwards the scratch
    buffer at the accumulator the point before left, beside the class invariant less that buffer. -/
def Phi0 (c : Dev nD) : (n : ℕ) → n ≤ cfg0.N → sProp 𝕄
  | 0, _ => Pipeline.ΦA spec0 c
  | n + 1, hn => iprop(owns (c : Thread nD τ) scM0 fullShare (accAt0 V c n hn)
      ∗ (iprop(∃ d, owns (c : Thread nD τ) scM0 fullShare d) -∗ Pipeline.ΦA spec0 c))

/-- The proof data of region 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]
theorem Phi0_zero (c : Dev nD) (n : ℕ) (h : n ≤ cfg0.N) (hz : n = 0) : Phi0 V c n h = Pipeline.ΦA spec0 c := by
  subst hz; rfl
theorem Phi0_succ (c : Dev nD) (n : ℕ) (hn : n < cfg0.N) :
    Phi0 V c (n + 1) hn = iprop(owns (c : Thread nD τ) scM0 fullShare (accAt0 V c n hn)
      ∗ (iprop(∃ d, owns (c : Thread nD τ) scM0 fullShare d) -∗ Pipeline.ΦA spec0 c)) := rfl
theorem Phi0_pos (c : Dev nD) (n : ℕ) (h : n ≤ cfg0.N) (hz : n ≠ 0) :
    Phi0 V c n h = iprop(owns (c : Thread nD τ) scM0 fullShare (accAt0 V c (n - 1) (by omega))
      ∗ (iprop(∃ d, owns (c : Thread nD τ) scM0 fullShare d) -∗ Pipeline.ΦA spec0 c)) := by
  cases n with
  | zero => exact absurd rfl hz
  | succ n => rfl
theorem Phi0_castSucc (c : Dev nD) (t : Fin cfg0.N) :
    (dat0 V c).Φ t.castSucc = Phi0 V c t.val (Nat.le_of_lt t.isLt) := by
  dsimp only [dat0]; simp only [Fin.coe_castSucc]
theorem accAt0_first (c : Dev nD) (t : Fin cfg0.N) (h : t.val % 1 = 0) :
    accAt0 V c t.val t.isLt = k0_pay2 (k0_pay1 (F := F)) (iblk0 V c 0 t) (iblk0 V c 1 t) := by
  obtain ⟨n, hn⟩ := t
  cases n with
  | zero => rfl
  | succ n => exact congrArg (fun a => k0_pay2 a _ _) (if_pos h)
theorem accAt0_later (c : Dev nD) (t : Fin cfg0.N) (h : ¬ t.val % 1 = 0) :
    accAt0 V c t.val t.isLt = k0_pay2 (accAt0 V c (t.val - 1) (Nat.lt_of_le_of_lt (Nat.sub_le _ _) t.isLt)) (iblk0 V c 0 t) (iblk0 V c 1 t) := by
  obtain ⟨n, hn⟩ := t
  cases n with
  | zero => exact absurd (Nat.zero_mod _) h
  | succ n => exact congrArg (fun a => k0_pay2 a _ _) (if_neg h)

/-! ## Region 1: 5 blocks of the contracted axis per column block -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The kernel's scratch operand: the accumulator's buffer. -/
abbrev scM1 : Memref sig .tc .vmem S512x1024 .f32 := Memref.whole cc1_scratch0

/-- The accumulator after the body at position `n`: the product of the point's two blocks added to zero at
    the first point of a column block (`n` a multiple of 5), to what the point before left otherwise. -/
def accAt1 (c : Dev nD) : (n : ℕ) → n < cfg1.N → Vec F S512x1024 .f32
  | 0, hn => k1_pay2 (k1_pay1 (F := F)) (iblk1 V c 0 ⟨0, hn⟩) (iblk1 V c 1 ⟨0, hn⟩)
  | n + 1, hn => k1_pay2 (if (n + 1) % 5 = 0 then k1_pay1 (F := F) else accAt1 c n (Nat.lt_of_succ_lt hn))
      (iblk1 V c 0 ⟨n + 1, hn⟩) (iblk1 V c 1 ⟨n + 1, hn⟩)

/-- What the output window's staging buffer holds after the body at point `t` (consulted only at the last
    point of a column block, where the body stores it and the pipeline writes it back). -/
def out1 (c : Dev nD) (t : Fin cfg1.N) : Vec F S512x1024 .f32 := k1_pay3 (accAt1 V c t.val t.isLt)

/-- The region invariant before position `n`: the class invariant before the first point; afterwards the scratch
    buffer at the accumulator the point before left, beside the class invariant less that buffer. -/
def Phi1 (c : Dev nD) : (n : ℕ) → n ≤ cfg1.N → sProp 𝕄
  | 0, _ => Pipeline.ΦA spec1 c
  | n + 1, hn => iprop(owns (c : Thread nD τ) scM1 fullShare (accAt1 V c n hn)
      ∗ (iprop(∃ d, owns (c : Thread nD τ) scM1 fullShare d) -∗ Pipeline.ΦA spec1 c))

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 V c t := by dsimp only [dat1]
theorem Phi1_zero (c : Dev nD) (n : ℕ) (h : n ≤ cfg1.N) (hz : n = 0) : Phi1 V c n h = Pipeline.ΦA spec1 c := by
  subst hz; rfl
theorem Phi1_succ (c : Dev nD) (n : ℕ) (hn : n < cfg1.N) :
    Phi1 V c (n + 1) hn = iprop(owns (c : Thread nD τ) scM1 fullShare (accAt1 V c n hn)
      ∗ (iprop(∃ d, owns (c : Thread nD τ) scM1 fullShare d) -∗ Pipeline.ΦA spec1 c)) := rfl
theorem Phi1_pos (c : Dev nD) (n : ℕ) (h : n ≤ cfg1.N) (hz : n ≠ 0) :
    Phi1 V c n h = iprop(owns (c : Thread nD τ) scM1 fullShare (accAt1 V c (n - 1) (by omega))
      ∗ (iprop(∃ d, owns (c : Thread nD τ) scM1 fullShare d) -∗ Pipeline.ΦA spec1 c)) := by
  cases n with
  | zero => exact absurd rfl hz
  | succ n => rfl
theorem Phi1_castSucc (c : Dev nD) (t : Fin cfg1.N) :
    (dat1 V c).Φ t.castSucc = Phi1 V c t.val (Nat.le_of_lt t.isLt) := by
  dsimp only [dat1]; simp only [Fin.coe_castSucc]
theorem accAt1_first (c : Dev nD) (t : Fin cfg1.N) (h : t.val % 5 = 0) :
    accAt1 V c t.val t.isLt = k1_pay2 (k1_pay1 (F := F)) (iblk1 V c 0 t) (iblk1 V c 1 t) := by
  obtain ⟨n, hn⟩ := t
  cases n with
  | zero => rfl
  | succ n => exact congrArg (fun a => k1_pay2 a _ _) (if_pos h)
theorem accAt1_later (c : Dev nD) (t : Fin cfg1.N) (h : ¬ t.val % 5 = 0) :
    accAt1 V c t.val t.isLt = k1_pay2 (accAt1 V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact congrArg (fun a => k1_pay2 a _ _) (if_neg h)

/-! ## Region 2: 9 blocks of the contracted axis per column block -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The kernel's scratch operand: the accumulator's buffer. -/
abbrev scM2 : Memref sig .tc .vmem S512x1024 .f32 := Memref.whole cc2_scratch0

/-- The accumulator after the body at position `n`: the product of the point's two blocks added to zero at
    the first point of a column block (`n` a multiple of 9), to what the point before left otherwise. -/
def accAt2 (c : Dev nD) : (n : ℕ) → n < cfg2.N → Vec F S512x1024 .f32
  | 0, hn => k2_pay2 (k2_pay1 (F := F)) (iblk2 V c 0 ⟨0, hn⟩) (iblk2 V c 1 ⟨0, hn⟩)
  | n + 1, hn => k2_pay2 (if (n + 1) % 9 = 0 then k2_pay1 (F := F) else accAt2 c n (Nat.lt_of_succ_lt hn))
      (iblk2 V c 0 ⟨n + 1, hn⟩) (iblk2 V c 1 ⟨n + 1, hn⟩)

/-- What the output window's staging buffer holds after the body at point `t` (consulted only at the last
    point of a column block, where the body stores it and the pipeline writes it back). -/
def out2 (c : Dev nD) (t : Fin cfg2.N) : Vec F S512x1024 .f32 := accAt2 V c t.val t.isLt

/-- The region invariant before position `n`: the class invariant before the first point; afterwards the scratch
    buffer at the accumulator the point before left, beside the class invariant less that buffer. -/
def Phi2 (c : Dev nD) : (n : ℕ) → n ≤ cfg2.N → sProp 𝕄
  | 0, _ => Pipeline.ΦA spec2 c
  | n + 1, hn => iprop(owns (c : Thread nD τ) scM2 fullShare (accAt2 V c n hn)
      ∗ (iprop(∃ d, owns (c : Thread nD τ) scM2 fullShare d) -∗ Pipeline.ΦA spec2 c))

/-- The proof data of region 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t := by dsimp only [dat2]
theorem Phi2_zero (c : Dev nD) (n : ℕ) (h : n ≤ cfg2.N) (hz : n = 0) : Phi2 V c n h = Pipeline.ΦA spec2 c := by
  subst hz; rfl
theorem Phi2_succ (c : Dev nD) (n : ℕ) (hn : n < cfg2.N) :
    Phi2 V c (n + 1) hn = iprop(owns (c : Thread nD τ) scM2 fullShare (accAt2 V c n hn)
      ∗ (iprop(∃ d, owns (c : Thread nD τ) scM2 fullShare d) -∗ Pipeline.ΦA spec2 c)) := rfl
theorem Phi2_pos (c : Dev nD) (n : ℕ) (h : n ≤ cfg2.N) (hz : n ≠ 0) :
    Phi2 V c n h = iprop(owns (c : Thread nD τ) scM2 fullShare (accAt2 V c (n - 1) (by omega))
      ∗ (iprop(∃ d, owns (c : Thread nD τ) scM2 fullShare d) -∗ Pipeline.ΦA spec2 c)) := by
  cases n with
  | zero => exact absurd rfl hz
  | succ n => rfl
theorem Phi2_castSucc (c : Dev nD) (t : Fin cfg2.N) :
    (dat2 V c).Φ t.castSucc = Phi2 V c t.val (Nat.le_of_lt t.isLt) := by
  dsimp only [dat2]; simp only [Fin.coe_castSucc]
theorem accAt2_first (c : Dev nD) (t : Fin cfg2.N) (h : t.val % 9 = 0) :
    accAt2 V c t.val t.isLt = k2_pay2 (k2_pay1 (F := F)) (iblk2 V c 0 t) (iblk2 V c 1 t) := by
  obtain ⟨n, hn⟩ := t
  cases n with
  | zero => rfl
  | succ n => exact congrArg (fun a => k2_pay2 a _ _) (if_pos h)
theorem accAt2_later (c : Dev nD) (t : Fin cfg2.N) (h : ¬ t.val % 9 = 0) :
    accAt2 V c t.val t.isLt = k2_pay2 (accAt2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact congrArg (fun a => k2_pay2 a _ _) (if_neg h)

end Cert.KernelIdeal.Hand

end
-- ==== Proof.KI.RunCond.lean ====
/-
  The run of the whole program, given one segment record per matrix-product region: every weakly fair
  execution ends, and in the final memory every unscoped buffer of a core holds the last valuation of the
  fold of buffer contents through the program (the launch memory, each stretch of host operations applied
  in turn, each region's output array replaced by what the region leaves). The statement's hypotheses are
  those of the generated conditional frame; what is read at the end is every unscoped buffer, not only the
  arguments, so that the result buffer's contents are named.
-/
import proofs.«117565_j22136261443720_1_alg».proof.Proof.Gen.KernelIdeal.Regions

set_option maxRecDepth 1904

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ) (outs : Outs (F := F))

set_option backward.isDefEq.respectTransparency.types false in
/-- The conditional run: from one segment record per region, entered from the thread state before it and left
    at the one after it, every weakly fair execution of the program ends with every unscoped buffer at the
    last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V11 m outs c) ∗ E 1 c) ⊢ R1.pre c)
    (hpost1 : ∀ c : Dev nD, R1.post c ⊢ iprop(StableHlo.held (c : Thread nD τ) (Pipeline.ucRefs τ sig) (V12 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V21 m outs c) ∗ E 2 c) ⊢ R2.pre c)
    (hpost2 : ∀ c : Dev nD, R2.post c ⊢ iprop(StableHlo.held (c : Thread nD τ) (Pipeline.ucRefs τ sig) (V22 m outs c) ∗ E 3 c)) :
    θ_run defs (onTc (τ := τ) (main (F := F))) ⟨m, fun _ => 0, ρ⟩ (fun r => ∀ c : Dev nD,
      ∀ b ∈ Pipeline.ucRefs τ sig, r.2.mem (((c : Thread nD τ)).1, b) = V22 m outs c b) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          Prog.lift (.customCall (Pipeline.entry 2) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V22 m outs c))
    (hch := fun c => ⟨.rfl, .rfl, .rfl, hpre0 c, hpost0 c, .rfl, .rfl, .rfl, .rfl, .rfl, .rfl, hpre1 c, hpost1 c, .rfl, .rfl, .rfl, .rfl, .rfl, .rfl, .rfl, .rfl, hpre2 c, (hpost2 c).trans (sep_mono .rfl (hE3 c))⟩)
    (hinit := ?_) (QY := fun c s => ∀ b ∈ Pipeline.ucRefs τ sig, s.mem (((c : Thread nD τ)).1, b) = V22 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    imodintro
    iapply (pointsTo_read_all (Pipeline.ucRefs τ sig) (fun b => (((c : Thread nD τ)).1, b)) (V22 m outs c) s')
    isplitl [Hh] <;> iassumption

end Cert.KernelIdeal.Hand

end
-- ==== Proof.KI.Run.lean ====
/-
  The three matrix-product regions as segments of the program, and the program's run: the fold of buffer
  contents through the program with each region's output array at what the region's write-backs leave
  (the proof data's array after the last grid point), the proof data of the three regions each at its
  entry contents, one segment record per region, and the run with every unscoped buffer of the final memory
  at the last valuation of the fold.
-/
import proofs.«117565_j22136261443720_1_alg».proof.Proof.KI.Data
import proofs.«117565_j22136261443720_1_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' outputs, stage by stage -/

/-- The buffers' contents when region 0 is entered, read at the TensorCore's references. -/
abbrev U3 : (c : Dev nD) → (b : Ref sig .tc) → Buf (Elt F) ((c : Thread nD τ).loc b) := fun c b => V3 m c b
/-- What region 0 leaves in its output array. -/
def o4 (c : Dev nD) : Buf (Elt F) ((c : Thread nD τ).loc main_v15) := (dat0 (U3 m) c).arrAt 2 cfg0.N
/-- The regions' outputs with region 0's known. -/
def outs1 : Outs (F := F) := fun _ r c => Function.update (V3 m c) main_v15 (o4 m c) r
/-- The buffers' contents when region 1 is entered. -/
abbrev U11a : (c : Dev nD) → (b : Ref sig .tc) → Buf (Elt F) ((c : Thread nD τ).loc b) := fun c b => V11 m (outs1 m) c b
/-- What region 1 leaves in its output array. -/
def o12 (c : Dev nD) : Buf (Elt F) ((c : Thread nD τ).loc main_v63) := (dat1 (U11a m) c).arrAt 2 cfg1.N
/-- The regions' outputs with regions 0 and 1's known. -/
def outs2 : Outs (F := F) := fun n r c => if n = 4 then outs1 m n r c else Function.update (V11 m (outs1 m) c) main_v63 (o12 m c) r
/-- The buffers' contents when region 2 is entered. -/
abbrev U21a : (c : Dev nD) → (b : Ref sig .tc) → Buf (Elt F) ((c : Thread nD τ).loc b) := fun c b => V21 m (outs2 m) c b
/-- What region 2 leaves in its output array: the program's result. -/
def o22 (c : Dev nD) : Buf (Elt F) ((c : Thread nD τ).loc main_v122) := (dat2 (U21a m) c).arrAt 2 cfg2.N
/-- The regions' outputs. -/
def outs : Outs (F := F) := fun n r c => if n = 22 then Function.update (V21 m (outs2 m) c) main_v122 (o22 m c) r else outs2 m n r c

theorem outs_4 (c : Dev nD) : outs m 4 main_v15 c = o4 m c := by
  show Function.update (V3 m c) main_v15 (o4 m c) main_v15 = _
  exact Function.update_self _ _ _
theorem outs_12 (c : Dev nD) : outs m 12 main_v63 c = o12 m c := by
  show Function.update (V11 m (outs1 m) c) main_v63 (o12 m c) main_v63 = _
  exact Function.update_self _ _ _
theorem outs_22 (c : Dev nD) : outs m 22 main_v122 c = o22 m c := by
  show Function.update (V21 m (outs2 m) c) main_v122 (o22 m c) main_v122 = _
  exact Function.update_self _ _ _

/-- The fold up to region 1's entry reads the regions' outputs at region 0's only. -/
theorem V11_outs (c : Dev nD) : V11 m (outs m) c = V11 m (outs1 m) c := rfl
/-- The fold up to region 2's entry reads them at regions 0 and 1's only. -/
theorem V21_outs (c : Dev nD) : V21 m (outs m) c = V21 m (outs2 m) c := rfl

abbrev U4 : (c : Dev nD) → (b : Ref sig .tc) → Buf (Elt F) ((c : Thread nD τ).loc b) := fun c b => V4 m (outs m) c b
abbrev U11 : (c : Dev nD) → (b : Ref sig .tc) → Buf (Elt F) ((c : Thread nD τ).loc b) := fun c b => V11 m (outs1 m) c b
abbrev U12 : (c : Dev nD) → (b : Ref sig .tc) → Buf (Elt F) ((c : Thread nD τ).loc b) := fun c b => V12 m (outs m) c b
abbrev U21 : (c : Dev nD) → (b : Ref sig .tc) → Buf (Elt F) ((c : Thread nD τ).loc b) := fun c b => V21 m (outs2 m) c b
abbrev U22 : (c : Dev nD) → (b : Ref sig .tc) → Buf (Elt F) ((c : Thread nD τ).loc b) := fun c b => V22 m (outs m) c b

/-! ## The proof data family and the thread state -/

/-- Every region's proof data, each at its entry contents. -/
def pdats : (p : Fin 3) → (c : Dev nD) → Dat τ (Elt F) Unit ℕ (UR sig nD τ) ℕ (Pipeline.pin (pcfgs (F := F)) adm p) c
  | ⟨0, _⟩ => fun c => dat0 (U3 m) c
  | ⟨1, _⟩ => fun c => dat1 (U11 m) c
  | ⟨2, _⟩ => fun c => dat2 (U21 m) c
abbrev 𝒱₀ : Variants := Variants.none
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)

/-- At region 0's exit each of its arrays holds what the pipeline leaves (the inputs as entered, the output at what
    its write-backs leave) and every other buffer what it held at entry. -/
theorem hF0 (c : Dev nD) (w : Fin cfg0.W) : (dat0 (U3 m) c).arrAt w cfg0.N = U4 m c (Pipeline.arrRef spec0 w) := by
  match w with
  | ⟨0, _⟩ => exact ((dat0 (U3 m) c).arrAt_in 0 rfl _).trans ((A_eq0 (U3 m) c 0).trans (V4_of m (outs m) c _ (by decide)).symm)
  | ⟨1, _⟩ => exact ((dat0 (U3 m) c).arrAt_in 1 rfl _).trans ((A_eq0 (U3 m) c 1).trans (V4_of m (outs m) c _ (by decide)).symm)
  | ⟨2, _⟩ =>
    show _ = Function.update (V3 m c) main_v15 (outs m 4 main_v15 c) main_v15
    rw [Function.update_self, outs_4]; rfl
theorem hrest0 (c : Dev nD) : ∀ b, b ∉ Finset.univ.image (Pipeline.arrRef spec0) → U4 m c b = U3 m c b :=
  fun b hb => V4_of m (outs m) c b (by
    intro h; simp only [List.mem_singleton] at h; subst h
    exact hb (Finset.mem_image.mpr ⟨2, Finset.mem_univ _, rfl⟩))

set_option backward.isDefEq.respectTransparency.types false in
/-- Region 0 as a segment: entered from every unscoped buffer at the contents before it, left at the contents after
    it; its arrays split out of the unscoped buffers and put back at the exit contents; the generator register into
    the region invariant and out; nothing owed; no semaphore of the kernel's own. -/
def reg0 (hb : ∀ c, BodyObligation (dat0 (F := F) (U3 m) c) (defs₀ (F := F)) Variants.none () Set.univ)
    (hi : ∀ c, (Pipeline.ΦA spec0 c : sProp 𝕄) ⊢ (dat0 (U3 m) c).Φ 0)
    (ho : ∀ c, (dat0 (U3 m) c).Φ (Fin.last cfg0.N) ⊢ (Pipeline.ΦA spec0 c : sProp 𝕄)) :
    Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine (ho c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U3 m c) (U4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves (the inputs as entered, the output at what
    its write-backs leave) and every other buffer what it held at entry. -/
theorem hF1 (c : Dev nD) (w : Fin cfg1.W) : (dat1 (U11 m) c).arrAt w cfg1.N = U12 m c (Pipeline.arrRef spec1 w) := by
  match w with
  | ⟨0, _⟩ => exact ((dat1 (U11 m) c).arrAt_in 0 rfl _).trans ((A_eq1 (U11 m) c 0).trans (V12_of m (outs m) c _ (by decide)).symm)
  | ⟨1, _⟩ => exact ((dat1 (U11 m) c).arrAt_in 1 rfl _).trans ((A_eq1 (U11 m) c 1).trans (V12_of m (outs m) c _ (by decide)).symm)
  | ⟨2, _⟩ =>
    show _ = Function.update (V11 m (outs m) c) main_v63 (outs m 12 main_v63 c) main_v63
    rw [Function.update_self, outs_12]; rfl
theorem hrest1 (c : Dev nD) : ∀ b, b ∉ Finset.univ.image (Pipeline.arrRef spec1) → U12 m c b = U11 m c b :=
  fun b hb => V12_of m (outs m) c b (by
    intro h; simp only [List.mem_singleton] at h; subst h
    exact hb (Finset.mem_image.mpr ⟨2, Finset.mem_univ _, rfl⟩))

set_option backward.isDefEq.respectTransparency.types false in
/-- Region 1 as a segment: entered from every unscoped buffer at the contents before it, left at the contents after
    it; its arrays split out of the unscoped buffers and put back at the exit contents; the generator register into
    the region invariant and out; nothing owed; no semaphore of the kernel's own. -/
def reg1 (hb : ∀ c, BodyObligation (dat1 (F := F) (U11 m) c) (defs₀ (F := F)) Variants.none () Set.univ)
    (hi : ∀ c, (Pipeline.ΦA spec1 c : sProp 𝕄) ⊢ (dat1 (U11 m) c).Φ 0)
    (ho : ∀ c, (dat1 (U11 m) c).Φ (Fin.last cfg1.N) ⊢ (Pipeline.ΦA spec1 c : sProp 𝕄)) :
    Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb c).loose
  hwaits := Pipeline.hwaits_of_owed_zero _ _ _ _ L lv 1 fun _ _ => rfl
  pre c := iprop(StableHlo.held (c : Thread nD τ) (Pipeline.ucRefs τ sig) (V11 m (outs1 m) c) ∗ R c)
  post c := iprop(StableHlo.held (c : Thread nD τ) (Pipeline.ucRefs τ sig) (V12 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U11 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine (ho c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U11 m c) (U12 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves (the inputs as entered, the output at what
    its write-backs leave) and every other buffer what it held at entry. -/
theorem hF2 (c : Dev nD) (w : Fin cfg2.W) : (dat2 (U21 m) c).arrAt w cfg2.N = U22 m c (Pipeline.arrRef spec2 w) := by
  match w with
  | ⟨0, _⟩ => exact ((dat2 (U21 m) c).arrAt_in 0 rfl _).trans ((A_eq2 (U21 m) c 0).trans (V22_of m (outs m) c _ (by decide)).symm)
  | ⟨1, _⟩ => exact ((dat2 (U21 m) c).arrAt_in 1 rfl _).trans ((A_eq2 (U21 m) c 1).trans (V22_of m (outs m) c _ (by decide)).symm)
  | ⟨2, _⟩ =>
    show _ = Function.update (V21 m (outs m) c) main_v122 (outs m 22 main_v122 c) main_v122
    rw [Function.update_self, outs_22]; rfl
theorem hrest2 (c : Dev nD) : ∀ b, b ∉ Finset.univ.image (Pipeline.arrRef spec2) → U22 m c b = U21 m c b :=
  fun b hb => V22_of m (outs m) c b (by
    intro h; simp only [List.mem_singleton] at h; subst h
    exact hb (Finset.mem_image.mpr ⟨2, Finset.mem_univ _, rfl⟩))

set_option backward.isDefEq.respectTransparency.types false in
/-- Region 2 as a segment: entered from every unscoped buffer at the contents before it, left at the contents after
    it; its arrays split out of the unscoped buffers and put back at the exit contents; the generator register into
    the region invariant and out; nothing owed; no semaphore of the kernel's own. -/
def reg2 (hb : ∀ c, BodyObligation (dat2 (F := F) (U21 m) c) (defs₀ (F := F)) Variants.none () Set.univ)
    (hi : ∀ c, (Pipeline.ΦA spec2 c : sProp 𝕄) ⊢ (dat2 (U21 m) c).Φ 0)
    (ho : ∀ c, (dat2 (U21 m) c).Φ (Fin.last cfg2.N) ⊢ (Pipeline.ΦA spec2 c : sProp 𝕄)) :
    Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (hb c).loose
  hwaits := Pipeline.hwaits_of_owed_zero _ _ _ _ L lv 2 fun _ _ => rfl
  pre c := iprop(StableHlo.held (c : Thread nD τ) (Pipeline.ucRefs τ sig) (V21 m (outs2 m) c) ∗ R c)
  post c := iprop(StableHlo.held (c : Thread nD τ) (Pipeline.ucRefs τ sig) (V22 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U21 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U21 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine (ho c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U21 m c) (U22 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Main.lean ====
/-
  The program's run from the three regions' body obligations: every weakly fair execution ends; the
  argument arrays end as launched, and the result buffer ends at what the last region's write-backs leave
  in its output array.
-/
import proofs.«117565_j22136261443720_1_alg».proof.Proof.KI.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair execution of the program ends with every unscoped buffer at the last valuation of the fold. -/
theorem run_all
    (hb0 : ∀ c, BodyObligation (dat0 (F := F) (U3 m) c) (defs₀ (F := F)) Variants.none () Set.univ)
    (hi0 : ∀ c, (Pipeline.ΦA spec0 c : sProp 𝕄) ⊢ (dat0 (U3 m) c).Φ 0)
    (ho0 : ∀ c, (dat0 (U3 m) c).Φ (Fin.last cfg0.N) ⊢ (Pipeline.ΦA spec0 c : sProp 𝕄))
    (hb1 : ∀ c, BodyObligation (dat1 (F := F) (U11 m) c) (defs₀ (F := F)) Variants.none () Set.univ)
    (hi1 : ∀ c, (Pipeline.ΦA spec1 c : sProp 𝕄) ⊢ (dat1 (U11 m) c).Φ 0)
    (ho1 : ∀ c, (dat1 (U11 m) c).Φ (Fin.last cfg1.N) ⊢ (Pipeline.ΦA spec1 c : sProp 𝕄))
    (hb2 : ∀ c, BodyObligation (dat2 (F := F) (U21 m) c) (defs₀ (F := F)) Variants.none () Set.univ)
    (hi2 : ∀ c, (Pipeline.ΦA spec2 c : sProp 𝕄) ⊢ (dat2 (U21 m) c).Φ 0)
    (ho2 : ∀ c, (dat2 (U21 m) c).Φ (Fin.last cfg2.N) ⊢ (Pipeline.ΦA spec2 c : sProp 𝕄)) :
    θ_run defs (onTc (τ := τ) (main (F := F))) ⟨m, fun _ => 0, ρ⟩ (fun r => ∀ c : Dev nD,
      ∀ b ∈ Pipeline.ucRefs τ sig, r.2.mem (((c : Thread nD τ)).1, b) = V22 m (outs m) c b) :=
  run_cond m (outs m) emb₁ () 𝒱₀ L lv (fun _ _ => rfl) ρ (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m hb0 hi0 ho0) (fun c => .rfl) (fun c => .rfl)
    (reg1 m hb1 hi1 ho1) (fun c => .rfl) (fun c => .rfl)
    (reg2 m hb2 hi2 ho2) (fun c => .rfl) (fun c => .rfl)

/-- The result buffer is no argument and is written by the last region only. -/
theorem V22_result (c : Dev nD) : V22 m (outs m) c main_v122 = o22 m c := by
  show Function.update (V21 m (outs m) c) main_v122 (outs m 22 main_v122 c) main_v122 = _
  rw [Function.update_self, outs_22]

end Cert.KernelIdeal.Hand

end
-- ==== Proof.KI.Body0.lean ====
/-
  Region 0 of the program (the matrix product whose contracted axis is cut into 1 block per column block), on one
  core, at any buffer contents `V` on entry: the body's branch conditions in closed form over the grid; where the
  windows are idle; the accumulator's buffer taken out of the class invariant and put back; the input windows'
  buffers at their blocks at every point; the body's triple in each control case (every load and store of the body
  is of a whole buffer, so a store leaves its payload and a load reads what the buffer holds); and from these the
  body obligation of the proof data `dat0`, with the invariant's two ends.
-/
import proofs.«117565_j22136261443720_1_alg».proof.Proof.KI.Data
import proofs.«117565_j22136261443720_1_alg».proof.Proof.LibWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: 1 block of the contracted axis per column block -/

/-! ## The body's branch conditions, in closed form over the grid -/

/-- The condition of the body's first `scf.if` (the accumulator is reset), from the grid coordinates. -/
abbrev cond0_0 (i : grid0.Coords) : Prop := (Scalar.cmpi .ne (Scalar.extui (Scalar.cmpi .eq (BitVec.ofNat 32 (i 1).val) 0#32)) 0#32) = 1#1
/-- It holds at the first point of each column block — decided over the grid. -/
theorem hcond0_0 : ∀ t : Fin cfg0.N, cond0_0 (grid0.coords t) ↔ t.val % 1 = 0 :=
  (by decide +kernel : ∀ t : Fin grid0.N, cond0_0 (grid0.coords t) ↔ t.val % 1 = 0)

/-- The condition of the body's second `scf.if` (the output block is stored). -/
abbrev cond0_1 (i : grid0.Coords) : Prop := k0_cond2 i = 1#1
/-- It holds at the last point of each column block — decided over the grid. -/
theorem hcond0_1 : ∀ t : Fin cfg0.N, cond0_1 (grid0.coords t) ↔ t.val % 1 = 0 :=
  (by decide +kernel : ∀ t : Fin grid0.N, cond0_1 (grid0.coords t) ↔ t.val % 1 = 0)

/-! ## Where the windows are idle -/

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The output block is stored at every point: the output window is never idle. -/
theorem liveAt0_2 : ∀ t : Fin cfg0.N, cfg0.idle 2 (grid0.coords t) = false := by decide +kernel

/-! ## The scratch buffer out of the class invariant, and back -/

/-- The class invariant holds the accumulator's buffer at some contents, and is given back for it at any contents:
    the buffer is one of the core's scoped buffers that are no staging buffer of the region. -/
theorem PhiA0_split (c : Dev nD) :
    (Pipeline.ΦA spec0 c : sProp 𝕄) ⊢ iprop(iprop(∃ d, owns (c : Thread nD τ) scM0 fullShare d)
      ∗ (iprop(∃ d, owns (c : Thread nD τ) scM0 fullShare d) -∗ Pipeline.ΦA spec0 c)) := by
  unfold Pipeline.ΦA; rw [scopedRest0_eq]; simp only [scM0, owns_whole]
  iintro ⟨⟨R0, R1, R2, R3, R4, R5, R6, R7, R8, R9, R10, R11, R12, R13, R14⟩, Hg⟩
  isplitl [R0]; · iexact R0
  iintro R0
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  isplitl [R13]; · iexact R13
  iexact R14

/-- Before any point the region invariant holds the accumulator's buffer at some contents, beside the promise. -/
theorem Phi0_open (c : Dev nD) (n : ℕ) (h : n ≤ cfg0.N) :
    Phi0 V c n h ⊢ iprop(iprop(∃ d, owns (c : Thread nD τ) scM0 fullShare d)
      ∗ (iprop(∃ d, owns (c : Thread nD τ) scM0 fullShare d) -∗ Pipeline.ΦA spec0 c)) := by
  cases n with
  | zero => exact PhiA0_split c
  | succ n =>
    rw [Phi0_succ]
    iintro ⟨HS, Hw⟩
    isplitl [HS]; · iexists _; iexact HS
    iexact Hw

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class invariant back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 4 := N_0; omega)]
  iintro ⟨HS, Hw⟩
  iapply Hw
  iexists _; iexact HS

/-! ## The input windows' buffers hold their blocks at every point -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body's triple, one per control case, on any whole staging memrefs

Every load and store of the body is of a WHOLE buffer, so what a buffer holds after a store is the store's payload
and what a load reads is what the buffer holds. -/

set_option maxHeartbeats 1000000 in
/-- Every point is the first and the last of its column block: the accumulator, whatever it held, is reset and the
    product of the point's blocks added, and the output buffer, whatever it held, is stored the gated accumulator. -/
theorem kernel0_AC (c : Dev nD) (E : Set ℕ) (i : grid0.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : cond0_0 i) (hc1 : cond0_1 i)
    (x0 : Vec F S512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (k0_pay3 (k0_pay2 (k0_pay1 (F := F)) x0 x1))
            ∗ owns (c : Thread nD τ) arg5 fullShare (k0_pay2 (k0_pay1 (F := F)) x0 x1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%dout, %fo, -, HO⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    rw [View.read_writes_unit_whole _ _ vecZero2]
    unfold kernel0_AC.sl.v16 kernel0_AC.sl.HS_2
    rw [View.readCov_cons_toLoadRect, View.readAt_unit_whole _ _ vecZero2, View.readAt_unit_whole _ _ vecZero2]
    unfold kernel0_AC.sl.v3 kernel0_AC.sl.HS_1
    rw [View.readCov_cons_toLoadRect]
  iexists _; isplitr
  swap; · iexact HS
  ipureintro
  unfold kernel0_AC.sl.HS_2
  rw [View.read_writes_unit_whole _ _ vecZero2, View.readAt_unit_whole _ _ vecZero2, View.readAt_unit_whole _ _ vecZero2]
  unfold kernel0_AC.sl.v3 kernel0_AC.sl.HS_1
  rw [View.readCov_cons_toLoadRect]

/-! ## The body obligation, at a generic point -/

/-- Each window's current staging memref at point `t`, spelled as the pipeline passes it. -/
abbrev ms0_0 (t : Fin cfg0.N) : Memref sig .tc .vmem S512x1024 .bf16 := win0_0.stage (cfg0.slots t 0)
abbrev ms0_1 (t : Fin cfg0.N) : Memref sig .tc .vmem S1024x1024 .bf16 := win0_1.stage (cfg0.slots t 1)
abbrev ms0_2 (t : Fin cfg0.N) : Memref sig .tc .vmem S512x1024 .f32 := win0_2.stage (cfg0.slots t 2)

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' buffers hold their blocks; the closed forms say which control case the point is
    in; the invariant hands the body the accumulator's buffer at what the point before left (at anything where the
    body resets it) and takes it back at this point's accumulator; an output window the case does not store into
    is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ, Phi0_castSucc]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 4 := lt_of_lt_of_eq t.isLt (show cfg0.N = 4 from N_0)
  have h0 : t.val % 1 = 0 := Nat.mod_one _
  rw [show (dat0 V c).leavesExact 2 t = owns (c : Thread nD τ) (ms0_2 t) fullShare ((dat0 V c).after 2 t) from by
    unfold Dat.leavesExact; rw [liveAt0_2 t], after0_2]
  unfold out0
  rw [accAt0_first V c t h0]
  iintro ⟨HΦ, Ho, ⟨%d0, H0⟩, ⟨%d1, H1⟩, ⟨%d2, H2⟩⟩
  ihave ⟨HS, Hw⟩ := (Phi0_open V c _ _) $$ HΦ
  iapply (kernel0_AC c Set.univ (grid0.coords t) _ _ _ _ _ _ _ _ ((hcond0_0 t).mpr h0) ((hcond0_1 t).mpr h0) (iblk0 V c 0 t) (iblk0 V c 1 t) _)
  isplitl [H0]; · iexact H0
  isplitl [H1]; · iexact H1
  isplitl [H2]; · iexists _; iexact H2
  isplitl [HS]; · iexact HS
  iintro ⟨H0, H1, H2, HS⟩
  isplitl [HS Hw]
  · isplitl [HS]; · iexact HS
    iexact Hw
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 of the program (the matrix product whose contracted axis is cut into 5 blocks per column block), on one
  core, at any buffer contents `V` on entry: the body's branch conditions in closed form over the grid; where the
  windows are idle; the accumulator's buffer taken out of the class invariant and put back; the input windows'
  buffers at their blocks at every point; the body's triple in each control case (every load and store of the body
  is of a whole buffer, so a store leaves its payload and a load reads what the buffer holds); and from these the
  body obligation of the proof data `dat1`, with the invariant's two ends.
-/
import proofs.«117565_j22136261443720_1_alg».proof.Proof.KI.Data
import proofs.«117565_j22136261443720_1_alg».proof.Proof.LibWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: 5 blocks of the contracted axis per column block -/

/-! ## The body's branch conditions, in closed form over the grid -/

/-- The condition of the body's first `scf.if` (the accumulator is reset), from the grid coordinates. -/
abbrev cond1_0 (i : grid1.Coords) : Prop := (Scalar.cmpi .ne (Scalar.extui (Scalar.cmpi .eq (BitVec.ofNat 32 (i 1).val) 0#32)) 0#32) = 1#1
/-- It holds at the first point of each column block — decided over the grid. -/
theorem hcond1_0 : ∀ t : Fin cfg1.N, cond1_0 (grid1.coords t) ↔ t.val % 5 = 0 :=
  (by decide +kernel : ∀ t : Fin grid1.N, cond1_0 (grid1.coords t) ↔ t.val % 5 = 0)

/-- The condition of the body's second `scf.if` (the output block is stored). -/
abbrev cond1_1 (i : grid1.Coords) : Prop := k1_cond2 i = 1#1
/-- It holds at the last point of each column block — decided over the grid. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the output block is not stored the output window is idle, and the pipeline does not write it back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it is stored the window is live. -/
theorem liveAt1_2 : ∀ t : Fin cfg1.N, cond1_1 (grid1.coords t) → cfg1.idle 2 (grid1.coords t) = false := by decide +kernel

/-! ## The scratch buffer out of the class invariant, and back -/

/-- The class invariant holds the accumulator's buffer at some contents, and is given back for it at any contents:
    the buffer is one of the core's scoped buffers that are no staging buffer of the region. -/
theorem PhiA1_split (c : Dev nD) :
    (Pipeline.ΦA spec1 c : sProp 𝕄) ⊢ iprop(iprop(∃ d, owns (c : Thread nD τ) scM1 fullShare d)
      ∗ (iprop(∃ d, owns (c : Thread nD τ) scM1 fullShare d) -∗ Pipeline.ΦA spec1 c)) := by
  unfold Pipeline.ΦA; rw [scopedRest1_eq]; simp only [scM1, owns_whole]
  iintro ⟨⟨R0, R1, R2, R3, R4, R5, R6, R7, R8, R9, R10, R11, R12, R13⟩, Hg⟩
  isplitl [R6]; · iexact R6
  iintro R6
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

/-- Before any point the region invariant holds the accumulator's buffer at some contents, beside the promise. -/
theorem Phi1_open (c : Dev nD) (n : ℕ) (h : n ≤ cfg1.N) :
    Phi1 V c n h ⊢ iprop(iprop(∃ d, owns (c : Thread nD τ) scM1 fullShare d)
      ∗ (iprop(∃ d, owns (c : Thread nD τ) scM1 fullShare d) -∗ Pipeline.ΦA spec1 c)) := by
  cases n with
  | zero => exact PhiA1_split c
  | succ n =>
    rw [Phi1_succ]
    iintro ⟨HS, Hw⟩
    isplitl [HS]; · iexists _; iexact HS
    iexact Hw

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After the last point the invariant gives the class invariant back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 20 := N_1; omega)]
  iintro ⟨HS, Hw⟩
  iapply Hw
  iexists _; iexact HS

/-! ## The input windows' buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body's triple, one per control case, on any whole staging memrefs

Every load and store of the body is of a WHOLE buffer, so what a buffer holds after a store is the store's payload
and what a load reads is what the buffer holds. -/

set_option maxHeartbeats 1000000 in
/-- First point of a column block (not its last): the accumulator, whatever it held, is reset and the product of the
    point's blocks added; the output buffer is not touched. -/
theorem kernel1_A (c : Dev nD) (E : Set ℕ) (i : grid1.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : cond1_0 i) (hc1 : ¬cond1_1 i)
    (x0 : Vec F S512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k1_pay2 (k1_pay1 (F := F)) x0 x1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_unit_whole _ _ vecZero2, View.readAt_unit_whole _ _ vecZero2, View.readAt_unit_whole _ _ vecZero2]
  unfold kernel1_A.sl.v3 kernel1_A.sl.HS_1
  rw [View.readCov_cons_toLoadRect]

set_option maxHeartbeats 1000000 in
/-- A point neither first nor last of its column block: the product of the point's blocks is added to the
    accumulator; the output buffer is not touched. -/
theorem kernel1_B (c : Dev nD) (E : Set ℕ) (i : grid1.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : ¬cond1_0 i) (hc1 : ¬cond1_1 i)
    (x0 : Vec F S512x1024 .bf16) (x1 : Vec F S1024x1024 .bf16) (s : Vec F S512x1024 .f32) (K : PUnit → sProp 𝕄) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (k1_pay2 s x0 x1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_unit_whole _ _ vecZero2, View.readAt_unit_whole _ _ vecZero2, View.readAt_unit_whole _ _ vecZero2, View.readAt_unit_whole _ _ vecZero2]

set_option maxHeartbeats 1000000 in
/-- Last point of a column block (not its first): the product of the point's blocks is added to the accumulator,
    and the output buffer, whatever it held, is stored the gated accumulator. -/
theorem kernel1_C (c : Dev nD) (E : Set ℕ) (i : grid1.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : ¬cond1_0 i) (hc1 : cond1_1 i)
    (x0 : Vec F S512x1024 .bf16) (x1 : Vec F S1024x1024 .bf16) (s : Vec F S512x1024 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k1_pay3 (k1_pay2 s x0 x1))
            ∗ owns (c : Thread nD τ) arg5 fullShare (k1_pay2 s x0 x1)) -∗ K ⟨⟩))
      ⊢ wp frame (wpE (defs₀ (F := F)) Variants.none c none) E (cc1__matmul_kernel i arg2 harg2 arg3 harg3 arg4 harg4 arg5 harg5) K := by
  simp only [cc1__matmul_kernel_eq_skeleton]; unfold cc1__matmul_kernel_skel
  unfold owns
  iintro ⟨⟨%f0, %hf0, H0⟩, ⟨%f1, %hf1, H1⟩, ⟨%dout, %fo, -, HO⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    rw [View.read_writes_unit_whole _ _ vecZero2]
    unfold kernel1_C.sl.v16 kernel1_C.sl.HS_1
    rw [View.readCov_cons_toLoadRect, View.readAt_unit_whole _ _ vecZero2, View.readAt_unit_whole _ _ vecZero2, View.readAt_unit_whole _ _ vecZero2]
  iexists _; isplitr
  swap; · iexact HS
  ipureintro
  unfold kernel1_C.sl.HS_1
  rw [View.read_writes_unit_whole _ _ vecZero2, View.readAt_unit_whole _ _ vecZero2, View.readAt_unit_whole _ _ vecZero2, View.readAt_unit_whole _ _ vecZero2]

/-! ## The body obligation, at a generic point -/

/-- Each window's current staging memref at point `t`, spelled as the pipeline passes it. -/
abbrev ms1_0 (t : Fin cfg1.N) : Memref sig .tc .vmem S512x1024 .bf16 := win1_0.stage (cfg1.slots t 0)
abbrev ms1_1 (t : Fin cfg1.N) : Memref sig .tc .vmem S1024x1024 .bf16 := win1_1.stage (cfg1.slots t 1)
abbrev ms1_2 (t : Fin cfg1.N) : Memref sig .tc .vmem S512x1024 .f32 := win1_2.stage (cfg1.slots t 2)

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' buffers hold their blocks; the closed forms say which control case the point is
    in; the invariant hands the body the accumulator's buffer at what the point before left (at anything where the
    body resets it) and takes it back at this point's accumulator; an output window the case does not store into
    is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ, Phi1_castSucc]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 20 := lt_of_lt_of_eq t.isLt (show cfg1.N = 20 from N_1)
  by_cases h1 : t.val % 5 = 4
  · have h0 : ¬t.val % 5 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    unfold out1
    rw [accAt1_later V c t h0, Phi1_pos V c _ _ hz]
    iintro ⟨⟨HS, Hw⟩, Ho, ⟨%d0, H0⟩, ⟨%d1, H1⟩, ⟨%d2, H2⟩⟩
    iapply (kernel1_C c Set.univ (grid1.coords t) _ _ _ _ _ _ _ _ (fun h => h0 ((hcond1_0 t).mp h)) ((hcond1_1 t).mpr h1) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hw]
    · isplitl [HS]; · iexact HS
      iexact Hw
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 5 = 0
    · rw [accAt1_first V c t h0]
      iintro ⟨HΦ, Ho, ⟨%d0, H0⟩, ⟨%d1, H1⟩, H2⟩
      ihave ⟨HS, Hw⟩ := (Phi1_open V c _ _) $$ HΦ
      iapply (kernel1_A c Set.univ (grid1.coords t) _ _ _ _ _ _ _ _ ((hcond1_0 t).mpr h0) (fun h => h1 ((hcond1_1 t).mp h)) (iblk1 V c 0 t) (iblk1 V c 1 t) _)
      isplitl [H0]; · iexact H0
      isplitl [H1]; · iexact H1
      isplitl [HS]; · iexact HS
      iintro ⟨H0, H1, HS⟩
      isplitl [HS Hw]
      · isplitl [HS]; · iexact HS
        iexact Hw
      isplitl [Ho]; · iexact Ho
      isplitl [H0]; · iexact H0
      isplitl [H1]; · iexact H1
      iexact H2
    · have hz : t.val ≠ 0 := fun e => h0 (by rw [e])
      rw [accAt1_later V c t h0, Phi1_pos V c _ _ hz]
      iintro ⟨⟨HS, Hw⟩, Ho, ⟨%d0, H0⟩, ⟨%d1, H1⟩, H2⟩
      iapply (kernel1_B c Set.univ (grid1.coords t) _ _ _ _ _ _ _ _ (fun h => h0 ((hcond1_0 t).mp h)) (fun h => h1 ((hcond1_1 t).mp h)) (iblk1 V c 0 t) (iblk1 V c 1 t) _ _)
      isplitl [H0]; · iexact H0
      isplitl [H1]; · iexact H1
      isplitl [HS]; · iexact HS
      iintro ⟨H0, H1, HS⟩
      isplitl [HS Hw]
      · isplitl [HS]; · iexact HS
        iexact Hw
      isplitl [Ho]; · iexact Ho
      isplitl [H0]; · iexact H0
      isplitl [H1]; · iexact H1
      iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2 of the program (the matrix product whose contracted axis is cut into 9 blocks per column block), on one
  core, at any buffer contents `V` on entry: the body's branch conditions in closed form over the grid; where the
  windows are idle; the accumulator's buffer taken out of the class invariant and put back; the input windows'
  buffers at their blocks at every point; the body's triple in each control case (every load and store of the body
  is of a whole buffer, so a store leaves its payload and a load reads what the buffer holds); and from these the
  body obligation of the proof data `dat2`, with the invariant's two ends.
-/
import proofs.«117565_j22136261443720_1_alg».proof.Proof.KI.Data
import proofs.«117565_j22136261443720_1_alg».proof.Proof.LibWhole

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: 9 blocks of the contracted axis per column block -/

/-! ## The body's branch conditions, in closed form over the grid -/

/-- The condition of the body's first `scf.if` (the accumulator is reset), from the grid coordinates. -/
abbrev cond2_0 (i : grid2.Coords) : Prop := (Scalar.cmpi .ne (Scalar.extui (Scalar.cmpi .eq (BitVec.ofNat 32 (i 1).val) 0#32)) 0#32) = 1#1
/-- It holds at the first point of each column block — decided over the grid. -/
theorem hcond2_0 : ∀ t : Fin cfg2.N, cond2_0 (grid2.coords t) ↔ t.val % 9 = 0 :=
  (by decide +kernel : ∀ t : Fin grid2.N, cond2_0 (grid2.coords t) ↔ t.val % 9 = 0)

/-- The condition of the body's second `scf.if` (the output block is stored). -/
abbrev cond2_1 (i : grid2.Coords) : Prop := k2_cond2 i = 1#1
/-- It holds at the last point of each column block — decided over the grid. -/
theorem hcond2_1 : ∀ t : Fin cfg2.N, cond2_1 (grid2.coords t) ↔ t.val % 9 = 8 :=
  (by decide +kernel : ∀ t : Fin grid2.N, cond2_1 (grid2.coords t) ↔ t.val % 9 = 8)

/-! ## Where the windows are idle -/

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Where the output block is not stored the output window is idle, and the pipeline does not write it back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it is stored the window is live. -/
theorem liveAt2_2 : ∀ t : Fin cfg2.N, cond2_1 (grid2.coords t) → cfg2.idle 2 (grid2.coords t) = false := by decide +kernel

/-! ## The scratch buffer out of the class invariant, and back -/

/-- The class invariant holds the accumulator's buffer at some contents, and is given back for it at any contents:
    the buffer is one of the core's scoped buffers that are no staging buffer of the region. -/
theorem PhiA2_split (c : Dev nD) :
    (Pipeline.ΦA spec2 c : sProp 𝕄) ⊢ iprop(iprop(∃ d, owns (c : Thread nD τ) scM2 fullShare d)
      ∗ (iprop(∃ d, owns (c : Thread nD τ) scM2 fullShare d) -∗ Pipeline.ΦA spec2 c)) := by
  unfold Pipeline.ΦA; rw [scopedRest2_eq]; simp only [scM2, owns_whole]
  iintro ⟨⟨R0, R1, R2, R3, R4, R5, R6, R7, R8, R9, R10, R11, R12, R13⟩, Hg⟩
  isplitl [R13]; · iexact R13
  iintro R13
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  isplitl [R11]; · iexact R11
  isplitl [R12]; · iexact R12
  iexact R13

/-- Before any point the region invariant holds the accumulator's buffer at some contents, beside the promise. -/
theorem Phi2_open (c : Dev nD) (n : ℕ) (h : n ≤ cfg2.N) :
    Phi2 V c n h ⊢ iprop(iprop(∃ d, owns (c : Thread nD τ) scM2 fullShare d)
      ∗ (iprop(∃ d, owns (c : Thread nD τ) scM2 fullShare d) -∗ Pipeline.ΦA spec2 c)) := by
  cases n with
  | zero => exact PhiA2_split c
  | succ n =>
    rw [Phi2_succ]
    iintro ⟨HS, Hw⟩
    isplitl [HS]; · iexists _; iexact HS
    iexact Hw

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After the last point the invariant gives the class invariant back: the accumulator's contents are forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 36 := N_2; omega)]
  iintro ⟨HS, Hw⟩
  iapply Hw
  iexists _; iexact HS

/-! ## The input windows' buffers hold their blocks at every point -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body's triple, one per control case, on any whole staging memrefs

Every load and store of the body is of a WHOLE buffer, so what a buffer holds after a store is the store's payload
and what a load reads is what the buffer holds. -/

set_option maxHeartbeats 1000000 in
/-- First point of a column block (not its last): the accumulator, whatever it held, is reset and the product of the
    point's blocks added; the output buffer is not touched. -/
theorem kernel2_A (c : Dev nD) (E : Set ℕ) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : cond2_0 i) (hc1 : ¬cond2_1 i)
    (x0 : Vec F S512x1024 .bf16) (x1 : Vec F S1024x1024 .bf16) (K : PUnit → sProp 𝕄) :
    iprop(owns (c : Thread nD τ) arg2 fullShare x0 ∗ owns (c : Thread nD τ) arg3 fullShare x1 ∗ (∃ d, owns (c : Thread nD τ) arg5 fullShare d)
        ∗ (iprop(owns (c : Thread nD τ) arg2 fullShare x0 ∗ owns (c : Thread nD τ) arg3 fullShare x1
            ∗ owns (c : Thread nD τ) arg5 fullShare (k2_pay2 (k2_pay1 (F := F)) x0 x1)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_unit_whole _ _ vecZero2, View.readAt_unit_whole _ _ vecZero2, View.readAt_unit_whole _ _ vecZero2]
  unfold kernel2_A.sl.v3 kernel2_A.sl.HS_1
  rw [View.readCov_cons_toLoadRect]

set_option maxHeartbeats 1000000 in
/-- A point neither first nor last of its column block: the product of the point's blocks is added to the
    accumulator; the output buffer is not touched. -/
theorem kernel2_B (c : Dev nD) (E : Set ℕ) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : ¬cond2_0 i) (hc1 : ¬cond2_1 i)
    (x0 : Vec F S512x1024 .bf16) (x1 : Vec F S1024x1024 .bf16) (s : Vec F S512x1024 .f32) (K : PUnit → sProp 𝕄) :
    iprop(owns (c : Thread nD τ) arg2 fullShare x0 ∗ owns (c : Thread nD τ) arg3 fullShare x1 ∗ owns (c : Thread nD τ) arg5 fullShare s
        ∗ (iprop(owns (c : Thread nD τ) arg2 fullShare x0 ∗ owns (c : Thread nD τ) arg3 fullShare x1
            ∗ owns (c : Thread nD τ) arg5 fullShare (k2_pay2 s x0 x1)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_unit_whole _ _ vecZero2, View.readAt_unit_whole _ _ vecZero2, View.readAt_unit_whole _ _ vecZero2, View.readAt_unit_whole _ _ vecZero2]

set_option maxHeartbeats 1000000 in
/-- Last point of a column block (not its first): the product of the point's blocks is added to the accumulator,
    and the output buffer, whatever it held, is stored the accumulator. -/
theorem kernel2_C (c : Dev nD) (E : Set ℕ) (i : grid2.Coords)
    (arg2 : Memref sig .tc .vmem S512x1024 .bf16) (harg2 : arg2.IsWhole) (arg3 : Memref sig .tc .vmem S1024x1024 .bf16) (harg3 : arg3.IsWhole)
    (arg4 : Memref sig .tc .vmem S512x1024 .f32) (harg4 : arg4.IsWhole) (arg5 : Memref sig .tc .vmem S512x1024 .f32) (harg5 : arg5.IsWhole)
    (hc0 : ¬cond2_0 i) (hc1 : cond2_1 i)
    (x0 : Vec F S512x1024 .bf16) (x1 : Vec F S1024x1024 .bf16) (s : Vec F S512x1024 .f32) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare s
        ∗ (iprop(owns (c : Thread nD τ) arg2 fullShare x0 ∗ owns (c : Thread nD τ) arg3 fullShare x1
            ∗ owns (c : Thread nD τ) arg4 fullShare (k2_pay2 s x0 x1)
            ∗ owns (c : Thread nD τ) arg5 fullShare (k2_pay2 s x0 x1)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%dout, %fo, -, HO⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [HO]
  · iexists _; isplitr
    swap; · iexact HO
    ipureintro
    rw [View.read_writes_unit_whole _ _ vecZero2]
    unfold kernel2_C.sl.v16 kernel2_C.sl.HS_1
    rw [View.readCov_cons_toLoadRect, View.readAt_unit_whole _ _ vecZero2, View.readAt_unit_whole _ _ vecZero2, View.readAt_unit_whole _ _ vecZero2]
  iexists _; isplitr
  swap; · iexact HS
  ipureintro
  unfold kernel2_C.sl.HS_1
  rw [View.read_writes_unit_whole _ _ vecZero2, View.readAt_unit_whole _ _ vecZero2, View.readAt_unit_whole _ _ vecZero2, View.readAt_unit_whole _ _ vecZero2]

/-! ## The body obligation, at a generic point -/

/-- Each window's current staging memref at point `t`, spelled as the pipeline passes it. -/
abbrev ms2_0 (t : Fin cfg2.N) : Memref sig .tc .vmem S512x1024 .bf16 := win2_0.stage (cfg2.slots t 0)
abbrev ms2_1 (t : Fin cfg2.N) : Memref sig .tc .vmem S1024x1024 .bf16 := win2_1.stage (cfg2.slots t 1)
abbrev ms2_2 (t : Fin cfg2.N) : Memref sig .tc .vmem S512x1024 .f32 := win2_2.stage (cfg2.slots t 2)

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' buffers hold their blocks; the closed forms say which control case the point is
    in; the invariant hands the body the accumulator's buffer at what the point before left (at anything where the
    body resets it) and takes it back at this point's accumulator; an output window the case does not store into
    is handed back as found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ, Phi2_castSucc]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 36 := lt_of_lt_of_eq t.isLt (show cfg2.N = 36 from N_2)
  by_cases h1 : t.val % 9 = 8
  · have h0 : ¬t.val % 9 = 0 := by omega
    have hz : t.val ≠ 0 := by omega
    rw [show (dat2 V c).leavesExact 2 t = owns (c : Thread nD τ) (ms2_2 t) fullShare ((dat2 V c).after 2 t) from by
      unfold Dat.leavesExact; rw [liveAt2_2 t ((hcond2_1 t).mpr h1)], after2_2]
    unfold out2
    rw [accAt2_later V c t h0, Phi2_pos V c _ _ hz]
    iintro ⟨⟨HS, Hw⟩, Ho, ⟨%d0, H0⟩, ⟨%d1, H1⟩, ⟨%d2, H2⟩⟩
    iapply (kernel2_C c Set.univ (grid2.coords t) _ _ _ _ _ _ _ _ (fun h => h0 ((hcond2_0 t).mp h)) ((hcond2_1 t).mpr h1) (iblk2 V c 0 t) (iblk2 V c 1 t) _ _)
    isplitl [H0]; · iexact H0
    isplitl [H1]; · iexact H1
    isplitl [H2]; · iexists _; iexact H2
    isplitl [HS]; · iexact HS
    iintro ⟨H0, H1, H2, HS⟩
    isplitl [HS Hw]
    · isplitl [HS]; · iexact HS
      iexact Hw
    isplitl [Ho]; · iexact Ho
    isplitl [H0]; · iexact H0
    isplitl [H1]; · iexact H1
    iexact H2
  · rw [Dat.leavesExact_idle (dat2 V c) 2 t (idleAt2_2 t (fun h => h1 ((hcond2_1 t).mp h))) (noFlush2_2 t (fun h => h1 ((hcond2_1 t).mp h)))]
    by_cases h0 : t.val % 9 = 0
    · rw [accAt2_first V c t h0]
      iintro ⟨HΦ, Ho, ⟨%d0, H0⟩, ⟨%d1, H1⟩, H2⟩
      ihave ⟨HS, Hw⟩ := (Phi2_open V c _ _) $$ HΦ
      iapply (kernel2_A c Set.univ (grid2.coords t) _ _ _ _ _ _ _ _ ((hcond2_0 t).mpr h0) (fun h => h1 ((hcond2_1 t).mp h)) (iblk2 V c 0 t) (iblk2 V c 1 t) _)
      isplitl [H0]; · iexact H0
      isplitl [H1]; · iexact H1
      isplitl [HS]; · iexact HS
      iintro ⟨H0, H1, HS⟩
      isplitl [HS Hw]
      · isplitl [HS]; · iexact HS
        iexact Hw
      isplitl [Ho]; · iexact Ho
      isplitl [H0]; · iexact H0
      isplitl [H1]; · iexact H1
      iexact H2
    · have hz : t.val ≠ 0 := fun e => h0 (by rw [e])
      rw [accAt2_later V c t h0, Phi2_pos V c _ _ hz]
      iintro ⟨⟨HS, Hw⟩, Ho, ⟨%d0, H0⟩, ⟨%d1, H1⟩, H2⟩
      iapply (kernel2_B c Set.univ (grid2.coords t) _ _ _ _ _ _ _ _ (fun h => h0 ((hcond2_0 t).mp h)) (fun h => h1 ((hcond2_1 t).mp h)) (iblk2 V c 0 t) (iblk2 V c 1 t) _ _)
      isplitl [H0]; · iexact H0
      isplitl [H1]; · iexact H1
      isplitl [HS]; · iexact HS
      iintro ⟨H0, H1, HS⟩
      isplitl [HS Hw]
      · isplitl [HS]; · iexact HS
        iexact Hw
      isplitl [Ho]; · iexact Ho
      isplitl [H0]; · iexact H0
      isplitl [H1]; · iexact H1
      iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body.lean ====
/-
  The three matrix-product regions' body obligations and invariant ends, gathered: for K = 0, 1, 2
  `body_obligationK`, `hinK`, `houtK` over the proof data `datK` at any entry contents `V`.
-/
import proofs.«117565_j22136261443720_1_alg».proof.Proof.KI.Body0
import proofs.«117565_j22136261443720_1_alg».proof.Proof.KI.Body1
import proofs.«117565_j22136261443720_1_alg».proof.Proof.KI.Body2
-- ==== Proof.KI.Frame.lean ====
/-
  The frame of the program and its result: every weakly fair execution ends with the argument arrays as
  launched, and with the result buffer at what the last region's write-backs leave in its output array.
-/
import proofs.«117565_j22136261443720_1_alg».proof.Proof.KI.Main
import proofs.«117565_j22136261443720_1_alg».proof.Proof.KI.Body

set_option maxRecDepth 16384

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (m : (ℓ : Loc nD τ sig) → Buf (Elt F) ℓ) (ρ : Dev nD → PrngReg)

/-- The run, with the three regions' body obligations supplied. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = V22 m (outs m) c b) :=
  run_all m ρ (fun c => body_obligation0 (U3 m) c) (fun c => hin0 (U3 m) c) (fun c => hout0 (U3 m) c)
    (fun c => body_obligation1 (U11 m) c) (fun c => hin1 (U11 m) c) (fun c => hout1 (U11 m) c)
    (fun c => body_obligation2 (U21 m) c) (fun c => hin2 (U21 m) c) (fun c => hout2 (U21 m) c)

/-- The result buffer named, and the arguments unchanged. -/
theorem run_result : θ_run defs (onTc (τ := τ) (main (F := F))) ⟨m, fun _ => 0, ρ⟩ (fun r => ∀ c : Dev nD,
      r.2.mem ((c.tc : Thread nD τ).loc main_v122) = o22 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c (Proc.devRef .tc main_v122) (mem_uc main_v122 (by decide))).trans (V22_result m c),
      (h c (Proc.devRef .tc main_arg0) (mem_uc main_arg0 (by decide))).trans (V22_main_arg0 m (outs m) c),
      (h c (Proc.devRef .tc main_arg1) (mem_uc main_arg1 (by decide))).trans (V22_main_arg1 m (outs m) c),
      (h c (Proc.devRef .tc main_arg2) (mem_uc main_arg2 (by decide))).trans (V22_main_arg2 m (outs m) c),
      (h c (Proc.devRef .tc main_arg3) (mem_uc main_arg3 (by decide))).trans (V22_main_arg3 m (outs m) c),
      (h c (Proc.devRef .tc main_arg4) (mem_uc main_arg4 (by decide))).trans (V22_main_arg4 m (outs m) c),
      (h c (Proc.devRef .tc main_arg5) (mem_uc main_arg5 (by decide))).trans (V22_main_arg5 m (outs m) c),
      (h c (Proc.devRef .tc main_arg6) (mem_uc main_arg6 (by decide))).trans (V22_main_arg6 m (outs m) c),
      (h c (Proc.devRef .tc main_arg7) (mem_uc main_arg7 (by decide))).trans (V22_main_arg7 m (outs m) c),
      (h c (Proc.devRef .tc main_arg8) (mem_uc main_arg8 (by decide))).trans (V22_main_arg8 m (outs m) c),
      (h c (Proc.devRef .tc main_arg9) (mem_uc main_arg9 (by decide))).trans (V22_main_arg9 m (outs m) c),
      (h c (Proc.devRef .tc main_arg10) (mem_uc main_arg10 (by decide))).trans (V22_main_arg10 m (outs m) c),
      (h c (Proc.devRef .tc main_arg11) (mem_uc main_arg11 (by decide))).trans (V22_main_arg11 m (outs m) c),
      (h c (Proc.devRef .tc main_arg12) (mem_uc main_arg12 (by decide))).trans (V22_main_arg12 m (outs m) c),
      (h c (Proc.devRef .tc main_arg13) (mem_uc main_arg13 (by decide))).trans (V22_main_arg13 m (outs m) c),
      (h c (Proc.devRef .tc main_arg14) (mem_uc main_arg14 (by decide))).trans (V22_main_arg14 m (outs m) c),
      (h c (Proc.devRef .tc main_arg15) (mem_uc main_arg15 (by decide))).trans (V22_main_arg15 m (outs m) c),
      (h c (Proc.devRef .tc main_arg16) (mem_uc main_arg16 (by decide))).trans (V22_main_arg16 m (outs m) c)⟩) (run_full m ρ)

/-- The frame: the arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => (h c).2) (run_result m ρ)

end Cert.KernelIdeal.Hand

end
-- ==== Proof.Ref.Base.lean ====
/-
  The reference program's signature scopes nothing (no scoped buffer, no scoped semaphore), and a
  small fact about lists of operations: an operation that writes exactly one buffer, a member of a list
  `W` of references, writes inside `W` (as a set of device buffers).
-/
import proofs.«117565_j22136261443720_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- No TensorCore buffer of the signature is scoped. -/
theorem scopedRefs_eq : (Finset.univ.filter fun b : Ref sig .tc => b.isScoped) = ∅ := by decide
/-- No semaphore of the signature is scoped. -/
theorem scopedSems_eq : (Finset.univ.filter fun sm : SemLoc sig => sm.isScoped .tc) = ∅ := by decide

/-- An operation whose written set is the single buffer `y`, with `y` in the list `W`, writes inside `W`. -/
theorem writes_sub_of_mem {W : List (Ref sig .tc)} {op : HloOp τ sig (Elt F)} (y : Ref sig .tc)
    (h : op.writes = {Proc.devRef .tc y}) (hy : y ∈ W) :
    op.writes ⊆ (W.map (Proc.devRef (τ := τ) .tc)).toFinset := by
  rw [h, Finset.singleton_subset_iff, List.mem_toFinset]
  exact List.mem_map_of_mem hy

end Cert.ReferenceIdeal.RefRun

end
-- ==== Proof.Ref.OpsA.lean ====
/-
  The reference program's host operations, first half, as eleven consecutive lists `r0 … r10` (each called
  function's operations stand in the place of the call, at that call's buffers, a call made inside a called
  function likewise), each with: every buffer it names is a TensorCore buffer; every operation determines its
  results; the list of the buffers it writes; a buffer outside that list keeps its contents through it.
  `r8a`, `r8b` are the two halves of `r8` at the place where the program's text is cut.
-/
import proofs.«117565_j22136261443720_1_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- `r0`: the input transposed and flattened to 512×1024; the sign and the index (|p| − 1) of the first permutation table (8 operations). -/
abbrev r0 : List (HloOp τ sig (Elt F)) :=
  [ StableHlo.unary main_arg0 main_v0 ((transpose S512x64x16 [0, 2, 1] · transposes_S512x16x64_S512x64x16_0_2_1) : (⟨S512x16x64, .f32⟩ : BufTy).Contents (Elt F) → (⟨S512x64x16, .f32⟩ : BufTy).Contents (Elt F)),
    StableHlo.reshape main_v0 main_v1 rfl shapeCasts_S512x64x16_S512x1024,
    StableHlo.unary main_arg11 main_v2 (signi : (⟨S64x64, .i32⟩ : BufTy).Contents (Elt F) → (⟨S64x64, .i32⟩ : BufTy).Contents (Elt F)),
    StableHlo.unary main_v2 main_v3 (sitofp .f32 : (⟨S64x64, .i32⟩ : BufTy).Contents (Elt F) → (⟨S64x64, .f32⟩ : BufTy).Contents (Elt F)),
    StableHlo.unary main_arg11 main_v4 (absi : (⟨S64x64, .i32⟩ : BufTy).Contents (Elt F) → (⟨S64x64, .i32⟩ : BufTy).Contents (Elt F)),
    StableHlo.nullary main_c (constantI S_ 32 1#32),
    StableHlo.unary main_c main_v5 (broadcastInDim S64x64 ![] bcast_S_S64x64 : (⟨S_, .i32⟩ : BufTy).Contents (Elt F) → (⟨S64x64, .i32⟩ : BufTy).Contents (Elt F)),
    StableHlo.binary main_v4 main_v5 main_v6 (subi : (⟨S64x64, .i32⟩ : BufTy).Contents (Elt F) → (⟨S64x64, .i32⟩ : BufTy).Contents (Elt F) → (⟨S64x64, .i32⟩ : BufTy).Contents (Elt F)) ]
theorem r0_sub : (r0 : List (HloOp τ sig (Elt F))).Forall fun op => op.bufs ⊆ tcRefs τ sig :=
  ⟨unary_bufs_sub .., reshape_bufs_sub .., unary_bufs_sub .., unary_bufs_sub .., unary_bufs_sub .., nullary_bufs_sub .., unary_bufs_sub .., binary_bufs_sub ..⟩
theorem r0_fresh : (r0 : List (HloOp τ sig (Elt F))).Forall fun op => op.fresh = ∅ :=
  ⟨rfl, rfl, rfl, rfl, rfl, rfl, rfl, rfl⟩
/-- The buffers `r0` writes. -/
abbrev r0_W : List (Ref sig .tc) := [main_v0, main_v1, main_v2, main_v3, main_v4, main_c, main_v5, main_v6]
theorem r0_writes : (r0 : List (HloOp τ sig (Elt F))).Forall fun op => op.writes ⊆ (r0_W.map (Proc.devRef (τ := τ) .tc)).toFinset :=
  ⟨writes_sub_of_mem main_v0 rfl (by decide),
    writes_sub_of_mem main_v1 rfl (by decide),
    writes_sub_of_mem main_v2 rfl (by decide),
    writes_sub_of_mem main_v3 rfl (by decide),
    writes_sub_of_mem main_v4 rfl (by decide),
    writes_sub_of_mem main_c rfl (by decide),
    writes_sub_of_mem main_v5 rfl (by decide),
    writes_sub_of_mem main_v6 rfl (by decide)⟩
/-- A buffer `r0` does not write keeps its contents through it. -/
theorem r0_keep (V : Valuation τ sig (Elt F)) (r : Ref sig .tc) (h : r ∉ r0_W) :
    after r0 V (Proc.devRef .tc r) = V (Proc.devRef .tc r) :=
  after_of_writes_sub r0 V r0_writes h

/-- `r1`: the first layer's weight rows gathered at the table's indices, NaN where an index is out of range (the called gather function, with its index wrap-around inside) (23 operations). -/
abbrev r1 : List (HloOp τ sig (Elt F)) :=
  [ StableHlo.TRef.nullary main_call0.c (constantI S_ 32 0#32),
    StableHlo.TRef.unary main_call0.c main_call0.v0 (broadcastInDim S64x64 ![] bcast_S_S64x64),
    StableHlo.TRef.binary (TRef.of (T := ⟨S64x64, .i32⟩) main_v6) main_call0.v0 main_call0.v1 (cmpi .slt),
    StableHlo.TRef.nullary main_call0.c_0 (constantI S_ 32 64#32),
    StableHlo.TRef.unary main_call0.c_0 main_call0.v2 (broadcastInDim S64x64 ![] bcast_S_S64x64),
    StableHlo.TRef.binary (TRef.of (T := ⟨S64x64, .i32⟩) main_v6) main_call0.v2 main_call0.v3 addi,
    StableHlo.TRef.ternary main_call0.v1 main_call0.v3 (TRef.of (T := ⟨S64x64, .i32⟩) main_v6) main_call0.call0.v0 select,
    StableHlo.TRef.unary main_call0.call0.v0 main_call0.v5 (broadcastInDim S64x64x1 ![0, 1] bcast_S64x64_S64x64x1_0_1),
    StableHlo.TRef.nullary main_call0.c_1 (constantI S1 32 63#32),
    StableHlo.TRef.nullary main_call0.c_2 (constantI S_ 32 0#32),
    StableHlo.TRef.unary main_call0.c_2 main_call0.v6 (broadcastInDim S64x64x1 ![] bcast_S_S64x64x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S64x64x1 ![0, 1, 2] bcast_S1x1x1_S64x64x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S64x64x1_S64x64_d2 h_S_),
    StableHlo.TRef.binary (TRef.of (T := ⟨S64x16x64, .f32⟩) main_arg1) main_call0.v5 main_call0.v13 (fun x i => Host.gather gather_S64x16x64_S64x64x1_S64x16x64x64_01_2_n_n_2_2_64161 x i),
    StableHlo.TRef.unary main_call0.v12 main_call0.v14 (broadcastInDim S64x16x64x64 ![2, 3] bcast_S64x64_S64x16x64x64_2_3),
    StableHlo.TRef.nullary main_call0.cst (constant S_ .f32 0x7FC00000#32),
    StableHlo.TRef.unary main_call0.cst main_call0.v15 (broadcastInDim S64x16x64x64 ![] bcast_S_S64x16x64x64),
    StableHlo.TRef.ternary main_call0.v14 main_call0.v13 main_call0.v15 main_call0.v16 select ]
theorem r1_sub : (r1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem r1_fresh : (r1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The buffers `r1` writes. -/
abbrev r1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v7]
theorem r1_writes : (r1 : List (HloOp τ sig (Elt F))).Forall fun op => op.writes ⊆ (r1_W.map (Proc.devRef (τ := τ) .tc)).toFinset :=
  ⟨writes_sub_of_mem main_call0_c rfl (by decide),
    writes_sub_of_mem main_call0_v0 rfl (by decide),
    writes_sub_of_mem main_call0_v1 rfl (by decide),
    writes_sub_of_mem main_call0_c_0 rfl (by decide),
    writes_sub_of_mem main_call0_v2 rfl (by decide),
    writes_sub_of_mem main_call0_v3 rfl (by decide),
    writes_sub_of_mem main_call0_v4 rfl (by decide),
    writes_sub_of_mem main_call0_v5 rfl (by decide),
    writes_sub_of_mem main_call0_c_1 rfl (by decide),
    writes_sub_of_mem main_call0_c_2 rfl (by decide),
    writes_sub_of_mem main_call0_v6 rfl (by decide),
    writes_sub_of_mem main_call0_v7 rfl (by decide),
    writes_sub_of_mem main_call0_v8 rfl (by decide),
    writes_sub_of_mem main_call0_v9 rfl (by decide),
    writes_sub_of_mem main_call0_v10 rfl (by decide),
    writes_sub_of_mem main_call0_v11 rfl (by decide),
    writes_sub_of_mem main_call0_c_3 rfl (by decide),
    writes_sub_of_mem main_call0_v12 rfl (by decide),
    writes_sub_of_mem main_call0_v13 rfl (by decide),
    writes_sub_of_mem main_call0_v14 rfl (by decide),
    writes_sub_of_mem main_call0_cst rfl (by decide),
    writes_sub_of_mem main_call0_v15 rfl (by decide),
    writes_sub_of_mem main_v7 rfl (by decide)⟩
/-- A buffer `r1` does not write keeps its contents through it. -/
theorem r1_keep (V : Valuation τ sig (Elt F)) (r : Ref sig .tc) (h : r ∉ r1_W) :
    after r1 V (Proc.devRef .tc r) = V (Proc.devRef .tc r) :=
  after_of_writes_sub r1 V r1_writes h

/-- `r2`: the gathered rows times the signs, transposed and flattened to 4096×1024, transposed to 1024×4096 (6 operations). -/
abbrev r2 : List (HloOp τ sig (Elt F)) :=
  [ StableHlo.unary main_v3 main_v8 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v8 main_v9 (broadcastInDim S64x16x64x64 ![0, 1, 2, 3] bcast_S1x1x64x64_S64x16x64x64_0_1_2_3 : (⟨S1x1x64x64, .f32⟩ : BufTy).Contents (Elt F) → (⟨S64x16x64x64, .f32⟩ : BufTy).Contents (Elt F)),
    StableHlo.binary main_v9 main_v7 main_v10 (mulf : (⟨S64x16x64x64, .f32⟩ : BufTy).Contents (Elt F) → (⟨S64x16x64x64, .f32⟩ : BufTy).Contents (Elt F) → (⟨S64x16x64x64, .f32⟩ : BufTy).Contents (Elt F)),
    StableHlo.unary main_v10 main_v11 ((transpose S64x64x64x16 [2, 0, 3, 1] · transposes_S64x16x64x64_S64x64x64x16_2_0_3_1) : (⟨S64x16x64x64, .f32⟩ : BufTy).Contents (Elt F) → (⟨S64x64x64x16, .f32⟩ : BufTy).Contents (Elt F)),
    StableHlo.reshape main_v11 main_v12 rfl shapeCasts_S64x64x64x16_S4096x1024,
    StableHlo.unary main_v12 main_v13 ((transpose S1024x4096 [1, 0] · transposes_S4096x1024_S1024x4096_1_0) : (⟨S4096x1024, .f32⟩ : BufTy).Contents (Elt F) → (⟨S1024x4096, .f32⟩ : BufTy).Contents (Elt F)) ]
theorem r2_sub : (r2 : List (HloOp τ sig (Elt F))).Forall fun op => op.bufs ⊆ tcRefs τ sig :=
  ⟨unary_bufs_sub .., unary_bufs_sub .., binary_bufs_sub .., unary_bufs_sub .., reshape_bufs_sub .., unary_bufs_sub ..⟩
theorem r2_fresh : (r2 : List (HloOp τ sig (Elt F))).Forall fun op => op.fresh = ∅ :=
  ⟨rfl, rfl, rfl, rfl, rfl, rfl⟩
/-- The buffers `r2` writes. -/
abbrev r2_W : List (Ref sig .tc) := [main_v8, main_v9, main_v10, main_v11, main_v12, main_v13]
theorem r2_writes : (r2 : List (HloOp τ sig (Elt F))).Forall fun op => op.writes ⊆ (r2_W.map (Proc.devRef (τ := τ) .tc)).toFinset :=
  ⟨writes_sub_of_mem main_v8 rfl (by decide),
    writes_sub_of_mem main_v9 rfl (by decide),
    writes_sub_of_mem main_v10 rfl (by decide),
    writes_sub_of_mem main_v11 rfl (by decide),
    writes_sub_of_mem main_v12 rfl (by decide),
    writes_sub_of_mem main_v13 rfl (by decide)⟩
/-- A buffer `r2` does not write keeps its contents through it. -/
theorem r2_keep (V : Valuation τ sig (Elt F)) (r : Ref sig .tc) (h : r ∉ r2_W) :
    after r2 V (Proc.devRef .tc r) = V (Proc.devRef .tc r) :=
  after_of_writes_sub r2 V r2_writes h

/-- `r3`: the first matrix product y; relu y (the called function); y / 2; relu y − y / 2 (8 operations). -/
abbrev r3 : List (HloOp τ sig (Elt F)) :=
  [ StableHlo.binary main_v1 main_v13 main_v14 ((fun l r => Host.dotGeneral dot_S512x1024_S1024x4096_S512x4096_1_0_0_1_n_n none l r) : (⟨S512x1024, .f32⟩ : BufTy).Contents (Elt F) → (⟨S1024x4096, .f32⟩ : BufTy).Contents (Elt F) → (⟨S512x4096, .f32⟩ : BufTy).Contents (Elt F)),
    StableHlo.TRef.nullary main_call1.cst (constant S_ .f32 0x00000000#32),
    StableHlo.TRef.unary main_call1.cst main_call1.v0 (broadcastInDim S512x4096 ![] bcast_S_S512x4096),
    StableHlo.TRef.binary (TRef.of (T := ⟨S512x4096, .f32⟩) main_v14) main_call1.v0 main_call1.v1 maximumf,
    StableHlo.nullary main_cst (constant S_ .f32 0x40000000#32),
    StableHlo.unary main_cst main_v16 (broadcastInDim S512x4096 ![] bcast_S_S512x4096 : (⟨S_, .f32⟩ : BufTy).Contents (Elt F) → (⟨S512x4096, .f32⟩ : BufTy).Contents (Elt F)),
    StableHlo.binary main_v14 main_v16 main_v17 (Host.divf : (⟨S512x4096, .f32⟩ : BufTy).Contents (Elt F) → (⟨S512x4096, .f32⟩ : BufTy).Contents (Elt F) → (⟨S512x4096, .f32⟩ : BufTy).Contents (Elt F)),
    StableHlo.binary main_v15 main_v17 main_v18 (subf : (⟨S512x4096, .f32⟩ : BufTy).Contents (Elt F) → (⟨S512x4096, .f32⟩ : BufTy).Contents (Elt F) → (⟨S512x4096, .f32⟩ : BufTy).Contents (Elt F)) ]
theorem r3_sub : (r3 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub ..⟩
theorem r3_fresh : (r3 : List (HloOp τ sig (Elt F))).Forall fun op => op.fresh = ∅ :=
  ⟨rfl, rfl, rfl, rfl, rfl, rfl, rfl, rfl⟩
/-- The buffers `r3` writes. -/
abbrev r3_W : List (Ref sig .tc) := [main_v14, main_call1_cst, main_call1_v0, main_v15, main_cst, main_v16, main_v17, main_v18]
theorem r3_writes : (r3 : List (HloOp τ sig (Elt F))).Forall fun op => op.writes ⊆ (r3_W.map (Proc.devRef (τ := τ) .tc)).toFinset :=
  ⟨writes_sub_of_mem main_v14 rfl (by decide),
    writes_sub_of_mem main_call1_cst rfl (by decide),
    writes_sub_of_mem main_call1_v0 rfl (by decide),
    writes_sub_of_mem main_v15 rfl (by decide),
    writes_sub_of_mem main_cst rfl (by decide),
    writes_sub_of_mem main_v16 rfl (by decide),
    writes_sub_of_mem main_v17 rfl (by decide),
    writes_sub_of_mem main_v18 rfl (by decide)⟩
/-- A buffer `r3` does not write keeps its contents through it. -/
theorem r3_keep (V : Valuation τ sig (Elt F)) (r : Ref sig .tc) (h : r ∉ r3_W) :
    after r3 V (Proc.devRef .tc r) = V (Proc.devRef .tc r) :=
  after_of_writes_sub r3 V r3_writes h

/-- `r4`: the result as 512×64×64; its sum over the first two axes divided by 32768 (the mean per channel); the constant 0 the variance function takes (7 operations). -/
abbrev r4 : List (HloOp τ sig (Elt F)) :=
  [ StableHlo.reshape main_v18 main_v19 rfl shapeCasts_S512x4096_S512x64x64,
    StableHlo.nullary main_cst_0 (constant S_ .f32 0x00000000#32),
    StableHlo.binary main_v19 main_cst_0 main_v20 ((fun x v => Host.reduceAdd x v reducesTo_S512x64x64_S64_d0_1 h_S_) : (⟨S512x64x64, .f32⟩ : BufTy).Contents (Elt F) → (⟨S_, .f32⟩ : BufTy).Contents (Elt F) → (⟨S64, .f32⟩ : BufTy).Contents (Elt F)),
    StableHlo.nullary main_cst_1 (constant S_ .f32 0x47000000#32),
    StableHlo.unary main_cst_1 main_v21 (broadcastInDim S64 ![] bcast_S_S64 : (⟨S_, .f32⟩ : BufTy).Contents (Elt F) → (⟨S64, .f32⟩ : BufTy).Contents (Elt F)),
    StableHlo.binary main_v20 main_v21 main_v22 (Host.divf : (⟨S64, .f32⟩ : BufTy).Contents (Elt F) → (⟨S64, .f32⟩ : BufTy).Contents (Elt F) → (⟨S64, .f32⟩ : BufTy).Contents (Elt F)),
    StableHlo.nullary main_c_2 (constantI S_ 32 0#32) ]
theorem r4_sub : (r4 : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub ..⟩
theorem r4_fresh : (r4 : List (HloOp τ sig (Elt F))).Forall fun op => op.fresh = ∅ :=
  ⟨rfl, rfl, rfl, rfl, rfl, rfl, rfl⟩
/-- The buffers `r4` writes. -/
abbrev r4_W : List (Ref sig .tc) := [main_v19, main_cst_0, main_v20, main_cst_1, main_v21, main_v22, main_c_2]
theorem r4_writes : (r4 : List (HloOp τ sig (Elt F))).Forall fun op => op.writes ⊆ (r4_W.map (Proc.devRef (τ := τ) .tc)).toFinset :=
  ⟨writes_sub_of_mem main_v19 rfl (by decide),
    writes_sub_of_mem main_cst_0 rfl (by decide),
    writes_sub_of_mem main_v20 rfl (by decide),
    writes_sub_of_mem main_cst_1 rfl (by decide),
    writes_sub_of_mem main_v21 rfl (by decide),
    writes_sub_of_mem main_v22 rfl (by decide),
    writes_sub_of_mem main_c_2 rfl (by decide)⟩
/-- A buffer `r4` does not write keeps its contents through it. -/
theorem r4_keep (V : Valuation τ sig (Elt F)) (r : Ref sig .tc) (h : r ∉ r4_W) :
    after r4 V (Proc.devRef .tc r) = V (Proc.devRef .tc r) :=
  after_of_writes_sub r4 V r4_writes h

/-- `r5`: the variance per channel (the called function: mean, centred squares, their sum over 32768 − 0, NaN unless that count is positive) (22 operations). -/
abbrev r5 : List (HloOp τ sig (Elt F)) :=
  [ StableHlo.TRef.nullary main_call2.cst (constant S_ .f32 0x00000000#32),
    StableHlo.TRef.binary (TRef.of (T := ⟨S512x64x64, .f32⟩) main_v19) main_call2.cst main_call2.v0 (fun x v => Host.reduceAdd x v reducesTo_S512x64x64_S64_d0_1 h_S_),
    StableHlo.TRef.unary main_call2.v0 main_call2.v1 (broadcastInDim S1x1x64 ![2] bcast_S64_S1x1x64_2),
    StableHlo.TRef.nullary main_call2.cst_0 (constant S_ .f32 0x47000000#32),
    StableHlo.TRef.unary main_call2.cst_0 main_call2.v2 (broadcastInDim S1x1x64 ![] bcast_S_S1x1x64),
    StableHlo.TRef.binary main_call2.v1 main_call2.v2 main_call2.v3 Host.divf,
    StableHlo.TRef.unary main_call2.v3 main_call2.v4 (broadcastInDim S512x64x64 ![0, 1, 2] bcast_S1x1x64_S512x64x64_0_1_2),
    StableHlo.TRef.binary (TRef.of (T := ⟨S512x64x64, .f32⟩) main_v19) main_call2.v4 main_call2.v5 subf,
    StableHlo.TRef.binary main_call2.v5 main_call2.v5 main_call2.v6 mulf,
    StableHlo.TRef.unary (TRef.of (T := ⟨S_, .i32⟩) main_c_2) main_call2.v7 (sitofp .f32),
    StableHlo.TRef.nullary main_call2.cst_1 (constant S_ .f32 0x47000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S512x64x64_S64_d0_1 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]
theorem r5_sub : (r5 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem r5_fresh : (r5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers `r5` writes. -/
abbrev r5_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v23]
theorem r5_writes : (r5 : List (HloOp τ sig (Elt F))).Forall fun op => op.writes ⊆ (r5_W.map (Proc.devRef (τ := τ) .tc)).toFinset :=
  ⟨writes_sub_of_mem main_call2_cst rfl (by decide),
    writes_sub_of_mem main_call2_v0 rfl (by decide),
    writes_sub_of_mem main_call2_v1 rfl (by decide),
    writes_sub_of_mem main_call2_cst_0 rfl (by decide),
    writes_sub_of_mem main_call2_v2 rfl (by decide),
    writes_sub_of_mem main_call2_v3 rfl (by decide),
    writes_sub_of_mem main_call2_v4 rfl (by decide),
    writes_sub_of_mem main_call2_v5 rfl (by decide),
    writes_sub_of_mem main_call2_v6 rfl (by decide),
    writes_sub_of_mem main_call2_v7 rfl (by decide),
    writes_sub_of_mem main_call2_cst_1 rfl (by decide),
    writes_sub_of_mem main_call2_v8 rfl (by decide),
    writes_sub_of_mem main_call2_cst_2 rfl (by decide),
    writes_sub_of_mem main_call2_v9 rfl (by decide),
    writes_sub_of_mem main_call2_v10 rfl (by decide),
    writes_sub_of_mem main_call2_v11 rfl (by decide),
    writes_sub_of_mem main_call2_cst_3 rfl (by decide),
    writes_sub_of_mem main_call2_v12 rfl (by decide),
    writes_sub_of_mem main_call2_cst_4 rfl (by decide),
    writes_sub_of_mem main_call2_call0_v0 rfl (by decide),
    writes_sub_of_mem main_call2_call0_v1 rfl (by decide),
    writes_sub_of_mem main_v23 rfl (by decide)⟩
/-- A buffer `r5` does not write keeps its contents through it. -/
theorem r5_keep (V : Valuation τ sig (Elt F)) (r : Ref sig .tc) (h : r ∉ r5_W) :
    after r5 V (Proc.devRef .tc r) = V (Proc.devRef .tc r) :=
  after_of_writes_sub r5 V r5_writes h

/-- `r6`: centring by the mean, division by sqrt (variance + 1e-5), scale and shift by the first pair of batch-norm parameters; flattening; concatenation with the input to 512×5120; sign and index of the second table (24 operations). -/
abbrev r6 : List (HloOp τ sig (Elt F)) :=
  [ StableHlo.unary main_v22 main_v24 (broadcastInDim S1x1x64 ![2] bcast_S64_S1x1x64_2 : (⟨S64, .f32⟩ : BufTy).Contents (Elt F) → (⟨S1x1x64, .f32⟩ : BufTy).Contents (Elt F)),
    StableHlo.unary main_v24 main_v25 (broadcastInDim S512x64x64 ![0, 1, 2] bcast_S1x1x64_S512x64x64_0_1_2 : (⟨S1x1x64, .f32⟩ : BufTy).Contents (Elt F) → (⟨S512x64x64, .f32⟩ : BufTy).Contents (Elt F)),
    StableHlo.binary main_v19 main_v25 main_v26 (subf : (⟨S512x64x64, .f32⟩ : BufTy).Contents (Elt F) → (⟨S512x64x64, .f32⟩ : BufTy).Contents (Elt F) → (⟨S512x64x64, .f32⟩ : BufTy).Contents (Elt F)),
    StableHlo.nullary main_cst_3 (constant S_ .f32 0x3727C5AC#32),
    StableHlo.unary main_cst_3 main_v27 (broadcastInDim S64 ![] bcast_S_S64 : (⟨S_, .f32⟩ : BufTy).Contents (Elt F) → (⟨S64, .f32⟩ : BufTy).Contents (Elt F)),
    StableHlo.binary main_v23 main_v27 main_v28 (addf : (⟨S64, .f32⟩ : BufTy).Contents (Elt F) → (⟨S64, .f32⟩ : BufTy).Contents (Elt F) → (⟨S64, .f32⟩ : BufTy).Contents (Elt F)),
    StableHlo.unary main_v28 main_v29 (Host.sqrt : (⟨S64, .f32⟩ : BufTy).Contents (Elt F) → (⟨S64, .f32⟩ : BufTy).Contents (Elt F)),
    StableHlo.unary main_v29 main_v30 (broadcastInDim S1x1x64 ![2] bcast_S64_S1x1x64_2 : (⟨S64, .f32⟩ : BufTy).Contents (Elt F) → (⟨S1x1x64, .f32⟩ : BufTy).Contents (Elt F)),
    StableHlo.unary main_v30 main_v31 (broadcastInDim S512x64x64 ![0, 1, 2] bcast_S1x1x64_S512x64x64_0_1_2 : (⟨S1x1x64, .f32⟩ : BufTy).Contents (Elt F) → (⟨S512x64x64, .f32⟩ : BufTy).Contents (Elt F)),
    StableHlo.binary main_v26 main_v31 main_v32 (Host.divf : (⟨S512x64x64, .f32⟩ : BufTy).Contents (Elt F) → (⟨S512x64x64, .f32⟩ : BufTy).Contents (Elt F) → (⟨S512x64x64, .f32⟩ : BufTy).Contents (Elt F)),
    StableHlo.unary main_arg7 main_v33 (broadcastInDim S1x1x64 ![2] bcast_S64_S1x1x64_2 : (⟨S64, .f32⟩ : BufTy).Contents (Elt F) → (⟨S1x1x64, .f32⟩ : BufTy).Contents (Elt F)),
    StableHlo.unary main_v33 main_v34 (broadcastInDim S512x64x64 ![0, 1, 2] bcast_S1x1x64_S512x64x64_0_1_2 : (⟨S1x1x64, .f32⟩ : BufTy).Contents (Elt F) → (⟨S512x64x64, .f32⟩ : BufTy).Contents (Elt F)),
    StableHlo.binary main_v32 main_v34 main_v35 (mulf : (⟨S512x64x64, .f32⟩ : BufTy).Contents (Elt F) → (⟨S512x64x64, .f32⟩ : BufTy).Contents (Elt F) → (⟨S512x64x64, .f32⟩ : BufTy).Contents (Elt F)),
    StableHlo.unary main_arg8 main_v36 (broadcastInDim S1x1x64 ![2] bcast_S64_S1x1x64_2 : (⟨S64, .f32⟩ : BufTy).Contents (Elt F) → (⟨S1x1x64, .f32⟩ : BufTy).Contents (Elt F)),
    StableHlo.unary main_v36 main_v37 (broadcastInDim S512x64x64 ![0, 1, 2] bcast_S1x1x64_S512x64x64_0_1_2 : (⟨S1x1x64, .f32⟩ : BufTy).Contents (Elt F) → (⟨S512x64x64, .f32⟩ : BufTy).Contents (Elt F)),
    StableHlo.binary main_v35 main_v37 main_v38 (addf : (⟨S512x64x64, .f32⟩ : BufTy).Contents (Elt F) → (⟨S512x64x64, .f32⟩ : BufTy).Contents (Elt F) → (⟨S512x64x64, .f32⟩ : BufTy).Contents (Elt F)),
    StableHlo.reshape main_v38 main_v39 rfl shapeCasts_S512x64x64_S512x4096,
    StableHlo.binary main_v39 main_v1 main_v40 ((fun a b => concatenate S512x5120 1 [⟨S512x4096, a⟩, ⟨S512x1024, b⟩] concatenates_S512x4096_S512x1024_S512x5120_d1) : (⟨S512x4096, .f32⟩ : BufTy).Contents (Elt F) → (⟨S512x1024, .f32⟩ : BufTy).Contents (Elt F) → (⟨S512x5120, .f32⟩ : BufTy).Contents (Elt F)),
    StableHlo.unary main_arg12 main_v41 (signi : (⟨S64x64, .i32⟩ : BufTy).Contents (Elt F) → (⟨S64x64, .i32⟩ : BufTy).Contents (Elt F)),
    StableHlo.unary main_v41 main_v42 (sitofp .f32 : (⟨S64x64, .i32⟩ : BufTy).Contents (Elt F) → (⟨S64x64, .f32⟩ : BufTy).Contents (Elt F)),
    StableHlo.unary main_arg12 main_v43 (absi : (⟨S64x64, .i32⟩ : BufTy).Contents (Elt F) → (⟨S64x64, .i32⟩ : BufTy).Contents (Elt F)),
    StableHlo.nullary main_c_4 (constantI S_ 32 1#32),
    StableHlo.unary main_c_4 main_v44 (broadcastInDim S64x64 ![] bcast_S_S64x64 : (⟨S_, .i32⟩ : BufTy).Contents (Elt F) → (⟨S64x64, .i32⟩ : BufTy).Contents (Elt F)),
    StableHlo.binary main_v43 main_v44 main_v45 (subi : (⟨S64x64, .i32⟩ : BufTy).Contents (Elt F) → (⟨S64x64, .i32⟩ : BufTy).Contents (Elt F) → (⟨S64x64, .i32⟩ : BufTy).Contents (Elt F)) ]
theorem r6_sub : (r6 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., reshape_bufs_sub .., binary_bufs_sub .., unary_bufs_sub .., unary_bufs_sub .., unary_bufs_sub .., nullary_bufs_sub .., unary_bufs_sub .., binary_bufs_sub ..⟩
theorem r6_fresh : (r6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- The buffers `r6` writes. -/
abbrev r6_W : List (Ref sig .tc) := [main_v24, main_v25, main_v26, main_cst_3, main_v27, main_v28, main_v29, main_v30, main_v31, main_v32, main_v33, main_v34, main_v35, main_v36, main_v37, main_v38, main_v39, main_v40, main_v41, main_v42, main_v43, main_c_4, main_v44, main_v45]
theorem r6_writes : (r6 : List (HloOp τ sig (Elt F))).Forall fun op => op.writes ⊆ (r6_W.map (Proc.devRef (τ := τ) .tc)).toFinset :=
  ⟨writes_sub_of_mem main_v24 rfl (by decide),
    writes_sub_of_mem main_v25 rfl (by decide),
    writes_sub_of_mem main_v26 rfl (by decide),
    writes_sub_of_mem main_cst_3 rfl (by decide),
    writes_sub_of_mem main_v27 rfl (by decide),
    writes_sub_of_mem main_v28 rfl (by decide),
    writes_sub_of_mem main_v29 rfl (by decide),
    writes_sub_of_mem main_v30 rfl (by decide),
    writes_sub_of_mem main_v31 rfl (by decide),
    writes_sub_of_mem main_v32 rfl (by decide),
    writes_sub_of_mem main_v33 rfl (by decide),
    writes_sub_of_mem main_v34 rfl (by decide),
    writes_sub_of_mem main_v35 rfl (by decide),
    writes_sub_of_mem main_v36 rfl (by decide),
    writes_sub_of_mem main_v37 rfl (by decide),
    writes_sub_of_mem main_v38 rfl (by decide),
    writes_sub_of_mem main_v39 rfl (by decide),
    writes_sub_of_mem main_v40 rfl (by decide),
    writes_sub_of_mem main_v41 rfl (by decide),
    writes_sub_of_mem main_v42 rfl (by decide),
    writes_sub_of_mem main_v43 rfl (by decide),
    writes_sub_of_mem main_c_4 rfl (by decide),
    writes_sub_of_mem main_v44 rfl (by decide),
    writes_sub_of_mem main_v45 rfl (by decide)⟩
/-- A buffer `r6` does not write keeps its contents through it. -/
theorem r6_keep (V : Valuation τ sig (Elt F)) (r : Ref sig .tc) (h : r ∉ r6_W) :
    after r6 V (Proc.devRef .tc r) = V (Proc.devRef .tc r) :=
  after_of_writes_sub r6 V r6_writes h

/-- `r7`: the second layer's first weight rows gathered at the second table's indices (the called gather function) (23 operations). -/
abbrev r7 : List (HloOp τ sig (Elt F)) :=
  [ StableHlo.TRef.nullary main_call3.c (constantI S_ 32 0#32),
    StableHlo.TRef.unary main_call3.c main_call3.v0 (broadcastInDim S64x64 ![] bcast_S_S64x64),
    StableHlo.TRef.binary (TRef.of (T := ⟨S64x64, .i32⟩) main_v45) main_call3.v0 main_call3.v1 (cmpi .slt),
    StableHlo.TRef.nullary main_call3.c_0 (constantI S_ 32 64#32),
    StableHlo.TRef.unary main_call3.c_0 main_call3.v2 (broadcastInDim S64x64 ![] bcast_S_S64x64),
    StableHlo.TRef.binary (TRef.of (T := ⟨S64x64, .i32⟩) main_v45) main_call3.v2 main_call3.v3 addi,
    StableHlo.TRef.ternary main_call3.v1 main_call3.v3 (TRef.of (T := ⟨S64x64, .i32⟩) main_v45) main_call3.call0.v0 select,
    StableHlo.TRef.unary main_call3.call0.v0 main_call3.v5 (broadcastInDim S64x64x1 ![0, 1] bcast_S64x64_S64x64x1_0_1),
    StableHlo.TRef.nullary main_call3.c_1 (constantI S1 32 63#32),
    StableHlo.TRef.nullary main_call3.c_2 (constantI S_ 32 0#32),
    StableHlo.TRef.unary main_call3.c_2 main_call3.v6 (broadcastInDim S64x64x1 ![] bcast_S_S64x64x1),
    StableHlo.TRef.binary main_call3.v5 main_call3.v6 main_call3.v7 (cmpi .sge),
    StableHlo.TRef.unary main_call3.c_1 main_call3.v8 (broadcastInDim S1x1x1 ![2] bcast_S1_S1x1x1_2),
    StableHlo.TRef.unary main_call3.v8 main_call3.v9 (broadcastInDim S64x64x1 ![0, 1, 2] bcast_S1x1x1_S64x64x1_0_1_2),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S64x64x1_S64x64_d2 h_S_),
    StableHlo.TRef.binary (TRef.of (T := ⟨S64x64x64, .f32⟩) main_arg2) main_call3.v5 main_call3.v13 (fun x i => Host.gather gather_S64x64x64_S64x64x1_S64x64x64x64_01_2_n_n_2_2_64641 x i),
    StableHlo.TRef.unary main_call3.v12 main_call3.v14 (broadcastInDim S64x64x64x64 ![2, 3] bcast_S64x64_S64x64x64x64_2_3),
    StableHlo.TRef.nullary main_call3.cst (constant S_ .f32 0x7FC00000#32),
    StableHlo.TRef.unary main_call3.cst main_call3.v15 (broadcastInDim S64x64x64x64 ![] bcast_S_S64x64x64x64),
    StableHlo.TRef.ternary main_call3.v14 main_call3.v13 main_call3.v15 main_call3.v16 select ]
theorem r7_sub : (r7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem r7_fresh : (r7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The buffers `r7` writes. -/
abbrev r7_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v46]
theorem r7_writes : (r7 : List (HloOp τ sig (Elt F))).Forall fun op => op.writes ⊆ (r7_W.map (Proc.devRef (τ := τ) .tc)).toFinset :=
  ⟨writes_sub_of_mem main_call3_c rfl (by decide),
    writes_sub_of_mem main_call3_v0 rfl (by decide),
    writes_sub_of_mem main_call3_v1 rfl (by decide),
    writes_sub_of_mem main_call3_c_0 rfl (by decide),
    writes_sub_of_mem main_call3_v2 rfl (by decide),
    writes_sub_of_mem main_call3_v3 rfl (by decide),
    writes_sub_of_mem main_call3_v4 rfl (by decide),
    writes_sub_of_mem main_call3_v5 rfl (by decide),
    writes_sub_of_mem main_call3_c_1 rfl (by decide),
    writes_sub_of_mem main_call3_c_2 rfl (by decide),
    writes_sub_of_mem main_call3_v6 rfl (by decide),
    writes_sub_of_mem main_call3_v7 rfl (by decide),
    writes_sub_of_mem main_call3_v8 rfl (by decide),
    writes_sub_of_mem main_call3_v9 rfl (by decide),
    writes_sub_of_mem main_call3_v10 rfl (by decide),
    writes_sub_of_mem main_call3_v11 rfl (by decide),
    writes_sub_of_mem main_call3_c_3 rfl (by decide),
    writes_sub_of_mem main_call3_v12 rfl (by decide),
    writes_sub_of_mem main_call3_v13 rfl (by decide),
    writes_sub_of_mem main_call3_v14 rfl (by decide),
    writes_sub_of_mem main_call3_cst rfl (by decide),
    writes_sub_of_mem main_call3_v15 rfl (by decide),
    writes_sub_of_mem main_v46 rfl (by decide)⟩
/-- A buffer `r7` does not write keeps its contents through it. -/
theorem r7_keep (V : Valuation τ sig (Elt F)) (r : Ref sig .tc) (h : r ∉ r7_W) :
    after r7 V (Proc.devRef .tc r) = V (Proc.devRef .tc r) :=
  after_of_writes_sub r7 V r7_writes h

/-- `r8`: those rows times the signs, transposed and flattened to 4096×4096; sign and index of the third table (11 operations). -/
abbrev r8 : List (HloOp τ sig (Elt F)) :=
  [ StableHlo.unary main_v42 main_v47 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v47 main_v48 (broadcastInDim S64x64x64x64 ![0, 1, 2, 3] bcast_S1x1x64x64_S64x64x64x64_0_1_2_3 : (⟨S1x1x64x64, .f32⟩ : BufTy).Contents (Elt F) → (⟨S64x64x64x64, .f32⟩ : BufTy).Contents (Elt F)),
    StableHlo.binary main_v48 main_v46 main_v49 (mulf : (⟨S64x64x64x64, .f32⟩ : BufTy).Contents (Elt F) → (⟨S64x64x64x64, .f32⟩ : BufTy).Contents (Elt F) → (⟨S64x64x64x64, .f32⟩ : BufTy).Contents (Elt F)),
    StableHlo.unary main_v49 main_v50 ((transpose S64x64x64x64 [2, 0, 3, 1] · transposes_S64x64x64x64_S64x64x64x64_2_0_3_1) : (⟨S64x64x64x64, .f32⟩ : BufTy).Contents (Elt F) → (⟨S64x64x64x64, .f32⟩ : BufTy).Contents (Elt F)),
    StableHlo.reshape main_v50 main_v51 rfl shapeCasts_S64x64x64x64_S4096x4096,
    StableHlo.unary main_arg13 main_v52 (signi : (⟨S64x64, .i32⟩ : BufTy).Contents (Elt F) → (⟨S64x64, .i32⟩ : BufTy).Contents (Elt F)),
    StableHlo.unary main_v52 main_v53 (sitofp .f32 : (⟨S64x64, .i32⟩ : BufTy).Contents (Elt F) → (⟨S64x64, .f32⟩ : BufTy).Contents (Elt F)),
    StableHlo.unary main_arg13 main_v54 (absi : (⟨S64x64, .i32⟩ : BufTy).Contents (Elt F) → (⟨S64x64, .i32⟩ : BufTy).Contents (Elt F)),
    StableHlo.nullary main_c_5 (constantI S_ 32 1#32),
    StableHlo.unary main_c_5 main_v55 (broadcastInDim S64x64 ![] bcast_S_S64x64 : (⟨S_, .i32⟩ : BufTy).Contents (Elt F) → (⟨S64x64, .i32⟩ : BufTy).Contents (Elt F)),
    StableHlo.binary main_v54 main_v55 main_v56 (subi : (⟨S64x64, .i32⟩ : BufTy).Contents (Elt F) → (⟨S64x64, .i32⟩ : BufTy).Contents (Elt F) → (⟨S64x64, .i32⟩ : BufTy).Contents (Elt F)) ]
theorem r8_sub : (r8 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., unary_bufs_sub .., nullary_bufs_sub .., unary_bufs_sub .., binary_bufs_sub ..⟩
theorem r8_fresh : (r8 : List (HloOp τ sig (Elt F))).Forall fun op => op.fresh = ∅ :=
  ⟨rfl, rfl, rfl, rfl, rfl, rfl, rfl, rfl, rfl, rfl, rfl⟩
/-- The buffers `r8` writes. -/
abbrev r8_W : List (Ref sig .tc) := [main_v47, main_v48, main_v49, main_v50, main_v51, main_v52, main_v53, main_v54, main_c_5, main_v55, main_v56]
theorem r8_writes : (r8 : List (HloOp τ sig (Elt F))).Forall fun op => op.writes ⊆ (r8_W.map (Proc.devRef (τ := τ) .tc)).toFinset :=
  ⟨writes_sub_of_mem main_v47 rfl (by decide),
    writes_sub_of_mem main_v48 rfl (by decide),
    writes_sub_of_mem main_v49 rfl (by decide),
    writes_sub_of_mem main_v50 rfl (by decide),
    writes_sub_of_mem main_v51 rfl (by decide),
    writes_sub_of_mem main_v52 rfl (by decide),
    writes_sub_of_mem main_v53 rfl (by decide),
    writes_sub_of_mem main_v54 rfl (by decide),
    writes_sub_of_mem main_c_5 rfl (by decide),
    writes_sub_of_mem main_v55 rfl (by decide),
    writes_sub_of_mem main_v56 rfl (by decide)⟩
/-- A buffer `r8` does not write keeps its contents through it. -/
theorem r8_keep (V : Valuation τ sig (Elt F)) (r : Ref sig .tc) (h : r ∉ r8_W) :
    after r8 V (Proc.devRef .tc r) = V (Proc.devRef .tc r) :=
  after_of_writes_sub r8 V r8_writes h

/-- `r9`: the second layer's second weight rows gathered at the third table's indices (the called gather function) (23 operations). -/
abbrev r9 : List (HloOp τ sig (Elt F)) :=
  [ StableHlo.TRef.nullary main_call4.c (constantI S_ 32 0#32),
    StableHlo.TRef.unary main_call4.c main_call4.v0 (broadcastInDim S64x64 ![] bcast_S_S64x64),
    StableHlo.TRef.binary (TRef.of (T := ⟨S64x64, .i32⟩) main_v56) main_call4.v0 main_call4.v1 (cmpi .slt),
    StableHlo.TRef.nullary main_call4.c_0 (constantI S_ 32 64#32),
    StableHlo.TRef.unary main_call4.c_0 main_call4.v2 (broadcastInDim S64x64 ![] bcast_S_S64x64),
    StableHlo.TRef.binary (TRef.of (T := ⟨S64x64, .i32⟩) main_v56) main_call4.v2 main_call4.v3 addi,
    StableHlo.TRef.ternary main_call4.v1 main_call4.v3 (TRef.of (T := ⟨S64x64, .i32⟩) main_v56) main_call4.call0.v0 select,
    StableHlo.TRef.unary main_call4.call0.v0 main_call4.v5 (broadcastInDim S64x64x1 ![0, 1] bcast_S64x64_S64x64x1_0_1),
    StableHlo.TRef.nullary main_call4.c_1 (constantI S1 32 63#32),
    StableHlo.TRef.nullary main_call4.c_2 (constantI S_ 32 0#32),
    StableHlo.TRef.unary main_call4.c_2 main_call4.v6 (broadcastInDim S64x64x1 ![] bcast_S_S64x64x1),
    StableHlo.TRef.binary main_call4.v5 main_call4.v6 main_call4.v7 (cmpi .sge),
    StableHlo.TRef.unary main_call4.c_1 main_call4.v8 (broadcastInDim S1x1x1 ![2] bcast_S1_S1x1x1_2),
    StableHlo.TRef.unary main_call4.v8 main_call4.v9 (broadcastInDim S64x64x1 ![0, 1, 2] bcast_S1x1x1_S64x64x1_0_1_2),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S64x64x1_S64x64_d2 h_S_),
    StableHlo.TRef.binary (TRef.of (T := ⟨S64x16x64, .f32⟩) main_arg3) main_call4.v5 main_call4.v13 (fun x i => Host.gather gather_S64x16x64_S64x64x1_S64x16x64x64_01_2_n_n_2_2_64161 x i),
    StableHlo.TRef.unary main_call4.v12 main_call4.v14 (broadcastInDim S64x16x64x64 ![2, 3] bcast_S64x64_S64x16x64x64_2_3),
    StableHlo.TRef.nullary main_call4.cst (constant S_ .f32 0x7FC00000#32),
    StableHlo.TRef.unary main_call4.cst main_call4.v15 (broadcastInDim S64x16x64x64 ![] bcast_S_S64x16x64x64),
    StableHlo.TRef.ternary main_call4.v14 main_call4.v13 main_call4.v15 main_call4.v16 select ]
theorem r9_sub : (r9 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem r9_fresh : (r9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The buffers `r9` writes. -/
abbrev r9_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v57]
theorem r9_writes : (r9 : List (HloOp τ sig (Elt F))).Forall fun op => op.writes ⊆ (r9_W.map (Proc.devRef (τ := τ) .tc)).toFinset :=
  ⟨writes_sub_of_mem main_call4_c rfl (by decide),
    writes_sub_of_mem main_call4_v0 rfl (by decide),
    writes_sub_of_mem main_call4_v1 rfl (by decide),
    writes_sub_of_mem main_call4_c_0 rfl (by decide),
    writes_sub_of_mem main_call4_v2 rfl (by decide),
    writes_sub_of_mem main_call4_v3 rfl (by decide),
    writes_sub_of_mem main_call4_v4 rfl (by decide),
    writes_sub_of_mem main_call4_v5 rfl (by decide),
    writes_sub_of_mem main_call4_c_1 rfl (by decide),
    writes_sub_of_mem main_call4_c_2 rfl (by decide),
    writes_sub_of_mem main_call4_v6 rfl (by decide),
    writes_sub_of_mem main_call4_v7 rfl (by decide),
    writes_sub_of_mem main_call4_v8 rfl (by decide),
    writes_sub_of_mem main_call4_v9 rfl (by decide),
    writes_sub_of_mem main_call4_v10 rfl (by decide),
    writes_sub_of_mem main_call4_v11 rfl (by decide),
    writes_sub_of_mem main_call4_c_3 rfl (by decide),
    writes_sub_of_mem main_call4_v12 rfl (by decide),
    writes_sub_of_mem main_call4_v13 rfl (by decide),
    writes_sub_of_mem main_call4_v14 rfl (by decide),
    writes_sub_of_mem main_call4_cst rfl (by decide),
    writes_sub_of_mem main_call4_v15 rfl (by decide),
    writes_sub_of_mem main_v57 rfl (by decide)⟩
/-- A buffer `r9` does not write keeps its contents through it. -/
theorem r9_keep (V : Valuation τ sig (Elt F)) (r : Ref sig .tc) (h : r ∉ r9_W) :
    after r9 V (Proc.devRef .tc r) = V (Proc.devRef .tc r) :=
  after_of_writes_sub r9 V r9_writes h

/-- `r10`: those rows times the signs, transposed and flattened to 4096×1024; the two weight matrices concatenated to 4096×5120 and transposed (7 operations). -/
abbrev r10 : List (HloOp τ sig (Elt F)) :=
  [ StableHlo.unary main_v53 main_v58 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v58 main_v59 (broadcastInDim S64x16x64x64 ![0, 1, 2, 3] bcast_S1x1x64x64_S64x16x64x64_0_1_2_3 : (⟨S1x1x64x64, .f32⟩ : BufTy).Contents (Elt F) → (⟨S64x16x64x64, .f32⟩ : BufTy).Contents (Elt F)),
    StableHlo.binary main_v59 main_v57 main_v60 (mulf : (⟨S64x16x64x64, .f32⟩ : BufTy).Contents (Elt F) → (⟨S64x16x64x64, .f32⟩ : BufTy).Contents (Elt F) → (⟨S64x16x64x64, .f32⟩ : BufTy).Contents (Elt F)),
    StableHlo.unary main_v60 main_v61 ((transpose S64x64x64x16 [2, 0, 3, 1] · transposes_S64x16x64x64_S64x64x64x16_2_0_3_1) : (⟨S64x16x64x64, .f32⟩ : BufTy).Contents (Elt F) → (⟨S64x64x64x16, .f32⟩ : BufTy).Contents (Elt F)),
    StableHlo.reshape main_v61 main_v62 rfl shapeCasts_S64x64x64x16_S4096x1024,
    StableHlo.binary main_v51 main_v62 main_v63 ((fun a b => concatenate S4096x5120 1 [⟨S4096x4096, a⟩, ⟨S4096x1024, b⟩] concatenates_S4096x4096_S4096x1024_S4096x5120_d1) : (⟨S4096x4096, .f32⟩ : BufTy).Contents (Elt F) → (⟨S4096x1024, .f32⟩ : BufTy).Contents (Elt F) → (⟨S4096x5120, .f32⟩ : BufTy).Contents (Elt F)),
    StableHlo.unary main_v63 main_v64 ((transpose S5120x4096 [1, 0] · transposes_S4096x5120_S5120x4096_1_0) : (⟨S4096x5120, .f32⟩ : BufTy).Contents (Elt F) → (⟨S5120x4096, .f32⟩ : BufTy).Contents (Elt F)) ]
theorem r10_sub : (r10 : List (HloOp τ sig (Elt F))).Forall fun op => op.bufs ⊆ tcRefs τ sig :=
  ⟨unary_bufs_sub .., unary_bufs_sub .., binary_bufs_sub .., unary_bufs_sub .., reshape_bufs_sub .., binary_bufs_sub .., unary_bufs_sub ..⟩
theorem r10_fresh : (r10 : List (HloOp τ sig (Elt F))).Forall fun op => op.fresh = ∅ :=
  ⟨rfl, rfl, rfl, rfl, rfl, rfl, rfl⟩
/-- The buffers `r10` writes. -/
abbrev r10_W : List (Ref sig .tc) := [main_v58, main_v59, main_v60, main_v61, main_v62, main_v63, main_v64]
theorem r10_writes : (r10 : List (HloOp τ sig (Elt F))).Forall fun op => op.writes ⊆ (r10_W.map (Proc.devRef (τ := τ) .tc)).toFinset :=
  ⟨writes_sub_of_mem main_v58 rfl (by decide),
    writes_sub_of_mem main_v59 rfl (by decide),
    writes_sub_of_mem main_v60 rfl (by decide),
    writes_sub_of_mem main_v61 rfl (by decide),
    writes_sub_of_mem main_v62 rfl (by decide),
    writes_sub_of_mem main_v63 rfl (by decide),
    writes_sub_of_mem main_v64 rfl (by decide)⟩
/-- A buffer `r10` does not write keeps its contents through it. -/
theorem r10_keep (V : Valuation τ sig (Elt F)) (r : Ref sig .tc) (h : r ∉ r10_W) :
    after r10 V (Proc.devRef .tc r) = V (Proc.devRef .tc r) :=
  after_of_writes_sub r10 V r10_writes h

/-- The operations of `r8` up to the flattening to 4096×4096 and the third table's sign. -/
abbrev r8a : List (HloOp τ sig (Elt F)) :=
  [ StableHlo.unary main_v42 main_v47 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v47 main_v48 (broadcastInDim S64x64x64x64 ![0, 1, 2, 3] bcast_S1x1x64x64_S64x64x64x64_0_1_2_3 : (⟨S1x1x64x64, .f32⟩ : BufTy).Contents (Elt F) → (⟨S64x64x64x64, .f32⟩ : BufTy).Contents (Elt F)),
    StableHlo.binary main_v48 main_v46 main_v49 (mulf : (⟨S64x64x64x64, .f32⟩ : BufTy).Contents (Elt F) → (⟨S64x64x64x64, .f32⟩ : BufTy).Contents (Elt F) → (⟨S64x64x64x64, .f32⟩ : BufTy).Contents (Elt F)),
    StableHlo.unary main_v49 main_v50 ((transpose S64x64x64x64 [2, 0, 3, 1] · transposes_S64x64x64x64_S64x64x64x64_2_0_3_1) : (⟨S64x64x64x64, .f32⟩ : BufTy).Contents (Elt F) → (⟨S64x64x64x64, .f32⟩ : BufTy).Contents (Elt F)),
    StableHlo.reshape main_v50 main_v51 rfl shapeCasts_S64x64x64x64_S4096x4096,
    StableHlo.unary main_arg13 main_v52 (signi : (⟨S64x64, .i32⟩ : BufTy).Contents (Elt F) → (⟨S64x64, .i32⟩ : BufTy).Contents (Elt F)) ]

/-- The rest of `r8`. -/
abbrev r8b : List (HloOp τ sig (Elt F)) :=
  [ StableHlo.unary main_v52 main_v53 (sitofp .f32 : (⟨S64x64, .i32⟩ : BufTy).Contents (Elt F) → (⟨S64x64, .f32⟩ : BufTy).Contents (Elt F)),
    StableHlo.unary main_arg13 main_v54 (absi : (⟨S64x64, .i32⟩ : BufTy).Contents (Elt F) → (⟨S64x64, .i32⟩ : BufTy).Contents (Elt F)),
    StableHlo.nullary main_c_5 (constantI S_ 32 1#32),
    StableHlo.unary main_c_5 main_v55 (broadcastInDim S64x64 ![] bcast_S_S64x64 : (⟨S_, .i32⟩ : BufTy).Contents (Elt F) → (⟨S64x64, .i32⟩ : BufTy).Contents (Elt F)),
    StableHlo.binary main_v54 main_v55 main_v56 (subi : (⟨S64x64, .i32⟩ : BufTy).Contents (Elt F) → (⟨S64x64, .i32⟩ : BufTy).Contents (Elt F) → (⟨S64x64, .i32⟩ : BufTy).Contents (Elt F)) ]
theorem r8_split : (r8 : List (HloOp τ sig (Elt F))) = r8a ++ r8b := rfl

end Cert.ReferenceIdeal.RefRun

end
-- ==== Proof.Ref.OpsB.lean ====
/-
  The reference program's host operations, second half, as eleven consecutive lists `r11 … r21`, with the
  same facts for each as for `r0 … r10`. `r16a`, `r16b` are the two halves of `r16` at the place where the
  program's text is cut.
-/
import proofs.«117565_j22136261443720_1_alg».proof.Proof.Ref.Base

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

/-- `r11`: the second matrix product y; relu y (the called function); y / 2; relu y − y / 2 (8 operations). -/
abbrev r11 : List (HloOp τ sig (Elt F)) :=
  [ StableHlo.binary main_v40 main_v64 main_v65 ((fun l r => Host.dotGeneral dot_S512x5120_S5120x4096_S512x4096_1_0_0_1_n_n none l r) : (⟨S512x5120, .f32⟩ : BufTy).Contents (Elt F) → (⟨S5120x4096, .f32⟩ : BufTy).Contents (Elt F) → (⟨S512x4096, .f32⟩ : BufTy).Contents (Elt F)),
    StableHlo.TRef.nullary main_call5.cst (constant S_ .f32 0x00000000#32),
    StableHlo.TRef.unary main_call5.cst main_call5.v0 (broadcastInDim S512x4096 ![] bcast_S_S512x4096),
    StableHlo.TRef.binary (TRef.of (T := ⟨S512x4096, .f32⟩) main_v65) main_call5.v0 main_call5.v1 maximumf,
    StableHlo.nullary main_cst_6 (constant S_ .f32 0x40000000#32),
    StableHlo.unary main_cst_6 main_v67 (broadcastInDim S512x4096 ![] bcast_S_S512x4096 : (⟨S_, .f32⟩ : BufTy).Contents (Elt F) → (⟨S512x4096, .f32⟩ : BufTy).Contents (Elt F)),
    StableHlo.binary main_v65 main_v67 main_v68 (Host.divf : (⟨S512x4096, .f32⟩ : BufTy).Contents (Elt F) → (⟨S512x4096, .f32⟩ : BufTy).Contents (Elt F) → (⟨S512x4096, .f32⟩ : BufTy).Contents (Elt F)),
    StableHlo.binary main_v66 main_v68 main_v69 (subf : (⟨S512x4096, .f32⟩ : BufTy).Contents (Elt F) → (⟨S512x4096, .f32⟩ : BufTy).Contents (Elt F) → (⟨S512x4096, .f32⟩ : BufTy).Contents (Elt F)) ]
theorem r11_sub : (r11 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., binary_bufs_sub ..⟩
theorem r11_fresh : (r11 : List (HloOp τ sig (Elt F))).Forall fun op => op.fresh = ∅ :=
  ⟨rfl, rfl, rfl, rfl, rfl, rfl, rfl, rfl⟩
/-- The buffers `r11` writes. -/
abbrev r11_W : List (Ref sig .tc) := [main_v65, main_call5_cst, main_call5_v0, main_v66, main_cst_6, main_v67, main_v68, main_v69]
theorem r11_writes : (r11 : List (HloOp τ sig (Elt F))).Forall fun op => op.writes ⊆ (r11_W.map (Proc.devRef (τ := τ) .tc)).toFinset :=
  ⟨writes_sub_of_mem main_v65 rfl (by decide),
    writes_sub_of_mem main_call5_cst rfl (by decide),
    writes_sub_of_mem main_call5_v0 rfl (by decide),
    writes_sub_of_mem main_v66 rfl (by decide),
    writes_sub_of_mem main_cst_6 rfl (by decide),
    writes_sub_of_mem main_v67 rfl (by decide),
    writes_sub_of_mem main_v68 rfl (by decide),
    writes_sub_of_mem main_v69 rfl (by decide)⟩
/-- A buffer `r11` does not write keeps its contents through it. -/
theorem r11_keep (V : Valuation τ sig (Elt F)) (r : Ref sig .tc) (h : r ∉ r11_W) :
    after r11 V (Proc.devRef .tc r) = V (Proc.devRef .tc r) :=
  after_of_writes_sub r11 V r11_writes h

/-- `r12`: the result as 512×64×64; its mean per channel; the constant 0 the variance function takes (7 operations). -/
abbrev r12 : List (HloOp τ sig (Elt F)) :=
  [ StableHlo.reshape main_v69 main_v70 rfl shapeCasts_S512x4096_S512x64x64,
    StableHlo.nullary main_cst_7 (constant S_ .f32 0x00000000#32),
    StableHlo.binary main_v70 main_cst_7 main_v71 ((fun x v => Host.reduceAdd x v reducesTo_S512x64x64_S64_d0_1 h_S_) : (⟨S512x64x64, .f32⟩ : BufTy).Contents (Elt F) → (⟨S_, .f32⟩ : BufTy).Contents (Elt F) → (⟨S64, .f32⟩ : BufTy).Contents (Elt F)),
    StableHlo.nullary main_cst_8 (constant S_ .f32 0x47000000#32),
    StableHlo.unary main_cst_8 main_v72 (broadcastInDim S64 ![] bcast_S_S64 : (⟨S_, .f32⟩ : BufTy).Contents (Elt F) → (⟨S64, .f32⟩ : BufTy).Contents (Elt F)),
    StableHlo.binary main_v71 main_v72 main_v73 (Host.divf : (⟨S64, .f32⟩ : BufTy).Contents (Elt F) → (⟨S64, .f32⟩ : BufTy).Contents (Elt F) → (⟨S64, .f32⟩ : BufTy).Contents (Elt F)),
    StableHlo.nullary main_c_9 (constantI S_ 32 0#32) ]
theorem r12_sub : (r12 : List (HloOp τ sig (Elt F))).Forall fun op => op.bufs ⊆ tcRefs τ sig :=
  ⟨reshape_bufs_sub .., nullary_bufs_sub .., binary_bufs_sub .., nullary_bufs_sub .., unary_bufs_sub .., binary_bufs_sub .., nullary_bufs_sub ..⟩
theorem r12_fresh : (r12 : List (HloOp τ sig (Elt F))).Forall fun op => op.fresh = ∅ :=
  ⟨rfl, rfl, rfl, rfl, rfl, rfl, rfl⟩
/-- The buffers `r12` writes. -/
abbrev r12_W : List (Ref sig .tc) := [main_v70, main_cst_7, main_v71, main_cst_8, main_v72, main_v73, main_c_9]
theorem r12_writes : (r12 : List (HloOp τ sig (Elt F))).Forall fun op => op.writes ⊆ (r12_W.map (Proc.devRef (τ := τ) .tc)).toFinset :=
  ⟨writes_sub_of_mem main_v70 rfl (by decide),
    writes_sub_of_mem main_cst_7 rfl (by decide),
    writes_sub_of_mem main_v71 rfl (by decide),
    writes_sub_of_mem main_cst_8 rfl (by decide),
    writes_sub_of_mem main_v72 rfl (by decide),
    writes_sub_of_mem main_v73 rfl (by decide),
    writes_sub_of_mem main_c_9 rfl (by decide)⟩
/-- A buffer `r12` does not write keeps its contents through it. -/
theorem r12_keep (V : Valuation τ sig (Elt F)) (r : Ref sig .tc) (h : r ∉ r12_W) :
    after r12 V (Proc.devRef .tc r) = V (Proc.devRef .tc r) :=
  after_of_writes_sub r12 V r12_writes h

/-- `r13`: the variance per channel (the called function) (22 operations). -/
abbrev r13 : List (HloOp τ sig (Elt F)) :=
  [ StableHlo.TRef.nullary main_call6.cst (constant S_ .f32 0x00000000#32),
    StableHlo.TRef.binary (TRef.of (T := ⟨S512x64x64, .f32⟩) main_v70) main_call6.cst main_call6.v0 (fun x v => Host.reduceAdd x v reducesTo_S512x64x64_S64_d0_1 h_S_),
    StableHlo.TRef.unary main_call6.v0 main_call6.v1 (broadcastInDim S1x1x64 ![2] bcast_S64_S1x1x64_2),
    StableHlo.TRef.nullary main_call6.cst_0 (constant S_ .f32 0x47000000#32),
    StableHlo.TRef.unary main_call6.cst_0 main_call6.v2 (broadcastInDim S1x1x64 ![] bcast_S_S1x1x64),
    StableHlo.TRef.binary main_call6.v1 main_call6.v2 main_call6.v3 Host.divf,
    StableHlo.TRef.unary main_call6.v3 main_call6.v4 (broadcastInDim S512x64x64 ![0, 1, 2] bcast_S1x1x64_S512x64x64_0_1_2),
    StableHlo.TRef.binary (TRef.of (T := ⟨S512x64x64, .f32⟩) main_v70) main_call6.v4 main_call6.v5 subf,
    StableHlo.TRef.binary main_call6.v5 main_call6.v5 main_call6.v6 mulf,
    StableHlo.TRef.unary (TRef.of (T := ⟨S_, .i32⟩) main_c_9) main_call6.v7 (sitofp .f32),
    StableHlo.TRef.nullary main_call6.cst_1 (constant S_ .f32 0x47000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S512x64x64_S64_d0_1 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b) ]
theorem r13_sub : (r13 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem r13_fresh : (r13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
/-- The buffers `r13` writes. -/
abbrev r13_W : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v74]
theorem r13_writes : (r13 : List (HloOp τ sig (Elt F))).Forall fun op => op.writes ⊆ (r13_W.map (Proc.devRef (τ := τ) .tc)).toFinset :=
  ⟨writes_sub_of_mem main_call6_cst rfl (by decide),
    writes_sub_of_mem main_call6_v0 rfl (by decide),
    writes_sub_of_mem main_call6_v1 rfl (by decide),
    writes_sub_of_mem main_call6_cst_0 rfl (by decide),
    writes_sub_of_mem main_call6_v2 rfl (by decide),
    writes_sub_of_mem main_call6_v3 rfl (by decide),
    writes_sub_of_mem main_call6_v4 rfl (by decide),
    writes_sub_of_mem main_call6_v5 rfl (by decide),
    writes_sub_of_mem main_call6_v6 rfl (by decide),
    writes_sub_of_mem main_call6_v7 rfl (by decide),
    writes_sub_of_mem main_call6_cst_1 rfl (by decide),
    writes_sub_of_mem main_call6_v8 rfl (by decide),
    writes_sub_of_mem main_call6_cst_2 rfl (by decide),
    writes_sub_of_mem main_call6_v9 rfl (by decide),
    writes_sub_of_mem main_call6_v10 rfl (by decide),
    writes_sub_of_mem main_call6_v11 rfl (by decide),
    writes_sub_of_mem main_call6_cst_3 rfl (by decide),
    writes_sub_of_mem main_call6_v12 rfl (by decide),
    writes_sub_of_mem main_call6_cst_4 rfl (by decide),
    writes_sub_of_mem main_call6_call0_v0 rfl (by decide),
    writes_sub_of_mem main_call6_call0_v1 rfl (by decide),
    writes_sub_of_mem main_v74 rfl (by decide)⟩
/-- A buffer `r13` does not write keeps its contents through it. -/
theorem r13_keep (V : Valuation τ sig (Elt F)) (r : Ref sig .tc) (h : r ∉ r13_W) :
    after r13 V (Proc.devRef .tc r) = V (Proc.devRef .tc r) :=
  after_of_writes_sub r13 V r13_writes h

/-- `r14`: centring, division by sqrt (variance + 1e-5), scale and shift by the second pair of batch-norm parameters; flattening; concatenation to 512×9216; sign and index of the fourth table (24 operations). -/
abbrev r14 : List (HloOp τ sig (Elt F)) :=
  [ StableHlo.unary main_v73 main_v75 (broadcastInDim S1x1x64 ![2] bcast_S64_S1x1x64_2 : (⟨S64, .f32⟩ : BufTy).Contents (Elt F) → (⟨S1x1x64, .f32⟩ : BufTy).Contents (Elt F)),
    StableHlo.unary main_v75 main_v76 (broadcastInDim S512x64x64 ![0, 1, 2] bcast_S1x1x64_S512x64x64_0_1_2 : (⟨S1x1x64, .f32⟩ : BufTy).Contents (Elt F) → (⟨S512x64x64, .f32⟩ : BufTy).Contents (Elt F)),
    StableHlo.binary main_v70 main_v76 main_v77 (subf : (⟨S512x64x64, .f32⟩ : BufTy).Contents (Elt F) → (⟨S512x64x64, .f32⟩ : BufTy).Contents (Elt F) → (⟨S512x64x64, .f32⟩ : BufTy).Contents (Elt F)),
    StableHlo.nullary main_cst_10 (constant S_ .f32 0x3727C5AC#32),
    StableHlo.unary main_cst_10 main_v78 (broadcastInDim S64 ![] bcast_S_S64 : (⟨S_, .f32⟩ : BufTy).Contents (Elt F) → (⟨S64, .f32⟩ : BufTy).Contents (Elt F)),
    StableHlo.binary main_v74 main_v78 main_v79 (addf : (⟨S64, .f32⟩ : BufTy).Contents (Elt F) → (⟨S64, .f32⟩ : BufTy).Contents (Elt F) → (⟨S64, .f32⟩ : BufTy).Contents (Elt F)),
    StableHlo.unary main_v79 main_v80 (Host.sqrt : (⟨S64, .f32⟩ : BufTy).Contents (Elt F) → (⟨S64, .f32⟩ : BufTy).Contents (Elt F)),
    StableHlo.unary main_v80 main_v81 (broadcastInDim S1x1x64 ![2] bcast_S64_S1x1x64_2 : (⟨S64, .f32⟩ : BufTy).Contents (Elt F) → (⟨S1x1x64, .f32⟩ : BufTy).Contents (Elt F)),
    StableHlo.unary main_v81 main_v82 (broadcastInDim S512x64x64 ![0, 1, 2] bcast_S1x1x64_S512x64x64_0_1_2 : (⟨S1x1x64, .f32⟩ : BufTy).Contents (Elt F) → (⟨S512x64x64, .f32⟩ : BufTy).Contents (Elt F)),
    StableHlo.binary main_v77 main_v82 main_v83 (Host.divf : (⟨S512x64x64, .f32⟩ : BufTy).Contents (Elt F) → (⟨S512x64x64, .f32⟩ : BufTy).Contents (Elt F) → (⟨S512x64x64, .f32⟩ : BufTy).Contents (Elt F)),
    StableHlo.unary main_arg9 main_v84 (broadcastInDim S1x1x64 ![2] bcast_S64_S1x1x64_2 : (⟨S64, .f32⟩ : BufTy).Contents (Elt F) → (⟨S1x1x64, .f32⟩ : BufTy).Contents (Elt F)),
    StableHlo.unary main_v84 main_v85 (broadcastInDim S512x64x64 ![0, 1, 2] bcast_S1x1x64_S512x64x64_0_1_2 : (⟨S1x1x64, .f32⟩ : BufTy).Contents (Elt F) → (⟨S512x64x64, .f32⟩ : BufTy).Contents (Elt F)),
    StableHlo.binary main_v83 main_v85 main_v86 (mulf : (⟨S512x64x64, .f32⟩ : BufTy).Contents (Elt F) → (⟨S512x64x64, .f32⟩ : BufTy).Contents (Elt F) → (⟨S512x64x64, .f32⟩ : BufTy).Contents (Elt F)),
    StableHlo.unary main_arg10 main_v87 (broadcastInDim S1x1x64 ![2] bcast_S64_S1x1x64_2 : (⟨S64, .f32⟩ : BufTy).Contents (Elt F) → (⟨S1x1x64, .f32⟩ : BufTy).Contents (Elt F)),
    StableHlo.unary main_v87 main_v88 (broadcastInDim S512x64x64 ![0, 1, 2] bcast_S1x1x64_S512x64x64_0_1_2 : (⟨S1x1x64, .f32⟩ : BufTy).Contents (Elt F) → (⟨S512x64x64, .f32⟩ : BufTy).Contents (Elt F)),
    StableHlo.binary main_v86 main_v88 main_v89 (addf : (⟨S512x64x64, .f32⟩ : BufTy).Contents (Elt F) → (⟨S512x64x64, .f32⟩ : BufTy).Contents (Elt F) → (⟨S512x64x64, .f32⟩ : BufTy).Contents (Elt F)),
    StableHlo.reshape main_v89 main_v90 rfl shapeCasts_S512x64x64_S512x4096,
    StableHlo.binary main_v90 main_v40 main_v91 ((fun a b => concatenate S512x9216 1 [⟨S512x4096, a⟩, ⟨S512x5120, b⟩] concatenates_S512x4096_S512x5120_S512x9216_d1) : (⟨S512x4096, .f32⟩ : BufTy).Contents (Elt F) → (⟨S512x5120, .f32⟩ : BufTy).Contents (Elt F) → (⟨S512x9216, .f32⟩ : BufTy).Contents (Elt F)),
    StableHlo.unary main_arg14 main_v92 (signi : (⟨S64x64, .i32⟩ : BufTy).Contents (Elt F) → (⟨S64x64, .i32⟩ : BufTy).Contents (Elt F)),
    StableHlo.unary main_v92 main_v93 (sitofp .f32 : (⟨S64x64, .i32⟩ : BufTy).Contents (Elt F) → (⟨S64x64, .f32⟩ : BufTy).Contents (Elt F)),
    StableHlo.unary main_arg14 main_v94 (absi : (⟨S64x64, .i32⟩ : BufTy).Contents (Elt F) → (⟨S64x64, .i32⟩ : BufTy).Contents (Elt F)),
    StableHlo.nullary main_c_11 (constantI S_ 32 1#32),
    StableHlo.unary main_c_11 main_v95 (broadcastInDim S64x64 ![] bcast_S_S64x64 : (⟨S_, .i32⟩ : BufTy).Contents (Elt F) → (⟨S64x64, .i32⟩ : BufTy).Contents (Elt F)),
    StableHlo.binary main_v94 main_v95 main_v96 (subi : (⟨S64x64, .i32⟩ : BufTy).Contents (Elt F) → (⟨S64x64, .i32⟩ : BufTy).Contents (Elt F) → (⟨S64x64, .i32⟩ : BufTy).Contents (Elt F)) ]
theorem r14_sub : (r14 : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., reshape_bufs_sub .., binary_bufs_sub .., unary_bufs_sub .., unary_bufs_sub .., unary_bufs_sub .., nullary_bufs_sub .., unary_bufs_sub .., binary_bufs_sub ..⟩
theorem r14_fresh : (r14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩
/-- The buffers `r14` writes. -/
abbrev r14_W : List (Ref sig .tc) := [main_v75, main_v76, main_v77, main_cst_10, main_v78, main_v79, main_v80, main_v81, main_v82, main_v83, main_v84, main_v85, main_v86, main_v87, main_v88, main_v89, main_v90, main_v91, main_v92, main_v93, main_v94, main_c_11, main_v95, main_v96]
theorem r14_writes : (r14 : List (HloOp τ sig (Elt F))).Forall fun op => op.writes ⊆ (r14_W.map (Proc.devRef (τ := τ) .tc)).toFinset :=
  ⟨writes_sub_of_mem main_v75 rfl (by decide),
    writes_sub_of_mem main_v76 rfl (by decide),
    writes_sub_of_mem main_v77 rfl (by decide),
    writes_sub_of_mem main_cst_10 rfl (by decide),
    writes_sub_of_mem main_v78 rfl (by decide),
    writes_sub_of_mem main_v79 rfl (by decide),
    writes_sub_of_mem main_v80 rfl (by decide),
    writes_sub_of_mem main_v81 rfl (by decide),
    writes_sub_of_mem main_v82 rfl (by decide),
    writes_sub_of_mem main_v83 rfl (by decide),
    writes_sub_of_mem main_v84 rfl (by decide),
    writes_sub_of_mem main_v85 rfl (by decide),
    writes_sub_of_mem main_v86 rfl (by decide),
    writes_sub_of_mem main_v87 rfl (by decide),
    writes_sub_of_mem main_v88 rfl (by decide),
    writes_sub_of_mem main_v89 rfl (by decide),
    writes_sub_of_mem main_v90 rfl (by decide),
    writes_sub_of_mem main_v91 rfl (by decide),
    writes_sub_of_mem main_v92 rfl (by decide),
    writes_sub_of_mem main_v93 rfl (by decide),
    writes_sub_of_mem main_v94 rfl (by decide),
    writes_sub_of_mem main_c_11 rfl (by decide),
    writes_sub_of_mem main_v95 rfl (by decide),
    writes_sub_of_mem main_v96 rfl (by decide)⟩
/-- A buffer `r14` does not write keeps its contents through it. -/
theorem r14_keep (V : Valuation τ sig (Elt F)) (r : Ref sig .tc) (h : r ∉ r14_W) :
    after r14 V (Proc.devRef .tc r) = V (Proc.devRef .tc r) :=
  after_of_writes_sub r14 V r14_writes h

/-- `r15`: the third layer's first weight rows gathered at the fourth table's indices (the called gather function) (23 operations). -/
abbrev r15 : List (HloOp τ sig (Elt F)) :=
  [ StableHlo.TRef.nullary main_call7.c (constantI S_ 32 0#32),
    StableHlo.TRef.unary main_call7.c main_call7.v0 (broadcastInDim S64x64 ![] bcast_S_S64x64),
    StableHlo.TRef.binary (TRef.of (T := ⟨S64x64, .i32⟩) main_v96) main_call7.v0 main_call7.v1 (cmpi .slt),
    StableHlo.TRef.nullary main_call7.c_0 (constantI S_ 32 64#32),
    StableHlo.TRef.unary main_call7.c_0 main_call7.v2 (broadcastInDim S64x64 ![] bcast_S_S64x64),
    StableHlo.TRef.binary (TRef.of (T := ⟨S64x64, .i32⟩) main_v96) main_call7.v2 main_call7.v3 addi,
    StableHlo.TRef.ternary main_call7.v1 main_call7.v3 (TRef.of (T := ⟨S64x64, .i32⟩) main_v96) main_call7.call0.v0 select,
    StableHlo.TRef.unary main_call7.call0.v0 main_call7.v5 (broadcastInDim S64x64x1 ![0, 1] bcast_S64x64_S64x64x1_0_1),
    StableHlo.TRef.nullary main_call7.c_1 (constantI S1 32 63#32),
    StableHlo.TRef.nullary main_call7.c_2 (constantI S_ 32 0#32),
    StableHlo.TRef.unary main_call7.c_2 main_call7.v6 (broadcastInDim S64x64x1 ![] bcast_S_S64x64x1),
    StableHlo.TRef.binary main_call7.v5 main_call7.v6 main_call7.v7 (cmpi .sge),
    StableHlo.TRef.unary main_call7.c_1 main_call7.v8 (broadcastInDim S1x1x1 ![2] bcast_S1_S1x1x1_2),
    StableHlo.TRef.unary main_call7.v8 main_call7.v9 (broadcastInDim S64x64x1 ![0, 1, 2] bcast_S1x1x1_S64x64x1_0_1_2),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S64x64x1_S64x64_d2 h_S_),
    StableHlo.TRef.binary (TRef.of (T := ⟨S64x64x64, .f32⟩) main_arg4) main_call7.v5 main_call7.v13 (fun x i => Host.gather gather_S64x64x64_S64x64x1_S64x64x64x64_01_2_n_n_2_2_64641 x i),
    StableHlo.TRef.unary main_call7.v12 main_call7.v14 (broadcastInDim S64x64x64x64 ![2, 3] bcast_S64x64_S64x64x64x64_2_3),
    StableHlo.TRef.nullary main_call7.cst (constant S_ .f32 0x7FC00000#32),
    StableHlo.TRef.unary main_call7.cst main_call7.v15 (broadcastInDim S64x64x64x64 ![] bcast_S_S64x64x64x64),
    StableHlo.TRef.ternary main_call7.v14 main_call7.v13 main_call7.v15 main_call7.v16 select ]
theorem r15_sub : (r15 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem r15_fresh : (r15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The buffers `r15` writes. -/
abbrev r15_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v97]
theorem r15_writes : (r15 : List (HloOp τ sig (Elt F))).Forall fun op => op.writes ⊆ (r15_W.map (Proc.devRef (τ := τ) .tc)).toFinset :=
  ⟨writes_sub_of_mem main_call7_c rfl (by decide),
    writes_sub_of_mem main_call7_v0 rfl (by decide),
    writes_sub_of_mem main_call7_v1 rfl (by decide),
    writes_sub_of_mem main_call7_c_0 rfl (by decide),
    writes_sub_of_mem main_call7_v2 rfl (by decide),
    writes_sub_of_mem main_call7_v3 rfl (by decide),
    writes_sub_of_mem main_call7_v4 rfl (by decide),
    writes_sub_of_mem main_call7_v5 rfl (by decide),
    writes_sub_of_mem main_call7_c_1 rfl (by decide),
    writes_sub_of_mem main_call7_c_2 rfl (by decide),
    writes_sub_of_mem main_call7_v6 rfl (by decide),
    writes_sub_of_mem main_call7_v7 rfl (by decide),
    writes_sub_of_mem main_call7_v8 rfl (by decide),
    writes_sub_of_mem main_call7_v9 rfl (by decide),
    writes_sub_of_mem main_call7_v10 rfl (by decide),
    writes_sub_of_mem main_call7_v11 rfl (by decide),
    writes_sub_of_mem main_call7_c_3 rfl (by decide),
    writes_sub_of_mem main_call7_v12 rfl (by decide),
    writes_sub_of_mem main_call7_v13 rfl (by decide),
    writes_sub_of_mem main_call7_v14 rfl (by decide),
    writes_sub_of_mem main_call7_cst rfl (by decide),
    writes_sub_of_mem main_call7_v15 rfl (by decide),
    writes_sub_of_mem main_v97 rfl (by decide)⟩
/-- A buffer `r15` does not write keeps its contents through it. -/
theorem r15_keep (V : Valuation τ sig (Elt F)) (r : Ref sig .tc) (h : r ∉ r15_W) :
    after r15 V (Proc.devRef .tc r) = V (Proc.devRef .tc r) :=
  after_of_writes_sub r15 V r15_writes h

/-- `r16`: those rows times the signs, transposed and flattened to 4096×4096; sign and index of the fifth table (11 operations). -/
abbrev r16 : List (HloOp τ sig (Elt F)) :=
  [ StableHlo.unary main_v93 main_v98 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v98 main_v99 (broadcastInDim S64x64x64x64 ![0, 1, 2, 3] bcast_S1x1x64x64_S64x64x64x64_0_1_2_3 : (⟨S1x1x64x64, .f32⟩ : BufTy).Contents (Elt F) → (⟨S64x64x64x64, .f32⟩ : BufTy).Contents (Elt F)),
    StableHlo.binary main_v99 main_v97 main_v100 (mulf : (⟨S64x64x64x64, .f32⟩ : BufTy).Contents (Elt F) → (⟨S64x64x64x64, .f32⟩ : BufTy).Contents (Elt F) → (⟨S64x64x64x64, .f32⟩ : BufTy).Contents (Elt F)),
    StableHlo.unary main_v100 main_v101 ((transpose S64x64x64x64 [2, 0, 3, 1] · transposes_S64x64x64x64_S64x64x64x64_2_0_3_1) : (⟨S64x64x64x64, .f32⟩ : BufTy).Contents (Elt F) → (⟨S64x64x64x64, .f32⟩ : BufTy).Contents (Elt F)),
    StableHlo.reshape main_v101 main_v102 rfl shapeCasts_S64x64x64x64_S4096x4096,
    StableHlo.unary main_arg15 main_v103 (signi : (⟨S64x64, .i32⟩ : BufTy).Contents (Elt F) → (⟨S64x64, .i32⟩ : BufTy).Contents (Elt F)),
    StableHlo.unary main_v103 main_v104 (sitofp .f32 : (⟨S64x64, .i32⟩ : BufTy).Contents (Elt F) → (⟨S64x64, .f32⟩ : BufTy).Contents (Elt F)),
    StableHlo.unary main_arg15 main_v105 (absi : (⟨S64x64, .i32⟩ : BufTy).Contents (Elt F) → (⟨S64x64, .i32⟩ : BufTy).Contents (Elt F)),
    StableHlo.nullary main_c_12 (constantI S_ 32 1#32),
    StableHlo.unary main_c_12 main_v106 (broadcastInDim S64x64 ![] bcast_S_S64x64 : (⟨S_, .i32⟩ : BufTy).Contents (Elt F) → (⟨S64x64, .i32⟩ : BufTy).Contents (Elt F)),
    StableHlo.binary main_v105 main_v106 main_v107 (subi : (⟨S64x64, .i32⟩ : BufTy).Contents (Elt F) → (⟨S64x64, .i32⟩ : BufTy).Contents (Elt F) → (⟨S64x64, .i32⟩ : BufTy).Contents (Elt F)) ]
theorem r16_sub : (r16 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., unary_bufs_sub .., nullary_bufs_sub .., unary_bufs_sub .., binary_bufs_sub ..⟩
theorem r16_fresh : (r16 : List (HloOp τ sig (Elt F))).Forall fun op => op.fresh = ∅ :=
  ⟨rfl, rfl, rfl, rfl, rfl, rfl, rfl, rfl, rfl, rfl, rfl⟩
/-- The buffers `r16` writes. -/
abbrev r16_W : List (Ref sig .tc) := [main_v98, main_v99, main_v100, main_v101, main_v102, main_v103, main_v104, main_v105, main_c_12, main_v106, main_v107]
theorem r16_writes : (r16 : List (HloOp τ sig (Elt F))).Forall fun op => op.writes ⊆ (r16_W.map (Proc.devRef (τ := τ) .tc)).toFinset :=
  ⟨writes_sub_of_mem main_v98 rfl (by decide),
    writes_sub_of_mem main_v99 rfl (by decide),
    writes_sub_of_mem main_v100 rfl (by decide),
    writes_sub_of_mem main_v101 rfl (by decide),
    writes_sub_of_mem main_v102 rfl (by decide),
    writes_sub_of_mem main_v103 rfl (by decide),
    writes_sub_of_mem main_v104 rfl (by decide),
    writes_sub_of_mem main_v105 rfl (by decide),
    writes_sub_of_mem main_c_12 rfl (by decide),
    writes_sub_of_mem main_v106 rfl (by decide),
    writes_sub_of_mem main_v107 rfl (by decide)⟩
/-- A buffer `r16` does not write keeps its contents through it. -/
theorem r16_keep (V : Valuation τ sig (Elt F)) (r : Ref sig .tc) (h : r ∉ r16_W) :
    after r16 V (Proc.devRef .tc r) = V (Proc.devRef .tc r) :=
  after_of_writes_sub r16 V r16_writes h

/-- `r17`: the third layer's second weight rows gathered at the fifth table's indices (the called gather function) (23 operations). -/
abbrev r17 : List (HloOp τ sig (Elt F)) :=
  [ StableHlo.TRef.nullary main_call8.c (constantI S_ 32 0#32),
    StableHlo.TRef.unary main_call8.c main_call8.v0 (broadcastInDim S64x64 ![] bcast_S_S64x64),
    StableHlo.TRef.binary (TRef.of (T := ⟨S64x64, .i32⟩) main_v107) main_call8.v0 main_call8.v1 (cmpi .slt),
    StableHlo.TRef.nullary main_call8.c_0 (constantI S_ 32 64#32),
    StableHlo.TRef.unary main_call8.c_0 main_call8.v2 (broadcastInDim S64x64 ![] bcast_S_S64x64),
    StableHlo.TRef.binary (TRef.of (T := ⟨S64x64, .i32⟩) main_v107) main_call8.v2 main_call8.v3 addi,
    StableHlo.TRef.ternary main_call8.v1 main_call8.v3 (TRef.of (T := ⟨S64x64, .i32⟩) main_v107) main_call8.call0.v0 select,
    StableHlo.TRef.unary main_call8.call0.v0 main_call8.v5 (broadcastInDim S64x64x1 ![0, 1] bcast_S64x64_S64x64x1_0_1),
    StableHlo.TRef.nullary main_call8.c_1 (constantI S1 32 63#32),
    StableHlo.TRef.nullary main_call8.c_2 (constantI S_ 32 0#32),
    StableHlo.TRef.unary main_call8.c_2 main_call8.v6 (broadcastInDim S64x64x1 ![] bcast_S_S64x64x1),
    StableHlo.TRef.binary main_call8.v5 main_call8.v6 main_call8.v7 (cmpi .sge),
    StableHlo.TRef.unary main_call8.c_1 main_call8.v8 (broadcastInDim S1x1x1 ![2] bcast_S1_S1x1x1_2),
    StableHlo.TRef.unary main_call8.v8 main_call8.v9 (broadcastInDim S64x64x1 ![0, 1, 2] bcast_S1x1x1_S64x64x1_0_1_2),
    StableHlo.TRef.binary main_call8.v5 main_call8.v9 main_call8.v10 (cmpi .sle),
    StableHlo.TRef.binary main_call8.v7 main_call8.v10 main_call8.v11 andi,
    StableHlo.TRef.nullary main_call8.c_3 (constantI S_ 1 1#1),
    StableHlo.TRef.binary main_call8.v11 main_call8.c_3 main_call8.v12 (fun x v => Host.reduce IntOp.andi x v reducesTo_S64x64x1_S64x64_d2 h_S_),
    StableHlo.TRef.binary (TRef.of (T := ⟨S64x64x64, .f32⟩) main_arg5) main_call8.v5 main_call8.v13 (fun x i => Host.gather gather_S64x64x64_S64x64x1_S64x64x64x64_01_2_n_n_2_2_64641 x i),
    StableHlo.TRef.unary main_call8.v12 main_call8.v14 (broadcastInDim S64x64x64x64 ![2, 3] bcast_S64x64_S64x64x64x64_2_3),
    StableHlo.TRef.nullary main_call8.cst (constant S_ .f32 0x7FC00000#32),
    StableHlo.TRef.unary main_call8.cst main_call8.v15 (broadcastInDim S64x64x64x64 ![] bcast_S_S64x64x64x64),
    StableHlo.TRef.ternary main_call8.v14 main_call8.v13 main_call8.v15 main_call8.v16 select ]
theorem r17_sub : (r17 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem r17_fresh : (r17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The buffers `r17` writes. -/
abbrev r17_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v108]
theorem r17_writes : (r17 : List (HloOp τ sig (Elt F))).Forall fun op => op.writes ⊆ (r17_W.map (Proc.devRef (τ := τ) .tc)).toFinset :=
  ⟨writes_sub_of_mem main_call8_c rfl (by decide),
    writes_sub_of_mem main_call8_v0 rfl (by decide),
    writes_sub_of_mem main_call8_v1 rfl (by decide),
    writes_sub_of_mem main_call8_c_0 rfl (by decide),
    writes_sub_of_mem main_call8_v2 rfl (by decide),
    writes_sub_of_mem main_call8_v3 rfl (by decide),
    writes_sub_of_mem main_call8_v4 rfl (by decide),
    writes_sub_of_mem main_call8_v5 rfl (by decide),
    writes_sub_of_mem main_call8_c_1 rfl (by decide),
    writes_sub_of_mem main_call8_c_2 rfl (by decide),
    writes_sub_of_mem main_call8_v6 rfl (by decide),
    writes_sub_of_mem main_call8_v7 rfl (by decide),
    writes_sub_of_mem main_call8_v8 rfl (by decide),
    writes_sub_of_mem main_call8_v9 rfl (by decide),
    writes_sub_of_mem main_call8_v10 rfl (by decide),
    writes_sub_of_mem main_call8_v11 rfl (by decide),
    writes_sub_of_mem main_call8_c_3 rfl (by decide),
    writes_sub_of_mem main_call8_v12 rfl (by decide),
    writes_sub_of_mem main_call8_v13 rfl (by decide),
    writes_sub_of_mem main_call8_v14 rfl (by decide),
    writes_sub_of_mem main_call8_cst rfl (by decide),
    writes_sub_of_mem main_call8_v15 rfl (by decide),
    writes_sub_of_mem main_v108 rfl (by decide)⟩
/-- A buffer `r17` does not write keeps its contents through it. -/
theorem r17_keep (V : Valuation τ sig (Elt F)) (r : Ref sig .tc) (h : r ∉ r17_W) :
    after r17 V (Proc.devRef .tc r) = V (Proc.devRef .tc r) :=
  after_of_writes_sub r17 V r17_writes h

/-- `r18`: those rows times the signs, transposed and flattened to 4096×4096; sign and index of the sixth table (11 operations). -/
abbrev r18 : List (HloOp τ sig (Elt F)) :=
  [ StableHlo.unary main_v104 main_v109 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v109 main_v110 (broadcastInDim S64x64x64x64 ![0, 1, 2, 3] bcast_S1x1x64x64_S64x64x64x64_0_1_2_3 : (⟨S1x1x64x64, .f32⟩ : BufTy).Contents (Elt F) → (⟨S64x64x64x64, .f32⟩ : BufTy).Contents (Elt F)),
    StableHlo.binary main_v110 main_v108 main_v111 (mulf : (⟨S64x64x64x64, .f32⟩ : BufTy).Contents (Elt F) → (⟨S64x64x64x64, .f32⟩ : BufTy).Contents (Elt F) → (⟨S64x64x64x64, .f32⟩ : BufTy).Contents (Elt F)),
    StableHlo.unary main_v111 main_v112 ((transpose S64x64x64x64 [2, 0, 3, 1] · transposes_S64x64x64x64_S64x64x64x64_2_0_3_1) : (⟨S64x64x64x64, .f32⟩ : BufTy).Contents (Elt F) → (⟨S64x64x64x64, .f32⟩ : BufTy).Contents (Elt F)),
    StableHlo.reshape main_v112 main_v113 rfl shapeCasts_S64x64x64x64_S4096x4096,
    StableHlo.unary main_arg16 main_v114 (signi : (⟨S64x64, .i32⟩ : BufTy).Contents (Elt F) → (⟨S64x64, .i32⟩ : BufTy).Contents (Elt F)),
    StableHlo.unary main_v114 main_v115 (sitofp .f32 : (⟨S64x64, .i32⟩ : BufTy).Contents (Elt F) → (⟨S64x64, .f32⟩ : BufTy).Contents (Elt F)),
    StableHlo.unary main_arg16 main_v116 (absi : (⟨S64x64, .i32⟩ : BufTy).Contents (Elt F) → (⟨S64x64, .i32⟩ : BufTy).Contents (Elt F)),
    StableHlo.nullary main_c_13 (constantI S_ 32 1#32),
    StableHlo.unary main_c_13 main_v117 (broadcastInDim S64x64 ![] bcast_S_S64x64 : (⟨S_, .i32⟩ : BufTy).Contents (Elt F) → (⟨S64x64, .i32⟩ : BufTy).Contents (Elt F)),
    StableHlo.binary main_v116 main_v117 main_v118 (subi : (⟨S64x64, .i32⟩ : BufTy).Contents (Elt F) → (⟨S64x64, .i32⟩ : BufTy).Contents (Elt F) → (⟨S64x64, .i32⟩ : BufTy).Contents (Elt F)) ]
theorem r18_sub : (r18 : List (HloOp τ sig (Elt F))).Forall fun op => op.bufs ⊆ tcRefs τ sig :=
  ⟨unary_bufs_sub .., unary_bufs_sub .., binary_bufs_sub .., unary_bufs_sub .., reshape_bufs_sub .., unary_bufs_sub .., unary_bufs_sub .., unary_bufs_sub .., nullary_bufs_sub .., unary_bufs_sub .., binary_bufs_sub ..⟩
theorem r18_fresh : (r18 : List (HloOp τ sig (Elt F))).Forall fun op => op.fresh = ∅ :=
  ⟨rfl, rfl, rfl, rfl, rfl, rfl, rfl, rfl, rfl, rfl, rfl⟩
/-- The buffers `r18` writes. -/
abbrev r18_W : List (Ref sig .tc) := [main_v109, main_v110, main_v111, main_v112, main_v113, main_v114, main_v115, main_v116, main_c_13, main_v117, main_v118]
theorem r18_writes : (r18 : List (HloOp τ sig (Elt F))).Forall fun op => op.writes ⊆ (r18_W.map (Proc.devRef (τ := τ) .tc)).toFinset :=
  ⟨writes_sub_of_mem main_v109 rfl (by decide),
    writes_sub_of_mem main_v110 rfl (by decide),
    writes_sub_of_mem main_v111 rfl (by decide),
    writes_sub_of_mem main_v112 rfl (by decide),
    writes_sub_of_mem main_v113 rfl (by decide),
    writes_sub_of_mem main_v114 rfl (by decide),
    writes_sub_of_mem main_v115 rfl (by decide),
    writes_sub_of_mem main_v116 rfl (by decide),
    writes_sub_of_mem main_c_13 rfl (by decide),
    writes_sub_of_mem main_v117 rfl (by decide),
    writes_sub_of_mem main_v118 rfl (by decide)⟩
/-- A buffer `r18` does not write keeps its contents through it. -/
theorem r18_keep (V : Valuation τ sig (Elt F)) (r : Ref sig .tc) (h : r ∉ r18_W) :
    after r18 V (Proc.devRef .tc r) = V (Proc.devRef .tc r) :=
  after_of_writes_sub r18 V r18_writes h

/-- `r19`: the third layer's third weight rows gathered at the sixth table's indices (the called gather function) (23 operations). -/
abbrev r19 : List (HloOp τ sig (Elt F)) :=
  [ StableHlo.TRef.nullary main_call9.c (constantI S_ 32 0#32),
    StableHlo.TRef.unary main_call9.c main_call9.v0 (broadcastInDim S64x64 ![] bcast_S_S64x64),
    StableHlo.TRef.binary (TRef.of (T := ⟨S64x64, .i32⟩) main_v118) main_call9.v0 main_call9.v1 (cmpi .slt),
    StableHlo.TRef.nullary main_call9.c_0 (constantI S_ 32 64#32),
    StableHlo.TRef.unary main_call9.c_0 main_call9.v2 (broadcastInDim S64x64 ![] bcast_S_S64x64),
    StableHlo.TRef.binary (TRef.of (T := ⟨S64x64, .i32⟩) main_v118) main_call9.v2 main_call9.v3 addi,
    StableHlo.TRef.ternary main_call9.v1 main_call9.v3 (TRef.of (T := ⟨S64x64, .i32⟩) main_v118) main_call9.call0.v0 select,
    StableHlo.TRef.unary main_call9.call0.v0 main_call9.v5 (broadcastInDim S64x64x1 ![0, 1] bcast_S64x64_S64x64x1_0_1),
    StableHlo.TRef.nullary main_call9.c_1 (constantI S1 32 63#32),
    StableHlo.TRef.nullary main_call9.c_2 (constantI S_ 32 0#32),
    StableHlo.TRef.unary main_call9.c_2 main_call9.v6 (broadcastInDim S64x64x1 ![] bcast_S_S64x64x1),
    StableHlo.TRef.binary main_call9.v5 main_call9.v6 main_call9.v7 (cmpi .sge),
    StableHlo.TRef.unary main_call9.c_1 main_call9.v8 (broadcastInDim S1x1x1 ![2] bcast_S1_S1x1x1_2),
    StableHlo.TRef.unary main_call9.v8 main_call9.v9 (broadcastInDim S64x64x1 ![0, 1, 2] bcast_S1x1x1_S64x64x1_0_1_2),
    StableHlo.TRef.binary main_call9.v5 main_call9.v9 main_call9.v10 (cmpi .sle),
    StableHlo.TRef.binary main_call9.v7 main_call9.v10 main_call9.v11 andi,
    StableHlo.TRef.nullary main_call9.c_3 (constantI S_ 1 1#1),
    StableHlo.TRef.binary main_call9.v11 main_call9.c_3 main_call9.v12 (fun x v => Host.reduce IntOp.andi x v reducesTo_S64x64x1_S64x64_d2 h_S_),
    StableHlo.TRef.binary (TRef.of (T := ⟨S64x16x64, .f32⟩) main_arg6) main_call9.v5 main_call9.v13 (fun x i => Host.gather gather_S64x16x64_S64x64x1_S64x16x64x64_01_2_n_n_2_2_64161 x i),
    StableHlo.TRef.unary main_call9.v12 main_call9.v14 (broadcastInDim S64x16x64x64 ![2, 3] bcast_S64x64_S64x16x64x64_2_3),
    StableHlo.TRef.nullary main_call9.cst (constant S_ .f32 0x7FC00000#32),
    StableHlo.TRef.unary main_call9.cst main_call9.v15 (broadcastInDim S64x16x64x64 ![] bcast_S_S64x16x64x64),
    StableHlo.TRef.ternary main_call9.v14 main_call9.v13 main_call9.v15 main_call9.v16 select ]
theorem r19_sub : (r19 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem r19_fresh : (r19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩
/-- The buffers `r19` writes. -/
abbrev r19_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v119]
theorem r19_writes : (r19 : List (HloOp τ sig (Elt F))).Forall fun op => op.writes ⊆ (r19_W.map (Proc.devRef (τ := τ) .tc)).toFinset :=
  ⟨writes_sub_of_mem main_call9_c rfl (by decide),
    writes_sub_of_mem main_call9_v0 rfl (by decide),
    writes_sub_of_mem main_call9_v1 rfl (by decide),
    writes_sub_of_mem main_call9_c_0 rfl (by decide),
    writes_sub_of_mem main_call9_v2 rfl (by decide),
    writes_sub_of_mem main_call9_v3 rfl (by decide),
    writes_sub_of_mem main_call9_v4 rfl (by decide),
    writes_sub_of_mem main_call9_v5 rfl (by decide),
    writes_sub_of_mem main_call9_c_1 rfl (by decide),
    writes_sub_of_mem main_call9_c_2 rfl (by decide),
    writes_sub_of_mem main_call9_v6 rfl (by decide),
    writes_sub_of_mem main_call9_v7 rfl (by decide),
    writes_sub_of_mem main_call9_v8 rfl (by decide),
    writes_sub_of_mem main_call9_v9 rfl (by decide),
    writes_sub_of_mem main_call9_v10 rfl (by decide),
    writes_sub_of_mem main_call9_v11 rfl (by decide),
    writes_sub_of_mem main_call9_c_3 rfl (by decide),
    writes_sub_of_mem main_call9_v12 rfl (by decide),
    writes_sub_of_mem main_call9_v13 rfl (by decide),
    writes_sub_of_mem main_call9_v14 rfl (by decide),
    writes_sub_of_mem main_call9_cst rfl (by decide),
    writes_sub_of_mem main_call9_v15 rfl (by decide),
    writes_sub_of_mem main_v119 rfl (by decide)⟩
/-- A buffer `r19` does not write keeps its contents through it. -/
theorem r19_keep (V : Valuation τ sig (Elt F)) (r : Ref sig .tc) (h : r ∉ r19_W) :
    after r19 V (Proc.devRef .tc r) = V (Proc.devRef .tc r) :=
  after_of_writes_sub r19 V r19_writes h

/-- `r20`: those rows times the signs, transposed and flattened to 4096×1024; the three weight matrices concatenated to 4096×9216 and transposed (7 operations). -/
abbrev r20 : List (HloOp τ sig (Elt F)) :=
  [ StableHlo.unary main_v115 main_v120 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v120 main_v121 (broadcastInDim S64x16x64x64 ![0, 1, 2, 3] bcast_S1x1x64x64_S64x16x64x64_0_1_2_3 : (⟨S1x1x64x64, .f32⟩ : BufTy).Contents (Elt F) → (⟨S64x16x64x64, .f32⟩ : BufTy).Contents (Elt F)),
    StableHlo.binary main_v121 main_v119 main_v122 (mulf : (⟨S64x16x64x64, .f32⟩ : BufTy).Contents (Elt F) → (⟨S64x16x64x64, .f32⟩ : BufTy).Contents (Elt F) → (⟨S64x16x64x64, .f32⟩ : BufTy).Contents (Elt F)),
    StableHlo.unary main_v122 main_v123 ((transpose S64x64x64x16 [2, 0, 3, 1] · transposes_S64x16x64x64_S64x64x64x16_2_0_3_1) : (⟨S64x16x64x64, .f32⟩ : BufTy).Contents (Elt F) → (⟨S64x64x64x16, .f32⟩ : BufTy).Contents (Elt F)),
    StableHlo.reshape main_v123 main_v124 rfl shapeCasts_S64x64x64x16_S4096x1024,
    StableHlo.nary ![main_v102, main_v113, main_v124] main_v125 (fun u => concatenate S4096x9216 1 [⟨S4096x4096, u 0⟩, ⟨S4096x4096, u 1⟩, ⟨S4096x1024, u 2⟩] concatenates_S4096x4096_S4096x4096_S4096x1024_S4096x9216_d1),
    StableHlo.unary main_v125 main_v126 ((transpose S9216x4096 [1, 0] · transposes_S4096x9216_S9216x4096_1_0) : (⟨S4096x9216, .f32⟩ : BufTy).Contents (Elt F) → (⟨S9216x4096, .f32⟩ : BufTy).Contents (Elt F)) ]
theorem r20_sub : (r20 : List (HloOp τ sig (Elt F))).Forall fun op => op.bufs ⊆ tcRefs τ sig :=
  ⟨unary_bufs_sub .., unary_bufs_sub .., binary_bufs_sub .., unary_bufs_sub .., reshape_bufs_sub .., nary_bufs_sub .., unary_bufs_sub ..⟩
theorem r20_fresh : (r20 : List (HloOp τ sig (Elt F))).Forall fun op => op.fresh = ∅ :=
  ⟨rfl, rfl, rfl, rfl, rfl, rfl, rfl⟩
/-- The buffers `r20` writes. -/
abbrev r20_W : List (Ref sig .tc) := [main_v120, main_v121, main_v122, main_v123, main_v124, main_v125, main_v126]
theorem r20_writes : (r20 : List (HloOp τ sig (Elt F))).Forall fun op => op.writes ⊆ (r20_W.map (Proc.devRef (τ := τ) .tc)).toFinset :=
  ⟨writes_sub_of_mem main_v120 rfl (by decide),
    writes_sub_of_mem main_v121 rfl (by decide),
    writes_sub_of_mem main_v122 rfl (by decide),
    writes_sub_of_mem main_v123 rfl (by decide),
    writes_sub_of_mem main_v124 rfl (by decide),
    writes_sub_of_mem main_v125 rfl (by decide),
    writes_sub_of_mem main_v126 rfl (by decide)⟩
/-- A buffer `r20` does not write keeps its contents through it. -/
theorem r20_keep (V : Valuation τ sig (Elt F)) (r : Ref sig .tc) (h : r ∉ r20_W) :
    after r20 V (Proc.devRef .tc r) = V (Proc.devRef .tc r) :=
  after_of_writes_sub r20 V r20_writes h

/-- `r21`: the last matrix product, 512×9216 by 9216×4096 (1 operation). -/
abbrev r21 : List (HloOp τ sig (Elt F)) :=
  [ StableHlo.binary main_v91 main_v126 main_v127 ((fun l r => Host.dotGeneral dot_S512x9216_S9216x4096_S512x4096_1_0_0_1_n_n none l r) : (⟨S512x9216, .f32⟩ : BufTy).Contents (Elt F) → (⟨S9216x4096, .f32⟩ : BufTy).Contents (Elt F) → (⟨S512x4096, .f32⟩ : BufTy).Contents (Elt F)) ]
theorem r21_sub : (r21 : List (HloOp τ sig (Elt F))).Forall fun op => op.bufs ⊆ tcRefs τ sig :=
  binary_bufs_sub ..
theorem r21_fresh : (r21 : List (HloOp τ sig (Elt F))).Forall fun op => op.fresh = ∅ :=
  rfl
/-- The buffers `r21` writes. -/
abbrev r21_W : List (Ref sig .tc) := [main_v127]
theorem r21_writes : (r21 : List (HloOp τ sig (Elt F))).Forall fun op => op.writes ⊆ (r21_W.map (Proc.devRef (τ := τ) .tc)).toFinset :=
  writes_sub_of_mem main_v127 rfl (by decide)
/-- A buffer `r21` does not write keeps its contents through it. -/
theorem r21_keep (V : Valuation τ sig (Elt F)) (r : Ref sig .tc) (h : r ∉ r21_W) :
    after r21 V (Proc.devRef .tc r) = V (Proc.devRef .tc r) :=
  after_of_writes_sub r21 V r21_writes h

/-- The operations of `r16` up to the fifth table's absolute value. -/
abbrev r16a : List (HloOp τ sig (Elt F)) :=
  [ StableHlo.unary main_v93 main_v98 (broadcastInDim S1x1x64x64 ![2, 3] bcast_S64x64_S1x1x64x64_2_3 : (⟨S64x64, .f32⟩ : BufTy).Contents (Elt F) → (⟨S1x1x64x64, .f32⟩ : BufTy).Contents (Elt F)),
    StableHlo.unary main_v98 main_v99 (broadcastInDim S64x64x64x64 ![0, 1, 2, 3] bcast_S1x1x64x64_S64x64x64x64_0_1_2_3 : (⟨S1x1x64x64, .f32⟩ : BufTy).Contents (Elt F) → (⟨S64x64x64x64, .f32⟩ : BufTy).Contents (Elt F)),
    StableHlo.binary main_v99 main_v97 main_v100 (mulf : (⟨S64x64x64x64, .f32⟩ : BufTy).Contents (Elt F) → (⟨S64x64x64x64, .f32⟩ : BufTy).Contents (Elt F) → (⟨S64x64x64x64, .f32⟩ : BufTy).Contents (Elt F)),
    StableHlo.unary main_v100 main_v101 ((transpose S64x64x64x64 [2, 0, 3, 1] · transposes_S64x64x64x64_S64x64x64x64_2_0_3_1) : (⟨S64x64x64x64, .f32⟩ : BufTy).Contents (Elt F) → (⟨S64x64x64x64, .f32⟩ : BufTy).Contents (Elt F)),
    StableHlo.reshape main_v101 main_v102 rfl shapeCasts_S64x64x64x64_S4096x4096,
    StableHlo.unary main_arg15 main_v103 (signi : (⟨S64x64, .i32⟩ : BufTy).Contents (Elt F) → (⟨S64x64, .i32⟩ : BufTy).Contents (Elt F)),
    StableHlo.unary main_v103 main_v104 (sitofp .f32 : (⟨S64x64, .i32⟩ : BufTy).Contents (Elt F) → (⟨S64x64, .f32⟩ : BufTy).Contents (Elt F)),
    StableHlo.unary main_arg15 main_v105 (absi : (⟨S64x64, .i32⟩ : BufTy).Contents (Elt F) → (⟨S64x64, .i32⟩ : BufTy).Contents (Elt F)) ]

/-- The rest of `r16`. -/
abbrev r16b : List (HloOp τ sig (Elt F)) :=
  [ StableHlo.nullary main_c_12 (constantI S_ 32 1#32),
    StableHlo.unary main_c_12 main_v106 (broadcastInDim S64x64 ![] bcast_S_S64x64 : (⟨S_, .i32⟩ : BufTy).Contents (Elt F) → (⟨S64x64, .i32⟩ : BufTy).Contents (Elt F)),
    StableHlo.binary main_v105 main_v106 main_v107 (subi : (⟨S64x64, .i32⟩ : BufTy).Contents (Elt F) → (⟨S64x64, .i32⟩ : BufTy).Contents (Elt F) → (⟨S64x64, .i32⟩ : BufTy).Contents (Elt F)) ]
theorem r16_split : (r16 : List (HloOp τ sig (Elt F))) = r16a ++ r16b := rfl

end Cert.ReferenceIdeal.RefRun

end
-- ==== Proof.Ref.Ops.lean ====
/-
  The reference program's host operations as ONE list `ops = r0 ++ (r1 ++ (… ++ r21))`, and the program as
  that list run in order: the program's text is three pieces run one after the other, each piece is the run of
  its list of operations (both sides are one chain of operation steps once the called functions are unfolded
  at their calls), and running `ops` is running the three pieces' lists one after the other (running two
  lists laid end to end is running one, then the other; sequencing is associative). With it: every buffer
  `ops` names is a TensorCore buffer, every operation determines its results, the fold of the operations'
  results through `ops` is the fold through `r0`, then `r1`, … then `r21`, and a buffer none of them
  writes keeps its contents.
-/
import proofs.«117565_j22136261443720_1_alg».proof.Proof.Ref.OpsA
import proofs.«117565_j22136261443720_1_alg».proof.Proof.Ref.OpsB
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384

variable {Λ : Labels}

/-- The reference program's 322 operations, in order. -/
abbrev ops : List (HloOp τ sig (Elt F)) :=
  r0 ++ (r1 ++ (r2 ++ (r3 ++ (r4 ++ (r5 ++ (r6 ++ (r7 ++ (r8 ++ (r9 ++ (r10 ++ (r11 ++ (r12 ++ (r13 ++ (r14 ++ (r15 ++ (r16 ++ (r17 ++ (r18 ++ (r19 ++ (r20 ++ (r21)))))))))))))))))))))

/-- The operations of the first piece of the program's text (127). -/
def w0 : List (HloOp τ sig (Elt F)) := r0 ++ (r1 ++ (r2 ++ (r3 ++ (r4 ++ (r5 ++ (r6 ++ (r7 ++ (r8a))))))))
/-- The operations of the second piece (127). -/
def w1 : List (HloOp τ sig (Elt F)) := r8b ++ (r9 ++ (r10 ++ (r11 ++ (r12 ++ (r13 ++ (r14 ++ (r15 ++ (r16a))))))))
/-- The operations of the third piece (68). -/
def w2 : List (HloOp τ sig (Elt F)) := r16b ++ (r17 ++ (r18 ++ (r19 ++ (r20 ++ (r21)))))

/-- Each piece of the program's text is its list run in order. -/
theorem main_part0_eq (c : Dev nD) : main_part0 (F := F) c = seq w0 := rfl
theorem main_part1_eq (c : Dev nD) : main_part1 (F := F) c = seq w1 := rfl
theorem main_part2_eq (c : Dev nD) : main_part2 (F := F) c = seq w2 := rfl

/-- Running `r8` is running its two halves one after the other; likewise `r16`. -/
theorem seq_r8 : (seq r8 : Prog (TpuEff nD τ sig (Elt F) Λ .tc) PUnit) = seq r8a >>= fun _ => seq r8b :=
  (congrArg seq r8_split).trans (seq_append r8a r8b)
theorem seq_r16 : (seq r16 : Prog (TpuEff nD τ sig (Elt F) Λ .tc) PUnit) = seq r16a >>= fun _ => seq r16b :=
  (congrArg seq r16_split).trans (seq_append r16a r16b)

/-- Running `ops` is running the three pieces' lists one after the other. -/
theorem seq_ops : (seq ops : Prog (TpuEff nD τ sig (Elt F) Λ .tc) PUnit) = seq w0 >>= fun _ => seq w1 >>= fun _ => seq w2 := by
  simp only [ops, w0, w1, w2, seq_append, bind_assoc]
  rw [seq_r8, seq_r16]
  simp only [bind_assoc]

/-- The program is `ops` run in order. -/
theorem main_eq (c : Dev nD) : main (F := F) c = seq ops := by
  rw [seq_ops, ← main_part0_eq c, ← main_part1_eq c, ← main_part2_eq c]
  rfl

/-- A property of every operation of two lists holds of every operation of the two laid end to end. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun x hx => (List.mem_append.mp hx).elim
    (List.forall_iff_forall_mem.mp h₁ x) (List.forall_iff_forall_mem.mp h₂ x)

/-- Every buffer an operation of `ops` names is a TensorCore buffer. -/
theorem ops_sub : (ops : List (HloOp τ sig (Elt F))).Forall fun op => op.bufs ⊆ tcRefs τ sig := by
  have h20 := forall_append (r20_sub (F := F)) (r21_sub (F := F))
  have h19 := forall_append (r19_sub (F := F)) h20
  have h18 := forall_append (r18_sub (F := F)) h19
  have h17 := forall_append (r17_sub (F := F)) h18
  have h16 := forall_append (r16_sub (F := F)) h17
  have h15 := forall_append (r15_sub (F := F)) h16
  have h14 := forall_append (r14_sub (F := F)) h15
  have h13 := forall_append (r13_sub (F := F)) h14
  have h12 := forall_append (r12_sub (F := F)) h13
  have h11 := forall_append (r11_sub (F := F)) h12
  have h10 := forall_append (r10_sub (F := F)) h11
  have h9 := forall_append (r9_sub (F := F)) h10
  have h8 := forall_append (r8_sub (F := F)) h9
  have h7 := forall_append (r7_sub (F := F)) h8
  have h6 := forall_append (r6_sub (F := F)) h7
  have h5 := forall_append (r5_sub (F := F)) h6
  have h4 := forall_append (r4_sub (F := F)) h5
  have h3 := forall_append (r3_sub (F := F)) h4
  have h2 := forall_append (r2_sub (F := F)) h3
  have h1 := forall_append (r1_sub (F := F)) h2
  have h0 := forall_append (r0_sub (F := F)) h1
  exact h0

/-- Every operation of `ops` determines its results. -/
theorem ops_fresh : (ops : List (HloOp τ sig (Elt F))).Forall fun op => op.fresh = ∅ := by
  have h20 := forall_append (r20_fresh (F := F)) (r21_fresh (F := F))
  have h19 := forall_append (r19_fresh (F := F)) h20
  have h18 := forall_append (r18_fresh (F := F)) h19
  have h17 := forall_append (r17_fresh (F := F)) h18
  have h16 := forall_append (r16_fresh (F := F)) h17
  have h15 := forall_append (r15_fresh (F := F)) h16
  have h14 := forall_append (r14_fresh (F := F)) h15
  have h13 := forall_append (r13_fresh (F := F)) h14
  have h12 := forall_append (r12_fresh (F := F)) h13
  have h11 := forall_append (r11_fresh (F := F)) h12
  have h10 := forall_append (r10_fresh (F := F)) h11
  have h9 := forall_append (r9_fresh (F := F)) h10
  have h8 := forall_append (r8_fresh (F := F)) h9
  have h7 := forall_append (r7_fresh (F := F)) h8
  have h6 := forall_append (r6_fresh (F := F)) h7
  have h5 := forall_append (r5_fresh (F := F)) h6
  have h4 := forall_append (r4_fresh (F := F)) h5
  have h3 := forall_append (r3_fresh (F := F)) h4
  have h2 := forall_append (r2_fresh (F := F)) h3
  have h1 := forall_append (r1_fresh (F := F)) h2
  have h0 := forall_append (r0_fresh (F := F)) h1
  exact h0

/-- The fold through `ops` is the fold through `r0`, then `r1`, …, then `r21`. -/
theorem after_ops (V : Valuation τ sig (Elt F)) :
    after ops V = after r21 (after r20 (after r19 (after r18 (after r17 (after r16 (after r15 (after r14 (after r13 (after r12 (after r11 (after r10 (after r9 (after r8 (after r7 (after r6 (after r5 (after r4 (after r3 (after r2 (after r1 (after r0 (V)))))))))))))))))))))) := by
  simp only [ops, StableHlo.after_append]

/-- A buffer none of the twenty-two lists writes keeps its contents through `ops`. -/
theorem ops_keep (V : Valuation τ sig (Elt F)) (r : Ref sig .tc)
    (h0 : r ∉ r0_W) (h1 : r ∉ r1_W) (h2 : r ∉ r2_W) (h3 : r ∉ r3_W) (h4 : r ∉ r4_W) (h5 : r ∉ r5_W) (h6 : r ∉ r6_W) (h7 : r ∉ r7_W) (h8 : r ∉ r8_W) (h9 : r ∉ r9_W) (h10 : r ∉ r10_W) (h11 : r ∉ r11_W) (h12 : r ∉ r12_W) (h13 : r ∉ r13_W) (h14 : r ∉ r14_W) (h15 : r ∉ r15_W) (h16 : r ∉ r16_W) (h17 : r ∉ r17_W) (h18 : r ∉ r18_W) (h19 : r ∉ r19_W) (h20 : r ∉ r20_W) (h21 : r ∉ r21_W) :
    after ops V (Proc.devRef .tc r) = V (Proc.devRef .tc r) := by
  rw [after_ops, r21_keep _ r h21, r20_keep _ r h20, r19_keep _ r h19, r18_keep _ r h18, r17_keep _ r h17, r16_keep _ r h16, r15_keep _ r h15, r14_keep _ r h14, r13_keep _ r h13, r12_keep _ r h12, r11_keep _ r h11, r10_keep _ r h10, r9_keep _ r h9, r8_keep _ r h8, r7_keep _ r h7, r6_keep _ r h6, r5_keep _ r h5, r4_keep _ r h4, r3_keep _ r h3, r2_keep _ r h2, r1_keep _ r h1, r0_keep _ r h0]

end Cert.ReferenceIdeal.RefRun

end
-- ==== Proof.Ref.Run.lean ====
/-
  The reference program's run: from any memory with zero counters, every weakly fair execution of the
  program on the TensorCores terminates, faulting nowhere; at the end the result buffer holds the fold of the
  322 operations' results over the contents the buffers had at the start, read at the result buffer, and each
  of the seventeen argument buffers holds what it held at the start (no operation writes an argument).
  The frame claim for the reference is that statement without its first conjunct, at the extended reals.
-/
import proofs.«117565_j22136261443720_1_alg».proof.Defs
import proofs.«117565_j22136261443720_1_alg».proof.Proof.Gen.Pre_finite_inputs
import proofs.«117565_j22136261443720_1_alg».proof.Proof.Ref.Ops

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of
    the program terminates with the result buffer at the fold of `ops` over the launch contents, and every
    argument unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v127) = StableHlo.after ops (fun b => m (c, b)) (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨h c main_v127,
      (h c main_arg0).trans (ops_keep _ main_arg0 (by decide) (by decide) (by decide) (by decide) (by decide) (by decide) (by decide) (by decide) (by decide) (by decide) (by decide) (by decide) (by decide) (by decide) (by decide) (by decide) (by decide) (by decide) (by decide) (by decide) (by decide) (by decide)),
      (h c main_arg1).trans (ops_keep _ main_arg1 (by decide) (by decide) (by decide) (by decide) (by decide) (by decide) (by decide) (by decide) (by decide) (by decide) (by decide) (by decide) (by decide) (by decide) (by decide) (by decide) (by decide) (by decide) (by decide) (by decide) (by decide) (by decide)),
      (h c main_arg2).trans (ops_keep _ main_arg2 (by decide) (by decide) (by decide) (by decide) (by decide) (by decide) (by decide) (by decide) (by decide) (by decide) (by decide) (by decide) (by decide) (by decide) (by decide) (by decide) (by decide) (by decide) (by decide) (by decide) (by decide) (by decide)),
      (h c main_arg3).trans (ops_keep _ main_arg3 (by decide) (by decide) (by decide) (by decide) (by decide) (by decide) (by decide) (by decide) (by decide) (by decide) (by decide) (by decide) (by decide) (by decide) (by decide) (by decide) (by decide) (by decide) (by decide) (by decide) (by decide) (by decide)),
      (h c main_arg4).trans (ops_keep _ main_arg4 (by decide) (by decide) (by decide) (by decide) (by decide) (by decide) (by decide) (by decide) (by decide) (by decide) (by decide) (by decide) (by decide) (by decide) (by decide) (by decide) (by decide) (by decide) (by decide) (by decide) (by decide) (by decide)),
      (h c main_arg5).trans (ops_keep _ main_arg5 (by decide) (by decide) (by decide) (by decide) (by decide) (by decide) (by decide) (by decide) (by decide) (by decide) (by decide) (by decide) (by decide) (by decide) (by decide) (by decide) (by decide) (by decide) (by decide) (by decide) (by decide) (by decide)),
      (h c main_arg6).trans (ops_keep _ main_arg6 (by decide) (by decide) (by decide) (by decide) (by decide) (by decide) (by decide) (by decide) (by decide) (by decide) (by decide) (by decide) (by decide) (by decide) (by decide) (by decide) (by decide) (by decide) (by decide) (by decide) (by decide) (by decide)),
      (h c main_arg7).trans (ops_keep _ main_arg7 (by decide) (by decide) (by decide) (by decide) (by decide) (by decide) (by decide) (by decide) (by decide) (by decide) (by decide) (by decide) (by decide) (by decide) (by decide) (by decide) (by decide) (by decide) (by decide) (by decide) (by decide) (by decide)),
      (h c main_arg8).trans (ops_keep _ main_arg8 (by decide) (by decide) (by decide) (by decide) (by decide) (by decide) (by decide) (by decide) (by decide) (by decide) (by decide) (by decide) (by decide) (by decide) (by decide) (by decide) (by decide) (by decide) (by decide) (by decide) (by decide) (by decide)),
      (h c main_arg9).trans (ops_keep _ main_arg9 (by decide) (by decide) (by decide) (by decide) (by decide) (by decide) (by decide) (by decide) (by decide) (by decide) (by decide) (by decide) (by decide) (by decide) (by decide) (by decide) (by decide) (by decide) (by decide) (by decide) (by decide) (by decide)),
      (h c main_arg10).trans (ops_keep _ main_arg10 (by decide) (by decide) (by decide) (by decide) (by decide) (by decide) (by decide) (by decide) (by decide) (by decide) (by decide) (by decide) (by decide) (by decide) (by decide) (by decide) (by decide) (by decide) (by decide) (by decide) (by decide) (by decide)),
      (h c main_arg11).trans (ops_keep _ main_arg11 (by decide) (by decide) (by decide) (by decide) (by decide) (by decide) (by decide) (by decide) (by decide) (by decide) (by decide) (by decide) (by decide) (by decide) (by decide) (by decide) (by decide) (by decide) (by decide) (by decide) (by decide) (by decide)),
      (h c main_arg12).trans (ops_keep _ main_arg12 (by decide) (by decide) (by decide) (by decide) (by decide) (by decide) (by decide) (by decide) (by decide) (by decide) (by decide) (by decide) (by decide) (by decide) (by decide) (by decide) (by decide) (by decide) (by decide) (by decide) (by decide) (by decide)),
      (h c main_arg13).trans (ops_keep _ main_arg13 (by decide) (by decide) (by decide) (by decide) (by decide) (by decide) (by decide) (by decide) (by decide) (by decide) (by decide) (by decide) (by decide) (by decide) (by decide) (by decide) (by decide) (by decide) (by decide) (by decide) (by decide) (by decide)),
      (h c main_arg14).trans (ops_keep _ main_arg14 (by decide) (by decide) (by decide) (by decide) (by decide) (by decide) (by decide) (by decide) (by decide) (by decide) (by decide) (by decide) (by decide) (by decide) (by decide) (by decide) (by decide) (by decide) (by decide) (by decide) (by decide) (by decide)),
      (h c main_arg15).trans (ops_keep _ main_arg15 (by decide) (by decide) (by decide) (by decide) (by decide) (by decide) (by decide) (by decide) (by decide) (by decide) (by decide) (by decide) (by decide) (by decide) (by decide) (by decide) (by decide) (by decide) (by decide) (by decide) (by decide) (by decide)),
      (h c main_arg16).trans (ops_keep _ main_arg16 (by decide) (by decide) (by decide) (by decide) (by decide) (by decide) (by decide) (by decide) (by decide) (by decide) (by decide) (by decide) (by decide) (by decide) (by decide) (by decide) (by decide) (by decide) (by decide) (by decide) (by decide) (by decide))⟩)
    (run_seq scopedRefs_eq scopedSems_eq defs main (fun _ => ops) main_eq (fun _ => ops_sub) m ρ
      (fun _ => List.forall_iff_forall_mem.mp ops_fresh))

/-- The reference's frame claim: it runs to the end, faults nowhere, and leaves its arguments unchanged. -/
theorem frame_ri : Cert.frame_ReferenceIdeal := fun m ρ _ =>
  (θ_run Cert.ReferenceIdeal.defs _ _).mono (fun _ h c => (h c).2) (run (F := Ideal) m ρ)

end Cert.ReferenceIdeal.RefRun

end
-- ==== Proof.LibBlockSum.lean ====
/-
  A sum over `K = kt * n` consecutive positions, cut into `kt` blocks of `n` positions each, is the sum over the
  blocks of the sums inside each block: position `k * n + i` is position `i` of block `k`. Stated for any
  commutative additive monoid (the extended reals among them: no finiteness is asked).
-/
import Mathlib.Algebra.BigOperators.Fin
import Mathlib.Logic.Equiv.Fin.Basic

open scoped BigOperators

namespace Cert.Lib

/-- Position `i` of block `k` is below `kt * n`. -/
theorem blockPos_lt {kt n K : ℕ} (h : kt * n = K) (k : Fin kt) (i : Fin n) : k.val * n + i.val < K := by
  have hk := k.isLt
  have hi := i.isLt
  calc k.val * n + i.val < k.val * n + n := by omega
    _ = (k.val + 1) * n := by rw [Nat.succ_mul]
    _ ≤ kt * n := Nat.mul_le_mul_right _ hk
    _ = K := h

/-- The sum over all `K = kt * n` positions is the sum over the `kt` blocks of the sums over each block's `n` positions. -/
theorem sum_blocks {M : Type*} [AddCommMonoid M] {kt n K : ℕ} (h : kt * n = K) (f : Fin K → M) :
    ∑ c : Fin K, f c = ∑ k : Fin kt, ∑ i : Fin n, f ⟨k.val * n + i.val, blockPos_lt h k i⟩ := by
  subst h
  rw [← Equiv.sum_comp finProdFinEquiv f, Fintype.sum_prod_type]
  refine Finset.sum_congr rfl fun k _ => Finset.sum_congr rfl fun i _ => ?_
  refine congrArg f (Fin.ext ?_)
  show i.val + n * k.val = k.val * n + i.val
  rw [Nat.mul_comm, Nat.add_comm]

end Cert.Lib
-- ==== Proof.LibMatmulAt.lean ====
/-
  A matrix product accumulated into the zero block, at the ideal values, read at one entry: for an m×k matrix times a
  k×n matrix (the left operand contracted along its columns, the right along its rows, no batch axis) the entry at
  row `a`, column `b` is the sum over the contracted coordinate `c` of `A (a, c) * B (c, b)`.
-/
import Idealize.ShloMosaic.Lib.ValueIdx
import Idealize.ShloMosaic.PureOps.Ideal.Laws

noncomputable section

open scoped BigOperators

namespace Cert.Lib

open Idealize.ShloMosaic Idealize.ShloMosaic.ValueIdx

/-- The product of an m×k by a k×n matrix into the zero block, read at entry (a, b). -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant (F := Ideal) _ .f32 0x00000000#32) (ix2 a b)
      = ∑ c : Fin k, A (ix2 a c) * B (ix2 c b) := by
  show FloatOps.matmul _ prec A B (constant (F := Ideal) _ .f32 0x00000000#32) (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Lib

end
-- ==== Proof.KI.Value.lean ====
/-
  What each of the three matrix-product regions leaves in its output array, at the ideal values, as ONE function of
  the region's two input arrays, index by index: the entry at row `r`, column `q` is the sum over the whole
  contracted axis of `A (r, k) * B (k, q)`, passed (regions 0 and 1) through `y ↦ max y 0 - y * (1/2)`.

  The steps: the kernel body's three payloads read at an entry; the accumulator after the last point of a column
  block is zero plus the sum, over the column block's points, of the block products; each point's two input blocks
  sit in their arrays at the block index times the block's size; the sums over the blocks of the contracted axis
  re-index to one sum over the whole axis; the four column blocks cover the output array.
-/
import proofs.«117565_j22136261443720_1_alg».proof.Proof.KI.Data
import proofs.«117565_j22136261443720_1_alg».proof.Proof.LibBlockSum
import proofs.«117565_j22136261443720_1_alg».proof.Proof.LibMatmulAt
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The map the first two regions pass the accumulated sum through: `max y 0 - y * (1/2)`. -/
def gate (y : EReal) : EReal := max y 0 - y * Ideal.ofBits .f32 0x3F000000#32

/-- The product of a 512×1024 block by a 1024×1024 block, at an entry. -/
def blockProd (a : Vec Ideal S512x1024 .bf16) (b : Vec Ideal S1024x1024 .bf16) (i : S512x1024.Idx) : EReal :=
  ∑ l : Fin 1024, a (ix2 (i 0 : Fin 512) l) * b (ix2 l (i 1 : Fin 1024))

/-- Region 0's reset payload is the zero block. -/
theorem pay1_0_apply (j : S512x1024.Idx) : k0_pay1 (F := Ideal) j = 0 := by
  unfold k0_pay1
  simp only [shapeCast_self]
  show Ideal.ofBits .f32 0x00000000#32 = 0
  exact Ideal.ofBits_zero_f32

/-- Region 0's accumulating payload at an entry: what was there plus the product of the two blocks at that entry. -/
theorem pay2_0_apply (x : Vec Ideal S512x1024 .f32) (a : Vec Ideal S512x1024 .bf16) (b : Vec Ideal S1024x1024 .bf16)
    (i : S512x1024.Idx) : k0_pay2 x a b i = x i + blockProd a b i := by
  obtain ⟨r, q, rfl⟩ : ∃ (r : Fin 512) (q : Fin 1024), i = ix2 r q := ⟨i 0, i 1, eq_ix2 i⟩
  unfold k0_pay2 blockProd
  simp only [shapeCast_self]
  rw [addf_apply]
  exact congrArg (x (ix2 r q) + ·) (Cert.Lib.matmul_plain_zero_apply _ none a b r q)

/-- Region 0's closing payload at an entry. -/
theorem pay3_0_apply (y : Vec Ideal S512x1024 .f32) (j : S512x1024.Idx) : k0_pay3 y j = gate (y j) := by
  unfold k0_pay3 gate
  show max (y j) (Ideal.ofBits .f32 0x00000000#32) - y j * Ideal.ofBits .f32 0x3F000000#32 = _
  rw [Ideal.ofBits_zero_f32]

/-- Region 1's reset payload is the zero block. -/
theorem pay1_1_apply (j : S512x1024.Idx) : k1_pay1 (F := Ideal) j = 0 := by
  unfold k1_pay1
  simp only [shapeCast_self]
  show Ideal.ofBits .f32 0x00000000#32 = 0
  exact Ideal.ofBits_zero_f32

/-- Region 1's accumulating payload at an entry: what was there plus the product of the two blocks at that entry. -/
theorem pay2_1_apply (x : Vec Ideal S512x1024 .f32) (a : Vec Ideal S512x1024 .bf16) (b : Vec Ideal S1024x1024 .bf16)
    (i : S512x1024.Idx) : k1_pay2 x a b i = x i + blockProd a b i := by
  obtain ⟨r, q, rfl⟩ : ∃ (r : Fin 512) (q : Fin 1024), i = ix2 r q := ⟨i 0, i 1, eq_ix2 i⟩
  unfold k1_pay2 blockProd
  simp only [shapeCast_self]
  rw [addf_apply]
  exact congrArg (x (ix2 r q) + ·) (Cert.Lib.matmul_plain_zero_apply _ none a b r q)

/-- Region 1's closing payload at an entry. -/
theorem pay3_1_apply (y : Vec Ideal S512x1024 .f32) (j : S512x1024.Idx) : k1_pay3 y j = gate (y j) := by
  unfold k1_pay3 gate
  show max (y j) (Ideal.ofBits .f32 0x00000000#32) - y j * Ideal.ofBits .f32 0x3F000000#32 = _
  rw [Ideal.ofBits_zero_f32]

/-- Region 2's reset payload is the zero block. -/
theorem pay1_2_apply (j : S512x1024.Idx) : k2_pay1 (F := Ideal) j = 0 := by
  unfold k2_pay1
  simp only [shapeCast_self]
  show Ideal.ofBits .f32 0x00000000#32 = 0
  exact Ideal.ofBits_zero_f32

/-- Region 2's accumulating payload at an entry: what was there plus the product of the two blocks at that entry. -/
theorem pay2_2_apply (x : Vec Ideal S512x1024 .f32) (a : Vec Ideal S512x1024 .bf16) (b : Vec Ideal S1024x1024 .bf16)
    (i : S512x1024.Idx) : k2_pay2 x a b i = x i + blockProd a b i := by
  obtain ⟨r, q, rfl⟩ : ∃ (r : Fin 512) (q : Fin 1024), i = ix2 r q := ⟨i 0, i 1, eq_ix2 i⟩
  unfold k2_pay2 blockProd
  simp only [shapeCast_self]
  rw [addf_apply]
  exact congrArg (x (ix2 r q) + ·) (Cert.Lib.matmul_plain_zero_apply _ none a b r q)

variable (V : (c : Dev nD) → (b : Ref sig .tc) → Buf (Elt Ideal) ((c : Thread nD τ).loc b))

/-! ## Region 1: 5 blocks of the contracted axis per column block -/

/-- Region 1's two input arrays, at their literal shapes. -/
abbrev arrA1 (c : Dev nD) : S512x5120.Idx → Ideal .bf16 := V c (Pipeline.arrRef spec1 0)
abbrev arrB1 (c : Dev nD) : S5120x4096.Idx → Ideal .bf16 := V c (Pipeline.arrRef spec1 1)

/-- The block indices of region 1's three windows at point `t` = 5 * (column block) + (block of the contracted axis). -/
theorem idx_facts1 : ∀ t : Fin cfg1.N,
    win1_0.index t (0 : Fin 2) = 0 ∧ win1_0.index t (1 : Fin 2) = t.val % 5
    ∧ win1_1.index t (0 : Fin 2) = t.val % 5 ∧ win1_1.index t (1 : Fin 2) = t.val / 5
    ∧ win1_2.index t (0 : Fin 2) = 0 ∧ win1_2.index t (1 : Fin 2) = t.val / 5 :=
  (by decide +kernel : ∀ t : Fin grid1.N, _)

/-- The left block at point `t` is rows 0..511, columns `(t % 5) * 1024 ..` of the left array. -/
theorem iblk1_0_apply (c : Dev nD) (t : Fin cfg1.N) (r : Fin 512) (l : Fin 1024) :
    iblk1 V c 0 t (ix2 r l) = arrA1 V c (ix2 r ⟨t.val % 5 * 1024 + l.val, by omega⟩) := by
  obtain ⟨e0, e1, -⟩ := idx_facts1 t
  show V c (Pipeline.arrRef spec1 0) (((cfg1.win 0).blk t).view.emb (ix2 r l)) = V c (Pipeline.arrRef spec1 0) _
  refine congrArg (V c (Pipeline.arrRef spec1 0)) (funext fun a => Fin.ext ?_)
  match a with
  | ⟨0, _⟩ => show win1_0.index t (0 : Fin 2) * 512 + 1 * r.val = r.val; omega
  | ⟨1, _⟩ => show win1_0.index t (1 : Fin 2) * 1024 + 1 * l.val = t.val % 5 * 1024 + l.val; omega

/-- The right block at point `t` is rows `(t % 5) * 1024 ..`, columns `(t / 5) * 1024 ..` of the right array. -/
theorem iblk1_1_apply (c : Dev nD) (t : Fin cfg1.N) (l : Fin 1024) (q : Fin 1024) :
    iblk1 V c 1 t (ix2 l q) = arrB1 V c (ix2 ⟨t.val % 5 * 1024 + l.val, by omega⟩
      ⟨t.val / 5 * 1024 + q.val, by have : t.val < 20 := t.isLt; omega⟩) := by
  obtain ⟨-, -, e2, e3, -⟩ := idx_facts1 t
  show V c (Pipeline.arrRef spec1 1) (((cfg1.win 1).blk t).view.emb (ix2 l q)) = V c (Pipeline.arrRef spec1 1) _
  refine congrArg (V c (Pipeline.arrRef spec1 1)) (funext fun a => Fin.ext ?_)
  match a with
  | ⟨0, _⟩ => show win1_1.index t (0 : Fin 2) * 1024 + 1 * l.val = t.val % 5 * 1024 + l.val; omega
  | ⟨1, _⟩ => show win1_1.index t (1 : Fin 2) * 1024 + 1 * q.val = t.val / 5 * 1024 + q.val; omega

/-- Point `n`'s addend at an entry: the product of the point's two blocks there (zero past the grid, never used). -/
def addend1 (c : Dev nD) (n : ℕ) (i : S512x1024.Idx) : EReal :=
  if h : n < cfg1.N then blockProd (iblk1 V c 0 ⟨n, h⟩) (iblk1 V c 1 ⟨n, h⟩) i else 0

/-- The accumulator after position `j` of column block `q`: zero plus the addends of the column block's points so far. -/
theorem accAt1_fold (c : Dev nD) (q j : ℕ) (hj : j < 5) (h : 5 * q + j < cfg1.N) (i : S512x1024.Idx) :
    accAt1 V c (5 * q + j) h i = 0 + ∑ s ∈ Finset.range (j + 1), addend1 V c (5 * q + s) i := by
  have e := Pipeline.eq_accAt (accAt1 V c) 5
    (fun n h => k1_pay2 (k1_pay1 (F := Ideal)) (iblk1 V c 0 ⟨n, h⟩) (iblk1 V c 1 ⟨n, h⟩))
    (fun n h acc => k1_pay2 acc (iblk1 V c 0 ⟨n, h⟩) (iblk1 V c 1 ⟨n, h⟩))
    (fun n h hm => accAt1_first V c ⟨n, h⟩ hm)
    (fun n h hm => accAt1_later V c ⟨n + 1, h⟩ hm)
    q j hj h
  rw [e]
  refine Pipeline.accAt_add_apply _ _ (fun _ => 0) (addend1 V c) (5 * q) 4 ?_ ?_ j (by omega) h i
  · intro h i
    show k1_pay2 (F := Ideal) (k1_pay1 (F := Ideal)) _ _ i = _
    rw [pay2_1_apply, pay1_1_apply]
    unfold addend1
    rw [dif_pos h]
  · intro n h acc i _ _
    show k1_pay2 (F := Ideal) acc _ _ i = _
    rw [pay2_1_apply]
    unfold addend1
    rw [dif_pos h]

/-- At the last point of a column block the output's staging buffer holds, at an entry, the sum over the whole
    contracted axis of the left array's row times the right array's column, passed through `gate`. -/
theorem out1_flush_apply (c : Dev nD) (t : Fin cfg1.N) (ht : t.val % 5 = 4) (r : Fin 512) (p : Fin 1024) :
    out1 V c t (ix2 r p) = gate (∑ k : Fin 5120, arrA1 V c (ix2 r k) * arrB1 V c (ix2 k
      ⟨t.val / 5 * 1024 + p.val, by have : t.val < 20 := t.isLt; omega⟩)) := by
  have hN : t.val < 20 := t.isLt
  unfold out1
  rw [pay3_1_apply]
  refine congrArg gate ?_
  have same : ∀ (u : ℕ) (hu : u < cfg1.N), u = t.val → accAt1 V c u hu = accAt1 V c t.val t.isLt := by
    intro u hu e; subst e; rfl
  rw [← same (5 * (t.val / 5) + 4) (by show _ < 20; omega) (by omega),
    accAt1_fold V c (t.val / 5) 4 (by omega) _ (ix2 r p), zero_add, Finset.sum_range,
    Cert.Lib.sum_blocks (kt := 5) (n := 1024) (K := 5120) rfl]
  refine Finset.sum_congr rfl fun s _ => ?_
  have hs : s.val < 5 := s.isLt
  have hlt : 5 * (t.val / 5) + s.val < cfg1.N := by show _ < 20; omega
  unfold addend1
  rw [dif_pos hlt]
  unfold blockProd
  refine Finset.sum_congr rfl fun l _ => ?_
  rw [iblk1_0_apply, iblk1_1_apply]
  have hm : (5 * (t.val / 5) + s.val) % 5 = s.val := by omega
  have hd : (5 * (t.val / 5) + s.val) / 5 = t.val / 5 := by omega
  have eA : ∀ (x y : ℕ) (hx : x < 5120) (hy : y < 5120), x = y →
      arrA1 V c (ix2 r ⟨x, hx⟩) = arrA1 V c (ix2 r ⟨y, hy⟩) := by
    intro x y hx hy e; subst e; rfl
  have eB : ∀ (x y : ℕ) (hx : x < 5120) (hy : y < 5120) (x' y' : ℕ) (hx' : x' < 4096) (hy' : y' < 4096), x = y → x' = y' →
      arrB1 V c (ix2 ⟨x, hx⟩ ⟨x', hx'⟩) = arrB1 V c (ix2 ⟨y, hy⟩ ⟨y', hy'⟩) := by
    intro x y hx hy x' y' hx' hy' e e'; subst e; subst e'; rfl
  exact congrArg₂ (· * ·) (eA _ _ _ _ (by show (5 * (t.val / 5) + s.val) % 5 * 1024 + l.val = s.val * 1024 + l.val; rw [hm]))
    (eB _ _ _ _ _ _ _ _ (by show (5 * (t.val / 5) + s.val) % 5 * 1024 + l.val = s.val * 1024 + l.val; rw [hm])
      (by show (5 * (t.val / 5) + s.val) / 5 * 1024 + p.val = t.val / 5 * 1024 + p.val; rw [hd]))

/-- Region 1's output array as one function of its two input arrays: at row `r`, column `q` the sum over the whole
    contracted axis of `A (r, k) * B (k, q)`, passed through `gate`. -/
def gmm1 (A : S512x5120.Idx → Ideal .bf16) (B : S5120x4096.Idx → Ideal .bf16) : S512x4096.Idx → Ideal .f32 :=
  fun i => gate (∑ k : Fin 5120, A (ix2 (i 0 : Fin 512) k) * B (ix2 k (i 1 : Fin 4096)))

/-- What a point that writes its block back writes is its block of `gmm1` of the two input arrays. -/
theorem flushed1_eq (c : Dev nD) (t : Fin cfg1.N) (hf : (cfg1.win 2).flush t = true) :
    (dat1 V c).flushed 2 t = ((cfg1.win 2).blk t).view.read (Elt Ideal) (gmm1 (arrA1 V c) (arrB1 V c)) := by
  have ht : t.val % 5 = 4 := (flush1_2 t).mp hf
  have hN : t.val < 20 := t.isLt
  obtain ⟨-, -, -, -, e4, e5⟩ := idx_facts1 t
  show (cfg1.win 2).cut (grid1.coords t) ((dat1 V c).after 2 t) = _
  rw [after1_2]
  funext j
  obtain ⟨r, p, rfl⟩ : ∃ (r : Fin 512) (p : Fin 1024), j = ix2 r p := ⟨j 0, j 1, eq_ix2 j⟩
  show out1 V c t (ix2 r p) = gmm1 (arrA1 V c) (arrB1 V c) (((cfg1.win 2).blk t).view.emb (ix2 r p))
  rw [out1_flush_apply V c t ht r p]
  have h0 : ((((cfg1.win 2).blk t).view.emb (ix2 r p)) 0 : Fin 512) = r :=
    Fin.ext (by show win1_2.index t (0 : Fin 2) * 512 + 1 * r.val = r.val; omega)
  have h1 : ((((cfg1.win 2).blk t).view.emb (ix2 r p)) 1 : Fin 4096) = (⟨t.val / 5 * 1024 + p.val, by omega⟩ : Fin 4096) :=
    Fin.ext (by show win1_2.index t (1 : Fin 2) * 1024 + 1 * p.val = t.val / 5 * 1024 + p.val; omega)
  show _ = gate (∑ k : Fin 5120, arrA1 V c (ix2 ((((cfg1.win 2).blk t).view.emb (ix2 r p)) 0 : Fin 512) k)
    * arrB1 V c (ix2 k ((((cfg1.win 2).blk t).view.emb (ix2 r p)) 1 : Fin 4096)))
  rw [h0, h1]

/-- An index of the output array is in point `t`'s block iff each coordinate is in the block's range on its axis. -/
theorem mem_blk1 (t : Fin cfg1.N) (i : S512x4096.Idx) :
    i ∈ ((cfg1.win 2).blk t).view.set ↔ ∀ a : Fin 2, win1_2.index t a * S512x1024.size a ≤ (i a).val
      ∧ (i a).val < win1_2.index t a * S512x1024.size a + S512x1024.size a := by
  show i ∈ ((View.whole main_v63).slice (win1_2.rect t)).set ↔ _
  rw [View.set_slice_whole, Rect.mem_set_unit]
  exact Iff.rfl

/-- The four column blocks cover the output array: column `q` is in the block written back at the last point of
    column block `q / 1024`. -/
theorem cover1 (i : S512x4096.Idx) :
    ∃ t : Fin cfg1.N, (cfg1.win 2).flush t = true ∧ i ∈ ((cfg1.win 2).blk t).view.set := by
  have hi0 : (i 0).val < 512 := (i 0).isLt
  have hi1 : (i 1).val < 4096 := (i 1).isLt
  have hlt : 5 * ((i 1).val / 1024) + 4 < cfg1.N := by show _ < 20; omega
  obtain ⟨-, -, -, -, e4, e5⟩ := idx_facts1 ⟨5 * ((i 1).val / 1024) + 4, hlt⟩
  refine ⟨⟨5 * ((i 1).val / 1024) + 4, hlt⟩, (flush1_2 _).mpr (by show (5 * ((i 1).val / 1024) + 4) % 5 = 4; omega), ?_⟩
  rw [mem_blk1]
  have e5' : win1_2.index ⟨5 * ((i 1).val / 1024) + 4, hlt⟩ (1 : Fin 2) = (i 1).val / 1024 := by
    rw [e5]; show (5 * ((i 1).val / 1024) + 4) / 5 = _; omega
  intro a
  match a with
  | ⟨0, _⟩ =>
    show win1_2.index ⟨5 * ((i 1).val / 1024) + 4, hlt⟩ (0 : Fin 2) * 512 ≤ (i 0).val
      ∧ (i 0).val < win1_2.index ⟨5 * ((i 1).val / 1024) + 4, hlt⟩ (0 : Fin 2) * 512 + 512
    omega
  | ⟨1, _⟩ =>
    show win1_2.index ⟨5 * ((i 1).val / 1024) + 4, hlt⟩ (1 : Fin 2) * 1024 ≤ (i 1).val
      ∧ (i 1).val < win1_2.index ⟨5 * ((i 1).val / 1024) + 4, hlt⟩ (1 : Fin 2) * 1024 + 1024
    omega

/-- Region 1's output array after the region is `gmm1` of its two input arrays as the region finds them. -/
theorem arrAt1 (c : Dev nD) :
    (dat1 (F := Ideal) V c).arrAt 2 cfg1.N = gmm1 (V c (Pipeline.arrRef spec1 0)) (V c (Pipeline.arrRef spec1 1)) :=
  (dat1 V c).arrAt_eq_of_cover 2 (gmm1 (arrA1 V c) (arrB1 V c)) (flushed1_eq V c) cover1

/-! ## Region 0: 1 block of the contracted axis per column block -/

/-- Region 0's two input arrays, at their literal shapes. -/
abbrev arrA0 (c : Dev nD) : S512x1024.Idx → Ideal .bf16 := V c (Pipeline.arrRef spec0 0)
abbrev arrB0 (c : Dev nD) : S1024x4096.Idx → Ideal .bf16 := V c (Pipeline.arrRef spec0 1)

/-- The block indices of region 0's three windows at point `t` = 1 * (column block) + (block of the contracted axis). -/
theorem idx_facts0 : ∀ t : Fin cfg0.N,
    win0_0.index t (0 : Fin 2) = 0 ∧ win0_0.index t (1 : Fin 2) = t.val % 1
    ∧ win0_1.index t (0 : Fin 2) = t.val % 1 ∧ win0_1.index t (1 : Fin 2) = t.val / 1
    ∧ win0_2.index t (0 : Fin 2) = 0 ∧ win0_2.index t (1 : Fin 2) = t.val / 1 :=
  (by decide +kernel : ∀ t : Fin grid0.N, _)

/-- The left block at point `t` is rows 0..511, columns `(t % 1) * 1024 ..` of the left array. -/
theorem iblk0_0_apply (c : Dev nD) (t : Fin cfg0.N) (r : Fin 512) (l : Fin 1024) :
    iblk0 V c 0 t (ix2 r l) = arrA0 V c (ix2 r ⟨t.val % 1 * 1024 + l.val, by omega⟩) := by
  obtain ⟨e0, e1, -⟩ := idx_facts0 t
  show V c (Pipeline.arrRef spec0 0) (((cfg0.win 0).blk t).view.emb (ix2 r l)) = V c (Pipeline.arrRef spec0 0) _
  refine congrArg (V c (Pipeline.arrRef spec0 0)) (funext fun a => Fin.ext ?_)
  match a with
  | ⟨0, _⟩ => show win0_0.index t (0 : Fin 2) * 512 + 1 * r.val = r.val; omega
  | ⟨1, _⟩ => show win0_0.index t (1 : Fin 2) * 1024 + 1 * l.val = t.val % 1 * 1024 + l.val; omega

/-- The right block at point `t` is rows `(t % 1) * 1024 ..`, columns `(t / 1) * 1024 ..` of the right array. -/
theorem iblk0_1_apply (c : Dev nD) (t : Fin cfg0.N) (l : Fin 1024) (q : Fin 1024) :
    iblk0 V c 1 t (ix2 l q) = arrB0 V c (ix2 ⟨t.val % 1 * 1024 + l.val, by omega⟩
      ⟨t.val / 1 * 1024 + q.val, by have : t.val < 4 := t.isLt; omega⟩) := by
  obtain ⟨-, -, e2, e3, -⟩ := idx_facts0 t
  show V c (Pipeline.arrRef spec0 1) (((cfg0.win 1).blk t).view.emb (ix2 l q)) = V c (Pipeline.arrRef spec0 1) _
  refine congrArg (V c (Pipeline.arrRef spec0 1)) (funext fun a => Fin.ext ?_)
  match a with
  | ⟨0, _⟩ => show win0_1.index t (0 : Fin 2) * 1024 + 1 * l.val = t.val % 1 * 1024 + l.val; omega
  | ⟨1, _⟩ => show win0_1.index t (1 : Fin 2) * 1024 + 1 * q.val = t.val / 1 * 1024 + q.val; omega

/-- Point `n`'s addend at an entry: the product of the point's two blocks there (zero past the grid, never used). -/
def addend0 (c : Dev nD) (n : ℕ) (i : S512x1024.Idx) : EReal :=
  if h : n < cfg0.N then blockProd (iblk0 V c 0 ⟨n, h⟩) (iblk0 V c 1 ⟨n, h⟩) i else 0

/-- The accumulator after position `j` of column block `q`: zero plus the addends of the column block's points so far. -/
theorem accAt0_fold (c : Dev nD) (q j : ℕ) (hj : j < 1) (h : 1 * q + j < cfg0.N) (i : S512x1024.Idx) :
    accAt0 V c (1 * q + j) h i = 0 + ∑ s ∈ Finset.range (j + 1), addend0 V c (1 * q + s) i := by
  have e := Pipeline.eq_accAt (accAt0 V c) 1
    (fun n h => k0_pay2 (k0_pay1 (F := Ideal)) (iblk0 V c 0 ⟨n, h⟩) (iblk0 V c 1 ⟨n, h⟩))
    (fun n h acc => k0_pay2 acc (iblk0 V c 0 ⟨n, h⟩) (iblk0 V c 1 ⟨n, h⟩))
    (fun n h hm => accAt0_first V c ⟨n, h⟩ hm)
    (fun n h hm => accAt0_later V c ⟨n + 1, h⟩ hm)
    q j hj h
  rw [e]
  refine Pipeline.accAt_add_apply _ _ (fun _ => 0) (addend0 V c) (1 * q) 0 ?_ ?_ j (by omega) h i
  · intro h i
    show k0_pay2 (F := Ideal) (k0_pay1 (F := Ideal)) _ _ i = _
    rw [pay2_0_apply, pay1_0_apply]
    unfold addend0
    rw [dif_pos h]
  · intro n h acc i _ _
    show k0_pay2 (F := Ideal) acc _ _ i = _
    rw [pay2_0_apply]
    unfold addend0
    rw [dif_pos h]

/-- At the last point of a column block the output's staging buffer holds, at an entry, the sum over the whole
    contracted axis of the left array's row times the right array's column, passed through `gate`. -/
theorem out0_flush_apply (c : Dev nD) (t : Fin cfg0.N) (ht : t.val % 1 = 0) (r : Fin 512) (p : Fin 1024) :
    out0 V c t (ix2 r p) = gate (∑ k : Fin 1024, arrA0 V c (ix2 r k) * arrB0 V c (ix2 k
      ⟨t.val / 1 * 1024 + p.val, by have : t.val < 4 := t.isLt; omega⟩)) := by
  have hN : t.val < 4 := t.isLt
  unfold out0
  rw [pay3_0_apply]
  refine congrArg gate ?_
  have same : ∀ (u : ℕ) (hu : u < cfg0.N), u = t.val → accAt0 V c u hu = accAt0 V c t.val t.isLt := by
    intro u hu e; subst e; rfl
  rw [← same (1 * (t.val / 1) + 0) (by show _ < 4; omega) (by omega),
    accAt0_fold V c (t.val / 1) 0 (by omega) _ (ix2 r p), zero_add, Finset.sum_range,
    Cert.Lib.sum_blocks (kt := 1) (n := 1024) (K := 1024) rfl]
  refine Finset.sum_congr rfl fun s _ => ?_
  have hs : s.val < 1 := s.isLt
  have hlt : 1 * (t.val / 1) + s.val < cfg0.N := by show _ < 4; omega
  unfold addend0
  rw [dif_pos hlt]
  unfold blockProd
  refine Finset.sum_congr rfl fun l _ => ?_
  rw [iblk0_0_apply, iblk0_1_apply]
  have hm : (1 * (t.val / 1) + s.val) % 1 = s.val := by omega
  have hd : (1 * (t.val / 1) + s.val) / 1 = t.val / 1 := by omega
  have eA : ∀ (x y : ℕ) (hx : x < 1024) (hy : y < 1024), x = y →
      arrA0 V c (ix2 r ⟨x, hx⟩) = arrA0 V c (ix2 r ⟨y, hy⟩) := by
    intro x y hx hy e; subst e; rfl
  have eB : ∀ (x y : ℕ) (hx : x < 1024) (hy : y < 1024) (x' y' : ℕ) (hx' : x' < 4096) (hy' : y' < 4096), x = y → x' = y' →
      arrB0 V c (ix2 ⟨x, hx⟩ ⟨x', hx'⟩) = arrB0 V c (ix2 ⟨y, hy⟩ ⟨y', hy'⟩) := by
    intro x y hx hy x' y' hx' hy' e e'; subst e; subst e'; rfl
  exact congrArg₂ (· * ·) (eA _ _ _ _ (by show (1 * (t.val / 1) + s.val) % 1 * 1024 + l.val = s.val * 1024 + l.val; rw [hm]))
    (eB _ _ _ _ _ _ _ _ (by show (1 * (t.val / 1) + s.val) % 1 * 1024 + l.val = s.val * 1024 + l.val; rw [hm])
      (by show (1 * (t.val / 1) + s.val) / 1 * 1024 + p.val = t.val / 1 * 1024 + p.val; rw [hd]))

/-- Region 0's output array as one function of its two input arrays: at row `r`, column `q` the sum over the whole
    contracted axis of `A (r, k) * B (k, q)`, passed through `gate`. -/
def gmm0 (A : S512x1024.Idx → Ideal .bf16) (B : S1024x4096.Idx → Ideal .bf16) : S512x4096.Idx → Ideal .f32 :=
  fun i => gate (∑ k : Fin 1024, A (ix2 (i 0 : Fin 512) k) * B (ix2 k (i 1 : Fin 4096)))

/-- What a point that writes its block back writes is its block of `gmm0` of the two input arrays. -/
theorem flushed0_eq (c : Dev nD) (t : Fin cfg0.N) (hf : (cfg0.win 2).flush t = true) :
    (dat0 V c).flushed 2 t = ((cfg0.win 2).blk t).view.read (Elt Ideal) (gmm0 (arrA0 V c) (arrB0 V c)) := by
  have ht : t.val % 1 = 0 := Nat.mod_one _
  have hN : t.val < 4 := t.isLt
  obtain ⟨-, -, -, -, e4, e5⟩ := idx_facts0 t
  show (cfg0.win 2).cut (grid0.coords t) ((dat0 V c).after 2 t) = _
  rw [after0_2]
  funext j
  obtain ⟨r, p, rfl⟩ : ∃ (r : Fin 512) (p : Fin 1024), j = ix2 r p := ⟨j 0, j 1, eq_ix2 j⟩
  show out0 V c t (ix2 r p) = gmm0 (arrA0 V c) (arrB0 V c) (((cfg0.win 2).blk t).view.emb (ix2 r p))
  rw [out0_flush_apply V c t ht r p]
  have h0 : ((((cfg0.win 2).blk t).view.emb (ix2 r p)) 0 : Fin 512) = r :=
    Fin.ext (by show win0_2.index t (0 : Fin 2) * 512 + 1 * r.val = r.val; omega)
  have h1 : ((((cfg0.win 2).blk t).view.emb (ix2 r p)) 1 : Fin 4096) = (⟨t.val / 1 * 1024 + p.val, by omega⟩ : Fin 4096) :=
    Fin.ext (by show win0_2.index t (1 : Fin 2) * 1024 + 1 * p.val = t.val / 1 * 1024 + p.val; omega)
  show _ = gate (∑ k : Fin 1024, arrA0 V c (ix2 ((((cfg0.win 2).blk t).view.emb (ix2 r p)) 0 : Fin 512) k)
    * arrB0 V c (ix2 k ((((cfg0.win 2).blk t).view.emb (ix2 r p)) 1 : Fin 4096)))
  rw [h0, h1]

/-- An index of the output array is in point `t`'s block iff each coordinate is in the block's range on its axis. -/
theorem mem_blk0 (t : Fin cfg0.N) (i : S512x4096.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v15).slice (win0_2.rect t)).set ↔ _
  rw [View.set_slice_whole, Rect.mem_set_unit]
  exact Iff.rfl

/-- The four column blocks cover the output array: column `q` is in the block written back at the last point of
    column block `q / 1024`. -/
theorem cover0 (i : S512x4096.Idx) :
    ∃ t : Fin cfg0.N, (cfg0.win 2).flush t = true ∧ i ∈ ((cfg0.win 2).blk t).view.set := by
  have hi0 : (i 0).val < 512 := (i 0).isLt
  have hi1 : (i 1).val < 4096 := (i 1).isLt
  have hlt : 1 * ((i 1).val / 1024) + 0 < cfg0.N := by show _ < 4; omega
  obtain ⟨-, -, -, -, e4, e5⟩ := idx_facts0 ⟨1 * ((i 1).val / 1024) + 0, hlt⟩
  refine ⟨⟨1 * ((i 1).val / 1024) + 0, hlt⟩, flush0_2 _, ?_⟩
  rw [mem_blk0]
  have e5' : win0_2.index ⟨1 * ((i 1).val / 1024) + 0, hlt⟩ (1 : Fin 2) = (i 1).val / 1024 := by
    rw [e5]; show (1 * ((i 1).val / 1024) + 0) / 1 = _; omega
  intro a
  match a with
  | ⟨0, _⟩ =>
    show win0_2.index ⟨1 * ((i 1).val / 1024) + 0, hlt⟩ (0 : Fin 2) * 512 ≤ (i 0).val
      ∧ (i 0).val < win0_2.index ⟨1 * ((i 1).val / 1024) + 0, hlt⟩ (0 : Fin 2) * 512 + 512
    omega
  | ⟨1, _⟩ =>
    show win0_2.index ⟨1 * ((i 1).val / 1024) + 0, hlt⟩ (1 : Fin 2) * 1024 ≤ (i 1).val
      ∧ (i 1).val < win0_2.index ⟨1 * ((i 1).val / 1024) + 0, hlt⟩ (1 : Fin 2) * 1024 + 1024
    omega

/-- Region 0's output array after the region is `gmm0` of its two input arrays as the region finds them. -/
theorem arrAt0 (c : Dev nD) :
    (dat0 (F := Ideal) V c).arrAt 2 cfg0.N = gmm0 (V c (Pipeline.arrRef spec0 0)) (V c (Pipeline.arrRef spec0 1)) :=
  (dat0 V c).arrAt_eq_of_cover 2 (gmm0 (arrA0 V c) (arrB0 V c)) (flushed0_eq V c) cover0

/-! ## Region 2: 9 blocks of the contracted axis per column block -/

/-- Region 2's two input arrays, at their literal shapes. -/
abbrev arrA2 (c : Dev nD) : S512x9216.Idx → Ideal .bf16 := V c (Pipeline.arrRef spec2 0)
abbrev arrB2 (c : Dev nD) : S9216x4096.Idx → Ideal .bf16 := V c (Pipeline.arrRef spec2 1)

/-- The block indices of region 2's three windows at point `t` = 9 * (column block) + (block of the contracted axis). -/
theorem idx_facts2 : ∀ t : Fin cfg2.N,
    win2_0.index t (0 : Fin 2) = 0 ∧ win2_0.index t (1 : Fin 2) = t.val % 9
    ∧ win2_1.index t (0 : Fin 2) = t.val % 9 ∧ win2_1.index t (1 : Fin 2) = t.val / 9
    ∧ win2_2.index t (0 : Fin 2) = 0 ∧ win2_2.index t (1 : Fin 2) = t.val / 9 :=
  (by decide +kernel : ∀ t : Fin grid2.N, _)

/-- The left block at point `t` is rows 0..511, columns `(t % 9) * 1024 ..` of the left array. -/
theorem iblk2_0_apply (c : Dev nD) (t : Fin cfg2.N) (r : Fin 512) (l : Fin 1024) :
    iblk2 V c 0 t (ix2 r l) = arrA2 V c (ix2 r ⟨t.val % 9 * 1024 + l.val, by omega⟩) := by
  obtain ⟨e0, e1, -⟩ := idx_facts2 t
  show V c (Pipeline.arrRef spec2 0) (((cfg2.win 0).blk t).view.emb (ix2 r l)) = V c (Pipeline.arrRef spec2 0) _
  refine congrArg (V c (Pipeline.arrRef spec2 0)) (funext fun a => Fin.ext ?_)
  match a with
  | ⟨0, _⟩ => show win2_0.index t (0 : Fin 2) * 512 + 1 * r.val = r.val; omega
  | ⟨1, _⟩ => show win2_0.index t (1 : Fin 2) * 1024 + 1 * l.val = t.val % 9 * 1024 + l.val; omega

/-- The right block at point `t` is rows `(t % 9) * 1024 ..`, columns `(t / 9) * 1024 ..` of the right array. -/
theorem iblk2_1_apply (c : Dev nD) (t : Fin cfg2.N) (l : Fin 1024) (q : Fin 1024) :
    iblk2 V c 1 t (ix2 l q) = arrB2 V c (ix2 ⟨t.val % 9 * 1024 + l.val, by omega⟩
      ⟨t.val / 9 * 1024 + q.val, by have : t.val < 36 := t.isLt; omega⟩) := by
  obtain ⟨-, -, e2, e3, -⟩ := idx_facts2 t
  show V c (Pipeline.arrRef spec2 1) (((cfg2.win 1).blk t).view.emb (ix2 l q)) = V c (Pipeline.arrRef spec2 1) _
  refine congrArg (V c (Pipeline.arrRef spec2 1)) (funext fun a => Fin.ext ?_)
  match a with
  | ⟨0, _⟩ => show win2_1.index t (0 : Fin 2) * 1024 + 1 * l.val = t.val % 9 * 1024 + l.val; omega
  | ⟨1, _⟩ => show win2_1.index t (1 : Fin 2) * 1024 + 1 * q.val = t.val / 9 * 1024 + q.val; omega

/-- Point `n`'s addend at an entry: the product of the point's two blocks there (zero past the grid, never used). -/
def addend2 (c : Dev nD) (n : ℕ) (i : S512x1024.Idx) : EReal :=
  if h : n < cfg2.N then blockProd (iblk2 V c 0 ⟨n, h⟩) (iblk2 V c 1 ⟨n, h⟩) i else 0

/-- The accumulator after position `j` of column block `q`: zero plus the addends of the column block's points so far. -/
theorem accAt2_fold (c : Dev nD) (q j : ℕ) (hj : j < 9) (h : 9 * q + j < cfg2.N) (i : S512x1024.Idx) :
    accAt2 V c (9 * q + j) h i = 0 + ∑ s ∈ Finset.range (j + 1), addend2 V c (9 * q + s) i := by
  have e := Pipeline.eq_accAt (accAt2 V c) 9
    (fun n h => k2_pay2 (k2_pay1 (F := Ideal)) (iblk2 V c 0 ⟨n, h⟩) (iblk2 V c 1 ⟨n, h⟩))
    (fun n h acc => k2_pay2 acc (iblk2 V c 0 ⟨n, h⟩) (iblk2 V c 1 ⟨n, h⟩))
    (fun n h hm => accAt2_first V c ⟨n, h⟩ hm)
    (fun n h hm => accAt2_later V c ⟨n + 1, h⟩ hm)
    q j hj h
  rw [e]
  refine Pipeline.accAt_add_apply _ _ (fun _ => 0) (addend2 V c) (9 * q) 8 ?_ ?_ j (by omega) h i
  · intro h i
    show k2_pay2 (F := Ideal) (k2_pay1 (F := Ideal)) _ _ i = _
    rw [pay2_2_apply, pay1_2_apply]
    unfold addend2
    rw [dif_pos h]
  · intro n h acc i _ _
    show k2_pay2 (F := Ideal) acc _ _ i = _
    rw [pay2_2_apply]
    unfold addend2
    rw [dif_pos h]

/-- At the last point of a column block the output's staging buffer holds, at an entry, the sum over the whole
    contracted axis of the left array's row times the right array's column. -/
theorem out2_flush_apply (c : Dev nD) (t : Fin cfg2.N) (ht : t.val % 9 = 8) (r : Fin 512) (p : Fin 1024) :
    out2 V c t (ix2 r p) = ∑ k : Fin 9216, arrA2 V c (ix2 r k) * arrB2 V c (ix2 k
      ⟨t.val / 9 * 1024 + p.val, by have : t.val < 36 := t.isLt; omega⟩) := by
  have hN : t.val < 36 := t.isLt
  unfold out2
  have same : ∀ (u : ℕ) (hu : u < cfg2.N), u = t.val → accAt2 V c u hu = accAt2 V c t.val t.isLt := by
    intro u hu e; subst e; rfl
  rw [← same (9 * (t.val / 9) + 8) (by show _ < 36; omega) (by omega),
    accAt2_fold V c (t.val / 9) 8 (by omega) _ (ix2 r p), zero_add, Finset.sum_range,
    Cert.Lib.sum_blocks (kt := 9) (n := 1024) (K := 9216) rfl]
  refine Finset.sum_congr rfl fun s _ => ?_
  have hs : s.val < 9 := s.isLt
  have hlt : 9 * (t.val / 9) + s.val < cfg2.N := by show _ < 36; omega
  unfold addend2
  rw [dif_pos hlt]
  unfold blockProd
  refine Finset.sum_congr rfl fun l _ => ?_
  rw [iblk2_0_apply, iblk2_1_apply]
  have hm : (9 * (t.val / 9) + s.val) % 9 = s.val := by omega
  have hd : (9 * (t.val / 9) + s.val) / 9 = t.val / 9 := by omega
  have eA : ∀ (x y : ℕ) (hx : x < 9216) (hy : y < 9216), x = y →
      arrA2 V c (ix2 r ⟨x, hx⟩) = arrA2 V c (ix2 r ⟨y, hy⟩) := by
    intro x y hx hy e; subst e; rfl
  have eB : ∀ (x y : ℕ) (hx : x < 9216) (hy : y < 9216) (x' y' : ℕ) (hx' : x' < 4096) (hy' : y' < 4096), x = y → x' = y' →
      arrB2 V c (ix2 ⟨x, hx⟩ ⟨x', hx'⟩) = arrB2 V c (ix2 ⟨y, hy⟩ ⟨y', hy'⟩) := by
    intro x y hx hy x' y' hx' hy' e e'; subst e; subst e'; rfl
  exact congrArg₂ (· * ·) (eA _ _ _ _ (by show (9 * (t.val / 9) + s.val) % 9 * 1024 + l.val = s.val * 1024 + l.val; rw [hm]))
    (eB _ _ _ _ _ _ _ _ (by show (9 * (t.val / 9) + s.val) % 9 * 1024 + l.val = s.val * 1024 + l.val; rw [hm])
      (by show (9 * (t.val / 9) + s.val) / 9 * 1024 + p.val = t.val / 9 * 1024 + p.val; rw [hd]))

/-- Region 2's output array as one function of its two input arrays: at row `r`, column `q` the sum over the whole
    contracted axis of `A (r, k) * B (k, q)`. -/
def gmm2 (A : S512x9216.Idx → Ideal .bf16) (B : S9216x4096.Idx → Ideal .bf16) : S512x4096.Idx → Ideal .f32 :=
  fun i => ∑ k : Fin 9216, A (ix2 (i 0 : Fin 512) k) * B (ix2 k (i 1 : Fin 4096))

/-- What a point that writes its block back writes is its block of `gmm2` of the two input arrays. -/
theorem flushed2_eq (c : Dev nD) (t : Fin cfg2.N) (hf : (cfg2.win 2).flush t = true) :
    (dat2 V c).flushed 2 t = ((cfg2.win 2).blk t).view.read (Elt Ideal) (gmm2 (arrA2 V c) (arrB2 V c)) := by
  have ht : t.val % 9 = 8 := (flush2_2 t).mp hf
  have hN : t.val < 36 := t.isLt
  obtain ⟨-, -, -, -, e4, e5⟩ := idx_facts2 t
  show (cfg2.win 2).cut (grid2.coords t) ((dat2 V c).after 2 t) = _
  rw [after2_2]
  funext j
  obtain ⟨r, p, rfl⟩ : ∃ (r : Fin 512) (p : Fin 1024), j = ix2 r p := ⟨j 0, j 1, eq_ix2 j⟩
  show out2 V c t (ix2 r p) = gmm2 (arrA2 V c) (arrB2 V c) (((cfg2.win 2).blk t).view.emb (ix2 r p))
  rw [out2_flush_apply V c t ht r p]
  have h0 : ((((cfg2.win 2).blk t).view.emb (ix2 r p)) 0 : Fin 512) = r :=
    Fin.ext (by show win2_2.index t (0 : Fin 2) * 512 + 1 * r.val = r.val; omega)
  have h1 : ((((cfg2.win 2).blk t).view.emb (ix2 r p)) 1 : Fin 4096) = (⟨t.val / 9 * 1024 + p.val, by omega⟩ : Fin 4096) :=
    Fin.ext (by show win2_2.index t (1 : Fin 2) * 1024 + 1 * p.val = t.val / 9 * 1024 + p.val; omega)
  show _ = ∑ k : Fin 9216, arrA2 V c (ix2 ((((cfg2.win 2).blk t).view.emb (ix2 r p)) 0 : Fin 512) k)
    * arrB2 V c (ix2 k ((((cfg2.win 2).blk t).view.emb (ix2 r p)) 1 : Fin 4096))
  rw [h0, h1]

/-- An index of the output array is in point `t`'s block iff each coordinate is in the block's range on its axis. -/
theorem mem_blk2 (t : Fin cfg2.N) (i : S512x4096.Idx) :
    i ∈ ((cfg2.win 2).blk t).view.set ↔ ∀ a : Fin 2, win2_2.index t a * S512x1024.size a ≤ (i a).val
      ∧ (i a).val < win2_2.index t a * S512x1024.size a + S512x1024.size a := by
  show i ∈ ((View.whole main_v122).slice (win2_2.rect t)).set ↔ _
  rw [View.set_slice_whole, Rect.mem_set_unit]
  exact Iff.rfl

/-- The four column blocks cover the output array: column `q` is in the block written back at the last point of
    column block `q / 1024`. -/
theorem cover2 (i : S512x4096.Idx) :
    ∃ t : Fin cfg2.N, (cfg2.win 2).flush t = true ∧ i ∈ ((cfg2.win 2).blk t).view.set := by
  have hi0 : (i 0).val < 512 := (i 0).isLt
  have hi1 : (i 1).val < 4096 := (i 1).isLt
  have hlt : 9 * ((i 1).val / 1024) + 8 < cfg2.N := by show _ < 36; omega
  obtain ⟨-, -, -, -, e4, e5⟩ := idx_facts2 ⟨9 * ((i 1).val / 1024) + 8, hlt⟩
  refine ⟨⟨9 * ((i 1).val / 1024) + 8, hlt⟩, (flush2_2 _).mpr (by show (9 * ((i 1).val / 1024) + 8) % 9 = 8; omega), ?_⟩
  rw [mem_blk2]
  have e5' : win2_2.index ⟨9 * ((i 1).val / 1024) + 8, hlt⟩ (1 : Fin 2) = (i 1).val / 1024 := by
    rw [e5]; show (9 * ((i 1).val / 1024) + 8) / 9 = _; omega
  intro a
  match a with
  | ⟨0, _⟩ =>
    show win2_2.index ⟨9 * ((i 1).val / 1024) + 8, hlt⟩ (0 : Fin 2) * 512 ≤ (i 0).val
      ∧ (i 0).val < win2_2.index ⟨9 * ((i 1).val / 1024) + 8, hlt⟩ (0 : Fin 2) * 512 + 512
    omega
  | ⟨1, _⟩ =>
    show win2_2.index ⟨9 * ((i 1).val / 1024) + 8, hlt⟩ (1 : Fin 2) * 1024 ≤ (i 1).val
      ∧ (i 1).val < win2_2.index ⟨9 * ((i 1).val / 1024) + 8, hlt⟩ (1 : Fin 2) * 1024 + 1024
    omega

/-- Region 2's output array after the region is `gmm2` of its two input arrays as the region finds them. -/
theorem arrAt2 (c : Dev nD) :
    (dat2 (F := Ideal) V c).arrAt 2 cfg2.N = gmm2 (V c (Pipeline.arrRef spec2 0)) (V c (Pipeline.arrRef spec2 1)) :=
  (dat2 V c).arrAt_eq_of_cover 2 (gmm2 (arrA2 V c) (arrB2 V c)) (flushed2_eq V c) cover2

end Cert.KernelIdeal.Hand

end
-- ==== Proof.Bridge.Defs.lean ====
/-
  Shared names for comparing the two idealized programs' host operations: the two programs' valuations
  (each buffer's contents on one core) at the extended reals, and a three-operand concatenate's result read
  with each operand at its own buffer.
-/
import proofs.«117565_j22136261443720_1_alg».proof.Proof.Gen.KernelIdeal.Launch
import proofs.«117565_j22136261443720_1_alg».proof.Proof.Ref.OpsA
import proofs.«117565_j22136261443720_1_alg».proof.Proof.Ref.OpsB
import Idealize.ShloMosaic.PureOps.Ideal
import Idealize.ShloMosaic.Lib.StableHlo.Run

noncomputable section

namespace Cert.Bridge

open Idealize.ShloMosaic Idealize.ShloMosaic.TcCoe Idealize.ShloMosaic.StableHlo

/-- The contents of one core's buffers in the idealized kernel program. -/
abbrev KV := Valuation Cert.KernelIdeal.τ Cert.KernelIdeal.sig (Elt Ideal)
/-- The contents of one core's buffers in the idealized reference program. -/
abbrev RV := Valuation Cert.ReferenceIdeal.τ Cert.ReferenceIdeal.sig (Elt Ideal)

section
variable {τ : Topo} {sig : RefSig} {Val : EltTy → Type}
variable {x a b y : Ref sig .tc}

/-- A three-operand operation's result is its function of the operands' contents, each read at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
end

end Cert.Bridge

end
-- ==== Proof.Bridge.B1ab.lean ====
/-
  The first layer's host operations in the two programs, first part: over arbitrary valuations that agree on
  the input and the first pattern, the flattened input, the pattern's sign tensor and the gather's index
  tensor agree; and over valuations that agree on the first weight tensor and the index tensor, the gathered
  weights agree.
-/
import proofs.«117565_j22136261443720_1_alg».proof.Proof.Bridge.Defs

set_option maxRecDepth 16384

noncomputable section

namespace Cert.Bridge

open Idealize.ShloMosaic Idealize.ShloMosaic.TcCoe Idealize.ShloMosaic.StableHlo

/-- The sign tensor and the gather's index tensor of the first pattern, and the flattened input. -/
theorem B1a (Vk : KV) (Vr : RV)
    (a0 : Vk (Proc.devRef .tc Cert.KernelIdeal.main_arg0) = Vr (Proc.devRef .tc Cert.ReferenceIdeal.main_arg0))
    (a11 : Vk (Proc.devRef .tc Cert.KernelIdeal.main_arg11) = Vr (Proc.devRef .tc Cert.ReferenceIdeal.main_arg11)) :
    after (Cert.KernelIdeal.Gen.hostOps0 (F := Ideal)) Vk (Proc.devRef .tc Cert.KernelIdeal.main_v1)
        = after (Cert.ReferenceIdeal.RefRun.r0 (F := Ideal)) Vr (Proc.devRef .tc Cert.ReferenceIdeal.main_v1)
    ∧ after (Cert.KernelIdeal.Gen.hostOps0 (F := Ideal)) Vk (Proc.devRef .tc Cert.KernelIdeal.main_v3)
        = after (Cert.ReferenceIdeal.RefRun.r0 (F := Ideal)) Vr (Proc.devRef .tc Cert.ReferenceIdeal.main_v3)
    ∧ after (Cert.KernelIdeal.Gen.hostOps0 (F := Ideal)) Vk (Proc.devRef .tc Cert.KernelIdeal.main_v6)
        = after (Cert.ReferenceIdeal.RefRun.r0 (F := Ideal)) Vr (Proc.devRef .tc Cert.ReferenceIdeal.main_v6) := by
  refine ⟨?_, ?_, ?_⟩
  · after_results; rw [a0]; rfl
  · after_results; rw [a11]
  · after_results; rw [a11]

set_option maxHeartbeats 1000000 in
/-- The gathered weights. -/
theorem B1b (Vk : KV) (Vr : RV)
    (a1 : Vk (Proc.devRef .tc Cert.KernelIdeal.main_arg1) = Vr (Proc.devRef .tc Cert.ReferenceIdeal.main_arg1))
    (h6 : Vk (Proc.devRef .tc Cert.KernelIdeal.main_v6) = Vr (Proc.devRef .tc Cert.ReferenceIdeal.main_v6)) :
    after (Cert.KernelIdeal.Gen.hostOps0_1 (F := Ideal)) Vk (Proc.devRef .tc Cert.KernelIdeal.main_v7)
        = after (Cert.ReferenceIdeal.RefRun.r1 (F := Ideal)) Vr (Proc.devRef .tc Cert.ReferenceIdeal.main_v7) := by
  after_results_simp
  rw [a1, h6]
  try rfl

end Cert.Bridge

end
-- ==== Proof.LibWeightLayout.lean ====
/-
  Layouts of the pattern-indexed weight matrices. The same signed gathered weights are laid out as a
  matrix in two ways by the two programs — directly as (inputs × outputs), or as (outputs × inputs) and
  then transposed —, and groups of rows are stacked either before or after the transposition. These are
  the same arrays, index by index, for entries of any type.
-/
import Idealize.ShloMosaic.Lib.Pipeline.Value
import Idealize.ShloMosaic.Lib.ValueIdx
import Idealize.ShloMosaic.Lib.ValueLayout

noncomputable section

namespace Cert.Lib.WeightLayout

open Idealize.ShloMosaic Idealize.ShloMosaic.ValueIdx

/-- The weight matrix of a group of 16 input channels, laid out both ways. From the signed gathered weights
    `v[o, c, n, m]` one program forms `T[(m, c), (n, o)]` directly (axes permuted to `(m, c, n, o)`, then merged in
    pairs); the other forms `W[(n, o), (m, c)]` (axes permuted to `(n, o, m, c)`, merged in pairs) and transposes it.
    Both read `v[o, c, n, m]` at row `m·16 + c`, column `n·64 + o`. -/
theorem layout16 {α : Type} (v : (⟨4, ![64, 16, 64, 64]⟩ : Shape).Idx → α)
    (h1 : (⟨4, ![64, 16, 64, 64]⟩ : Shape).Transposes [3, 1, 2, 0] ⟨4, ![64, 16, 64, 64]⟩)
    (h2 : (⟨4, ![64, 16, 64, 64]⟩ : Shape).ShapeCasts ⟨2, ![1024, 4096]⟩)
    (g1 : (⟨4, ![64, 16, 64, 64]⟩ : Shape).Transposes [2, 0, 3, 1] ⟨4, ![64, 64, 64, 16]⟩)
    (g2 : (⟨4, ![64, 64, 64, 16]⟩ : Shape).ShapeCasts ⟨2, ![4096, 1024]⟩)
    (g3 : (⟨2, ![4096, 1024]⟩ : Shape).Transposes [1, 0] ⟨2, ![1024, 4096]⟩) :
    shapeCast ⟨2, ![1024, 4096]⟩ (transpose ⟨4, ![64, 16, 64, 64]⟩ [3, 1, 2, 0] v h1) h2
      = transpose ⟨2, ![1024, 4096]⟩ [1, 0] (shapeCast ⟨2, ![4096, 1024]⟩ (transpose ⟨4, ![64, 64, 64, 16]⟩ [2, 0, 3, 1] v g1) g2) g3 := by
  funext j
  have hr : (j 0).val < 1024 := (j 0).isLt
  have hc : (j 1).val < 4096 := (j 1).isLt
  let m : Fin 64 := ⟨(j 0).val / 16, by omega⟩
  let c : Fin 16 := ⟨(j 0).val % 16, Nat.mod_lt _ (by decide)⟩
  let n : Fin 64 := ⟨(j 1).val / 64, by omega⟩
  let o : Fin 64 := ⟨(j 1).val % 64, Nat.mod_lt _ (by decide)⟩
  have hm : m.val = (j 0).val / 16 := rfl
  have hcc : c.val = (j 0).val % 16 := rfl
  have hn : n.val = (j 1).val / 64 := rfl
  have ho : o.val = (j 1).val % 64 := rfl
  have lhs : shapeCast ⟨2, ![1024, 4096]⟩ (transpose ⟨4, ![64, 16, 64, 64]⟩ [3, 1, 2, 0] v h1) h2 j = v (ix4 o c n m) := by
    refine (shapeCast_apply _ h2 j (ix4 m c n o) ?_).trans ?_
    · rw [Shape.rowMajor_val_four, Shape.rowMajor_val_two]
      show ((m.val * 16 + c.val) * 64 + n.val) * 64 + o.val = (j 0).val * 4096 + (j 1).val
      omega
    · exact transpose_apply _ v h1 _ _ fun b => match b with | ⟨0, _⟩ => rfl | ⟨1, _⟩ => rfl | ⟨2, _⟩ => rfl | ⟨3, _⟩ => rfl
  have rhs : transpose ⟨2, ![1024, 4096]⟩ [1, 0] (shapeCast ⟨2, ![4096, 1024]⟩ (transpose ⟨4, ![64, 64, 64, 16]⟩ [2, 0, 3, 1] v g1) g2) g3 j = v (ix4 o c n m) := by
    refine (transpose_apply _ _ g3 j (ix2 (j 1) (j 0)) fun b => match b with | ⟨0, _⟩ => rfl | ⟨1, _⟩ => rfl).trans ?_
    refine (shapeCast_apply _ g2 _ (ix4 n o m c) ?_).trans ?_
    · rw [Shape.rowMajor_val_four, Shape.rowMajor_val_two]
      show ((n.val * 64 + o.val) * 64 + m.val) * 16 + c.val = (j 1).val * 1024 + (j 0).val
      omega
    · exact transpose_apply _ v g1 _ _ fun b => match b with | ⟨0, _⟩ => rfl | ⟨1, _⟩ => rfl | ⟨2, _⟩ => rfl | ⟨3, _⟩ => rfl
  rw [lhs, rhs]

/-- The weight matrix of a group of 64 input channels, laid out both ways. From the signed gathered weights
    `v[o, c, n, m]` one program forms `T[(m, c), (n, o)]` directly (axes permuted to `(m, c, n, o)`, then merged in
    pairs); the other forms `W[(n, o), (m, c)]` (axes permuted to `(n, o, m, c)`, merged in pairs) and transposes it.
    Both read `v[o, c, n, m]` at row `m·64 + c`, column `n·64 + o`. -/
theorem layout64 {α : Type} (v : (⟨4, ![64, 64, 64, 64]⟩ : Shape).Idx → α)
    (h1 : (⟨4, ![64, 64, 64, 64]⟩ : Shape).Transposes [3, 1, 2, 0] ⟨4, ![64, 64, 64, 64]⟩)
    (h2 : (⟨4, ![64, 64, 64, 64]⟩ : Shape).ShapeCasts ⟨2, ![4096, 4096]⟩)
    (g1 : (⟨4, ![64, 64, 64, 64]⟩ : Shape).Transposes [2, 0, 3, 1] ⟨4, ![64, 64, 64, 64]⟩)
    (g2 : (⟨4, ![64, 64, 64, 64]⟩ : Shape).ShapeCasts ⟨2, ![4096, 4096]⟩)
    (g3 : (⟨2, ![4096, 4096]⟩ : Shape).Transposes [1, 0] ⟨2, ![4096, 4096]⟩) :
    shapeCast ⟨2, ![4096, 4096]⟩ (transpose ⟨4, ![64, 64, 64, 64]⟩ [3, 1, 2, 0] v h1) h2
      = transpose ⟨2, ![4096, 4096]⟩ [1, 0] (shapeCast ⟨2, ![4096, 4096]⟩ (transpose ⟨4, ![64, 64, 64, 64]⟩ [2, 0, 3, 1] v g1) g2) g3 := by
  funext j
  have hr : (j 0).val < 4096 := (j 0).isLt
  have hc : (j 1).val < 4096 := (j 1).isLt
  let m : Fin 64 := ⟨(j 0).val / 64, by omega⟩
  let c : Fin 64 := ⟨(j 0).val % 64, Nat.mod_lt _ (by decide)⟩
  let n : Fin 64 := ⟨(j 1).val / 64, by omega⟩
  let o : Fin 64 := ⟨(j 1).val % 64, Nat.mod_lt _ (by decide)⟩
  have hm : m.val = (j 0).val / 64 := rfl
  have hcc : c.val = (j 0).val % 64 := rfl
  have hn : n.val = (j 1).val / 64 := rfl
  have ho : o.val = (j 1).val % 64 := rfl
  have lhs : shapeCast ⟨2, ![4096, 4096]⟩ (transpose ⟨4, ![64, 64, 64, 64]⟩ [3, 1, 2, 0] v h1) h2 j = v (ix4 o c n m) := by
    refine (shapeCast_apply _ h2 j (ix4 m c n o) ?_).trans ?_
    · rw [Shape.rowMajor_val_four, Shape.rowMajor_val_two]
      show ((m.val * 64 + c.val) * 64 + n.val) * 64 + o.val = (j 0).val * 4096 + (j 1).val
      omega
    · exact transpose_apply _ v h1 _ _ fun b => match b with | ⟨0, _⟩ => rfl | ⟨1, _⟩ => rfl | ⟨2, _⟩ => rfl | ⟨3, _⟩ => rfl
  have rhs : transpose ⟨2, ![4096, 4096]⟩ [1, 0] (shapeCast ⟨2, ![4096, 4096]⟩ (transpose ⟨4, ![64, 64, 64, 64]⟩ [2, 0, 3, 1] v g1) g2) g3 j = v (ix4 o c n m) := by
    refine (transpose_apply _ _ g3 j (ix2 (j 1) (j 0)) fun b => match b with | ⟨0, _⟩ => rfl | ⟨1, _⟩ => rfl).trans ?_
    refine (shapeCast_apply _ g2 _ (ix4 n o m c) ?_).trans ?_
    · rw [Shape.rowMajor_val_four, Shape.rowMajor_val_two]
      show ((n.val * 64 + o.val) * 64 + m.val) * 64 + c.val = (j 1).val * 4096 + (j 0).val
      omega
    · exact transpose_apply _ v g1 _ _ fun b => match b with | ⟨0, _⟩ => rfl | ⟨1, _⟩ => rfl | ⟨2, _⟩ => rfl | ⟨3, _⟩ => rfl
  rw [lhs, rhs]

end Cert.Lib.WeightLayout

end
-- ==== Proof.Bridge.B1.lean ====
/-
  The first layer's host operations in the two programs, compared over arbitrary valuations that agree on
  the input, the first weight tensor and the first pattern: the flattened input is the same array in both;
  the kernel program's weight matrix (laid out directly as inputs × outputs, then converted to the narrower
  float format, which is the identity on the extended reals) is the reference's (laid out as outputs × inputs
  and transposed); the kernel program's narrowed copy of the flattened input is the flattened input.
-/
import proofs.«117565_j22136261443720_1_alg».proof.Proof.Bridge.B1ab
import proofs.«117565_j22136261443720_1_alg».proof.Proof.LibWeightLayout

set_option maxRecDepth 16384

noncomputable section

namespace Cert.Bridge

open Idealize.ShloMosaic Idealize.ShloMosaic.TcCoe Idealize.ShloMosaic.StableHlo

/-- The first layer's weight matrix in the two layouts, and the narrowed copy of the flattened input. -/
theorem B1c (Vk : KV) (Vr : RV)
    (h3 : Vk (Proc.devRef .tc Cert.KernelIdeal.main_v3) = Vr (Proc.devRef .tc Cert.ReferenceIdeal.main_v3))
    (h7 : Vk (Proc.devRef .tc Cert.KernelIdeal.main_v7) = Vr (Proc.devRef .tc Cert.ReferenceIdeal.main_v7))
    (h1 : Vk (Proc.devRef .tc Cert.KernelIdeal.main_v1) = Vr (Proc.devRef .tc Cert.ReferenceIdeal.main_v1)) :
    after (Cert.KernelIdeal.Gen.hostOps0_2 (F := Ideal)) Vk (Proc.devRef .tc Cert.KernelIdeal.main_v13)
        = after (Cert.ReferenceIdeal.RefRun.r2 (F := Ideal)) Vr (Proc.devRef .tc Cert.ReferenceIdeal.main_v13)
    ∧ after (Cert.KernelIdeal.Gen.hostOps0_2 (F := Ideal)) Vk (Proc.devRef .tc Cert.KernelIdeal.main_v14)
        = after (Cert.ReferenceIdeal.RefRun.r2 (F := Ideal)) Vr (Proc.devRef .tc Cert.ReferenceIdeal.main_v1)
    ∧ after (Cert.KernelIdeal.Gen.hostOps0_2 (F := Ideal)) Vk (Proc.devRef .tc Cert.KernelIdeal.main_v1)
        = after (Cert.ReferenceIdeal.RefRun.r2 (F := Ideal)) Vr (Proc.devRef .tc Cert.ReferenceIdeal.main_v1) := by
  refine ⟨?_, ?_, ?_⟩
  · have sK : after (Cert.KernelIdeal.Gen.hostOps0_2 (F := Ideal)) Vk (Proc.devRef .tc Cert.KernelIdeal.main_v13)
        = shapeCast ⟨2, ![1024, 4096]⟩ (transpose ⟨4, ![64, 16, 64, 64]⟩ [3, 1, 2, 0]
            (after (Cert.KernelIdeal.Gen.hostOps0_2 (F := Ideal)) Vk (Proc.devRef .tc Cert.KernelIdeal.main_v10))
            Cert.KernelIdeal.Gen.transposes_S64x16x64x64_S64x16x64x64_3_1_2_0) Cert.KernelIdeal.Gen.shapeCasts_S64x16x64x64_S1024x4096 := by rfl
    have sR : after (Cert.ReferenceIdeal.RefRun.r2 (F := Ideal)) Vr (Proc.devRef .tc Cert.ReferenceIdeal.main_v13)
        = transpose ⟨2, ![1024, 4096]⟩ [1, 0] (shapeCast ⟨2, ![4096, 1024]⟩ (transpose ⟨4, ![64, 64, 64, 16]⟩ [2, 0, 3, 1]
            (after (Cert.ReferenceIdeal.RefRun.r2 (F := Ideal)) Vr (Proc.devRef .tc Cert.ReferenceIdeal.main_v10))
            Cert.ReferenceIdeal.Gen.transposes_S64x16x64x64_S64x64x64x16_2_0_3_1) Cert.ReferenceIdeal.Gen.shapeCasts_S64x64x64x16_S4096x1024)
            Cert.ReferenceIdeal.Gen.transposes_S4096x1024_S1024x4096_1_0 := by rfl
    have e10 : after (Cert.KernelIdeal.Gen.hostOps0_2 (F := Ideal)) Vk (Proc.devRef .tc Cert.KernelIdeal.main_v10)
        = after (Cert.ReferenceIdeal.RefRun.r2 (F := Ideal)) Vr (Proc.devRef .tc Cert.ReferenceIdeal.main_v10) := by
      after_results
      rw [h3, h7]
      try rfl
    rw [sK, sR, e10]
    exact Cert.Lib.WeightLayout.layout16 _ _ _ _ _ _
  · after_results
    rw [h1]
    rfl
  · after_results
    exact h1

/-- The first layer's host operations: the weight matrix, the narrowed flattened input and the flattened input agree. -/
theorem B1 (Vk : KV) (Vr : RV)
    (a0 : Vk (Proc.devRef .tc Cert.KernelIdeal.main_arg0) = Vr (Proc.devRef .tc Cert.ReferenceIdeal.main_arg0))
    (a1 : Vk (Proc.devRef .tc Cert.KernelIdeal.main_arg1) = Vr (Proc.devRef .tc Cert.ReferenceIdeal.main_arg1))
    (a11 : Vk (Proc.devRef .tc Cert.KernelIdeal.main_arg11) = Vr (Proc.devRef .tc Cert.ReferenceIdeal.main_arg11)) :
    after (Cert.KernelIdeal.Gen.hostOps0_2 (F := Ideal)) (after (Cert.KernelIdeal.Gen.hostOps0_1 (F := Ideal)) (after (Cert.KernelIdeal.Gen.hostOps0 (F := Ideal)) Vk)) (Proc.devRef .tc Cert.KernelIdeal.main_v13)
        = after (Cert.ReferenceIdeal.RefRun.r2 (F := Ideal)) (after (Cert.ReferenceIdeal.RefRun.r1 (F := Ideal)) (after (Cert.ReferenceIdeal.RefRun.r0 (F := Ideal)) Vr)) (Proc.devRef .tc Cert.ReferenceIdeal.main_v13)
    ∧ after (Cert.KernelIdeal.Gen.hostOps0_2 (F := Ideal)) (after (Cert.KernelIdeal.Gen.hostOps0_1 (F := Ideal)) (after (Cert.KernelIdeal.Gen.hostOps0 (F := Ideal)) Vk)) (Proc.devRef .tc Cert.KernelIdeal.main_v14)
        = after (Cert.ReferenceIdeal.RefRun.r2 (F := Ideal)) (after (Cert.ReferenceIdeal.RefRun.r1 (F := Ideal)) (after (Cert.ReferenceIdeal.RefRun.r0 (F := Ideal)) Vr)) (Proc.devRef .tc Cert.ReferenceIdeal.main_v1)
    ∧ after (Cert.KernelIdeal.Gen.hostOps0_2 (F := Ideal)) (after (Cert.KernelIdeal.Gen.hostOps0_1 (F := Ideal)) (after (Cert.KernelIdeal.Gen.hostOps0 (F := Ideal)) Vk)) (Proc.devRef .tc Cert.KernelIdeal.main_v1)
        = after (Cert.ReferenceIdeal.RefRun.r2 (F := Ideal)) (after (Cert.ReferenceIdeal.RefRun.r1 (F := Ideal)) (after (Cert.ReferenceIdeal.RefRun.r0 (F := Ideal)) Vr)) (Proc.devRef .tc Cert.ReferenceIdeal.main_v1) := by
  obtain ⟨e1, e3, e6⟩ := B1a Vk Vr a0 a11
  -- the first stretch does not write the first weight tensor
  have k1 : after (Cert.KernelIdeal.Gen.hostOps0 (F := Ideal)) Vk (Proc.devRef .tc Cert.KernelIdeal.main_arg1) = Vk (Proc.devRef .tc Cert.KernelIdeal.main_arg1) := by after_results
  have r1 : after (Cert.ReferenceIdeal.RefRun.r0 (F := Ideal)) Vr (Proc.devRef .tc Cert.ReferenceIdeal.main_arg1) = Vr (Proc.devRef .tc Cert.ReferenceIdeal.main_arg1) :=
    Cert.ReferenceIdeal.RefRun.r0_keep Vr _ (by decide)
  have e7 := B1b (after (Cert.KernelIdeal.Gen.hostOps0 (F := Ideal)) Vk) (after (Cert.ReferenceIdeal.RefRun.r0 (F := Ideal)) Vr) (k1.trans (a1.trans r1.symm)) e6
  -- the gather's stretch writes neither the sign tensor nor the flattened input
  generalize after (Cert.KernelIdeal.Gen.hostOps0 (F := Ideal)) Vk = Wk at e1 e3 e6 e7 ⊢
  generalize after (Cert.ReferenceIdeal.RefRun.r0 (F := Ideal)) Vr = Wr at e1 e3 e6 e7 ⊢
  have k3 : after (Cert.KernelIdeal.Gen.hostOps0_1 (F := Ideal)) Wk (Proc.devRef .tc Cert.KernelIdeal.main_v3) = Wk (Proc.devRef .tc Cert.KernelIdeal.main_v3) := by after_results
  have k1' : after (Cert.KernelIdeal.Gen.hostOps0_1 (F := Ideal)) Wk (Proc.devRef .tc Cert.KernelIdeal.main_v1) = Wk (Proc.devRef .tc Cert.KernelIdeal.main_v1) := by after_results
  have r3 := Cert.ReferenceIdeal.RefRun.r1_keep Wr Cert.ReferenceIdeal.main_v3 (by decide)
  have r1' := Cert.ReferenceIdeal.RefRun.r1_keep Wr Cert.ReferenceIdeal.main_v1 (by decide)
  exact B1c _ _ (k3.trans (e3.trans r3.symm)) e7 (k1'.trans (e1.trans r1'.symm))

end Cert.Bridge

end
-- ==== Proof.Bridge.B2a.lean ====
/-
  The second layer's host operations in the two idealized programs, first part: the batch statistics of the first
  layer's output, its normalisation, and the second layer's input matrix. Each stretch of one program is compared
  with the corresponding stretch of the other over ARBITRARY buffer contents that agree at the stretch's inputs:
  the two stretches apply the same operations to them, so they agree at the stretch's outputs, and a buffer
  neither stretch writes is carried along.
-/
import proofs.«117565_j22136261443720_1_alg».proof.Proof.Bridge.Defs

set_option maxRecDepth 16384

noncomputable section

namespace Cert.Bridge

open Idealize.ShloMosaic Idealize.ShloMosaic.TcCoe Idealize.ShloMosaic.StableHlo

/-- Two buffers that agree before a stretch of either program that writes neither agree after it. -/
theorem pass {A : Type} {x x' y y' : A} (hx : x' = x) (h : x = y) (hy : y' = y) : x' = y' := hx.trans (h.trans hy.symm)

set_option maxHeartbeats 4000000 in
/-- The mean per channel of the first layer's output: both programs reshape it to 512×64×64, sum over the first two axes and divide by 32768. -/
theorem st0 (Vk : KV) (Vr : RV) (h15 : Vk (Proc.devRef .tc Cert.KernelIdeal.main_v15) = Vr (Proc.devRef .tc Cert.ReferenceIdeal.main_v18)) (h1 : Vk (Proc.devRef .tc Cert.KernelIdeal.main_v1) = Vr (Proc.devRef .tc Cert.ReferenceIdeal.main_v1)) (a7 : Vk (Proc.devRef .tc Cert.KernelIdeal.main_arg7) = Vr (Proc.devRef .tc Cert.ReferenceIdeal.main_arg7)) (a8 : Vk (Proc.devRef .tc Cert.KernelIdeal.main_arg8) = Vr (Proc.devRef .tc Cert.ReferenceIdeal.main_arg8)) (a12 : Vk (Proc.devRef .tc Cert.KernelIdeal.main_arg12) = Vr (Proc.devRef .tc Cert.ReferenceIdeal.main_arg12)) (a2 : Vk (Proc.devRef .tc Cert.KernelIdeal.main_arg2) = Vr (Proc.devRef .tc Cert.ReferenceIdeal.main_arg2)) (a13 : Vk (Proc.devRef .tc Cert.KernelIdeal.main_arg13) = Vr (Proc.devRef .tc Cert.ReferenceIdeal.main_arg13)) (a3 : Vk (Proc.devRef .tc Cert.KernelIdeal.main_arg3) = Vr (Proc.devRef .tc Cert.ReferenceIdeal.main_arg3)) :
    after (Cert.KernelIdeal.Gen.hostOps1 (F := Ideal)) Vk (Proc.devRef .tc Cert.KernelIdeal.main_v16) = after (Cert.ReferenceIdeal.RefRun.r4 (F := Ideal)) Vr (Proc.devRef .tc Cert.ReferenceIdeal.main_v19)
    ∧ after (Cert.KernelIdeal.Gen.hostOps1 (F := Ideal)) Vk (Proc.devRef .tc Cert.KernelIdeal.main_v19) = after (Cert.ReferenceIdeal.RefRun.r4 (F := Ideal)) Vr (Proc.devRef .tc Cert.ReferenceIdeal.main_v22)
    ∧ after (Cert.KernelIdeal.Gen.hostOps1 (F := Ideal)) Vk (Proc.devRef .tc Cert.KernelIdeal.main_c_1) = after (Cert.ReferenceIdeal.RefRun.r4 (F := Ideal)) Vr (Proc.devRef .tc Cert.ReferenceIdeal.main_c_2)
    ∧ after (Cert.KernelIdeal.Gen.hostOps1 (F := Ideal)) Vk (Proc.devRef .tc Cert.KernelIdeal.main_v1) = after (Cert.ReferenceIdeal.RefRun.r4 (F := Ideal)) Vr (Proc.devRef .tc Cert.ReferenceIdeal.main_v1)
    ∧ after (Cert.KernelIdeal.Gen.hostOps1 (F := Ideal)) Vk (Proc.devRef .tc Cert.KernelIdeal.main_arg7) = after (Cert.ReferenceIdeal.RefRun.r4 (F := Ideal)) Vr (Proc.devRef .tc Cert.ReferenceIdeal.main_arg7)
    ∧ after (Cert.KernelIdeal.Gen.hostOps1 (F := Ideal)) Vk (Proc.devRef .tc Cert.KernelIdeal.main_arg8) = after (Cert.ReferenceIdeal.RefRun.r4 (F := Ideal)) Vr (Proc.devRef .tc Cert.ReferenceIdeal.main_arg8)
    ∧ after (Cert.KernelIdeal.Gen.hostOps1 (F := Ideal)) Vk (Proc.devRef .tc Cert.KernelIdeal.main_arg12) = after (Cert.ReferenceIdeal.RefRun.r4 (F := Ideal)) Vr (Proc.devRef .tc Cert.ReferenceIdeal.main_arg12)
    ∧ after (Cert.KernelIdeal.Gen.hostOps1 (F := Ideal)) Vk (Proc.devRef .tc Cert.KernelIdeal.main_arg2) = after (Cert.ReferenceIdeal.RefRun.r4 (F := Ideal)) Vr (Proc.devRef .tc Cert.ReferenceIdeal.main_arg2)
    ∧ after (Cert.KernelIdeal.Gen.hostOps1 (F := Ideal)) Vk (Proc.devRef .tc Cert.KernelIdeal.main_arg13) = after (Cert.ReferenceIdeal.RefRun.r4 (F := Ideal)) Vr (Proc.devRef .tc Cert.ReferenceIdeal.main_arg13)
    ∧ after (Cert.KernelIdeal.Gen.hostOps1 (F := Ideal)) Vk (Proc.devRef .tc Cert.KernelIdeal.main_arg3) = after (Cert.ReferenceIdeal.RefRun.r4 (F := Ideal)) Vr (Proc.devRef .tc Cert.ReferenceIdeal.main_arg3) := by
  refine ⟨?_, ?_, ?_, ?_, ?_, ?_, ?_, ?_, ?_, ?_⟩
  · after_results_simp
    rw [h15]
    try rfl
  · after_results_simp
    rw [h15]
    try rfl
  · after_results_simp
    try rfl
  · exact pass (by rfl : after (Cert.KernelIdeal.Gen.hostOps1 (F := Ideal)) Vk (Proc.devRef .tc Cert.KernelIdeal.main_v1) = Vk (Proc.devRef .tc Cert.KernelIdeal.main_v1)) h1 (Cert.ReferenceIdeal.RefRun.r4_keep Vr Cert.ReferenceIdeal.main_v1 (by decide))
  · exact pass (by rfl : after (Cert.KernelIdeal.Gen.hostOps1 (F := Ideal)) Vk (Proc.devRef .tc Cert.KernelIdeal.main_arg7) = Vk (Proc.devRef .tc Cert.KernelIdeal.main_arg7)) a7 (Cert.ReferenceIdeal.RefRun.r4_keep Vr Cert.ReferenceIdeal.main_arg7 (by decide))
  · exact pass (by rfl : after (Cert.KernelIdeal.Gen.hostOps1 (F := Ideal)) Vk (Proc.devRef .tc Cert.KernelIdeal.main_arg8) = Vk (Proc.devRef .tc Cert.KernelIdeal.main_arg8)) a8 (Cert.ReferenceIdeal.RefRun.r4_keep Vr Cert.ReferenceIdeal.main_arg8 (by decide))
  · exact pass (by rfl : after (Cert.KernelIdeal.Gen.hostOps1 (F := Ideal)) Vk (Proc.devRef .tc Cert.KernelIdeal.main_arg12) = Vk (Proc.devRef .tc Cert.KernelIdeal.main_arg12)) a12 (Cert.ReferenceIdeal.RefRun.r4_keep Vr Cert.ReferenceIdeal.main_arg12 (by decide))
  · exact pass (by rfl : after (Cert.KernelIdeal.Gen.hostOps1 (F := Ideal)) Vk (Proc.devRef .tc Cert.KernelIdeal.main_arg2) = Vk (Proc.devRef .tc Cert.KernelIdeal.main_arg2)) a2 (Cert.ReferenceIdeal.RefRun.r4_keep Vr Cert.ReferenceIdeal.main_arg2 (by decide))
  · exact pass (by rfl : after (Cert.KernelIdeal.Gen.hostOps1 (F := Ideal)) Vk (Proc.devRef .tc Cert.KernelIdeal.main_arg13) = Vk (Proc.devRef .tc Cert.KernelIdeal.main_arg13)) a13 (Cert.ReferenceIdeal.RefRun.r4_keep Vr Cert.ReferenceIdeal.main_arg13 (by decide))
  · exact pass (by rfl : after (Cert.KernelIdeal.Gen.hostOps1 (F := Ideal)) Vk (Proc.devRef .tc Cert.KernelIdeal.main_arg3) = Vk (Proc.devRef .tc Cert.KernelIdeal.main_arg3)) a3 (Cert.ReferenceIdeal.RefRun.r4_keep Vr Cert.ReferenceIdeal.main_arg3 (by decide))

set_option maxHeartbeats 4000000 in
/-- The variance per channel: the same called function in both programs, at equal operands. -/
theorem st1 (Vk : KV) (Vr : RV) (h16 : Vk (Proc.devRef .tc Cert.KernelIdeal.main_v16) = Vr (Proc.devRef .tc Cert.ReferenceIdeal.main_v19)) (h19 : Vk (Proc.devRef .tc Cert.KernelIdeal.main_v19) = Vr (Proc.devRef .tc Cert.ReferenceIdeal.main_v22)) (hc : Vk (Proc.devRef .tc Cert.KernelIdeal.main_c_1) = Vr (Proc.devRef .tc Cert.ReferenceIdeal.main_c_2)) (h1 : Vk (Proc.devRef .tc Cert.KernelIdeal.main_v1) = Vr (Proc.devRef .tc Cert.ReferenceIdeal.main_v1)) (a7 : Vk (Proc.devRef .tc Cert.KernelIdeal.main_arg7) = Vr (Proc.devRef .tc Cert.ReferenceIdeal.main_arg7)) (a8 : Vk (Proc.devRef .tc Cert.KernelIdeal.main_arg8) = Vr (Proc.devRef .tc Cert.ReferenceIdeal.main_arg8)) (a12 : Vk (Proc.devRef .tc Cert.KernelIdeal.main_arg12) = Vr (Proc.devRef .tc Cert.ReferenceIdeal.main_arg12)) (a2 : Vk (Proc.devRef .tc Cert.KernelIdeal.main_arg2) = Vr (Proc.devRef .tc Cert.ReferenceIdeal.main_arg2)) (a13 : Vk (Proc.devRef .tc Cert.KernelIdeal.main_arg13) = Vr (Proc.devRef .tc Cert.ReferenceIdeal.main_arg13)) (a3 : Vk (Proc.devRef .tc Cert.KernelIdeal.main_arg3) = Vr (Proc.devRef .tc Cert.ReferenceIdeal.main_arg3)) :
    after (Cert.KernelIdeal.Gen.hostOps1_1 (F := Ideal)) Vk (Proc.devRef .tc Cert.KernelIdeal.main_v20) = after (Cert.ReferenceIdeal.RefRun.r5 (F := Ideal)) Vr (Proc.devRef .tc Cert.ReferenceIdeal.main_v23)
    ∧ after (Cert.KernelIdeal.Gen.hostOps1_1 (F := Ideal)) Vk (Proc.devRef .tc Cert.KernelIdeal.main_v16) = after (Cert.ReferenceIdeal.RefRun.r5 (F := Ideal)) Vr (Proc.devRef .tc Cert.ReferenceIdeal.main_v19)
    ∧ after (Cert.KernelIdeal.Gen.hostOps1_1 (F := Ideal)) Vk (Proc.devRef .tc Cert.KernelIdeal.main_v19) = after (Cert.ReferenceIdeal.RefRun.r5 (F := Ideal)) Vr (Proc.devRef .tc Cert.ReferenceIdeal.main_v22)
    ∧ after (Cert.KernelIdeal.Gen.hostOps1_1 (F := Ideal)) Vk (Proc.devRef .tc Cert.KernelIdeal.main_v1) = after (Cert.ReferenceIdeal.RefRun.r5 (F := Ideal)) Vr (Proc.devRef .tc Cert.ReferenceIdeal.main_v1)
    ∧ after (Cert.KernelIdeal.Gen.hostOps1_1 (F := Ideal)) Vk (Proc.devRef .tc Cert.KernelIdeal.main_arg7) = after (Cert.ReferenceIdeal.RefRun.r5 (F := Ideal)) Vr (Proc.devRef .tc Cert.ReferenceIdeal.main_arg7)
    ∧ after (Cert.KernelIdeal.Gen.hostOps1_1 (F := Ideal)) Vk (Proc.devRef .tc Cert.KernelIdeal.main_arg8) = after (Cert.ReferenceIdeal.RefRun.r5 (F := Ideal)) Vr (Proc.devRef .tc Cert.ReferenceIdeal.main_arg8)
    ∧ after (Cert.KernelIdeal.Gen.hostOps1_1 (F := Ideal)) Vk (Proc.devRef .tc Cert.KernelIdeal.main_arg12) = after (Cert.ReferenceIdeal.RefRun.r5 (F := Ideal)) Vr (Proc.devRef .tc Cert.ReferenceIdeal.main_arg12)
    ∧ after (Cert.KernelIdeal.Gen.hostOps1_1 (F := Ideal)) Vk (Proc.devRef .tc Cert.KernelIdeal.main_arg2) = after (Cert.ReferenceIdeal.RefRun.r5 (F := Ideal)) Vr (Proc.devRef .tc Cert.ReferenceIdeal.main_arg2)
    ∧ after (Cert.KernelIdeal.Gen.hostOps1_1 (F := Ideal)) Vk (Proc.devRef .tc Cert.KernelIdeal.main_arg13) = after (Cert.ReferenceIdeal.RefRun.r5 (F := Ideal)) Vr (Proc.devRef .tc Cert.ReferenceIdeal.main_arg13)
    ∧ after (Cert.KernelIdeal.Gen.hostOps1_1 (F := Ideal)) Vk (Proc.devRef .tc Cert.KernelIdeal.main_arg3) = after (Cert.ReferenceIdeal.RefRun.r5 (F := Ideal)) Vr (Proc.devRef .tc Cert.ReferenceIdeal.main_arg3) := by
  refine ⟨?_, ?_, ?_, ?_, ?_, ?_, ?_, ?_, ?_, ?_⟩
  · after_results_simp
    rw [h16, hc]
    try rfl
  · exact pass (by rfl : after (Cert.KernelIdeal.Gen.hostOps1_1 (F := Ideal)) Vk (Proc.devRef .tc Cert.KernelIdeal.main_v16) = Vk (Proc.devRef .tc Cert.KernelIdeal.main_v16)) h16 (Cert.ReferenceIdeal.RefRun.r5_keep Vr Cert.ReferenceIdeal.main_v19 (by decide))
  · exact pass (by rfl : after (Cert.KernelIdeal.Gen.hostOps1_1 (F := Ideal)) Vk (Proc.devRef .tc Cert.KernelIdeal.main_v19) = Vk (Proc.devRef .tc Cert.KernelIdeal.main_v19)) h19 (Cert.ReferenceIdeal.RefRun.r5_keep Vr Cert.ReferenceIdeal.main_v22 (by decide))
  · exact pass (by rfl : after (Cert.KernelIdeal.Gen.hostOps1_1 (F := Ideal)) Vk (Proc.devRef .tc Cert.KernelIdeal.main_v1) = Vk (Proc.devRef .tc Cert.KernelIdeal.main_v1)) h1 (Cert.ReferenceIdeal.RefRun.r5_keep Vr Cert.ReferenceIdeal.main_v1 (by decide))
  · exact pass (by rfl : after (Cert.KernelIdeal.Gen.hostOps1_1 (F := Ideal)) Vk (Proc.devRef .tc Cert.KernelIdeal.main_arg7) = Vk (Proc.devRef .tc Cert.KernelIdeal.main_arg7)) a7 (Cert.ReferenceIdeal.RefRun.r5_keep Vr Cert.ReferenceIdeal.main_arg7 (by decide))
  · exact pass (by rfl : after (Cert.KernelIdeal.Gen.hostOps1_1 (F := Ideal)) Vk (Proc.devRef .tc Cert.KernelIdeal.main_arg8) = Vk (Proc.devRef .tc Cert.KernelIdeal.main_arg8)) a8 (Cert.ReferenceIdeal.RefRun.r5_keep Vr Cert.ReferenceIdeal.main_arg8 (by decide))
  · exact pass (by rfl : after (Cert.KernelIdeal.Gen.hostOps1_1 (F := Ideal)) Vk (Proc.devRef .tc Cert.KernelIdeal.main_arg12) = Vk (Proc.devRef .tc Cert.KernelIdeal.main_arg12)) a12 (Cert.ReferenceIdeal.RefRun.r5_keep Vr Cert.ReferenceIdeal.main_arg12 (by decide))
  · exact pass (by rfl : after (Cert.KernelIdeal.Gen.hostOps1_1 (F := Ideal)) Vk (Proc.devRef .tc Cert.KernelIdeal.main_arg2) = Vk (Proc.devRef .tc Cert.KernelIdeal.main_arg2)) a2 (Cert.ReferenceIdeal.RefRun.r5_keep Vr Cert.ReferenceIdeal.main_arg2 (by decide))
  · exact pass (by rfl : after (Cert.KernelIdeal.Gen.hostOps1_1 (F := Ideal)) Vk (Proc.devRef .tc Cert.KernelIdeal.main_arg13) = Vk (Proc.devRef .tc Cert.KernelIdeal.main_arg13)) a13 (Cert.ReferenceIdeal.RefRun.r5_keep Vr Cert.ReferenceIdeal.main_arg13 (by decide))
  · exact pass (by rfl : after (Cert.KernelIdeal.Gen.hostOps1_1 (F := Ideal)) Vk (Proc.devRef .tc Cert.KernelIdeal.main_arg3) = Vk (Proc.devRef .tc Cert.KernelIdeal.main_arg3)) a3 (Cert.ReferenceIdeal.RefRun.r5_keep Vr Cert.ReferenceIdeal.main_arg3 (by decide))

set_option maxHeartbeats 4000000 in
/-- The normalised, scaled and shifted activations flattened and laid beside the network's input (the second layer's input matrix), and the sign and index of the second permutation table. -/
theorem st2 (Vk : KV) (Vr : RV) (h20 : Vk (Proc.devRef .tc Cert.KernelIdeal.main_v20) = Vr (Proc.devRef .tc Cert.ReferenceIdeal.main_v23)) (h16 : Vk (Proc.devRef .tc Cert.KernelIdeal.main_v16) = Vr (Proc.devRef .tc Cert.ReferenceIdeal.main_v19)) (h19 : Vk (Proc.devRef .tc Cert.KernelIdeal.main_v19) = Vr (Proc.devRef .tc Cert.ReferenceIdeal.main_v22)) (h1 : Vk (Proc.devRef .tc Cert.KernelIdeal.main_v1) = Vr (Proc.devRef .tc Cert.ReferenceIdeal.main_v1)) (a7 : Vk (Proc.devRef .tc Cert.KernelIdeal.main_arg7) = Vr (Proc.devRef .tc Cert.ReferenceIdeal.main_arg7)) (a8 : Vk (Proc.devRef .tc Cert.KernelIdeal.main_arg8) = Vr (Proc.devRef .tc Cert.ReferenceIdeal.main_arg8)) (a12 : Vk (Proc.devRef .tc Cert.KernelIdeal.main_arg12) = Vr (Proc.devRef .tc Cert.ReferenceIdeal.main_arg12)) (a2 : Vk (Proc.devRef .tc Cert.KernelIdeal.main_arg2) = Vr (Proc.devRef .tc Cert.ReferenceIdeal.main_arg2)) (a13 : Vk (Proc.devRef .tc Cert.KernelIdeal.main_arg13) = Vr (Proc.devRef .tc Cert.ReferenceIdeal.main_arg13)) (a3 : Vk (Proc.devRef .tc Cert.KernelIdeal.main_arg3) = Vr (Proc.devRef .tc Cert.ReferenceIdeal.main_arg3)) :
    after (Cert.KernelIdeal.Gen.hostOps1_2 (F := Ideal)) Vk (Proc.devRef .tc Cert.KernelIdeal.main_v37) = after (Cert.ReferenceIdeal.RefRun.r6 (F := Ideal)) Vr (Proc.devRef .tc Cert.ReferenceIdeal.main_v40)
    ∧ after (Cert.KernelIdeal.Gen.hostOps1_2 (F := Ideal)) Vk (Proc.devRef .tc Cert.KernelIdeal.main_v39) = after (Cert.ReferenceIdeal.RefRun.r6 (F := Ideal)) Vr (Proc.devRef .tc Cert.ReferenceIdeal.main_v42)
    ∧ after (Cert.KernelIdeal.Gen.hostOps1_2 (F := Ideal)) Vk (Proc.devRef .tc Cert.KernelIdeal.main_v42) = after (Cert.ReferenceIdeal.RefRun.r6 (F := Ideal)) Vr (Proc.devRef .tc Cert.ReferenceIdeal.main_v45)
    ∧ after (Cert.KernelIdeal.Gen.hostOps1_2 (F := Ideal)) Vk (Proc.devRef .tc Cert.KernelIdeal.main_arg2) = after (Cert.ReferenceIdeal.RefRun.r6 (F := Ideal)) Vr (Proc.devRef .tc Cert.ReferenceIdeal.main_arg2)
    ∧ after (Cert.KernelIdeal.Gen.hostOps1_2 (F := Ideal)) Vk (Proc.devRef .tc Cert.KernelIdeal.main_arg13) = after (Cert.ReferenceIdeal.RefRun.r6 (F := Ideal)) Vr (Proc.devRef .tc Cert.ReferenceIdeal.main_arg13)
    ∧ after (Cert.KernelIdeal.Gen.hostOps1_2 (F := Ideal)) Vk (Proc.devRef .tc Cert.KernelIdeal.main_arg3) = after (Cert.ReferenceIdeal.RefRun.r6 (F := Ideal)) Vr (Proc.devRef .tc Cert.ReferenceIdeal.main_arg3) := by
  have e36 : after (Cert.KernelIdeal.Gen.hostOps1_2 (F := Ideal)) Vk (Proc.devRef .tc Cert.KernelIdeal.main_v36) = after (Cert.ReferenceIdeal.RefRun.r6 (F := Ideal)) Vr (Proc.devRef .tc Cert.ReferenceIdeal.main_v39) := by
    after_results_simp
    rw [h19, h16, h20, a7, a8]
    try rfl
  have e1 : after (Cert.KernelIdeal.Gen.hostOps1_2 (F := Ideal)) Vk (Proc.devRef .tc Cert.KernelIdeal.main_v1) = after (Cert.ReferenceIdeal.RefRun.r6 (F := Ideal)) Vr (Proc.devRef .tc Cert.ReferenceIdeal.main_v1) := pass (by rfl : after (Cert.KernelIdeal.Gen.hostOps1_2 (F := Ideal)) Vk (Proc.devRef .tc Cert.KernelIdeal.main_v1) = Vk (Proc.devRef .tc Cert.KernelIdeal.main_v1)) h1 (Cert.ReferenceIdeal.RefRun.r6_keep Vr Cert.ReferenceIdeal.main_v1 (by decide))
  have sK : after (Cert.KernelIdeal.Gen.hostOps1_2 (F := Ideal)) Vk (Proc.devRef .tc Cert.KernelIdeal.main_v37) = concatenate Cert.KernelIdeal.S512x5120 1 [⟨Cert.KernelIdeal.S512x4096, after (Cert.KernelIdeal.Gen.hostOps1_2 (F := Ideal)) Vk (Proc.devRef .tc Cert.KernelIdeal.main_v36)⟩, ⟨Cert.KernelIdeal.S512x1024, after (Cert.KernelIdeal.Gen.hostOps1_2 (F := Ideal)) Vk (Proc.devRef .tc Cert.KernelIdeal.main_v1)⟩] Cert.KernelIdeal.Gen.concatenates_S512x4096_S512x1024_S512x5120_d1 := by rfl
  have sR : after (Cert.ReferenceIdeal.RefRun.r6 (F := Ideal)) Vr (Proc.devRef .tc Cert.ReferenceIdeal.main_v40) = concatenate Cert.ReferenceIdeal.S512x5120 1 [⟨Cert.ReferenceIdeal.S512x4096, after (Cert.ReferenceIdeal.RefRun.r6 (F := Ideal)) Vr (Proc.devRef .tc Cert.ReferenceIdeal.main_v39)⟩, ⟨Cert.ReferenceIdeal.S512x1024, after (Cert.ReferenceIdeal.RefRun.r6 (F := Ideal)) Vr (Proc.devRef .tc Cert.ReferenceIdeal.main_v1)⟩] Cert.ReferenceIdeal.Gen.concatenates_S512x4096_S512x1024_S512x5120_d1 := by rfl
  refine ⟨?_, ?_, ?_, ?_, ?_, ?_⟩
  · rw [sK, sR, e36, e1]
    try rfl
  · after_results_simp
    rw [a12]
    try rfl
  · after_results_simp
    rw [a12]
    try rfl
  · exact pass (by rfl : after (Cert.KernelIdeal.Gen.hostOps1_2 (F := Ideal)) Vk (Proc.devRef .tc Cert.KernelIdeal.main_arg2) = Vk (Proc.devRef .tc Cert.KernelIdeal.main_arg2)) a2 (Cert.ReferenceIdeal.RefRun.r6_keep Vr Cert.ReferenceIdeal.main_arg2 (by decide))
  · exact pass (by rfl : after (Cert.KernelIdeal.Gen.hostOps1_2 (F := Ideal)) Vk (Proc.devRef .tc Cert.KernelIdeal.main_arg13) = Vk (Proc.devRef .tc Cert.KernelIdeal.main_arg13)) a13 (Cert.ReferenceIdeal.RefRun.r6_keep Vr Cert.ReferenceIdeal.main_arg13 (by decide))
  · exact pass (by rfl : after (Cert.KernelIdeal.Gen.hostOps1_2 (F := Ideal)) Vk (Proc.devRef .tc Cert.KernelIdeal.main_arg3) = Vk (Proc.devRef .tc Cert.KernelIdeal.main_arg3)) a3 (Cert.ReferenceIdeal.RefRun.r6_keep Vr Cert.ReferenceIdeal.main_arg3 (by decide))

end Cert.Bridge

end
-- ==== Proof.Bridge.B2b.lean ====
/-
  The second layer's host operations in the two idealized programs, second part: the two groups of pattern-indexed
  weights gathered, signed and laid out as matrices. One program builds each weight matrix as (inputs × outputs)
  directly; the other builds (outputs × inputs): the first is the transpose of the second.
-/
import proofs.«117565_j22136261443720_1_alg».proof.Proof.Bridge.B2a
import proofs.«117565_j22136261443720_1_alg».proof.Proof.LibWeightLayout

set_option maxRecDepth 16384

noncomputable section

namespace Cert.Bridge

open Idealize.ShloMosaic Idealize.ShloMosaic.TcCoe Idealize.ShloMosaic.StableHlo

/-- The shapes of the transposed weight matrices. -/
theorem tr4096 : (⟨2, ![4096, 4096]⟩ : Shape).Transposes [1, 0] ⟨2, ![4096, 4096]⟩ := by decide
theorem tr1024 : (⟨2, ![4096, 1024]⟩ : Shape).Transposes [1, 0] ⟨2, ![1024, 4096]⟩ := by decide

set_option maxHeartbeats 4000000 in
/-- The weights of the second table's 64-channel group gathered by its index (the same called function in both programs). -/
theorem st3 (Vk : KV) (Vr : RV) (h42 : Vk (Proc.devRef .tc Cert.KernelIdeal.main_v42) = Vr (Proc.devRef .tc Cert.ReferenceIdeal.main_v45)) (h37 : Vk (Proc.devRef .tc Cert.KernelIdeal.main_v37) = Vr (Proc.devRef .tc Cert.ReferenceIdeal.main_v40)) (h39 : Vk (Proc.devRef .tc Cert.KernelIdeal.main_v39) = Vr (Proc.devRef .tc Cert.ReferenceIdeal.main_v42)) (a2 : Vk (Proc.devRef .tc Cert.KernelIdeal.main_arg2) = Vr (Proc.devRef .tc Cert.ReferenceIdeal.main_arg2)) (a13 : Vk (Proc.devRef .tc Cert.KernelIdeal.main_arg13) = Vr (Proc.devRef .tc Cert.ReferenceIdeal.main_arg13)) (a3 : Vk (Proc.devRef .tc Cert.KernelIdeal.main_arg3) = Vr (Proc.devRef .tc Cert.ReferenceIdeal.main_arg3)) :
    after (Cert.KernelIdeal.Gen.hostOps1_3 (F := Ideal)) Vk (Proc.devRef .tc Cert.KernelIdeal.main_v43) = after (Cert.ReferenceIdeal.RefRun.r7 (F := Ideal)) Vr (Proc.devRef .tc Cert.ReferenceIdeal.main_v46)
    ∧ after (Cert.KernelIdeal.Gen.hostOps1_3 (F := Ideal)) Vk (Proc.devRef .tc Cert.KernelIdeal.main_v37) = after (Cert.ReferenceIdeal.RefRun.r7 (F := Ideal)) Vr (Proc.devRef .tc Cert.ReferenceIdeal.main_v40)
    ∧ after (Cert.KernelIdeal.Gen.hostOps1_3 (F := Ideal)) Vk (Proc.devRef .tc Cert.KernelIdeal.main_v39) = after (Cert.ReferenceIdeal.RefRun.r7 (F := Ideal)) Vr (Proc.devRef .tc Cert.ReferenceIdeal.main_v42)
    ∧ after (Cert.KernelIdeal.Gen.hostOps1_3 (F := Ideal)) Vk (Proc.devRef .tc Cert.KernelIdeal.main_arg13) = after (Cert.ReferenceIdeal.RefRun.r7 (F := Ideal)) Vr (Proc.devRef .tc Cert.ReferenceIdeal.main_arg13)
    ∧ after (Cert.KernelIdeal.Gen.hostOps1_3 (F := Ideal)) Vk (Proc.devRef .tc Cert.KernelIdeal.main_arg3) = after (Cert.ReferenceIdeal.RefRun.r7 (F := Ideal)) Vr (Proc.devRef .tc Cert.ReferenceIdeal.main_arg3) := by
  refine ⟨?_, ?_, ?_, ?_, ?_⟩
  · after_results_simp
    rw [h42, a2]
    try rfl
  · exact pass (by rfl : after (Cert.KernelIdeal.Gen.hostOps1_3 (F := Ideal)) Vk (Proc.devRef .tc Cert.KernelIdeal.main_v37) = Vk (Proc.devRef .tc Cert.KernelIdeal.main_v37)) h37 (Cert.ReferenceIdeal.RefRun.r7_keep Vr Cert.ReferenceIdeal.main_v40 (by decide))
  · exact pass (by rfl : after (Cert.KernelIdeal.Gen.hostOps1_3 (F := Ideal)) Vk (Proc.devRef .tc Cert.KernelIdeal.main_v39) = Vk (Proc.devRef .tc Cert.KernelIdeal.main_v39)) h39 (Cert.ReferenceIdeal.RefRun.r7_keep Vr Cert.ReferenceIdeal.main_v42 (by decide))
  · exact pass (by rfl : after (Cert.KernelIdeal.Gen.hostOps1_3 (F := Ideal)) Vk (Proc.devRef .tc Cert.KernelIdeal.main_arg13) = Vk (Proc.devRef .tc Cert.KernelIdeal.main_arg13)) a13 (Cert.ReferenceIdeal.RefRun.r7_keep Vr Cert.ReferenceIdeal.main_arg13 (by decide))
  · exact pass (by rfl : after (Cert.KernelIdeal.Gen.hostOps1_3 (F := Ideal)) Vk (Proc.devRef .tc Cert.KernelIdeal.main_arg3) = Vk (Proc.devRef .tc Cert.KernelIdeal.main_arg3)) a3 (Cert.ReferenceIdeal.RefRun.r7_keep Vr Cert.ReferenceIdeal.main_arg3 (by decide))

set_option maxHeartbeats 4000000 in
/-- The signed gathered weights of the 64-channel group as a matrix — one program lays it out as the transpose of the other's —, and the sign and index of the third permutation table. -/
theorem st4 (Vk : KV) (Vr : RV) (h43 : Vk (Proc.devRef .tc Cert.KernelIdeal.main_v43) = Vr (Proc.devRef .tc Cert.ReferenceIdeal.main_v46)) (h39 : Vk (Proc.devRef .tc Cert.KernelIdeal.main_v39) = Vr (Proc.devRef .tc Cert.ReferenceIdeal.main_v42)) (h37 : Vk (Proc.devRef .tc Cert.KernelIdeal.main_v37) = Vr (Proc.devRef .tc Cert.ReferenceIdeal.main_v40)) (a13 : Vk (Proc.devRef .tc Cert.KernelIdeal.main_arg13) = Vr (Proc.devRef .tc Cert.ReferenceIdeal.main_arg13)) (a3 : Vk (Proc.devRef .tc Cert.KernelIdeal.main_arg3) = Vr (Proc.devRef .tc Cert.ReferenceIdeal.main_arg3)) :
    after (Cert.KernelIdeal.Gen.hostOps1_4 (F := Ideal)) Vk (Proc.devRef .tc Cert.KernelIdeal.main_v48) = transpose ⟨2, ![4096, 4096]⟩ [1, 0] (after (Cert.ReferenceIdeal.RefRun.r8 (F := Ideal)) Vr (Proc.devRef .tc Cert.ReferenceIdeal.main_v51)) tr4096
    ∧ after (Cert.KernelIdeal.Gen.hostOps1_4 (F := Ideal)) Vk (Proc.devRef .tc Cert.KernelIdeal.main_v50) = after (Cert.ReferenceIdeal.RefRun.r8 (F := Ideal)) Vr (Proc.devRef .tc Cert.ReferenceIdeal.main_v53)
    ∧ after (Cert.KernelIdeal.Gen.hostOps1_4 (F := Ideal)) Vk (Proc.devRef .tc Cert.KernelIdeal.main_v53) = after (Cert.ReferenceIdeal.RefRun.r8 (F := Ideal)) Vr (Proc.devRef .tc Cert.ReferenceIdeal.main_v56)
    ∧ after (Cert.KernelIdeal.Gen.hostOps1_4 (F := Ideal)) Vk (Proc.devRef .tc Cert.KernelIdeal.main_v37) = after (Cert.ReferenceIdeal.RefRun.r8 (F := Ideal)) Vr (Proc.devRef .tc Cert.ReferenceIdeal.main_v40)
    ∧ after (Cert.KernelIdeal.Gen.hostOps1_4 (F := Ideal)) Vk (Proc.devRef .tc Cert.KernelIdeal.main_arg3) = after (Cert.ReferenceIdeal.RefRun.r8 (F := Ideal)) Vr (Proc.devRef .tc Cert.ReferenceIdeal.main_arg3) := by
  have e46 : after (Cert.KernelIdeal.Gen.hostOps1_4 (F := Ideal)) Vk (Proc.devRef .tc Cert.KernelIdeal.main_v46) = after (Cert.ReferenceIdeal.RefRun.r8 (F := Ideal)) Vr (Proc.devRef .tc Cert.ReferenceIdeal.main_v49) := by
    after_results_simp
    rw [h39, h43]
    try rfl
  have sK : after (Cert.KernelIdeal.Gen.hostOps1_4 (F := Ideal)) Vk (Proc.devRef .tc Cert.KernelIdeal.main_v48) = shapeCast Cert.KernelIdeal.S4096x4096 (transpose Cert.KernelIdeal.S64x64x64x64 [3, 1, 2, 0] (after (Cert.KernelIdeal.Gen.hostOps1_4 (F := Ideal)) Vk (Proc.devRef .tc Cert.KernelIdeal.main_v46) : (⟨Cert.KernelIdeal.S64x64x64x64, .f32⟩ : BufTy).Contents (Elt Ideal)) Cert.KernelIdeal.Gen.transposes_S64x64x64x64_S64x64x64x64_3_1_2_0) Cert.KernelIdeal.Gen.shapeCasts_S64x64x64x64_S4096x4096 := by rfl
  have sR : after (Cert.ReferenceIdeal.RefRun.r8 (F := Ideal)) Vr (Proc.devRef .tc Cert.ReferenceIdeal.main_v51) = shapeCast Cert.ReferenceIdeal.S4096x4096 (transpose Cert.ReferenceIdeal.S64x64x64x64 [2, 0, 3, 1] (after (Cert.ReferenceIdeal.RefRun.r8 (F := Ideal)) Vr (Proc.devRef .tc Cert.ReferenceIdeal.main_v49) : (⟨Cert.ReferenceIdeal.S64x64x64x64, .f32⟩ : BufTy).Contents (Elt Ideal)) Cert.ReferenceIdeal.Gen.transposes_S64x64x64x64_S64x64x64x64_2_0_3_1) Cert.ReferenceIdeal.Gen.shapeCasts_S64x64x64x64_S4096x4096 := by rfl
  refine ⟨?_, ?_, ?_, ?_, ?_⟩
  · rw [sK, sR, e46]
    exact Cert.Lib.WeightLayout.layout64 _ _ _ _ _ _
  · after_results_simp
    rw [a13]
    try rfl
  · after_results_simp
    rw [a13]
    try rfl
  · exact pass (by rfl : after (Cert.KernelIdeal.Gen.hostOps1_4 (F := Ideal)) Vk (Proc.devRef .tc Cert.KernelIdeal.main_v37) = Vk (Proc.devRef .tc Cert.KernelIdeal.main_v37)) h37 (Cert.ReferenceIdeal.RefRun.r8_keep Vr Cert.ReferenceIdeal.main_v40 (by decide))
  · exact pass (by rfl : after (Cert.KernelIdeal.Gen.hostOps1_4 (F := Ideal)) Vk (Proc.devRef .tc Cert.KernelIdeal.main_arg3) = Vk (Proc.devRef .tc Cert.KernelIdeal.main_arg3)) a3 (Cert.ReferenceIdeal.RefRun.r8_keep Vr Cert.ReferenceIdeal.main_arg3 (by decide))

set_option maxHeartbeats 4000000 in
/-- The weights of the third table's 16-channel group gathered by its index (the same called function in both programs). -/
theorem st5 (Vk : KV) (Vr : RV) (h53 : Vk (Proc.devRef .tc Cert.KernelIdeal.main_v53) = Vr (Proc.devRef .tc Cert.ReferenceIdeal.main_v56)) (h50 : Vk (Proc.devRef .tc Cert.KernelIdeal.main_v50) = Vr (Proc.devRef .tc Cert.ReferenceIdeal.main_v53)) (h37 : Vk (Proc.devRef .tc Cert.KernelIdeal.main_v37) = Vr (Proc.devRef .tc Cert.ReferenceIdeal.main_v40)) (a3 : Vk (Proc.devRef .tc Cert.KernelIdeal.main_arg3) = Vr (Proc.devRef .tc Cert.ReferenceIdeal.main_arg3)) (h48 : Vk (Proc.devRef .tc Cert.KernelIdeal.main_v48) = transpose ⟨2, ![4096, 4096]⟩ [1, 0] (Vr (Proc.devRef .tc Cert.ReferenceIdeal.main_v51)) tr4096) :
    after (Cert.KernelIdeal.Gen.hostOps1_5 (F := Ideal)) Vk (Proc.devRef .tc Cert.KernelIdeal.main_v54) = after (Cert.ReferenceIdeal.RefRun.r9 (F := Ideal)) Vr (Proc.devRef .tc Cert.ReferenceIdeal.main_v57)
    ∧ after (Cert.KernelIdeal.Gen.hostOps1_5 (F := Ideal)) Vk (Proc.devRef .tc Cert.KernelIdeal.main_v37) = after (Cert.ReferenceIdeal.RefRun.r9 (F := Ideal)) Vr (Proc.devRef .tc Cert.ReferenceIdeal.main_v40)
    ∧ after (Cert.KernelIdeal.Gen.hostOps1_5 (F := Ideal)) Vk (Proc.devRef .tc Cert.KernelIdeal.main_v50) = after (Cert.ReferenceIdeal.RefRun.r9 (F := Ideal)) Vr (Proc.devRef .tc Cert.ReferenceIdeal.main_v53)
    ∧ after (Cert.KernelIdeal.Gen.hostOps1_5 (F := Ideal)) Vk (Proc.devRef .tc Cert.KernelIdeal.main_v48) = transpose ⟨2, ![4096, 4096]⟩ [1, 0] (after (Cert.ReferenceIdeal.RefRun.r9 (F := Ideal)) Vr (Proc.devRef .tc Cert.ReferenceIdeal.main_v51)) tr4096 := by
  refine ⟨?_, ?_, ?_, ?_⟩
  · after_results_simp
    rw [h53, a3]
    try rfl
  · exact pass (by rfl : after (Cert.KernelIdeal.Gen.hostOps1_5 (F := Ideal)) Vk (Proc.devRef .tc Cert.KernelIdeal.main_v37) = Vk (Proc.devRef .tc Cert.KernelIdeal.main_v37)) h37 (Cert.ReferenceIdeal.RefRun.r9_keep Vr Cert.ReferenceIdeal.main_v40 (by decide))
  · exact pass (by rfl : after (Cert.KernelIdeal.Gen.hostOps1_5 (F := Ideal)) Vk (Proc.devRef .tc Cert.KernelIdeal.main_v50) = Vk (Proc.devRef .tc Cert.KernelIdeal.main_v50)) h50 (Cert.ReferenceIdeal.RefRun.r9_keep Vr Cert.ReferenceIdeal.main_v53 (by decide))
  · rw [Cert.ReferenceIdeal.RefRun.r9_keep Vr Cert.ReferenceIdeal.main_v51 (by decide)]
    exact (by rfl : after (Cert.KernelIdeal.Gen.hostOps1_5 (F := Ideal)) Vk (Proc.devRef .tc Cert.KernelIdeal.main_v48) = Vk (Proc.devRef .tc Cert.KernelIdeal.main_v48)).trans h48

end Cert.Bridge

end
-- ==== Proof.LibConcatT.lean ====
/-
  Stacking transposed matrices. Matrices with a common number of rows, laid side by side and then
  transposed, are their transposes stacked one under the other: entry (r, q) of either array is entry
  (q, r − offset) of the piece whose band of rows holds r.
-/
import Idealize.ShloMosaic.Lib.Pipeline.Value
import Idealize.ShloMosaic.Lib.ValueIdx
import Idealize.ShloMosaic.Lib.ValueLayout

noncomputable section

namespace Cert.Lib.ConcatT

open Idealize.ShloMosaic Idealize.ShloMosaic.ValueIdx

variable {α : Type}

/-- A transposed matrix read at an index. -/
theorem transpose_at {a b : ℕ} (x : (⟨2, ![a, b]⟩ : Shape).Idx → α)
    (h : (⟨2, ![a, b]⟩ : Shape).Transposes [1, 0] ⟨2, ![b, a]⟩) (j : (⟨2, ![b, a]⟩ : Shape).Idx) :
    transpose ⟨2, ![b, a]⟩ [1, 0] x h j = x (ix2 (j 1) (j 0)) :=
  transpose_apply _ x h _ _ fun c => match c with | ⟨0, _⟩ => rfl | ⟨1, _⟩ => rfl

/-- Two pieces of 4096 and 1024 columns. -/
theorem pair (A : (⟨2, ![4096, 4096]⟩ : Shape).Idx → α) (B : (⟨2, ![4096, 1024]⟩ : Shape).Idx → α)
    (hA : (⟨2, ![4096, 4096]⟩ : Shape).Transposes [1, 0] ⟨2, ![4096, 4096]⟩)
    (hB : (⟨2, ![4096, 1024]⟩ : Shape).Transposes [1, 0] ⟨2, ![1024, 4096]⟩)
    (hc : Shape.Concatenates [(⟨2, ![4096, 4096]⟩ : Shape), ⟨2, ![1024, 4096]⟩] ⟨2, ![5120, 4096]⟩ 0)
    (hc' : Shape.Concatenates [(⟨2, ![4096, 4096]⟩ : Shape), ⟨2, ![4096, 1024]⟩] ⟨2, ![4096, 5120]⟩ 1)
    (hT : (⟨2, ![4096, 5120]⟩ : Shape).Transposes [1, 0] ⟨2, ![5120, 4096]⟩) :
    concatenate ⟨2, ![5120, 4096]⟩ 0 [⟨⟨2, ![4096, 4096]⟩, transpose ⟨2, ![4096, 4096]⟩ [1, 0] A hA⟩, ⟨⟨2, ![1024, 4096]⟩, transpose ⟨2, ![1024, 4096]⟩ [1, 0] B hB⟩] hc
      = transpose ⟨2, ![5120, 4096]⟩ [1, 0] (concatenate ⟨2, ![4096, 5120]⟩ 1 [⟨⟨2, ![4096, 4096]⟩, A⟩, ⟨⟨2, ![4096, 1024]⟩, B⟩] hc') hT := by
  funext j
  rw [transpose_at]
  have h0 : (j 0).val < 5120 := (j 0).isLt
  have h1 : (j 1).val < 4096 := (j 1).isLt
  by_cases hlt : (j 0).val < 4096
  · let r : Fin 4096 := ⟨(j 0).val, hlt⟩
    refine (concatenate_pair_apply_left 0 _ _ hc j rfl (ix2 r (j 1)) fun b => match b with | ⟨0, _⟩ => rfl | ⟨1, _⟩ => rfl).trans ?_
    rw [transpose_at]
    exact (concatenate_pair_apply_left 1 _ _ hc' _ rfl (ix2 (j 1) r) fun b => match b with | ⟨0, _⟩ => rfl | ⟨1, _⟩ => rfl).symm
  · let r : Fin 1024 := ⟨(j 0).val - 4096, by omega⟩
    refine (concatenate_pair_apply_right 0 _ _ hc j rfl rfl (ix2 r (j 1))
      (fun b hb => match b, hb with | ⟨0, _⟩, hb => absurd rfl hb | ⟨1, _⟩, _ => rfl)
      (by show (j 0).val - 4096 + 4096 = (j 0).val; omega)).trans ?_
    rw [transpose_at]
    exact (concatenate_pair_apply_right 1 _ _ hc' _ rfl rfl (ix2 (j 1) r)
      (fun b hb => match b, hb with | ⟨0, _⟩, _ => rfl | ⟨1, _⟩, hb => absurd rfl hb)
      (by show (j 0).val - 4096 + 4096 = (j 0).val; omega)).symm

/-- Three pieces of 4096, 4096 and 1024 columns. -/
theorem triple (A B : (⟨2, ![4096, 4096]⟩ : Shape).Idx → α) (C : (⟨2, ![4096, 1024]⟩ : Shape).Idx → α)
    (hA hB : (⟨2, ![4096, 4096]⟩ : Shape).Transposes [1, 0] ⟨2, ![4096, 4096]⟩)
    (hC : (⟨2, ![4096, 1024]⟩ : Shape).Transposes [1, 0] ⟨2, ![1024, 4096]⟩)
    (hc : Shape.Concatenates [(⟨2, ![4096, 4096]⟩ : Shape), ⟨2, ![4096, 4096]⟩, ⟨2, ![1024, 4096]⟩] ⟨2, ![9216, 4096]⟩ 0)
    (hc' : Shape.Concatenates [(⟨2, ![4096, 4096]⟩ : Shape), ⟨2, ![4096, 4096]⟩, ⟨2, ![4096, 1024]⟩] ⟨2, ![4096, 9216]⟩ 1)
    (hT : (⟨2, ![4096, 9216]⟩ : Shape).Transposes [1, 0] ⟨2, ![9216, 4096]⟩) :
    concatenate ⟨2, ![9216, 4096]⟩ 0 [⟨⟨2, ![4096, 4096]⟩, transpose ⟨2, ![4096, 4096]⟩ [1, 0] A hA⟩, ⟨⟨2, ![4096, 4096]⟩, transpose ⟨2, ![4096, 4096]⟩ [1, 0] B hB⟩, ⟨⟨2, ![1024, 4096]⟩, transpose ⟨2, ![1024, 4096]⟩ [1, 0] C hC⟩] hc
      = transpose ⟨2, ![9216, 4096]⟩ [1, 0] (concatenate ⟨2, ![4096, 9216]⟩ 1 [⟨⟨2, ![4096, 4096]⟩, A⟩, ⟨⟨2, ![4096, 4096]⟩, B⟩, ⟨⟨2, ![4096, 1024]⟩, C⟩] hc') hT := by
  funext j
  rw [transpose_at]
  have h0 : (j 0).val < 9216 := (j 0).isLt
  have h1 : (j 1).val < 4096 := (j 1).isLt
  generalize hX : transpose ⟨2, ![4096, 4096]⟩ [1, 0] A hA = X
  generalize hY : transpose ⟨2, ![4096, 4096]⟩ [1, 0] B hB = Y
  generalize hZ : transpose ⟨2, ![1024, 4096]⟩ [1, 0] C hC = Z
  by_cases hlt : (j 0).val < 4096
  · let r : Fin 4096 := ⟨(j 0).val, hlt⟩
    refine (concatenate_apply_piece 0 [⟨⟨2, ![4096, 4096]⟩, X⟩, ⟨⟨2, ![4096, 4096]⟩, Y⟩, ⟨⟨2, ![1024, 4096]⟩, Z⟩] hc j 0 (by simp) ⟨2, ![4096, 4096]⟩ X rfl rfl 0 (by simp) (ix2 r (j 1))
      (fun b hb => match b, hb with | ⟨0, _⟩, hb => absurd rfl hb | ⟨1, _⟩, _ => rfl) (by show 0 + (j 0).val = (j 0).val; omega)).trans ?_
    rw [← hX, transpose_at]
    exact (concatenate_apply_piece 1 [⟨⟨2, ![4096, 4096]⟩, A⟩, ⟨⟨2, ![4096, 4096]⟩, B⟩, ⟨⟨2, ![4096, 1024]⟩, C⟩] hc' _ 0 (by simp) ⟨2, ![4096, 4096]⟩ A rfl rfl 0 (by simp) (ix2 (j 1) r)
      (fun b hb => match b, hb with | ⟨0, _⟩, _ => rfl | ⟨1, _⟩, hb => absurd rfl hb) (by show 0 + (j 0).val = (j 0).val; omega)).symm
  · by_cases hlt2 : (j 0).val < 8192
    · let r : Fin 4096 := ⟨(j 0).val - 4096, by omega⟩
      refine (concatenate_apply_piece 0 [⟨⟨2, ![4096, 4096]⟩, X⟩, ⟨⟨2, ![4096, 4096]⟩, Y⟩, ⟨⟨2, ![1024, 4096]⟩, Z⟩] hc j 1 (by simp) ⟨2, ![4096, 4096]⟩ Y rfl rfl 4096 (by simp) (ix2 r (j 1))
        (fun b hb => match b, hb with | ⟨0, _⟩, hb => absurd rfl hb | ⟨1, _⟩, _ => rfl) (by show 4096 + ((j 0).val - 4096) = (j 0).val; omega)).trans ?_
      rw [← hY, transpose_at]
      exact (concatenate_apply_piece 1 [⟨⟨2, ![4096, 4096]⟩, A⟩, ⟨⟨2, ![4096, 4096]⟩, B⟩, ⟨⟨2, ![4096, 1024]⟩, C⟩] hc' _ 1 (by simp) ⟨2, ![4096, 4096]⟩ B rfl rfl 4096 (by simp) (ix2 (j 1) r)
        (fun b hb => match b, hb with | ⟨0, _⟩, _ => rfl | ⟨1, _⟩, hb => absurd rfl hb) (by show 4096 + ((j 0).val - 4096) = (j 0).val; omega)).symm
    · let r : Fin 1024 := ⟨(j 0).val - 8192, by omega⟩
      refine (concatenate_apply_piece 0 [⟨⟨2, ![4096, 4096]⟩, X⟩, ⟨⟨2, ![4096, 4096]⟩, Y⟩, ⟨⟨2, ![1024, 4096]⟩, Z⟩] hc j 2 (by simp) ⟨2, ![1024, 4096]⟩ Z rfl rfl 8192 (by simp) (ix2 r (j 1))
        (fun b hb => match b, hb with | ⟨0, _⟩, hb => absurd rfl hb | ⟨1, _⟩, _ => rfl) (by show 8192 + ((j 0).val - 8192) = (j 0).val; omega)).trans ?_
      rw [← hZ, transpose_at]
      exact (concatenate_apply_piece 1 [⟨⟨2, ![4096, 4096]⟩, A⟩, ⟨⟨2, ![4096, 4096]⟩, B⟩, ⟨⟨2, ![4096, 1024]⟩, C⟩] hc' _ 2 (by simp) ⟨2, ![4096, 1024]⟩ C rfl rfl 8192 (by simp) (ix2 (j 1) r)
        (fun b hb => match b, hb with | ⟨0, _⟩, _ => rfl | ⟨1, _⟩, hb => absurd rfl hb) (by show 8192 + ((j 0).val - 8192) = (j 0).val; omega)).symm

end Cert.Lib.ConcatT

end
-- ==== Proof.Bridge.B2.lean ====
/-
  The second layer's host operations in the two idealized programs, last part and the whole: the second group's
  weight matrix, the stacking of the two groups, and the chain of the seven stretches.
-/
import proofs.«117565_j22136261443720_1_alg».proof.Proof.Bridge.B2b
import proofs.«117565_j22136261443720_1_alg».proof.Proof.LibConcatT

set_option maxRecDepth 16384

noncomputable section

namespace Cert.Bridge

open Idealize.ShloMosaic Idealize.ShloMosaic.TcCoe Idealize.ShloMosaic.StableHlo

set_option maxHeartbeats 4000000 in
/-- The 16-channel group's weight matrix, the two groups stacked into the second layer's weight matrix (rows stacked in one program; columns laid side by side, then transposed, in the other), and the conversions to the narrow float type, which change nothing at the extended reals. -/
theorem st6 (Vk : KV) (Vr : RV) (h54 : Vk (Proc.devRef .tc Cert.KernelIdeal.main_v54) = Vr (Proc.devRef .tc Cert.ReferenceIdeal.main_v57)) (h50 : Vk (Proc.devRef .tc Cert.KernelIdeal.main_v50) = Vr (Proc.devRef .tc Cert.ReferenceIdeal.main_v53)) (h37 : Vk (Proc.devRef .tc Cert.KernelIdeal.main_v37) = Vr (Proc.devRef .tc Cert.ReferenceIdeal.main_v40)) (h48 : Vk (Proc.devRef .tc Cert.KernelIdeal.main_v48) = transpose ⟨2, ![4096, 4096]⟩ [1, 0] (Vr (Proc.devRef .tc Cert.ReferenceIdeal.main_v51)) tr4096) :
    after (Cert.KernelIdeal.Gen.hostOps1_6 (F := Ideal)) Vk (Proc.devRef .tc Cert.KernelIdeal.main_v61) = after (Cert.ReferenceIdeal.RefRun.r10 (F := Ideal)) Vr (Proc.devRef .tc Cert.ReferenceIdeal.main_v64)
    ∧ after (Cert.KernelIdeal.Gen.hostOps1_6 (F := Ideal)) Vk (Proc.devRef .tc Cert.KernelIdeal.main_v62) = after (Cert.ReferenceIdeal.RefRun.r10 (F := Ideal)) Vr (Proc.devRef .tc Cert.ReferenceIdeal.main_v40)
    ∧ after (Cert.KernelIdeal.Gen.hostOps1_6 (F := Ideal)) Vk (Proc.devRef .tc Cert.KernelIdeal.main_v37) = after (Cert.ReferenceIdeal.RefRun.r10 (F := Ideal)) Vr (Proc.devRef .tc Cert.ReferenceIdeal.main_v40) := by
  have e57 : after (Cert.KernelIdeal.Gen.hostOps1_6 (F := Ideal)) Vk (Proc.devRef .tc Cert.KernelIdeal.main_v57) = after (Cert.ReferenceIdeal.RefRun.r10 (F := Ideal)) Vr (Proc.devRef .tc Cert.ReferenceIdeal.main_v60) := by
    after_results_simp
    rw [h50, h54]
    try rfl
  have sK59 : after (Cert.KernelIdeal.Gen.hostOps1_6 (F := Ideal)) Vk (Proc.devRef .tc Cert.KernelIdeal.main_v59) = shapeCast Cert.KernelIdeal.S1024x4096 (transpose Cert.KernelIdeal.S64x16x64x64 [3, 1, 2, 0] (after (Cert.KernelIdeal.Gen.hostOps1_6 (F := Ideal)) Vk (Proc.devRef .tc Cert.KernelIdeal.main_v57) : (⟨Cert.KernelIdeal.S64x16x64x64, .f32⟩ : BufTy).Contents (Elt Ideal)) Cert.KernelIdeal.Gen.transposes_S64x16x64x64_S64x16x64x64_3_1_2_0) Cert.KernelIdeal.Gen.shapeCasts_S64x16x64x64_S1024x4096 := by rfl
  have sR62 : after (Cert.ReferenceIdeal.RefRun.r10 (F := Ideal)) Vr (Proc.devRef .tc Cert.ReferenceIdeal.main_v62) = shapeCast Cert.ReferenceIdeal.S4096x1024 (transpose Cert.ReferenceIdeal.S64x64x64x16 [2, 0, 3, 1] (after (Cert.ReferenceIdeal.RefRun.r10 (F := Ideal)) Vr (Proc.devRef .tc Cert.ReferenceIdeal.main_v60) : (⟨Cert.ReferenceIdeal.S64x16x64x64, .f32⟩ : BufTy).Contents (Elt Ideal)) Cert.ReferenceIdeal.Gen.transposes_S64x16x64x64_S64x64x64x16_2_0_3_1) Cert.ReferenceIdeal.Gen.shapeCasts_S64x64x64x16_S4096x1024 := by rfl
  have e59 : after (Cert.KernelIdeal.Gen.hostOps1_6 (F := Ideal)) Vk (Proc.devRef .tc Cert.KernelIdeal.main_v59) = transpose ⟨2, ![1024, 4096]⟩ [1, 0] (after (Cert.ReferenceIdeal.RefRun.r10 (F := Ideal)) Vr (Proc.devRef .tc Cert.ReferenceIdeal.main_v62)) tr1024 := by
    rw [sK59, sR62, e57]
    exact Cert.Lib.WeightLayout.layout16 _ _ _ _ _ _
  have e48 : after (Cert.KernelIdeal.Gen.hostOps1_6 (F := Ideal)) Vk (Proc.devRef .tc Cert.KernelIdeal.main_v48) = transpose ⟨2, ![4096, 4096]⟩ [1, 0] (after (Cert.ReferenceIdeal.RefRun.r10 (F := Ideal)) Vr (Proc.devRef .tc Cert.ReferenceIdeal.main_v51)) tr4096 := by
    rw [Cert.ReferenceIdeal.RefRun.r10_keep Vr Cert.ReferenceIdeal.main_v51 (by decide)]
    exact (by rfl : after (Cert.KernelIdeal.Gen.hostOps1_6 (F := Ideal)) Vk (Proc.devRef .tc Cert.KernelIdeal.main_v48) = Vk (Proc.devRef .tc Cert.KernelIdeal.main_v48)).trans h48
  have sK61 : after (Cert.KernelIdeal.Gen.hostOps1_6 (F := Ideal)) Vk (Proc.devRef .tc Cert.KernelIdeal.main_v61) = concatenate Cert.KernelIdeal.S5120x4096 0 [⟨Cert.KernelIdeal.S4096x4096, after (Cert.KernelIdeal.Gen.hostOps1_6 (F := Ideal)) Vk (Proc.devRef .tc Cert.KernelIdeal.main_v48)⟩, ⟨Cert.KernelIdeal.S1024x4096, after (Cert.KernelIdeal.Gen.hostOps1_6 (F := Ideal)) Vk (Proc.devRef .tc Cert.KernelIdeal.main_v59)⟩] Cert.KernelIdeal.Gen.concatenates_S4096x4096_S1024x4096_S5120x4096_d0 := by rfl
  have sR64 : after (Cert.ReferenceIdeal.RefRun.r10 (F := Ideal)) Vr (Proc.devRef .tc Cert.ReferenceIdeal.main_v64) = transpose Cert.ReferenceIdeal.S5120x4096 [1, 0] (concatenate Cert.ReferenceIdeal.S4096x5120 1 [⟨Cert.ReferenceIdeal.S4096x4096, after (Cert.ReferenceIdeal.RefRun.r10 (F := Ideal)) Vr (Proc.devRef .tc Cert.ReferenceIdeal.main_v51)⟩, ⟨Cert.ReferenceIdeal.S4096x1024, after (Cert.ReferenceIdeal.RefRun.r10 (F := Ideal)) Vr (Proc.devRef .tc Cert.ReferenceIdeal.main_v62)⟩] Cert.ReferenceIdeal.Gen.concatenates_S4096x4096_S4096x1024_S4096x5120_d1) Cert.ReferenceIdeal.Gen.transposes_S4096x5120_S5120x4096_1_0 := by rfl
  refine ⟨?_, ?_, ?_⟩
  · rw [sK61, sR64, e48, e59]
    exact Cert.Lib.ConcatT.pair _ _ _ _ _ _ _
  · exact pass (by rfl : after (Cert.KernelIdeal.Gen.hostOps1_6 (F := Ideal)) Vk (Proc.devRef .tc Cert.KernelIdeal.main_v62) = Vk (Proc.devRef .tc Cert.KernelIdeal.main_v37)) h37 (Cert.ReferenceIdeal.RefRun.r10_keep Vr Cert.ReferenceIdeal.main_v40 (by decide))
  · exact pass (by rfl : after (Cert.KernelIdeal.Gen.hostOps1_6 (F := Ideal)) Vk (Proc.devRef .tc Cert.KernelIdeal.main_v37) = Vk (Proc.devRef .tc Cert.KernelIdeal.main_v37)) h37 (Cert.ReferenceIdeal.RefRun.r10_keep Vr Cert.ReferenceIdeal.main_v40 (by decide))

/-- THE SECOND LAYER'S HOST STAGE. From buffer contents of the two idealized programs that agree at the first
    layer's output, at the network's flattened input and at the second layer's parameters, the kernel program's
    seven stretches of host operations before its second matrix product and the reference program's seven
    corresponding stretches end with the same weight matrix and the same input matrix. -/
theorem B2 (Vk : KV) (Vr : RV) (h15 : Vk (Proc.devRef .tc Cert.KernelIdeal.main_v15) = Vr (Proc.devRef .tc Cert.ReferenceIdeal.main_v18)) (h1 : Vk (Proc.devRef .tc Cert.KernelIdeal.main_v1) = Vr (Proc.devRef .tc Cert.ReferenceIdeal.main_v1)) (a7 : Vk (Proc.devRef .tc Cert.KernelIdeal.main_arg7) = Vr (Proc.devRef .tc Cert.ReferenceIdeal.main_arg7)) (a8 : Vk (Proc.devRef .tc Cert.KernelIdeal.main_arg8) = Vr (Proc.devRef .tc Cert.ReferenceIdeal.main_arg8)) (a12 : Vk (Proc.devRef .tc Cert.KernelIdeal.main_arg12) = Vr (Proc.devRef .tc Cert.ReferenceIdeal.main_arg12)) (a2 : Vk (Proc.devRef .tc Cert.KernelIdeal.main_arg2) = Vr (Proc.devRef .tc Cert.ReferenceIdeal.main_arg2)) (a13 : Vk (Proc.devRef .tc Cert.KernelIdeal.main_arg13) = Vr (Proc.devRef .tc Cert.ReferenceIdeal.main_arg13)) (a3 : Vk (Proc.devRef .tc Cert.KernelIdeal.main_arg3) = Vr (Proc.devRef .tc Cert.ReferenceIdeal.main_arg3)) :
    (after (Cert.KernelIdeal.Gen.hostOps1_6 (F := Ideal)) (after (Cert.KernelIdeal.Gen.hostOps1_5 (F := Ideal)) (after (Cert.KernelIdeal.Gen.hostOps1_4 (F := Ideal)) (after (Cert.KernelIdeal.Gen.hostOps1_3 (F := Ideal)) (after (Cert.KernelIdeal.Gen.hostOps1_2 (F := Ideal)) (after (Cert.KernelIdeal.Gen.hostOps1_1 (F := Ideal)) (after (Cert.KernelIdeal.Gen.hostOps1 (F := Ideal)) Vk))))))) (Proc.devRef .tc Cert.KernelIdeal.main_v61) = (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) Vr))))))) (Proc.devRef .tc Cert.ReferenceIdeal.main_v64)
    ∧ (after (Cert.KernelIdeal.Gen.hostOps1_6 (F := Ideal)) (after (Cert.KernelIdeal.Gen.hostOps1_5 (F := Ideal)) (after (Cert.KernelIdeal.Gen.hostOps1_4 (F := Ideal)) (after (Cert.KernelIdeal.Gen.hostOps1_3 (F := Ideal)) (after (Cert.KernelIdeal.Gen.hostOps1_2 (F := Ideal)) (after (Cert.KernelIdeal.Gen.hostOps1_1 (F := Ideal)) (after (Cert.KernelIdeal.Gen.hostOps1 (F := Ideal)) Vk))))))) (Proc.devRef .tc Cert.KernelIdeal.main_v62) = (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) Vr))))))) (Proc.devRef .tc Cert.ReferenceIdeal.main_v40)
    ∧ (after (Cert.KernelIdeal.Gen.hostOps1_6 (F := Ideal)) (after (Cert.KernelIdeal.Gen.hostOps1_5 (F := Ideal)) (after (Cert.KernelIdeal.Gen.hostOps1_4 (F := Ideal)) (after (Cert.KernelIdeal.Gen.hostOps1_3 (F := Ideal)) (after (Cert.KernelIdeal.Gen.hostOps1_2 (F := Ideal)) (after (Cert.KernelIdeal.Gen.hostOps1_1 (F := Ideal)) (after (Cert.KernelIdeal.Gen.hostOps1 (F := Ideal)) Vk))))))) (Proc.devRef .tc Cert.KernelIdeal.main_v37) = (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) Vr))))))) (Proc.devRef .tc Cert.ReferenceIdeal.main_v40) := by
  obtain ⟨h16, h19, hc, h1, a7, a8, a12, a2, a13, a3⟩ := st0 Vk Vr h15 h1 a7 a8 a12 a2 a13 a3
  obtain ⟨h20, h16, h19, h1, a7, a8, a12, a2, a13, a3⟩ := st1 _ _ h16 h19 hc h1 a7 a8 a12 a2 a13 a3
  obtain ⟨h37, h39, h42, a2, a13, a3⟩ := st2 _ _ h20 h16 h19 h1 a7 a8 a12 a2 a13 a3
  obtain ⟨h43, h37, h39, a13, a3⟩ := st3 _ _ h42 h37 h39 a2 a13 a3
  obtain ⟨h48, h50, h53, h37, a3⟩ := st4 _ _ h43 h39 h37 a13 a3
  obtain ⟨h54, h37, h50, h48⟩ := st5 _ _ h53 h50 h37 a3 h48
  exact st6 _ _ h54 h50 h37 h48

end Cert.Bridge

end
-- ==== Proof.Bridge.B3a.lean ====
/-
  The third layer's host operations in the two programs, compared stretch against stretch over arbitrary
  valuations that agree on each stretch's inputs: the batch normalisation of the second region's output, the
  join with the earlier activations, and the first gathered weight tensor.
-/
import proofs.«117565_j22136261443720_1_alg».proof.Proof.Bridge.Defs

set_option maxRecDepth 16384

noncomputable section

namespace Cert.Bridge

open Idealize.ShloMosaic Idealize.ShloMosaic.TcCoe Idealize.ShloMosaic.StableHlo

/-- The second region's output reshaped to channels, its per-channel mean, and the count constant. -/
theorem S1 (Vk : KV) (Vr : RV)
    (h63 : Vk (Proc.devRef .tc Cert.KernelIdeal.main_v63) = Vr (Proc.devRef .tc Cert.ReferenceIdeal.main_v69)) :
    after (Cert.KernelIdeal.Gen.hostOps2 (F := Ideal)) Vk (Proc.devRef .tc Cert.KernelIdeal.main_v64)
        = after (Cert.ReferenceIdeal.RefRun.r12 (F := Ideal)) Vr (Proc.devRef .tc Cert.ReferenceIdeal.main_v70)
    ∧ after (Cert.KernelIdeal.Gen.hostOps2 (F := Ideal)) Vk (Proc.devRef .tc Cert.KernelIdeal.main_v67)
        = after (Cert.ReferenceIdeal.RefRun.r12 (F := Ideal)) Vr (Proc.devRef .tc Cert.ReferenceIdeal.main_v73)
    ∧ after (Cert.KernelIdeal.Gen.hostOps2 (F := Ideal)) Vk (Proc.devRef .tc Cert.KernelIdeal.main_c_7)
        = after (Cert.ReferenceIdeal.RefRun.r12 (F := Ideal)) Vr (Proc.devRef .tc Cert.ReferenceIdeal.main_c_9) := by
  refine ⟨?_, ?_, ?_⟩
  · after_results_simp; rw [h63]; first | done | rfl
  · after_results_simp; rw [h63]; first | done | rfl
  · after_results_simp

/-- The per-channel variance. -/
theorem S2 (Vk : KV) (Vr : RV)
    (h64 : Vk (Proc.devRef .tc Cert.KernelIdeal.main_v64) = Vr (Proc.devRef .tc Cert.ReferenceIdeal.main_v70))
    (hc7 : Vk (Proc.devRef .tc Cert.KernelIdeal.main_c_7) = Vr (Proc.devRef .tc Cert.ReferenceIdeal.main_c_9)) :
    after (Cert.KernelIdeal.Gen.hostOps2_1 (F := Ideal)) Vk (Proc.devRef .tc Cert.KernelIdeal.main_v68)
        = after (Cert.ReferenceIdeal.RefRun.r13 (F := Ideal)) Vr (Proc.devRef .tc Cert.ReferenceIdeal.main_v74) := by
  after_results_simp; rw [h64, hc7]; first | done | rfl

/-- The kernel program's and the reference's third stretch, cut before the join: seventeen operations, then seven. -/
theorem k_split3 (V : KV) : after (Cert.KernelIdeal.Gen.hostOps2_2 (F := Ideal)) V = after (List.drop 17 (Cert.KernelIdeal.Gen.hostOps2_2 (F := Ideal))) (after (List.take 17 (Cert.KernelIdeal.Gen.hostOps2_2 (F := Ideal))) V) := rfl
theorem r_split3 (V : RV) : after (Cert.ReferenceIdeal.RefRun.r14 (F := Ideal)) V = after (List.drop 17 (Cert.ReferenceIdeal.RefRun.r14 (F := Ideal))) (after (List.take 17 (Cert.ReferenceIdeal.RefRun.r14 (F := Ideal))) V) := rfl

/-- The normalised, scaled and shifted activations, flattened. -/
theorem S3a (Vk : KV) (Vr : RV)
    (h67 : Vk (Proc.devRef .tc Cert.KernelIdeal.main_v67) = Vr (Proc.devRef .tc Cert.ReferenceIdeal.main_v73))
    (h64 : Vk (Proc.devRef .tc Cert.KernelIdeal.main_v64) = Vr (Proc.devRef .tc Cert.ReferenceIdeal.main_v70))
    (h68 : Vk (Proc.devRef .tc Cert.KernelIdeal.main_v68) = Vr (Proc.devRef .tc Cert.ReferenceIdeal.main_v74))
    (a9 : Vk (Proc.devRef .tc Cert.KernelIdeal.main_arg9) = Vr (Proc.devRef .tc Cert.ReferenceIdeal.main_arg9))
    (a10 : Vk (Proc.devRef .tc Cert.KernelIdeal.main_arg10) = Vr (Proc.devRef .tc Cert.ReferenceIdeal.main_arg10)) :
    after (List.take 17 (Cert.KernelIdeal.Gen.hostOps2_2 (F := Ideal))) Vk (Proc.devRef .tc Cert.KernelIdeal.main_v84)
      = after (List.take 17 (Cert.ReferenceIdeal.RefRun.r14 (F := Ideal))) Vr (Proc.devRef .tc Cert.ReferenceIdeal.main_v90) := by
  simp only [List.take_succ_cons, List.take_zero]
  after_results_simp
  rw [h67, h64, h68, a9, a10]
  first | done | rfl

/-- Those activations joined to the earlier layers' activations. -/
theorem S3b (Vk : KV) (Vr : RV)
    (h84 : Vk (Proc.devRef .tc Cert.KernelIdeal.main_v84) = Vr (Proc.devRef .tc Cert.ReferenceIdeal.main_v90))
    (h37 : Vk (Proc.devRef .tc Cert.KernelIdeal.main_v37) = Vr (Proc.devRef .tc Cert.ReferenceIdeal.main_v40)) :
    after (List.drop 17 (Cert.KernelIdeal.Gen.hostOps2_2 (F := Ideal))) Vk (Proc.devRef .tc Cert.KernelIdeal.main_v85)
      = after (List.drop 17 (Cert.ReferenceIdeal.RefRun.r14 (F := Ideal))) Vr (Proc.devRef .tc Cert.ReferenceIdeal.main_v91) := by
  simp only [List.drop_succ_cons, List.drop_zero]
  after_results_simp
  rw [h84, h37]
  first | done | rfl

/-- The joined activations; the third pattern's signs and gather indices. -/
theorem S3 (Vk : KV) (Vr : RV)
    (h67 : Vk (Proc.devRef .tc Cert.KernelIdeal.main_v67) = Vr (Proc.devRef .tc Cert.ReferenceIdeal.main_v73))
    (h64 : Vk (Proc.devRef .tc Cert.KernelIdeal.main_v64) = Vr (Proc.devRef .tc Cert.ReferenceIdeal.main_v70))
    (h68 : Vk (Proc.devRef .tc Cert.KernelIdeal.main_v68) = Vr (Proc.devRef .tc Cert.ReferenceIdeal.main_v74))
    (a9 : Vk (Proc.devRef .tc Cert.KernelIdeal.main_arg9) = Vr (Proc.devRef .tc Cert.ReferenceIdeal.main_arg9))
    (a10 : Vk (Proc.devRef .tc Cert.KernelIdeal.main_arg10) = Vr (Proc.devRef .tc Cert.ReferenceIdeal.main_arg10))
    (h37 : Vk (Proc.devRef .tc Cert.KernelIdeal.main_v37) = Vr (Proc.devRef .tc Cert.ReferenceIdeal.main_v40))
    (a14 : Vk (Proc.devRef .tc Cert.KernelIdeal.main_arg14) = Vr (Proc.devRef .tc Cert.ReferenceIdeal.main_arg14)) :
    after (Cert.KernelIdeal.Gen.hostOps2_2 (F := Ideal)) Vk (Proc.devRef .tc Cert.KernelIdeal.main_v85)
        = after (Cert.ReferenceIdeal.RefRun.r14 (F := Ideal)) Vr (Proc.devRef .tc Cert.ReferenceIdeal.main_v91)
    ∧ after (Cert.KernelIdeal.Gen.hostOps2_2 (F := Ideal)) Vk (Proc.devRef .tc Cert.KernelIdeal.main_v87)
        = after (Cert.ReferenceIdeal.RefRun.r14 (F := Ideal)) Vr (Proc.devRef .tc Cert.ReferenceIdeal.main_v93)
    ∧ after (Cert.KernelIdeal.Gen.hostOps2_2 (F := Ideal)) Vk (Proc.devRef .tc Cert.KernelIdeal.main_v90)
        = after (Cert.ReferenceIdeal.RefRun.r14 (F := Ideal)) Vr (Proc.devRef .tc Cert.ReferenceIdeal.main_v96) := by
  refine ⟨?_, ?_, ?_⟩
  · have e84 := S3a Vk Vr h67 h64 h68 a9 a10
    have k37 : after (List.take 17 (Cert.KernelIdeal.Gen.hostOps2_2 (F := Ideal))) Vk (Proc.devRef .tc Cert.KernelIdeal.main_v37) = Vk (Proc.devRef .tc Cert.KernelIdeal.main_v37) := by
      simp only [List.take_succ_cons, List.take_zero]; after_results_simp
    have r40 : after (List.take 17 (Cert.ReferenceIdeal.RefRun.r14 (F := Ideal))) Vr (Proc.devRef .tc Cert.ReferenceIdeal.main_v40) = Vr (Proc.devRef .tc Cert.ReferenceIdeal.main_v40) := by
      simp only [List.take_succ_cons, List.take_zero]; after_results_simp
    rw [k_split3 Vk, r_split3 Vr]
    exact S3b _ _ e84 (k37.trans (h37.trans r40.symm))
  · after_results_simp; rw [a14]; first | done | rfl
  · after_results_simp; rw [a14]; first | done | rfl

/-- The weights gathered by the third pattern. -/
theorem S4 (Vk : KV) (Vr : RV)
    (h90 : Vk (Proc.devRef .tc Cert.KernelIdeal.main_v90) = Vr (Proc.devRef .tc Cert.ReferenceIdeal.main_v96))
    (a4 : Vk (Proc.devRef .tc Cert.KernelIdeal.main_arg4) = Vr (Proc.devRef .tc Cert.ReferenceIdeal.main_arg4)) :
    after (Cert.KernelIdeal.Gen.hostOps2_3 (F := Ideal)) Vk (Proc.devRef .tc Cert.KernelIdeal.main_v91)
        = after (Cert.ReferenceIdeal.RefRun.r15 (F := Ideal)) Vr (Proc.devRef .tc Cert.ReferenceIdeal.main_v97) := by
  after_results_simp; rw [h90, a4]; first | done | rfl

end Cert.Bridge

end
-- ==== Proof.Bridge.B3b.lean ====
/-
  The third layer's host operations in the two programs, compared stretch against stretch over arbitrary
  valuations that agree on each stretch's inputs: the first two weight matrices (the same signed gathered weights,
  laid out as inputs × outputs by one program and as outputs × inputs by the other) and the gathers between them.
-/
import proofs.«117565_j22136261443720_1_alg».proof.Proof.Bridge.Defs
import proofs.«117565_j22136261443720_1_alg».proof.Proof.LibWeightLayout
set_option maxRecDepth 16384

noncomputable section

namespace Cert.Bridge

open Idealize.ShloMosaic Idealize.ShloMosaic.TcCoe Idealize.ShloMosaic.StableHlo

/-- A 4096×4096 matrix transposes to a 4096×4096 matrix, a 4096×1024 matrix to a 1024×4096 matrix. -/
theorem hT44 : (⟨2, ![4096, 4096]⟩ : Shape).Transposes [1, 0] ⟨2, ![4096, 4096]⟩ := by decide
theorem hT41 : (⟨2, ![4096, 1024]⟩ : Shape).Transposes [1, 0] ⟨2, ![1024, 4096]⟩ := by decide

/-- The first weight matrix: the kernel program lays the signed gathered weights out as inputs × outputs, the reference as outputs × inputs; the fourth pattern's signs and gather indices. -/
theorem S5 (Vk : KV) (Vr : RV)
    (h87 : Vk (Proc.devRef .tc Cert.KernelIdeal.main_v87) = Vr (Proc.devRef .tc Cert.ReferenceIdeal.main_v93))
    (h91 : Vk (Proc.devRef .tc Cert.KernelIdeal.main_v91) = Vr (Proc.devRef .tc Cert.ReferenceIdeal.main_v97))
    (a15 : Vk (Proc.devRef .tc Cert.KernelIdeal.main_arg15) = Vr (Proc.devRef .tc Cert.ReferenceIdeal.main_arg15)) :
    after (Cert.KernelIdeal.Gen.hostOps2_4 (F := Ideal)) Vk (Proc.devRef .tc Cert.KernelIdeal.main_v96)
        = transpose (s := ⟨2, ![4096, 4096]⟩) ⟨2, ![4096, 4096]⟩ [1, 0] (after (Cert.ReferenceIdeal.RefRun.r16 (F := Ideal)) Vr (Proc.devRef .tc Cert.ReferenceIdeal.main_v102)) hT44
    ∧ after (Cert.KernelIdeal.Gen.hostOps2_4 (F := Ideal)) Vk (Proc.devRef .tc Cert.KernelIdeal.main_v98)
        = after (Cert.ReferenceIdeal.RefRun.r16 (F := Ideal)) Vr (Proc.devRef .tc Cert.ReferenceIdeal.main_v104)
    ∧ after (Cert.KernelIdeal.Gen.hostOps2_4 (F := Ideal)) Vk (Proc.devRef .tc Cert.KernelIdeal.main_v101)
        = after (Cert.ReferenceIdeal.RefRun.r16 (F := Ideal)) Vr (Proc.devRef .tc Cert.ReferenceIdeal.main_v107) := by
  refine ⟨?_, ?_, ?_⟩
  · after_results_simp; rw [h87, h91]; exact Cert.Lib.WeightLayout.layout64 _ _ _ _ _ _
  · after_results_simp; rw [a15]; first | done | rfl
  · after_results_simp; rw [a15]; first | done | rfl

/-- The weights gathered by the fourth pattern. -/
theorem S6 (Vk : KV) (Vr : RV)
    (h101 : Vk (Proc.devRef .tc Cert.KernelIdeal.main_v101) = Vr (Proc.devRef .tc Cert.ReferenceIdeal.main_v107))
    (a5 : Vk (Proc.devRef .tc Cert.KernelIdeal.main_arg5) = Vr (Proc.devRef .tc Cert.ReferenceIdeal.main_arg5)) :
    after (Cert.KernelIdeal.Gen.hostOps2_5 (F := Ideal)) Vk (Proc.devRef .tc Cert.KernelIdeal.main_v102)
        = after (Cert.ReferenceIdeal.RefRun.r17 (F := Ideal)) Vr (Proc.devRef .tc Cert.ReferenceIdeal.main_v108) := by
  after_results_simp; rw [h101, a5]; first | done | rfl

/-- The second weight matrix, laid out both ways; the fifth pattern's signs and gather indices. -/
theorem S7 (Vk : KV) (Vr : RV)
    (h98 : Vk (Proc.devRef .tc Cert.KernelIdeal.main_v98) = Vr (Proc.devRef .tc Cert.ReferenceIdeal.main_v104))
    (h102 : Vk (Proc.devRef .tc Cert.KernelIdeal.main_v102) = Vr (Proc.devRef .tc Cert.ReferenceIdeal.main_v108))
    (a16 : Vk (Proc.devRef .tc Cert.KernelIdeal.main_arg16) = Vr (Proc.devRef .tc Cert.ReferenceIdeal.main_arg16)) :
    after (Cert.KernelIdeal.Gen.hostOps2_6 (F := Ideal)) Vk (Proc.devRef .tc Cert.KernelIdeal.main_v107)
        = transpose (s := ⟨2, ![4096, 4096]⟩) ⟨2, ![4096, 4096]⟩ [1, 0] (after (Cert.ReferenceIdeal.RefRun.r18 (F := Ideal)) Vr (Proc.devRef .tc Cert.ReferenceIdeal.main_v113)) hT44
    ∧ after (Cert.KernelIdeal.Gen.hostOps2_6 (F := Ideal)) Vk (Proc.devRef .tc Cert.KernelIdeal.main_v109)
        = after (Cert.ReferenceIdeal.RefRun.r18 (F := Ideal)) Vr (Proc.devRef .tc Cert.ReferenceIdeal.main_v115)
    ∧ after (Cert.KernelIdeal.Gen.hostOps2_6 (F := Ideal)) Vk (Proc.devRef .tc Cert.KernelIdeal.main_v112)
        = after (Cert.ReferenceIdeal.RefRun.r18 (F := Ideal)) Vr (Proc.devRef .tc Cert.ReferenceIdeal.main_v118) := by
  refine ⟨?_, ?_, ?_⟩
  · after_results_simp; rw [h98, h102]; exact Cert.Lib.WeightLayout.layout64 _ _ _ _ _ _
  · after_results_simp; rw [a16]; first | done | rfl
  · after_results_simp; rw [a16]; first | done | rfl

/-- The weights gathered by the fifth pattern. -/
theorem S8 (Vk : KV) (Vr : RV)
    (h112 : Vk (Proc.devRef .tc Cert.KernelIdeal.main_v112) = Vr (Proc.devRef .tc Cert.ReferenceIdeal.main_v118))
    (a6 : Vk (Proc.devRef .tc Cert.KernelIdeal.main_arg6) = Vr (Proc.devRef .tc Cert.ReferenceIdeal.main_arg6)) :
    after (Cert.KernelIdeal.Gen.hostOps2_7 (F := Ideal)) Vk (Proc.devRef .tc Cert.KernelIdeal.main_v113)
        = after (Cert.ReferenceIdeal.RefRun.r19 (F := Ideal)) Vr (Proc.devRef .tc Cert.ReferenceIdeal.main_v119) := by
  after_results_simp; rw [h112, a6]; first | done | rfl

end Cert.Bridge

end
-- ==== Proof.Bridge.B3k.lean ====
/-
  The buffers each stretch of the third layer's host operations in the kernel program writes, listed, so that a
  buffer outside the list is known to keep its contents through the stretch.
-/
import proofs.«117565_j22136261443720_1_alg».proof.Proof.Bridge.Defs

set_option maxRecDepth 16384

noncomputable section

namespace Cert.Bridge

open Idealize.ShloMosaic Idealize.ShloMosaic.TcCoe Idealize.ShloMosaic.StableHlo

/-- An operation whose written set is the single buffer `y`, with `y` in the list `W`, writes inside `W`. -/
theorem k_writes_sub_of_mem {W : List (Ref Cert.KernelIdeal.sig .tc)} {op : HloOp Cert.KernelIdeal.τ Cert.KernelIdeal.sig (Elt Ideal)} (y : Ref Cert.KernelIdeal.sig .tc)
    (h : op.writes = {Proc.devRef .tc y}) (hy : y ∈ W) :
    op.writes ⊆ (W.map (Proc.devRef (τ := Cert.KernelIdeal.τ) .tc)).toFinset := by
  rw [h, Finset.singleton_subset_iff, List.mem_toFinset]
  exact List.mem_map_of_mem hy

/-- The buffers stretch 0 writes. -/
abbrev k3_0_W : List (Ref Cert.KernelIdeal.sig .tc) := [Cert.KernelIdeal.main_v64, Cert.KernelIdeal.main_cst_5, Cert.KernelIdeal.main_v65, Cert.KernelIdeal.main_cst_6, Cert.KernelIdeal.main_v66, Cert.KernelIdeal.main_v67, Cert.KernelIdeal.main_c_7]
theorem k3_0_writes : (Cert.KernelIdeal.Gen.hostOps2 (F := Ideal)).Forall fun op => op.writes ⊆ (k3_0_W.map (Proc.devRef (τ := Cert.KernelIdeal.τ) .tc)).toFinset :=
  ⟨k_writes_sub_of_mem Cert.KernelIdeal.main_v64 rfl (by decide),
    k_writes_sub_of_mem Cert.KernelIdeal.main_cst_5 rfl (by decide),
    k_writes_sub_of_mem Cert.KernelIdeal.main_v65 rfl (by decide),
    k_writes_sub_of_mem Cert.KernelIdeal.main_cst_6 rfl (by decide),
    k_writes_sub_of_mem Cert.KernelIdeal.main_v66 rfl (by decide),
    k_writes_sub_of_mem Cert.KernelIdeal.main_v67 rfl (by decide),
    k_writes_sub_of_mem Cert.KernelIdeal.main_c_7 rfl (by decide)⟩
/-- A buffer stretch 0 does not write keeps its contents through it. -/
theorem k3_0_keep (V : KV) (r : Ref Cert.KernelIdeal.sig .tc) (h : r ∉ k3_0_W) :
    after (Cert.KernelIdeal.Gen.hostOps2 (F := Ideal)) V (Proc.devRef .tc r) = V (Proc.devRef .tc r) :=
  after_of_writes_sub _ V k3_0_writes h

/-- The buffers stretch 1 writes. -/
abbrev k3_1_W : List (Ref Cert.KernelIdeal.sig .tc) := [Cert.KernelIdeal.main_call4_cst, Cert.KernelIdeal.main_call4_v0, Cert.KernelIdeal.main_call4_v1, Cert.KernelIdeal.main_call4_cst_0, Cert.KernelIdeal.main_call4_v2, Cert.KernelIdeal.main_call4_v3, Cert.KernelIdeal.main_call4_v4, Cert.KernelIdeal.main_call4_v5, Cert.KernelIdeal.main_call4_v6, Cert.KernelIdeal.main_call4_v7, Cert.KernelIdeal.main_call4_cst_1, Cert.KernelIdeal.main_call4_v8, Cert.KernelIdeal.main_call4_cst_2, Cert.KernelIdeal.main_call4_v9, Cert.KernelIdeal.main_call4_v10, Cert.KernelIdeal.main_call4_v11, Cert.KernelIdeal.main_call4_cst_3, Cert.KernelIdeal.main_call4_v12, Cert.KernelIdeal.main_call4_cst_4, Cert.KernelIdeal.main_call4_call0_v0, Cert.KernelIdeal.main_call4_call0_v1, Cert.KernelIdeal.main_v68]
theorem k3_1_writes : (Cert.KernelIdeal.Gen.hostOps2_1 (F := Ideal)).Forall fun op => op.writes ⊆ (k3_1_W.map (Proc.devRef (τ := Cert.KernelIdeal.τ) .tc)).toFinset :=
  ⟨k_writes_sub_of_mem Cert.KernelIdeal.main_call4_cst rfl (by decide),
    k_writes_sub_of_mem Cert.KernelIdeal.main_call4_v0 rfl (by decide),
    k_writes_sub_of_mem Cert.KernelIdeal.main_call4_v1 rfl (by decide),
    k_writes_sub_of_mem Cert.KernelIdeal.main_call4_cst_0 rfl (by decide),
    k_writes_sub_of_mem Cert.KernelIdeal.main_call4_v2 rfl (by decide),
    k_writes_sub_of_mem Cert.KernelIdeal.main_call4_v3 rfl (by decide),
    k_writes_sub_of_mem Cert.KernelIdeal.main_call4_v4 rfl (by decide),
    k_writes_sub_of_mem Cert.KernelIdeal.main_call4_v5 rfl (by decide),
    k_writes_sub_of_mem Cert.KernelIdeal.main_call4_v6 rfl (by decide),
    k_writes_sub_of_mem Cert.KernelIdeal.main_call4_v7 rfl (by decide),
    k_writes_sub_of_mem Cert.KernelIdeal.main_call4_cst_1 rfl (by decide),
    k_writes_sub_of_mem Cert.KernelIdeal.main_call4_v8 rfl (by decide),
    k_writes_sub_of_mem Cert.KernelIdeal.main_call4_cst_2 rfl (by decide),
    k_writes_sub_of_mem Cert.KernelIdeal.main_call4_v9 rfl (by decide),
    k_writes_sub_of_mem Cert.KernelIdeal.main_call4_v10 rfl (by decide),
    k_writes_sub_of_mem Cert.KernelIdeal.main_call4_v11 rfl (by decide),
    k_writes_sub_of_mem Cert.KernelIdeal.main_call4_cst_3 rfl (by decide),
    k_writes_sub_of_mem Cert.KernelIdeal.main_call4_v12 rfl (by decide),
    k_writes_sub_of_mem Cert.KernelIdeal.main_call4_cst_4 rfl (by decide),
    k_writes_sub_of_mem Cert.KernelIdeal.main_call4_call0_v0 rfl (by decide),
    k_writes_sub_of_mem Cert.KernelIdeal.main_call4_call0_v1 rfl (by decide),
    k_writes_sub_of_mem Cert.KernelIdeal.main_v68 rfl (by decide)⟩
/-- A buffer stretch 1 does not write keeps its contents through it. -/
theorem k3_1_keep (V : KV) (r : Ref Cert.KernelIdeal.sig .tc) (h : r ∉ k3_1_W) :
    after (Cert.KernelIdeal.Gen.hostOps2_1 (F := Ideal)) V (Proc.devRef .tc r) = V (Proc.devRef .tc r) :=
  after_of_writes_sub _ V k3_1_writes h

/-- The buffers stretch 2 writes. -/
abbrev k3_2_W : List (Ref Cert.KernelIdeal.sig .tc) := [Cert.KernelIdeal.main_v69, Cert.KernelIdeal.main_v70, Cert.KernelIdeal.main_v71, Cert.KernelIdeal.main_cst_8, Cert.KernelIdeal.main_v72, Cert.KernelIdeal.main_v73, Cert.KernelIdeal.main_v74, Cert.KernelIdeal.main_v75, Cert.KernelIdeal.main_v76, Cert.KernelIdeal.main_v77, Cert.KernelIdeal.main_v78, Cert.KernelIdeal.main_v79, Cert.KernelIdeal.main_v80, Cert.KernelIdeal.main_v81, Cert.KernelIdeal.main_v82, Cert.KernelIdeal.main_v83, Cert.KernelIdeal.main_v84, Cert.KernelIdeal.main_v85, Cert.KernelIdeal.main_v86, Cert.KernelIdeal.main_v87, Cert.KernelIdeal.main_v88, Cert.KernelIdeal.main_c_9, Cert.KernelIdeal.main_v89, Cert.KernelIdeal.main_v90]
theorem k3_2_writes : (Cert.KernelIdeal.Gen.hostOps2_2 (F := Ideal)).Forall fun op => op.writes ⊆ (k3_2_W.map (Proc.devRef (τ := Cert.KernelIdeal.τ) .tc)).toFinset :=
  ⟨k_writes_sub_of_mem Cert.KernelIdeal.main_v69 rfl (by decide),
    k_writes_sub_of_mem Cert.KernelIdeal.main_v70 rfl (by decide),
    k_writes_sub_of_mem Cert.KernelIdeal.main_v71 rfl (by decide),
    k_writes_sub_of_mem Cert.KernelIdeal.main_cst_8 rfl (by decide),
    k_writes_sub_of_mem Cert.KernelIdeal.main_v72 rfl (by decide),
    k_writes_sub_of_mem Cert.KernelIdeal.main_v73 rfl (by decide),
    k_writes_sub_of_mem Cert.KernelIdeal.main_v74 rfl (by decide),
    k_writes_sub_of_mem Cert.KernelIdeal.main_v75 rfl (by decide),
    k_writes_sub_of_mem Cert.KernelIdeal.main_v76 rfl (by decide),
    k_writes_sub_of_mem Cert.KernelIdeal.main_v77 rfl (by decide),
    k_writes_sub_of_mem Cert.KernelIdeal.main_v78 rfl (by decide),
    k_writes_sub_of_mem Cert.KernelIdeal.main_v79 rfl (by decide),
    k_writes_sub_of_mem Cert.KernelIdeal.main_v80 rfl (by decide),
    k_writes_sub_of_mem Cert.KernelIdeal.main_v81 rfl (by decide),
    k_writes_sub_of_mem Cert.KernelIdeal.main_v82 rfl (by decide),
    k_writes_sub_of_mem Cert.KernelIdeal.main_v83 rfl (by decide),
    k_writes_sub_of_mem Cert.KernelIdeal.main_v84 rfl (by decide),
    k_writes_sub_of_mem Cert.KernelIdeal.main_v85 rfl (by decide),
    k_writes_sub_of_mem Cert.KernelIdeal.main_v86 rfl (by decide),
    k_writes_sub_of_mem Cert.KernelIdeal.main_v87 rfl (by decide),
    k_writes_sub_of_mem Cert.KernelIdeal.main_v88 rfl (by decide),
    k_writes_sub_of_mem Cert.KernelIdeal.main_c_9 rfl (by decide),
    k_writes_sub_of_mem Cert.KernelIdeal.main_v89 rfl (by decide),
    k_writes_sub_of_mem Cert.KernelIdeal.main_v90 rfl (by decide)⟩
/-- A buffer stretch 2 does not write keeps its contents through it. -/
theorem k3_2_keep (V : KV) (r : Ref Cert.KernelIdeal.sig .tc) (h : r ∉ k3_2_W) :
    after (Cert.KernelIdeal.Gen.hostOps2_2 (F := Ideal)) V (Proc.devRef .tc r) = V (Proc.devRef .tc r) :=
  after_of_writes_sub _ V k3_2_writes h

/-- The buffers stretch 3 writes. -/
abbrev k3_3_W : List (Ref Cert.KernelIdeal.sig .tc) := [Cert.KernelIdeal.main_call5_c, Cert.KernelIdeal.main_call5_v0, Cert.KernelIdeal.main_call5_v1, Cert.KernelIdeal.main_call5_c_0, Cert.KernelIdeal.main_call5_v2, Cert.KernelIdeal.main_call5_v3, Cert.KernelIdeal.main_call5_v4, Cert.KernelIdeal.main_call5_v5, Cert.KernelIdeal.main_call5_c_1, Cert.KernelIdeal.main_call5_c_2, Cert.KernelIdeal.main_call5_v6, Cert.KernelIdeal.main_call5_v7, Cert.KernelIdeal.main_call5_v8, Cert.KernelIdeal.main_call5_v9, Cert.KernelIdeal.main_call5_v10, Cert.KernelIdeal.main_call5_v11, Cert.KernelIdeal.main_call5_c_3, Cert.KernelIdeal.main_call5_v12, Cert.KernelIdeal.main_call5_v13, Cert.KernelIdeal.main_call5_v14, Cert.KernelIdeal.main_call5_cst, Cert.KernelIdeal.main_call5_v15, Cert.KernelIdeal.main_v91]
theorem k3_3_writes : (Cert.KernelIdeal.Gen.hostOps2_3 (F := Ideal)).Forall fun op => op.writes ⊆ (k3_3_W.map (Proc.devRef (τ := Cert.KernelIdeal.τ) .tc)).toFinset :=
  ⟨k_writes_sub_of_mem Cert.KernelIdeal.main_call5_c rfl (by decide),
    k_writes_sub_of_mem Cert.KernelIdeal.main_call5_v0 rfl (by decide),
    k_writes_sub_of_mem Cert.KernelIdeal.main_call5_v1 rfl (by decide),
    k_writes_sub_of_mem Cert.KernelIdeal.main_call5_c_0 rfl (by decide),
    k_writes_sub_of_mem Cert.KernelIdeal.main_call5_v2 rfl (by decide),
    k_writes_sub_of_mem Cert.KernelIdeal.main_call5_v3 rfl (by decide),
    k_writes_sub_of_mem Cert.KernelIdeal.main_call5_v4 rfl (by decide),
    k_writes_sub_of_mem Cert.KernelIdeal.main_call5_v5 rfl (by decide),
    k_writes_sub_of_mem Cert.KernelIdeal.main_call5_c_1 rfl (by decide),
    k_writes_sub_of_mem Cert.KernelIdeal.main_call5_c_2 rfl (by decide),
    k_writes_sub_of_mem Cert.KernelIdeal.main_call5_v6 rfl (by decide),
    k_writes_sub_of_mem Cert.KernelIdeal.main_call5_v7 rfl (by decide),
    k_writes_sub_of_mem Cert.KernelIdeal.main_call5_v8 rfl (by decide),
    k_writes_sub_of_mem Cert.KernelIdeal.main_call5_v9 rfl (by decide),
    k_writes_sub_of_mem Cert.KernelIdeal.main_call5_v10 rfl (by decide),
    k_writes_sub_of_mem Cert.KernelIdeal.main_call5_v11 rfl (by decide),
    k_writes_sub_of_mem Cert.KernelIdeal.main_call5_c_3 rfl (by decide),
    k_writes_sub_of_mem Cert.KernelIdeal.main_call5_v12 rfl (by decide),
    k_writes_sub_of_mem Cert.KernelIdeal.main_call5_v13 rfl (by decide),
    k_writes_sub_of_mem Cert.KernelIdeal.main_call5_v14 rfl (by decide),
    k_writes_sub_of_mem Cert.KernelIdeal.main_call5_cst rfl (by decide),
    k_writes_sub_of_mem Cert.KernelIdeal.main_call5_v15 rfl (by decide),
    k_writes_sub_of_mem Cert.KernelIdeal.main_v91 rfl (by decide)⟩
/-- A buffer stretch 3 does not write keeps its contents through it. -/
theorem k3_3_keep (V : KV) (r : Ref Cert.KernelIdeal.sig .tc) (h : r ∉ k3_3_W) :
    after (Cert.KernelIdeal.Gen.hostOps2_3 (F := Ideal)) V (Proc.devRef .tc r) = V (Proc.devRef .tc r) :=
  after_of_writes_sub _ V k3_3_writes h

/-- The buffers stretch 4 writes. -/
abbrev k3_4_W : List (Ref Cert.KernelIdeal.sig .tc) := [Cert.KernelIdeal.main_v92, Cert.KernelIdeal.main_v93, Cert.KernelIdeal.main_v94, Cert.KernelIdeal.main_v95, Cert.KernelIdeal.main_v96, Cert.KernelIdeal.main_v97, Cert.KernelIdeal.main_v98, Cert.KernelIdeal.main_v99, Cert.KernelIdeal.main_c_10, Cert.KernelIdeal.main_v100, Cert.KernelIdeal.main_v101]
theorem k3_4_writes : (Cert.KernelIdeal.Gen.hostOps2_4 (F := Ideal)).Forall fun op => op.writes ⊆ (k3_4_W.map (Proc.devRef (τ := Cert.KernelIdeal.τ) .tc)).toFinset :=
  ⟨k_writes_sub_of_mem Cert.KernelIdeal.main_v92 rfl (by decide),
    k_writes_sub_of_mem Cert.KernelIdeal.main_v93 rfl (by decide),
    k_writes_sub_of_mem Cert.KernelIdeal.main_v94 rfl (by decide),
    k_writes_sub_of_mem Cert.KernelIdeal.main_v95 rfl (by decide),
    k_writes_sub_of_mem Cert.KernelIdeal.main_v96 rfl (by decide),
    k_writes_sub_of_mem Cert.KernelIdeal.main_v97 rfl (by decide),
    k_writes_sub_of_mem Cert.KernelIdeal.main_v98 rfl (by decide),
    k_writes_sub_of_mem Cert.KernelIdeal.main_v99 rfl (by decide),
    k_writes_sub_of_mem Cert.KernelIdeal.main_c_10 rfl (by decide),
    k_writes_sub_of_mem Cert.KernelIdeal.main_v100 rfl (by decide),
    k_writes_sub_of_mem Cert.KernelIdeal.main_v101 rfl (by decide)⟩
/-- A buffer stretch 4 does not write keeps its contents through it. -/
theorem k3_4_keep (V : KV) (r : Ref Cert.KernelIdeal.sig .tc) (h : r ∉ k3_4_W) :
    after (Cert.KernelIdeal.Gen.hostOps2_4 (F := Ideal)) V (Proc.devRef .tc r) = V (Proc.devRef .tc r) :=
  after_of_writes_sub _ V k3_4_writes h

/-- The buffers stretch 5 writes. -/
abbrev k3_5_W : List (Ref Cert.KernelIdeal.sig .tc) := [Cert.KernelIdeal.main_call6_c, Cert.KernelIdeal.main_call6_v0, Cert.KernelIdeal.main_call6_v1, Cert.KernelIdeal.main_call6_c_0, Cert.KernelIdeal.main_call6_v2, Cert.KernelIdeal.main_call6_v3, Cert.KernelIdeal.main_call6_v4, Cert.KernelIdeal.main_call6_v5, Cert.KernelIdeal.main_call6_c_1, Cert.KernelIdeal.main_call6_c_2, Cert.KernelIdeal.main_call6_v6, Cert.KernelIdeal.main_call6_v7, Cert.KernelIdeal.main_call6_v8, Cert.KernelIdeal.main_call6_v9, Cert.KernelIdeal.main_call6_v10, Cert.KernelIdeal.main_call6_v11, Cert.KernelIdeal.main_call6_c_3, Cert.KernelIdeal.main_call6_v12, Cert.KernelIdeal.main_call6_v13, Cert.KernelIdeal.main_call6_v14, Cert.KernelIdeal.main_call6_cst, Cert.KernelIdeal.main_call6_v15, Cert.KernelIdeal.main_v102]
theorem k3_5_writes : (Cert.KernelIdeal.Gen.hostOps2_5 (F := Ideal)).Forall fun op => op.writes ⊆ (k3_5_W.map (Proc.devRef (τ := Cert.KernelIdeal.τ) .tc)).toFinset :=
  ⟨k_writes_sub_of_mem Cert.KernelIdeal.main_call6_c rfl (by decide),
    k_writes_sub_of_mem Cert.KernelIdeal.main_call6_v0 rfl (by decide),
    k_writes_sub_of_mem Cert.KernelIdeal.main_call6_v1 rfl (by decide),
    k_writes_sub_of_mem Cert.KernelIdeal.main_call6_c_0 rfl (by decide),
    k_writes_sub_of_mem Cert.KernelIdeal.main_call6_v2 rfl (by decide),
    k_writes_sub_of_mem Cert.KernelIdeal.main_call6_v3 rfl (by decide),
    k_writes_sub_of_mem Cert.KernelIdeal.main_call6_v4 rfl (by decide),
    k_writes_sub_of_mem Cert.KernelIdeal.main_call6_v5 rfl (by decide),
    k_writes_sub_of_mem Cert.KernelIdeal.main_call6_c_1 rfl (by decide),
    k_writes_sub_of_mem Cert.KernelIdeal.main_call6_c_2 rfl (by decide),
    k_writes_sub_of_mem Cert.KernelIdeal.main_call6_v6 rfl (by decide),
    k_writes_sub_of_mem Cert.KernelIdeal.main_call6_v7 rfl (by decide),
    k_writes_sub_of_mem Cert.KernelIdeal.main_call6_v8 rfl (by decide),
    k_writes_sub_of_mem Cert.KernelIdeal.main_call6_v9 rfl (by decide),
    k_writes_sub_of_mem Cert.KernelIdeal.main_call6_v10 rfl (by decide),
    k_writes_sub_of_mem Cert.KernelIdeal.main_call6_v11 rfl (by decide),
    k_writes_sub_of_mem Cert.KernelIdeal.main_call6_c_3 rfl (by decide),
    k_writes_sub_of_mem Cert.KernelIdeal.main_call6_v12 rfl (by decide),
    k_writes_sub_of_mem Cert.KernelIdeal.main_call6_v13 rfl (by decide),
    k_writes_sub_of_mem Cert.KernelIdeal.main_call6_v14 rfl (by decide),
    k_writes_sub_of_mem Cert.KernelIdeal.main_call6_cst rfl (by decide),
    k_writes_sub_of_mem Cert.KernelIdeal.main_call6_v15 rfl (by decide),
    k_writes_sub_of_mem Cert.KernelIdeal.main_v102 rfl (by decide)⟩
/-- A buffer stretch 5 does not write keeps its contents through it. -/
theorem k3_5_keep (V : KV) (r : Ref Cert.KernelIdeal.sig .tc) (h : r ∉ k3_5_W) :
    after (Cert.KernelIdeal.Gen.hostOps2_5 (F := Ideal)) V (Proc.devRef .tc r) = V (Proc.devRef .tc r) :=
  after_of_writes_sub _ V k3_5_writes h

/-- The buffers stretch 6 writes. -/
abbrev k3_6_W : List (Ref Cert.KernelIdeal.sig .tc) := [Cert.KernelIdeal.main_v103, Cert.KernelIdeal.main_v104, Cert.KernelIdeal.main_v105, Cert.KernelIdeal.main_v106, Cert.KernelIdeal.main_v107, Cert.KernelIdeal.main_v108, Cert.KernelIdeal.main_v109, Cert.KernelIdeal.main_v110, Cert.KernelIdeal.main_c_11, Cert.KernelIdeal.main_v111, Cert.KernelIdeal.main_v112]
theorem k3_6_writes : (Cert.KernelIdeal.Gen.hostOps2_6 (F := Ideal)).Forall fun op => op.writes ⊆ (k3_6_W.map (Proc.devRef (τ := Cert.KernelIdeal.τ) .tc)).toFinset :=
  ⟨k_writes_sub_of_mem Cert.KernelIdeal.main_v103 rfl (by decide),
    k_writes_sub_of_mem Cert.KernelIdeal.main_v104 rfl (by decide),
    k_writes_sub_of_mem Cert.KernelIdeal.main_v105 rfl (by decide),
    k_writes_sub_of_mem Cert.KernelIdeal.main_v106 rfl (by decide),
    k_writes_sub_of_mem Cert.KernelIdeal.main_v107 rfl (by decide),
    k_writes_sub_of_mem Cert.KernelIdeal.main_v108 rfl (by decide),
    k_writes_sub_of_mem Cert.KernelIdeal.main_v109 rfl (by decide),
    k_writes_sub_of_mem Cert.KernelIdeal.main_v110 rfl (by decide),
    k_writes_sub_of_mem Cert.KernelIdeal.main_c_11 rfl (by decide),
    k_writes_sub_of_mem Cert.KernelIdeal.main_v111 rfl (by decide),
    k_writes_sub_of_mem Cert.KernelIdeal.main_v112 rfl (by decide)⟩
/-- A buffer stretch 6 does not write keeps its contents through it. -/
theorem k3_6_keep (V : KV) (r : Ref Cert.KernelIdeal.sig .tc) (h : r ∉ k3_6_W) :
    after (Cert.KernelIdeal.Gen.hostOps2_6 (F := Ideal)) V (Proc.devRef .tc r) = V (Proc.devRef .tc r) :=
  after_of_writes_sub _ V k3_6_writes h

/-- The buffers stretch 7 writes. -/
abbrev k3_7_W : List (Ref Cert.KernelIdeal.sig .tc) := [Cert.KernelIdeal.main_call7_c, Cert.KernelIdeal.main_call7_v0, Cert.KernelIdeal.main_call7_v1, Cert.KernelIdeal.main_call7_c_0, Cert.KernelIdeal.main_call7_v2, Cert.KernelIdeal.main_call7_v3, Cert.KernelIdeal.main_call7_v4, Cert.KernelIdeal.main_call7_v5, Cert.KernelIdeal.main_call7_c_1, Cert.KernelIdeal.main_call7_c_2, Cert.KernelIdeal.main_call7_v6, Cert.KernelIdeal.main_call7_v7, Cert.KernelIdeal.main_call7_v8, Cert.KernelIdeal.main_call7_v9, Cert.KernelIdeal.main_call7_v10, Cert.KernelIdeal.main_call7_v11, Cert.KernelIdeal.main_call7_c_3, Cert.KernelIdeal.main_call7_v12, Cert.KernelIdeal.main_call7_v13, Cert.KernelIdeal.main_call7_v14, Cert.KernelIdeal.main_call7_cst, Cert.KernelIdeal.main_call7_v15, Cert.KernelIdeal.main_v113]
theorem k3_7_writes : (Cert.KernelIdeal.Gen.hostOps2_7 (F := Ideal)).Forall fun op => op.writes ⊆ (k3_7_W.map (Proc.devRef (τ := Cert.KernelIdeal.τ) .tc)).toFinset :=
  ⟨k_writes_sub_of_mem Cert.KernelIdeal.main_call7_c rfl (by decide),
    k_writes_sub_of_mem Cert.KernelIdeal.main_call7_v0 rfl (by decide),
    k_writes_sub_of_mem Cert.KernelIdeal.main_call7_v1 rfl (by decide),
    k_writes_sub_of_mem Cert.KernelIdeal.main_call7_c_0 rfl (by decide),
    k_writes_sub_of_mem Cert.KernelIdeal.main_call7_v2 rfl (by decide),
    k_writes_sub_of_mem Cert.KernelIdeal.main_call7_v3 rfl (by decide),
    k_writes_sub_of_mem Cert.KernelIdeal.main_call7_v4 rfl (by decide),
    k_writes_sub_of_mem Cert.KernelIdeal.main_call7_v5 rfl (by decide),
    k_writes_sub_of_mem Cert.KernelIdeal.main_call7_c_1 rfl (by decide),
    k_writes_sub_of_mem Cert.KernelIdeal.main_call7_c_2 rfl (by decide),
    k_writes_sub_of_mem Cert.KernelIdeal.main_call7_v6 rfl (by decide),
    k_writes_sub_of_mem Cert.KernelIdeal.main_call7_v7 rfl (by decide),
    k_writes_sub_of_mem Cert.KernelIdeal.main_call7_v8 rfl (by decide),
    k_writes_sub_of_mem Cert.KernelIdeal.main_call7_v9 rfl (by decide),
    k_writes_sub_of_mem Cert.KernelIdeal.main_call7_v10 rfl (by decide),
    k_writes_sub_of_mem Cert.KernelIdeal.main_call7_v11 rfl (by decide),
    k_writes_sub_of_mem Cert.KernelIdeal.main_call7_c_3 rfl (by decide),
    k_writes_sub_of_mem Cert.KernelIdeal.main_call7_v12 rfl (by decide),
    k_writes_sub_of_mem Cert.KernelIdeal.main_call7_v13 rfl (by decide),
    k_writes_sub_of_mem Cert.KernelIdeal.main_call7_v14 rfl (by decide),
    k_writes_sub_of_mem Cert.KernelIdeal.main_call7_cst rfl (by decide),
    k_writes_sub_of_mem Cert.KernelIdeal.main_call7_v15 rfl (by decide),
    k_writes_sub_of_mem Cert.KernelIdeal.main_v113 rfl (by decide)⟩
/-- A buffer stretch 7 does not write keeps its contents through it. -/
theorem k3_7_keep (V : KV) (r : Ref Cert.KernelIdeal.sig .tc) (h : r ∉ k3_7_W) :
    after (Cert.KernelIdeal.Gen.hostOps2_7 (F := Ideal)) V (Proc.devRef .tc r) = V (Proc.devRef .tc r) :=
  after_of_writes_sub _ V k3_7_writes h

/-- The buffers stretch 8 writes. -/
abbrev k3_8_W : List (Ref Cert.KernelIdeal.sig .tc) := [Cert.KernelIdeal.main_v114, Cert.KernelIdeal.main_v115, Cert.KernelIdeal.main_v116, Cert.KernelIdeal.main_v117, Cert.KernelIdeal.main_v118, Cert.KernelIdeal.main_v119, Cert.KernelIdeal.main_v120, Cert.KernelIdeal.main_v121]
theorem k3_8_writes : (Cert.KernelIdeal.Gen.hostOps2_8 (F := Ideal)).Forall fun op => op.writes ⊆ (k3_8_W.map (Proc.devRef (τ := Cert.KernelIdeal.τ) .tc)).toFinset :=
  ⟨k_writes_sub_of_mem Cert.KernelIdeal.main_v114 rfl (by decide),
    k_writes_sub_of_mem Cert.KernelIdeal.main_v115 rfl (by decide),
    k_writes_sub_of_mem Cert.KernelIdeal.main_v116 rfl (by decide),
    k_writes_sub_of_mem Cert.KernelIdeal.main_v117 rfl (by decide),
    k_writes_sub_of_mem Cert.KernelIdeal.main_v118 rfl (by decide),
    k_writes_sub_of_mem Cert.KernelIdeal.main_v119 rfl (by decide),
    k_writes_sub_of_mem Cert.KernelIdeal.main_v120 rfl (by decide),
    k_writes_sub_of_mem Cert.KernelIdeal.main_v121 rfl (by decide)⟩
/-- A buffer stretch 8 does not write keeps its contents through it. -/
theorem k3_8_keep (V : KV) (r : Ref Cert.KernelIdeal.sig .tc) (h : r ∉ k3_8_W) :
    after (Cert.KernelIdeal.Gen.hostOps2_8 (F := Ideal)) V (Proc.devRef .tc r) = V (Proc.devRef .tc r) :=
  after_of_writes_sub _ V k3_8_writes h

end Cert.Bridge

end
-- ==== Proof.Bridge.B3.lean ====
/-
  The third layer's host operations in the two programs: the last stretch (the third weight matrix, the stacking of
  the three weight matrices, the conversions to the narrower float format), and the nine stretches chained: each
  stretch's inputs agree because an earlier stretch computed them alike or because no stretch in between writes them.
-/
import proofs.«117565_j22136261443720_1_alg».proof.Proof.Bridge.Defs
import proofs.«117565_j22136261443720_1_alg».proof.Proof.Bridge.B3a
import proofs.«117565_j22136261443720_1_alg».proof.Proof.Bridge.B3b
import proofs.«117565_j22136261443720_1_alg».proof.Proof.Bridge.B3k
import proofs.«117565_j22136261443720_1_alg».proof.Proof.LibWeightLayout
import proofs.«117565_j22136261443720_1_alg».proof.Proof.LibConcatT
set_option maxRecDepth 16384

noncomputable section

namespace Cert.Bridge

open Idealize.ShloMosaic Idealize.ShloMosaic.TcCoe Idealize.ShloMosaic.StableHlo

/-- Rewrites, in a goal unfolded to the operations' results, each conversion's or transposition's result at its own
    buffer to its function's value and a three-operand stacking's result to the stacking of its operands' contents, each
    read at its own buffer; elsewhere a result is what was there. -/
macro "results3" : tactic =>
  `(tactic| repeat (first
      | rw [unary_result] | rw [nary3_result]
      | (rw [unary_result_ne]; rotate_left; decide)
      | (rw [nary_result_ne]; rotate_left; decide)))

/-- The two programs' last stretch, cut before the stacking of the three weight matrices: five operations, then the rest. -/
theorem k_split9 (V : KV) : after (Cert.KernelIdeal.Gen.hostOps2_8 (F := Ideal)) V = after (List.drop 5 (Cert.KernelIdeal.Gen.hostOps2_8 (F := Ideal))) (after (List.take 5 (Cert.KernelIdeal.Gen.hostOps2_8 (F := Ideal))) V) := rfl
theorem r_split9 (V : RV) : after (Cert.ReferenceIdeal.RefRun.r20 (F := Ideal)) V = after (List.drop 5 (Cert.ReferenceIdeal.RefRun.r20 (F := Ideal))) (after (List.take 5 (Cert.ReferenceIdeal.RefRun.r20 (F := Ideal))) V) := rfl

/-- The third weight matrix, laid out as inputs × outputs by one program and as outputs × inputs by the other. -/
theorem S9a (Vk : KV) (Vr : RV)
    (h109 : Vk (Proc.devRef .tc Cert.KernelIdeal.main_v109) = Vr (Proc.devRef .tc Cert.ReferenceIdeal.main_v115))
    (h113 : Vk (Proc.devRef .tc Cert.KernelIdeal.main_v113) = Vr (Proc.devRef .tc Cert.ReferenceIdeal.main_v119)) :
    after (List.take 5 (Cert.KernelIdeal.Gen.hostOps2_8 (F := Ideal))) Vk (Proc.devRef .tc Cert.KernelIdeal.main_v118)
      = transpose (s := ⟨2, ![4096, 1024]⟩) ⟨2, ![1024, 4096]⟩ [1, 0] (after (List.take 5 (Cert.ReferenceIdeal.RefRun.r20 (F := Ideal))) Vr (Proc.devRef .tc Cert.ReferenceIdeal.main_v124)) hT41 := by
  simp only [List.take_succ_cons, List.take_zero]
  after_results_simp
  rw [h109, h113]
  exact Cert.Lib.WeightLayout.layout16 _ _ _ _ _ _

/-- The three weight matrices stacked: one program stacks the (inputs × outputs) matrices one under the other, the
    other lays the (outputs × inputs) matrices side by side and transposes; the conversion to the narrower float format
    is the identity on the extended reals. And the narrowed copy of the joined activations is the joined activations. -/
theorem S9b (Vk : KV) (Vr : RV)
    (t96 : Vk (Proc.devRef .tc Cert.KernelIdeal.main_v96) = transpose (s := ⟨2, ![4096, 4096]⟩) ⟨2, ![4096, 4096]⟩ [1, 0] (Vr (Proc.devRef .tc Cert.ReferenceIdeal.main_v102)) hT44)
    (t107 : Vk (Proc.devRef .tc Cert.KernelIdeal.main_v107) = transpose (s := ⟨2, ![4096, 4096]⟩) ⟨2, ![4096, 4096]⟩ [1, 0] (Vr (Proc.devRef .tc Cert.ReferenceIdeal.main_v113)) hT44)
    (t118 : Vk (Proc.devRef .tc Cert.KernelIdeal.main_v118) = transpose (s := ⟨2, ![4096, 1024]⟩) ⟨2, ![1024, 4096]⟩ [1, 0] (Vr (Proc.devRef .tc Cert.ReferenceIdeal.main_v124)) hT41)
    (h85 : Vk (Proc.devRef .tc Cert.KernelIdeal.main_v85) = Vr (Proc.devRef .tc Cert.ReferenceIdeal.main_v91)) :
    after (List.drop 5 (Cert.KernelIdeal.Gen.hostOps2_8 (F := Ideal))) Vk (Proc.devRef .tc Cert.KernelIdeal.main_v120)
        = after (List.drop 5 (Cert.ReferenceIdeal.RefRun.r20 (F := Ideal))) Vr (Proc.devRef .tc Cert.ReferenceIdeal.main_v126)
    ∧ after (List.drop 5 (Cert.KernelIdeal.Gen.hostOps2_8 (F := Ideal))) Vk (Proc.devRef .tc Cert.KernelIdeal.main_v121)
        = after (List.drop 5 (Cert.ReferenceIdeal.RefRun.r20 (F := Ideal))) Vr (Proc.devRef .tc Cert.ReferenceIdeal.main_v91) := by
  refine ⟨?_, ?_⟩
  · simp only [List.drop_succ_cons, List.drop_zero, after_cons, after_nil]
    results3
    rw [t96, t107, t118]
    exact Cert.Lib.ConcatT.triple (α := EReal) (Vr (Proc.devRef .tc Cert.ReferenceIdeal.main_v102)) (Vr (Proc.devRef .tc Cert.ReferenceIdeal.main_v113)) (Vr (Proc.devRef .tc Cert.ReferenceIdeal.main_v124)) hT44 hT44 hT41
      Cert.KernelIdeal.Gen.concatenates_S4096x4096_S4096x4096_S1024x4096_S9216x4096_d0
      Cert.ReferenceIdeal.Gen.concatenates_S4096x4096_S4096x4096_S4096x1024_S4096x9216_d1
      Cert.ReferenceIdeal.Gen.transposes_S4096x9216_S9216x4096_1_0
  · simp only [List.drop_succ_cons, List.drop_zero]
    after_results_simp
    rw [h85]
    first | done | rfl

/-- The last stretch: the stacked weight matrix and the narrowed joined activations. -/
theorem S9 (Vk : KV) (Vr : RV)
    (h109 : Vk (Proc.devRef .tc Cert.KernelIdeal.main_v109) = Vr (Proc.devRef .tc Cert.ReferenceIdeal.main_v115))
    (h113 : Vk (Proc.devRef .tc Cert.KernelIdeal.main_v113) = Vr (Proc.devRef .tc Cert.ReferenceIdeal.main_v119))
    (t96 : Vk (Proc.devRef .tc Cert.KernelIdeal.main_v96) = transpose (s := ⟨2, ![4096, 4096]⟩) ⟨2, ![4096, 4096]⟩ [1, 0] (Vr (Proc.devRef .tc Cert.ReferenceIdeal.main_v102)) hT44)
    (t107 : Vk (Proc.devRef .tc Cert.KernelIdeal.main_v107) = transpose (s := ⟨2, ![4096, 4096]⟩) ⟨2, ![4096, 4096]⟩ [1, 0] (Vr (Proc.devRef .tc Cert.ReferenceIdeal.main_v113)) hT44)
    (h85 : Vk (Proc.devRef .tc Cert.KernelIdeal.main_v85) = Vr (Proc.devRef .tc Cert.ReferenceIdeal.main_v91)) :
    after (Cert.KernelIdeal.Gen.hostOps2_8 (F := Ideal)) Vk (Proc.devRef .tc Cert.KernelIdeal.main_v120)
        = after (Cert.ReferenceIdeal.RefRun.r20 (F := Ideal)) Vr (Proc.devRef .tc Cert.ReferenceIdeal.main_v126)
    ∧ after (Cert.KernelIdeal.Gen.hostOps2_8 (F := Ideal)) Vk (Proc.devRef .tc Cert.KernelIdeal.main_v121)
        = after (Cert.ReferenceIdeal.RefRun.r20 (F := Ideal)) Vr (Proc.devRef .tc Cert.ReferenceIdeal.main_v91) := by
  have t118 := S9a Vk Vr h109 h113
  have k96 : after (List.take 5 (Cert.KernelIdeal.Gen.hostOps2_8 (F := Ideal))) Vk (Proc.devRef .tc Cert.KernelIdeal.main_v96) = Vk (Proc.devRef .tc Cert.KernelIdeal.main_v96) := by
    simp only [List.take_succ_cons, List.take_zero]; after_results_simp
  have k107 : after (List.take 5 (Cert.KernelIdeal.Gen.hostOps2_8 (F := Ideal))) Vk (Proc.devRef .tc Cert.KernelIdeal.main_v107) = Vk (Proc.devRef .tc Cert.KernelIdeal.main_v107) := by
    simp only [List.take_succ_cons, List.take_zero]; after_results_simp
  have k85 : after (List.take 5 (Cert.KernelIdeal.Gen.hostOps2_8 (F := Ideal))) Vk (Proc.devRef .tc Cert.KernelIdeal.main_v85) = Vk (Proc.devRef .tc Cert.KernelIdeal.main_v85) := by
    simp only [List.take_succ_cons, List.take_zero]; after_results_simp
  have r102 : after (List.take 5 (Cert.ReferenceIdeal.RefRun.r20 (F := Ideal))) Vr (Proc.devRef .tc Cert.ReferenceIdeal.main_v102) = Vr (Proc.devRef .tc Cert.ReferenceIdeal.main_v102) := by
    simp only [List.take_succ_cons, List.take_zero]; after_results_simp
  have r113 : after (List.take 5 (Cert.ReferenceIdeal.RefRun.r20 (F := Ideal))) Vr (Proc.devRef .tc Cert.ReferenceIdeal.main_v113) = Vr (Proc.devRef .tc Cert.ReferenceIdeal.main_v113) := by
    simp only [List.take_succ_cons, List.take_zero]; after_results_simp
  have r91 : after (List.take 5 (Cert.ReferenceIdeal.RefRun.r20 (F := Ideal))) Vr (Proc.devRef .tc Cert.ReferenceIdeal.main_v91) = Vr (Proc.devRef .tc Cert.ReferenceIdeal.main_v91) := by
    simp only [List.take_succ_cons, List.take_zero]; after_results_simp
  rw [k_split9 Vk, r_split9 Vr]
  exact S9b _ _ (by rw [k96, r102]; exact t96) (by rw [k107, r113]; exact t107) t118 (k85.trans (h85.trans r91.symm))

/-- The third layer's host operations: from valuations that agree on the second region's output, on the earlier
    layers' joined activations and on the layer's arguments, the two programs reach the same stacked weight matrix
    (the kernel program's conversion to the narrower float format being the identity on the extended reals) and the
    same joined activations (the kernel program's narrowed copy of them included). -/
theorem B3 (Vk : KV) (Vr : RV)
    (h63 : Vk (Proc.devRef .tc Cert.KernelIdeal.main_v63) = Vr (Proc.devRef .tc Cert.ReferenceIdeal.main_v69))
    (h37 : Vk (Proc.devRef .tc Cert.KernelIdeal.main_v37) = Vr (Proc.devRef .tc Cert.ReferenceIdeal.main_v40))
    (a9 : Vk (Proc.devRef .tc Cert.KernelIdeal.main_arg9) = Vr (Proc.devRef .tc Cert.ReferenceIdeal.main_arg9))
    (a10 : Vk (Proc.devRef .tc Cert.KernelIdeal.main_arg10) = Vr (Proc.devRef .tc Cert.ReferenceIdeal.main_arg10))
    (a14 : Vk (Proc.devRef .tc Cert.KernelIdeal.main_arg14) = Vr (Proc.devRef .tc Cert.ReferenceIdeal.main_arg14))
    (a4 : Vk (Proc.devRef .tc Cert.KernelIdeal.main_arg4) = Vr (Proc.devRef .tc Cert.ReferenceIdeal.main_arg4))
    (a15 : Vk (Proc.devRef .tc Cert.KernelIdeal.main_arg15) = Vr (Proc.devRef .tc Cert.ReferenceIdeal.main_arg15))
    (a5 : Vk (Proc.devRef .tc Cert.KernelIdeal.main_arg5) = Vr (Proc.devRef .tc Cert.ReferenceIdeal.main_arg5))
    (a16 : Vk (Proc.devRef .tc Cert.KernelIdeal.main_arg16) = Vr (Proc.devRef .tc Cert.ReferenceIdeal.main_arg16))
    (a6 : Vk (Proc.devRef .tc Cert.KernelIdeal.main_arg6) = Vr (Proc.devRef .tc Cert.ReferenceIdeal.main_arg6)) :
    after (Cert.KernelIdeal.Gen.hostOps2_8 (F := Ideal)) (after (Cert.KernelIdeal.Gen.hostOps2_7 (F := Ideal)) (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))))))) (Proc.devRef .tc Cert.KernelIdeal.main_v120)
        = after (Cert.ReferenceIdeal.RefRun.r20 (F := Ideal)) (after (Cert.ReferenceIdeal.RefRun.r19 (F := Ideal)) (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))))))) (Proc.devRef .tc Cert.ReferenceIdeal.main_v126)
    ∧ after (Cert.KernelIdeal.Gen.hostOps2_8 (F := Ideal)) (after (Cert.KernelIdeal.Gen.hostOps2_7 (F := Ideal)) (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))))))) (Proc.devRef .tc Cert.KernelIdeal.main_v121)
        = after (Cert.ReferenceIdeal.RefRun.r20 (F := Ideal)) (after (Cert.ReferenceIdeal.RefRun.r19 (F := Ideal)) (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))))))) (Proc.devRef .tc Cert.ReferenceIdeal.main_v91) := by
  have e37_0 := h37
  have a9_0 := a9
  have a10_0 := a10
  have a14_0 := a14
  have a4_0 := a4
  have a15_0 := a15
  have a5_0 := a5
  have a16_0 := a16
  have a6_0 := a6
  obtain ⟨e64_1, e67_1, ec7_1⟩ := S1 Vk Vr h63
  have e37_1 := (k3_0_keep Vk Cert.KernelIdeal.main_v37 (by decide)).trans (e37_0.trans (Cert.ReferenceIdeal.RefRun.r12_keep Vr Cert.ReferenceIdeal.main_v40 (by decide)).symm)
  have a9_1 := (k3_0_keep Vk Cert.KernelIdeal.main_arg9 (by decide)).trans (a9_0.trans (Cert.ReferenceIdeal.RefRun.r12_keep Vr Cert.ReferenceIdeal.main_arg9 (by decide)).symm)
  have a10_1 := (k3_0_keep Vk Cert.KernelIdeal.main_arg10 (by decide)).trans (a10_0.trans (Cert.ReferenceIdeal.RefRun.r12_keep Vr Cert.ReferenceIdeal.main_arg10 (by decide)).symm)
  have a14_1 := (k3_0_keep Vk Cert.KernelIdeal.main_arg14 (by decide)).trans (a14_0.trans (Cert.ReferenceIdeal.RefRun.r12_keep Vr Cert.ReferenceIdeal.main_arg14 (by decide)).symm)
  have a4_1 := (k3_0_keep Vk Cert.KernelIdeal.main_arg4 (by decide)).trans (a4_0.trans (Cert.ReferenceIdeal.RefRun.r12_keep Vr Cert.ReferenceIdeal.main_arg4 (by decide)).symm)
  have a15_1 := (k3_0_keep Vk Cert.KernelIdeal.main_arg15 (by decide)).trans (a15_0.trans (Cert.ReferenceIdeal.RefRun.r12_keep Vr Cert.ReferenceIdeal.main_arg15 (by decide)).symm)
  have a5_1 := (k3_0_keep Vk Cert.KernelIdeal.main_arg5 (by decide)).trans (a5_0.trans (Cert.ReferenceIdeal.RefRun.r12_keep Vr Cert.ReferenceIdeal.main_arg5 (by decide)).symm)
  have a16_1 := (k3_0_keep Vk Cert.KernelIdeal.main_arg16 (by decide)).trans (a16_0.trans (Cert.ReferenceIdeal.RefRun.r12_keep Vr Cert.ReferenceIdeal.main_arg16 (by decide)).symm)
  have a6_1 := (k3_0_keep Vk Cert.KernelIdeal.main_arg6 (by decide)).trans (a6_0.trans (Cert.ReferenceIdeal.RefRun.r12_keep Vr Cert.ReferenceIdeal.main_arg6 (by decide)).symm)
  have e68_2 := S2 (after (Cert.KernelIdeal.Gen.hostOps2 (F := Ideal)) Vk) (after (Cert.ReferenceIdeal.RefRun.r12 (F := Ideal)) Vr) e64_1 ec7_1
  have e64_2 := (k3_1_keep (after (Cert.KernelIdeal.Gen.hostOps2 (F := Ideal)) Vk) Cert.KernelIdeal.main_v64 (by decide)).trans (e64_1.trans (Cert.ReferenceIdeal.RefRun.r13_keep (after (Cert.ReferenceIdeal.RefRun.r12 (F := Ideal)) Vr) Cert.ReferenceIdeal.main_v70 (by decide)).symm)
  have e67_2 := (k3_1_keep (after (Cert.KernelIdeal.Gen.hostOps2 (F := Ideal)) Vk) Cert.KernelIdeal.main_v67 (by decide)).trans (e67_1.trans (Cert.ReferenceIdeal.RefRun.r13_keep (after (Cert.ReferenceIdeal.RefRun.r12 (F := Ideal)) Vr) Cert.ReferenceIdeal.main_v73 (by decide)).symm)
  have e37_2 := (k3_1_keep (after (Cert.KernelIdeal.Gen.hostOps2 (F := Ideal)) Vk) Cert.KernelIdeal.main_v37 (by decide)).trans (e37_1.trans (Cert.ReferenceIdeal.RefRun.r13_keep (after (Cert.ReferenceIdeal.RefRun.r12 (F := Ideal)) Vr) Cert.ReferenceIdeal.main_v40 (by decide)).symm)
  have a9_2 := (k3_1_keep (after (Cert.KernelIdeal.Gen.hostOps2 (F := Ideal)) Vk) Cert.KernelIdeal.main_arg9 (by decide)).trans (a9_1.trans (Cert.ReferenceIdeal.RefRun.r13_keep (after (Cert.ReferenceIdeal.RefRun.r12 (F := Ideal)) Vr) Cert.ReferenceIdeal.main_arg9 (by decide)).symm)
  have a10_2 := (k3_1_keep (after (Cert.KernelIdeal.Gen.hostOps2 (F := Ideal)) Vk) Cert.KernelIdeal.main_arg10 (by decide)).trans (a10_1.trans (Cert.ReferenceIdeal.RefRun.r13_keep (after (Cert.ReferenceIdeal.RefRun.r12 (F := Ideal)) Vr) Cert.ReferenceIdeal.main_arg10 (by decide)).symm)
  have a14_2 := (k3_1_keep (after (Cert.KernelIdeal.Gen.hostOps2 (F := Ideal)) Vk) Cert.KernelIdeal.main_arg14 (by decide)).trans (a14_1.trans (Cert.ReferenceIdeal.RefRun.r13_keep (after (Cert.ReferenceIdeal.RefRun.r12 (F := Ideal)) Vr) Cert.ReferenceIdeal.main_arg14 (by decide)).symm)
  have a4_2 := (k3_1_keep (after (Cert.KernelIdeal.Gen.hostOps2 (F := Ideal)) Vk) Cert.KernelIdeal.main_arg4 (by decide)).trans (a4_1.trans (Cert.ReferenceIdeal.RefRun.r13_keep (after (Cert.ReferenceIdeal.RefRun.r12 (F := Ideal)) Vr) Cert.ReferenceIdeal.main_arg4 (by decide)).symm)
  have a15_2 := (k3_1_keep (after (Cert.KernelIdeal.Gen.hostOps2 (F := Ideal)) Vk) Cert.KernelIdeal.main_arg15 (by decide)).trans (a15_1.trans (Cert.ReferenceIdeal.RefRun.r13_keep (after (Cert.ReferenceIdeal.RefRun.r12 (F := Ideal)) Vr) Cert.ReferenceIdeal.main_arg15 (by decide)).symm)
  have a5_2 := (k3_1_keep (after (Cert.KernelIdeal.Gen.hostOps2 (F := Ideal)) Vk) Cert.KernelIdeal.main_arg5 (by decide)).trans (a5_1.trans (Cert.ReferenceIdeal.RefRun.r13_keep (after (Cert.ReferenceIdeal.RefRun.r12 (F := Ideal)) Vr) Cert.ReferenceIdeal.main_arg5 (by decide)).symm)
  have a16_2 := (k3_1_keep (after (Cert.KernelIdeal.Gen.hostOps2 (F := Ideal)) Vk) Cert.KernelIdeal.main_arg16 (by decide)).trans (a16_1.trans (Cert.ReferenceIdeal.RefRun.r13_keep (after (Cert.ReferenceIdeal.RefRun.r12 (F := Ideal)) Vr) Cert.ReferenceIdeal.main_arg16 (by decide)).symm)
  have a6_2 := (k3_1_keep (after (Cert.KernelIdeal.Gen.hostOps2 (F := Ideal)) Vk) Cert.KernelIdeal.main_arg6 (by decide)).trans (a6_1.trans (Cert.ReferenceIdeal.RefRun.r13_keep (after (Cert.ReferenceIdeal.RefRun.r12 (F := Ideal)) Vr) Cert.ReferenceIdeal.main_arg6 (by decide)).symm)
  obtain ⟨e85_3, e87_3, e90_3⟩ := S3 (after (Cert.KernelIdeal.Gen.hostOps2_1 (F := Ideal)) (after (Cert.KernelIdeal.Gen.hostOps2 (F := Ideal)) Vk)) (after (Cert.ReferenceIdeal.RefRun.r13 (F := Ideal)) (after (Cert.ReferenceIdeal.RefRun.r12 (F := Ideal)) Vr)) e67_2 e64_2 e68_2 a9_2 a10_2 e37_2 a14_2
  have a4_3 := (k3_2_keep (after (Cert.KernelIdeal.Gen.hostOps2_1 (F := Ideal)) (after (Cert.KernelIdeal.Gen.hostOps2 (F := Ideal)) Vk)) Cert.KernelIdeal.main_arg4 (by decide)).trans (a4_2.trans (Cert.ReferenceIdeal.RefRun.r14_keep (after (Cert.ReferenceIdeal.RefRun.r13 (F := Ideal)) (after (Cert.ReferenceIdeal.RefRun.r12 (F := Ideal)) Vr)) Cert.ReferenceIdeal.main_arg4 (by decide)).symm)
  have a15_3 := (k3_2_keep (after (Cert.KernelIdeal.Gen.hostOps2_1 (F := Ideal)) (after (Cert.KernelIdeal.Gen.hostOps2 (F := Ideal)) Vk)) Cert.KernelIdeal.main_arg15 (by decide)).trans (a15_2.trans (Cert.ReferenceIdeal.RefRun.r14_keep (after (Cert.ReferenceIdeal.RefRun.r13 (F := Ideal)) (after (Cert.ReferenceIdeal.RefRun.r12 (F := Ideal)) Vr)) Cert.ReferenceIdeal.main_arg15 (by decide)).symm)
  have a5_3 := (k3_2_keep (after (Cert.KernelIdeal.Gen.hostOps2_1 (F := Ideal)) (after (Cert.KernelIdeal.Gen.hostOps2 (F := Ideal)) Vk)) Cert.KernelIdeal.main_arg5 (by decide)).trans (a5_2.trans (Cert.ReferenceIdeal.RefRun.r14_keep (after (Cert.ReferenceIdeal.RefRun.r13 (F := Ideal)) (after (Cert.ReferenceIdeal.RefRun.r12 (F := Ideal)) Vr)) Cert.ReferenceIdeal.main_arg5 (by decide)).symm)
  have a16_3 := (k3_2_keep (after (Cert.KernelIdeal.Gen.hostOps2_1 (F := Ideal)) (after (Cert.KernelIdeal.Gen.hostOps2 (F := Ideal)) Vk)) Cert.KernelIdeal.main_arg16 (by decide)).trans (a16_2.trans (Cert.ReferenceIdeal.RefRun.r14_keep (after (Cert.ReferenceIdeal.RefRun.r13 (F := Ideal)) (after (Cert.ReferenceIdeal.RefRun.r12 (F := Ideal)) Vr)) Cert.ReferenceIdeal.main_arg16 (by decide)).symm)
  have a6_3 := (k3_2_keep (after (Cert.KernelIdeal.Gen.hostOps2_1 (F := Ideal)) (after (Cert.KernelIdeal.Gen.hostOps2 (F := Ideal)) Vk)) Cert.KernelIdeal.main_arg6 (by decide)).trans (a6_2.trans (Cert.ReferenceIdeal.RefRun.r14_keep (after (Cert.ReferenceIdeal.RefRun.r13 (F := Ideal)) (after (Cert.ReferenceIdeal.RefRun.r12 (F := Ideal)) Vr)) Cert.ReferenceIdeal.main_arg6 (by decide)).symm)
  have e91_4 := S4 (after (Cert.KernelIdeal.Gen.hostOps2_2 (F := Ideal)) (after (Cert.KernelIdeal.Gen.hostOps2_1 (F := Ideal)) (after (Cert.KernelIdeal.Gen.hostOps2 (F := Ideal)) Vk))) (after (Cert.ReferenceIdeal.RefRun.r14 (F := Ideal)) (after (Cert.ReferenceIdeal.RefRun.r13 (F := Ideal)) (after (Cert.ReferenceIdeal.RefRun.r12 (F := Ideal)) Vr))) e90_3 a4_3
  have e85_4 := (k3_3_keep (after (Cert.KernelIdeal.Gen.hostOps2_2 (F := Ideal)) (after (Cert.KernelIdeal.Gen.hostOps2_1 (F := Ideal)) (after (Cert.KernelIdeal.Gen.hostOps2 (F := Ideal)) Vk))) Cert.KernelIdeal.main_v85 (by decide)).trans (e85_3.trans (Cert.ReferenceIdeal.RefRun.r15_keep (after (Cert.ReferenceIdeal.RefRun.r14 (F := Ideal)) (after (Cert.ReferenceIdeal.RefRun.r13 (F := Ideal)) (after (Cert.ReferenceIdeal.RefRun.r12 (F := Ideal)) Vr))) Cert.ReferenceIdeal.main_v91 (by decide)).symm)
  have e87_4 := (k3_3_keep (after (Cert.KernelIdeal.Gen.hostOps2_2 (F := Ideal)) (after (Cert.KernelIdeal.Gen.hostOps2_1 (F := Ideal)) (after (Cert.KernelIdeal.Gen.hostOps2 (F := Ideal)) Vk))) Cert.KernelIdeal.main_v87 (by decide)).trans (e87_3.trans (Cert.ReferenceIdeal.RefRun.r15_keep (after (Cert.ReferenceIdeal.RefRun.r14 (F := Ideal)) (after (Cert.ReferenceIdeal.RefRun.r13 (F := Ideal)) (after (Cert.ReferenceIdeal.RefRun.r12 (F := Ideal)) Vr))) Cert.ReferenceIdeal.main_v93 (by decide)).symm)
  have a15_4 := (k3_3_keep (after (Cert.KernelIdeal.Gen.hostOps2_2 (F := Ideal)) (after (Cert.KernelIdeal.Gen.hostOps2_1 (F := Ideal)) (after (Cert.KernelIdeal.Gen.hostOps2 (F := Ideal)) Vk))) Cert.KernelIdeal.main_arg15 (by decide)).trans (a15_3.trans (Cert.ReferenceIdeal.RefRun.r15_keep (after (Cert.ReferenceIdeal.RefRun.r14 (F := Ideal)) (after (Cert.ReferenceIdeal.RefRun.r13 (F := Ideal)) (after (Cert.ReferenceIdeal.RefRun.r12 (F := Ideal)) Vr))) Cert.ReferenceIdeal.main_arg15 (by decide)).symm)
  have a5_4 := (k3_3_keep (after (Cert.KernelIdeal.Gen.hostOps2_2 (F := Ideal)) (after (Cert.KernelIdeal.Gen.hostOps2_1 (F := Ideal)) (after (Cert.KernelIdeal.Gen.hostOps2 (F := Ideal)) Vk))) Cert.KernelIdeal.main_arg5 (by decide)).trans (a5_3.trans (Cert.ReferenceIdeal.RefRun.r15_keep (after (Cert.ReferenceIdeal.RefRun.r14 (F := Ideal)) (after (Cert.ReferenceIdeal.RefRun.r13 (F := Ideal)) (after (Cert.ReferenceIdeal.RefRun.r12 (F := Ideal)) Vr))) Cert.ReferenceIdeal.main_arg5 (by decide)).symm)
  have a16_4 := (k3_3_keep (after (Cert.KernelIdeal.Gen.hostOps2_2 (F := Ideal)) (after (Cert.KernelIdeal.Gen.hostOps2_1 (F := Ideal)) (after (Cert.KernelIdeal.Gen.hostOps2 (F := Ideal)) Vk))) Cert.KernelIdeal.main_arg16 (by decide)).trans (a16_3.trans (Cert.ReferenceIdeal.RefRun.r15_keep (after (Cert.ReferenceIdeal.RefRun.r14 (F := Ideal)) (after (Cert.ReferenceIdeal.RefRun.r13 (F := Ideal)) (after (Cert.ReferenceIdeal.RefRun.r12 (F := Ideal)) Vr))) Cert.ReferenceIdeal.main_arg16 (by decide)).symm)
  have a6_4 := (k3_3_keep (after (Cert.KernelIdeal.Gen.hostOps2_2 (F := Ideal)) (after (Cert.KernelIdeal.Gen.hostOps2_1 (F := Ideal)) (after (Cert.KernelIdeal.Gen.hostOps2 (F := Ideal)) Vk))) Cert.KernelIdeal.main_arg6 (by decide)).trans (a6_3.trans (Cert.ReferenceIdeal.RefRun.r15_keep (after (Cert.ReferenceIdeal.RefRun.r14 (F := Ideal)) (after (Cert.ReferenceIdeal.RefRun.r13 (F := Ideal)) (after (Cert.ReferenceIdeal.RefRun.r12 (F := Ideal)) Vr))) Cert.ReferenceIdeal.main_arg6 (by decide)).symm)
  obtain ⟨t96_5, e98_5, e101_5⟩ := S5 (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))) e87_4 e91_4 a15_4
  have e85_5 := (k3_4_keep (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))) Cert.KernelIdeal.main_v85 (by decide)).trans (e85_4.trans (Cert.ReferenceIdeal.RefRun.r16_keep (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))) Cert.ReferenceIdeal.main_v91 (by decide)).symm)
  have a5_5 := (k3_4_keep (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))) Cert.KernelIdeal.main_arg5 (by decide)).trans (a5_4.trans (Cert.ReferenceIdeal.RefRun.r16_keep (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))) Cert.ReferenceIdeal.main_arg5 (by decide)).symm)
  have a16_5 := (k3_4_keep (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))) Cert.KernelIdeal.main_arg16 (by decide)).trans (a16_4.trans (Cert.ReferenceIdeal.RefRun.r16_keep (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))) Cert.ReferenceIdeal.main_arg16 (by decide)).symm)
  have a6_5 := (k3_4_keep (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))) Cert.KernelIdeal.main_arg6 (by decide)).trans (a6_4.trans (Cert.ReferenceIdeal.RefRun.r16_keep (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))) Cert.ReferenceIdeal.main_arg6 (by decide)).symm)
  have e102_6 := S6 (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))) e101_5 a5_5
  have e85_6 := (k3_5_keep (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))) Cert.KernelIdeal.main_v85 (by decide)).trans (e85_5.trans (Cert.ReferenceIdeal.RefRun.r17_keep (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))) Cert.ReferenceIdeal.main_v91 (by decide)).symm)
  have t96_6 : (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))))) (Proc.devRef .tc Cert.KernelIdeal.main_v96) = transpose (s := ⟨2, ![4096, 4096]⟩) ⟨2, ![4096, 4096]⟩ [1, 0] ((after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))))) (Proc.devRef .tc Cert.ReferenceIdeal.main_v102)) hT44 := by
    rw [k3_5_keep (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))) Cert.KernelIdeal.main_v96 (by decide), Cert.ReferenceIdeal.RefRun.r17_keep (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))) Cert.ReferenceIdeal.main_v102 (by decide)]; exact t96_5
  have e98_6 := (k3_5_keep (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))) Cert.KernelIdeal.main_v98 (by decide)).trans (e98_5.trans (Cert.ReferenceIdeal.RefRun.r17_keep (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))) Cert.ReferenceIdeal.main_v104 (by decide)).symm)
  have a16_6 := (k3_5_keep (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))) Cert.KernelIdeal.main_arg16 (by decide)).trans (a16_5.trans (Cert.ReferenceIdeal.RefRun.r17_keep (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))) Cert.ReferenceIdeal.main_arg16 (by decide)).symm)
  have a6_6 := (k3_5_keep (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))) Cert.KernelIdeal.main_arg6 (by decide)).trans (a6_5.trans (Cert.ReferenceIdeal.RefRun.r17_keep (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))) Cert.ReferenceIdeal.main_arg6 (by decide)).symm)
  obtain ⟨t107_7, e109_7, e112_7⟩ := S7 (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))))) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))))) e98_6 e102_6 a16_6
  have e85_7 := (k3_6_keep (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))))) Cert.KernelIdeal.main_v85 (by decide)).trans (e85_6.trans (Cert.ReferenceIdeal.RefRun.r18_keep (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))))) Cert.ReferenceIdeal.main_v91 (by decide)).symm)
  have t96_7 : (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))))) (Proc.devRef .tc Cert.KernelIdeal.main_v96) = transpose (s := ⟨2, ![4096, 4096]⟩) ⟨2, ![4096, 4096]⟩ [1, 0] ((after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))))) (Proc.devRef .tc Cert.ReferenceIdeal.main_v102)) hT44 := by
    rw [k3_6_keep (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))))) Cert.KernelIdeal.main_v96 (by decide), Cert.ReferenceIdeal.RefRun.r18_keep (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))))) Cert.ReferenceIdeal.main_v102 (by decide)]; exact t96_6
  have a6_7 := (k3_6_keep (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))))) Cert.KernelIdeal.main_arg6 (by decide)).trans (a6_6.trans (Cert.ReferenceIdeal.RefRun.r18_keep (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))))) Cert.ReferenceIdeal.main_arg6 (by decide)).symm)
  have e113_8 := S8 (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))))) (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))))) e112_7 a6_7
  have e85_8 := (k3_7_keep (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))))) Cert.KernelIdeal.main_v85 (by decide)).trans (e85_7.trans (Cert.ReferenceIdeal.RefRun.r19_keep (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))))) Cert.ReferenceIdeal.main_v91 (by decide)).symm)
  have t96_8 : (after (Cert.KernelIdeal.Gen.hostOps2_7 (F := Ideal)) (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))))))) (Proc.devRef .tc Cert.KernelIdeal.main_v96) = transpose (s := ⟨2, ![4096, 4096]⟩) ⟨2, ![4096, 4096]⟩ [1, 0] ((after (Cert.ReferenceIdeal.RefRun.r19 (F := Ideal)) (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))))))) (Proc.devRef .tc Cert.ReferenceIdeal.main_v102)) hT44 := by
    rw [k3_7_keep (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))))) Cert.KernelIdeal.main_v96 (by decide), Cert.ReferenceIdeal.RefRun.r19_keep (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))))) Cert.ReferenceIdeal.main_v102 (by decide)]; exact t96_7
  have t107_8 : (after (Cert.KernelIdeal.Gen.hostOps2_7 (F := Ideal)) (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))))))) (Proc.devRef .tc Cert.KernelIdeal.main_v107) = transpose (s := ⟨2, ![4096, 4096]⟩) ⟨2, ![4096, 4096]⟩ [1, 0] ((after (Cert.ReferenceIdeal.RefRun.r19 (F := Ideal)) (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))))))) (Proc.devRef .tc Cert.ReferenceIdeal.main_v113)) hT44 := by
    rw [k3_7_keep (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))))) Cert.KernelIdeal.main_v107 (by decide), Cert.ReferenceIdeal.RefRun.r19_keep (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))))) Cert.ReferenceIdeal.main_v113 (by decide)]; exact t107_7
  have e109_8 := (k3_7_keep (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk))))))) Cert.KernelIdeal.main_v109 (by decide)).trans (e109_7.trans (Cert.ReferenceIdeal.RefRun.r19_keep (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr))))))) Cert.ReferenceIdeal.main_v115 (by decide)).symm)
  exact S9 (after (Cert.KernelIdeal.Gen.hostOps2_7 (F := Ideal)) (after (Cert.KernelIdeal.Gen.hostOps2_6 (F := Ideal)) (after (Cert.KernelIdeal.Gen.hostOps2_5 (F := Ideal)) (after (Cert.KernelIdeal.Gen.hostOps2_4 (F := Ideal)) (after (Cert.KernelIdeal.Gen.hostOps2_3 (F := Ideal)) (after (Cert.KernelIdeal.Gen.hostOps2_2 (F := Ideal)) (after (Cert.KernelIdeal.Gen.hostOps2_1 (F := Ideal)) (after (Cert.KernelIdeal.Gen.hostOps2 (F := Ideal)) Vk)))))))) (after (Cert.ReferenceIdeal.RefRun.r19 (F := Ideal)) (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) Vr)))))))) e109_8 e113_8 t96_8 t107_8 e85_8

end Cert.Bridge

end
-- ==== Proof.LibDotAt.lean ====
/-
  The host's matrix product at the ideal values, read at one entry: for an m×k matrix times a k×n matrix (the left
  operand contracted along its columns, the right along its rows, no batch axis) the entry at row `a`, column `b` is
  the sum over the contracted coordinate `c` of `A (a, c) * B (c, b)`.
-/
import Idealize.ShloMosaic.Lib.ValueIdx
import Idealize.ShloMosaic.PureOps.Ideal.Laws

noncomputable section

open scoped BigOperators

namespace Cert.Lib

open Idealize.ShloMosaic Idealize.ShloMosaic.ValueIdx

/-- The host's product of an m×k by a k×n matrix, read at entry (a, b). -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec .single A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.Lib

end
-- ==== Proof.LibGate.lean ====
/-
  The gate applied to a layer's product: `max(y, 0) − y · ½` as one program writes it is
  `max(y, 0) − y / 2` as the other does, on every extended real: the literal `0.5` denotes the real 1/2,
  the literal `2.0` the real 2, and the quotient by a nonzero real is the product with its inverse.
-/
import Idealize.ShloMosaic.PureOps.Ideal

noncomputable section

namespace Cert.Lib.Gate

open Idealize.ShloMosaic

/-- The pattern of `0.5` denotes the real 1/2. -/
theorem ofBits_half : Ideal.ofBits .f32 0x3F000000#32 = ((1 / 2 : ℝ) : EReal) := by
  simp [Ideal.ofBits, Ideal.ieee, -EReal.coe_mul]; norm_num

/-- The pattern of `2.0` denotes the real 2. -/
theorem ofBits_two : Ideal.ofBits .f32 0x40000000#32 = ((2 : ℝ) : EReal) := by
  simp [Ideal.ofBits, Ideal.ieee, -EReal.coe_mul]; norm_num

/-- Halving by product and by quotient agree on the extended reals. -/
theorem half_eq (y : EReal) : y * Ideal.ofBits .f32 0x3F000000#32 = Ideal.div y (Ideal.ofBits .f32 0x40000000#32) := by
  rw [ofBits_half, ofBits_two, Ideal.div_coe (by norm_num : (2 : ℝ) ≠ 0)]

/-- The two spellings of the gate. -/
theorem gate_eq (y z : EReal) : max y z - y * Ideal.ofBits .f32 0x3F000000#32 = max y z - Ideal.div y (Ideal.ofBits .f32 0x40000000#32) := by
  rw [half_eq]

end Cert.Lib.Gate

end
-- ==== Proof.Bridge.BR.lean ====
/-
  The three layers' products. The reference forms each layer's product by the host's matrix product and, in the
  first two layers, passes it through `max(y, 0) − y / 2`; the kernel program's regions compute, entry by entry,
  the sum over the contracted axis of the products of the operands' entries, passed through `max(y, 0) − y · ½`
  in the first two layers. These are the same functions of the operands on the extended reals.
-/
import proofs.«117565_j22136261443720_1_alg».proof.Proof.Bridge.Defs
import proofs.«117565_j22136261443720_1_alg».proof.Proof.KI.Value
import proofs.«117565_j22136261443720_1_alg».proof.Proof.LibDotAt
import proofs.«117565_j22136261443720_1_alg».proof.Proof.LibGate

set_option maxRecDepth 16384

noncomputable section

namespace Cert.Bridge

open Idealize.ShloMosaic Idealize.ShloMosaic.TcCoe Idealize.ShloMosaic.StableHlo Idealize.ShloMosaic.ValueIdx

/-- The reference's layer 0: the host's product of its two operands, then `max(y, 0) − y / 2`, is the
    function the kernel program's region 0 computes of the same operands. -/
theorem BR0 (Vr : RV) :
    after (Cert.ReferenceIdeal.RefRun.r3 (F := Ideal)) Vr (Proc.devRef .tc Cert.ReferenceIdeal.main_v18)
      = Cert.KernelIdeal.Hand.gmm0 (Vr (Proc.devRef .tc Cert.ReferenceIdeal.main_v1)) (Vr (Proc.devRef .tc Cert.ReferenceIdeal.main_v13)) := by
  after_results
  generalize Vr (Proc.devRef .tc Cert.ReferenceIdeal.main_v1) = A0
  generalize Vr (Proc.devRef .tc Cert.ReferenceIdeal.main_v13) = B0
  obtain ⟨A, rfl⟩ : ∃ A : FVec Ideal ⟨2, ![512, 1024]⟩ .f32, A = A0 := ⟨A0, rfl⟩
  obtain ⟨B, rfl⟩ : ∃ B : FVec Ideal ⟨2, ![1024, 4096]⟩ .f32, B = B0 := ⟨B0, rfl⟩
  funext i
  obtain ⟨r, q, rfl⟩ : ∃ (r : Fin 512) (q : Fin 4096), i = ix2 r q := ⟨i 0, i 1, eq_ix2 i⟩
  have hd : Host.dotGeneral Cert.ReferenceIdeal.dot_S512x1024_S1024x4096_S512x4096_1_0_0_1_n_n none A B (ix2 r q)
      = ∑ c : Fin 1024, A (ix2 r c) * B (ix2 c q) :=
    Cert.Lib.dotGeneral_plain_apply (φ₁ := .f32) (φ₂ := .f32) Cert.ReferenceIdeal.dot_S512x1024_S1024x4096_S512x4096_1_0_0_1_n_n.wf none A B r q
  show max (Host.dotGeneral Cert.ReferenceIdeal.dot_S512x1024_S1024x4096_S512x4096_1_0_0_1_n_n none A B (ix2 r q)) (Ideal.ofBits .f32 0x00000000#32)
      - Ideal.div (Host.dotGeneral Cert.ReferenceIdeal.dot_S512x1024_S1024x4096_S512x4096_1_0_0_1_n_n none A B (ix2 r q)) (Ideal.ofBits .f32 0x40000000#32) = _
  rw [hd, Ideal.ofBits_zero_f32, ← Cert.Lib.Gate.half_eq]
  rfl

/-- The reference's layer 1: the host's product of its two operands, then `max(y, 0) − y / 2`, is the
    function the kernel program's region 1 computes of the same operands. -/
theorem BR1 (Vr : RV) :
    after (Cert.ReferenceIdeal.RefRun.r11 (F := Ideal)) Vr (Proc.devRef .tc Cert.ReferenceIdeal.main_v69)
      = Cert.KernelIdeal.Hand.gmm1 (Vr (Proc.devRef .tc Cert.ReferenceIdeal.main_v40)) (Vr (Proc.devRef .tc Cert.ReferenceIdeal.main_v64)) := by
  after_results
  generalize Vr (Proc.devRef .tc Cert.ReferenceIdeal.main_v40) = A0
  generalize Vr (Proc.devRef .tc Cert.ReferenceIdeal.main_v64) = B0
  obtain ⟨A, rfl⟩ : ∃ A : FVec Ideal ⟨2, ![512, 5120]⟩ .f32, A = A0 := ⟨A0, rfl⟩
  obtain ⟨B, rfl⟩ : ∃ B : FVec Ideal ⟨2, ![5120, 4096]⟩ .f32, B = B0 := ⟨B0, rfl⟩
  funext i
  obtain ⟨r, q, rfl⟩ : ∃ (r : Fin 512) (q : Fin 4096), i = ix2 r q := ⟨i 0, i 1, eq_ix2 i⟩
  have hd : Host.dotGeneral Cert.ReferenceIdeal.dot_S512x5120_S5120x4096_S512x4096_1_0_0_1_n_n none A B (ix2 r q)
      = ∑ c : Fin 5120, A (ix2 r c) * B (ix2 c q) :=
    Cert.Lib.dotGeneral_plain_apply (φ₁ := .f32) (φ₂ := .f32) Cert.ReferenceIdeal.dot_S512x5120_S5120x4096_S512x4096_1_0_0_1_n_n.wf none A B r q
  show max (Host.dotGeneral Cert.ReferenceIdeal.dot_S512x5120_S5120x4096_S512x4096_1_0_0_1_n_n none A B (ix2 r q)) (Ideal.ofBits .f32 0x00000000#32)
      - Ideal.div (Host.dotGeneral Cert.ReferenceIdeal.dot_S512x5120_S5120x4096_S512x4096_1_0_0_1_n_n none A B (ix2 r q)) (Ideal.ofBits .f32 0x40000000#32) = _
  rw [hd, Ideal.ofBits_zero_f32, ← Cert.Lib.Gate.half_eq]
  rfl

/-- The reference's layer 2: the host's product of its two operands, is the
    function the kernel program's region 2 computes of the same operands. -/
theorem BR2 (Vr : RV) :
    after (Cert.ReferenceIdeal.RefRun.r21 (F := Ideal)) Vr (Proc.devRef .tc Cert.ReferenceIdeal.main_v127)
      = Cert.KernelIdeal.Hand.gmm2 (Vr (Proc.devRef .tc Cert.ReferenceIdeal.main_v91)) (Vr (Proc.devRef .tc Cert.ReferenceIdeal.main_v126)) := by
  after_results
  generalize Vr (Proc.devRef .tc Cert.ReferenceIdeal.main_v91) = A0
  generalize Vr (Proc.devRef .tc Cert.ReferenceIdeal.main_v126) = B0
  obtain ⟨A, rfl⟩ : ∃ A : FVec Ideal ⟨2, ![512, 9216]⟩ .f32, A = A0 := ⟨A0, rfl⟩
  obtain ⟨B, rfl⟩ : ∃ B : FVec Ideal ⟨2, ![9216, 4096]⟩ .f32, B = B0 := ⟨B0, rfl⟩
  funext i
  obtain ⟨r, q, rfl⟩ : ∃ (r : Fin 512) (q : Fin 4096), i = ix2 r q := ⟨i 0, i 1, eq_ix2 i⟩
  have hd : Host.dotGeneral Cert.ReferenceIdeal.dot_S512x9216_S9216x4096_S512x4096_1_0_0_1_n_n none A B (ix2 r q)
      = ∑ c : Fin 9216, A (ix2 r c) * B (ix2 c q) :=
    Cert.Lib.dotGeneral_plain_apply (φ₁ := .f32) (φ₂ := .f32) Cert.ReferenceIdeal.dot_S512x9216_S9216x4096_S512x4096_1_0_0_1_n_n.wf none A B r q
  exact hd

end Cert.Bridge

end
-- ==== Proof.Bridge.Keep.lean ====
/-
  A buffer that none of a run of consecutive steps writes holds, after them, what it held at the start.
  For the kernel program: through its first four steps (three stretches of host operations and the first
  matrix-product region, which changes only its output array), and through its first twelve (seven more
  stretches and the second region). For the reference program: through its first four, and its first twelve,
  lists of operations. Each is the chain of the single-step facts.
-/
import proofs.«117565_j22136261443720_1_alg».proof.Proof.Gen.KernelIdeal.Regions
import proofs.«117565_j22136261443720_1_alg».proof.Proof.Ref.Ops

noncomputable section

namespace Cert.Bridge

open Idealize.ShloMosaic Idealize.ShloMosaic.TcCoe Idealize.SL.Sem Idealize.ShloMosaic.StableHlo

variable {F : FTy → Type} [FloatOps F]

/-- The kernel program's buffer contents after its first four steps, at a buffer none of them writes. -/
theorem K4_keep (m : (ℓ : Loc Cert.KernelIdeal.nD Cert.KernelIdeal.τ Cert.KernelIdeal.sig) → Buf (Elt F) ℓ) (outs : Cert.KernelIdeal.Gen.Outs (F := F))
    (c : Dev Cert.KernelIdeal.nD) (r : Ref Cert.KernelIdeal.sig .tc)
    (h0 : r ∉ Cert.KernelIdeal.Gen.hostOps0_W)
    (h1 : r ∉ Cert.KernelIdeal.Gen.hostOps0_1_W)
    (h2 : r ∉ Cert.KernelIdeal.Gen.hostOps0_2_W)
    (h3 : r ∉ ([Cert.KernelIdeal.main_v15] : List (Ref Cert.KernelIdeal.sig .tc))) :
    Cert.KernelIdeal.Gen.V4 m outs c r = Cert.KernelIdeal.Gen.V0 m c r :=
  (Cert.KernelIdeal.Gen.V4_of m outs c r h3).trans ((Cert.KernelIdeal.Gen.V3_of m c r h2).trans ((Cert.KernelIdeal.Gen.V2_of m c r h1).trans (Cert.KernelIdeal.Gen.V1_of m c r h0)))

/-- The kernel program's buffer contents after its first twelve steps, at a buffer none of them writes. -/
theorem K12_keep (m : (ℓ : Loc Cert.KernelIdeal.nD Cert.KernelIdeal.τ Cert.KernelIdeal.sig) → Buf (Elt F) ℓ) (outs : Cert.KernelIdeal.Gen.Outs (F := F))
    (c : Dev Cert.KernelIdeal.nD) (r : Ref Cert.KernelIdeal.sig .tc)
    (h0 : r ∉ Cert.KernelIdeal.Gen.hostOps0_W)
    (h1 : r ∉ Cert.KernelIdeal.Gen.hostOps0_1_W)
    (h2 : r ∉ Cert.KernelIdeal.Gen.hostOps0_2_W)
    (h3 : r ∉ ([Cert.KernelIdeal.main_v15] : List (Ref Cert.KernelIdeal.sig .tc)))
    (h4 : r ∉ Cert.KernelIdeal.Gen.hostOps1_W)
    (h5 : r ∉ Cert.KernelIdeal.Gen.hostOps1_1_W)
    (h6 : r ∉ Cert.KernelIdeal.Gen.hostOps1_2_W)
    (h7 : r ∉ Cert.KernelIdeal.Gen.hostOps1_3_W)
    (h8 : r ∉ Cert.KernelIdeal.Gen.hostOps1_4_W)
    (h9 : r ∉ Cert.KernelIdeal.Gen.hostOps1_5_W)
    (h10 : r ∉ Cert.KernelIdeal.Gen.hostOps1_6_W)
    (h11 : r ∉ ([Cert.KernelIdeal.main_v63] : List (Ref Cert.KernelIdeal.sig .tc))) :
    Cert.KernelIdeal.Gen.V12 m outs c r = Cert.KernelIdeal.Gen.V0 m c r :=
  (Cert.KernelIdeal.Gen.V12_of m outs c r h11).trans ((Cert.KernelIdeal.Gen.V11_of m outs c r h10).trans ((Cert.KernelIdeal.Gen.V10_of m outs c r h9).trans ((Cert.KernelIdeal.Gen.V9_of m outs c r h8).trans ((Cert.KernelIdeal.Gen.V8_of m outs c r h7).trans ((Cert.KernelIdeal.Gen.V7_of m outs c r h6).trans ((Cert.KernelIdeal.Gen.V6_of m outs c r h5).trans ((Cert.KernelIdeal.Gen.V5_of m outs c r h4).trans ((Cert.KernelIdeal.Gen.V4_of m outs c r h3).trans ((Cert.KernelIdeal.Gen.V3_of m c r h2).trans ((Cert.KernelIdeal.Gen.V2_of m c r h1).trans (Cert.KernelIdeal.Gen.V1_of m c r h0)))))))))))

/-- The reference program's buffer contents after its first four lists, at a buffer none of them writes. -/
theorem R4_keep (V : Valuation Cert.ReferenceIdeal.τ Cert.ReferenceIdeal.sig (Elt F)) (r : Ref Cert.ReferenceIdeal.sig .tc)
    (h0 : r ∉ Cert.ReferenceIdeal.RefRun.r0_W) (h1 : r ∉ Cert.ReferenceIdeal.RefRun.r1_W) (h2 : r ∉ Cert.ReferenceIdeal.RefRun.r2_W) (h3 : r ∉ Cert.ReferenceIdeal.RefRun.r3_W) :
    after Cert.ReferenceIdeal.RefRun.r3 (after Cert.ReferenceIdeal.RefRun.r2 (after Cert.ReferenceIdeal.RefRun.r1 (after Cert.ReferenceIdeal.RefRun.r0 (V)))) (Proc.devRef .tc r) = V (Proc.devRef .tc r) :=
  (Cert.ReferenceIdeal.RefRun.r3_keep _ r h3).trans ((Cert.ReferenceIdeal.RefRun.r2_keep _ r h2).trans ((Cert.ReferenceIdeal.RefRun.r1_keep _ r h1).trans (Cert.ReferenceIdeal.RefRun.r0_keep V r h0)))

/-- The reference program's buffer contents after its first twelve lists, at a buffer none of them writes. -/
theorem R12_keep (V : Valuation Cert.ReferenceIdeal.τ Cert.ReferenceIdeal.sig (Elt F)) (r : Ref Cert.ReferenceIdeal.sig .tc)
    (h0 : r ∉ Cert.ReferenceIdeal.RefRun.r0_W) (h1 : r ∉ Cert.ReferenceIdeal.RefRun.r1_W) (h2 : r ∉ Cert.ReferenceIdeal.RefRun.r2_W) (h3 : r ∉ Cert.ReferenceIdeal.RefRun.r3_W) (h4 : r ∉ Cert.ReferenceIdeal.RefRun.r4_W) (h5 : r ∉ Cert.ReferenceIdeal.RefRun.r5_W) (h6 : r ∉ Cert.ReferenceIdeal.RefRun.r6_W) (h7 : r ∉ Cert.ReferenceIdeal.RefRun.r7_W) (h8 : r ∉ Cert.ReferenceIdeal.RefRun.r8_W) (h9 : r ∉ Cert.ReferenceIdeal.RefRun.r9_W) (h10 : r ∉ Cert.ReferenceIdeal.RefRun.r10_W) (h11 : r ∉ Cert.ReferenceIdeal.RefRun.r11_W) :
    after Cert.ReferenceIdeal.RefRun.r11 (after Cert.ReferenceIdeal.RefRun.r10 (after Cert.ReferenceIdeal.RefRun.r9 (after Cert.ReferenceIdeal.RefRun.r8 (after Cert.ReferenceIdeal.RefRun.r7 (after Cert.ReferenceIdeal.RefRun.r6 (after Cert.ReferenceIdeal.RefRun.r5 (after Cert.ReferenceIdeal.RefRun.r4 (after Cert.ReferenceIdeal.RefRun.r3 (after Cert.ReferenceIdeal.RefRun.r2 (after Cert.ReferenceIdeal.RefRun.r1 (after Cert.ReferenceIdeal.RefRun.r0 (V)))))))))))) (Proc.devRef .tc r) = V (Proc.devRef .tc r) :=
  (Cert.ReferenceIdeal.RefRun.r11_keep _ r h11).trans ((Cert.ReferenceIdeal.RefRun.r10_keep _ r h10).trans ((Cert.ReferenceIdeal.RefRun.r9_keep _ r h9).trans ((Cert.ReferenceIdeal.RefRun.r8_keep _ r h8).trans ((Cert.ReferenceIdeal.RefRun.r7_keep _ r h7).trans ((Cert.ReferenceIdeal.RefRun.r6_keep _ r h6).trans ((Cert.ReferenceIdeal.RefRun.r5_keep _ r h5).trans ((Cert.ReferenceIdeal.RefRun.r4_keep _ r h4).trans ((Cert.ReferenceIdeal.RefRun.r3_keep _ r h3).trans ((Cert.ReferenceIdeal.RefRun.r2_keep _ r h2).trans ((Cert.ReferenceIdeal.RefRun.r1_keep _ r h1).trans (Cert.ReferenceIdeal.RefRun.r0_keep V r h0)))))))))))

end Cert.Bridge

end
-- ==== Proof.Bridge.Final.lean ====
/-
  The two idealized programs compute the same result. From memories that agree on the seventeen arguments,
  the kernel program's result buffer — what its last region's write-backs leave — and the reference's — its
  fold of host operations read at the result — are the same array of extended reals: layer by layer, the
  host operations before a region give the region's two operands as the reference's two operands of the
  layer's product (the three comparisons of host stretches), and the region's output is the function of its
  operands that the reference's product and gate compute (the regions' closed forms against the reference's
  product lines). Then the claims: the three frames, the empty ledger, and the two runs side by side.
-/
import proofs.«117565_j22136261443720_1_alg».proof.Proof.K.Frame
import proofs.«117565_j22136261443720_1_alg».proof.Proof.KI.Frame
import proofs.«117565_j22136261443720_1_alg».proof.Proof.KI.Value
import proofs.«117565_j22136261443720_1_alg».proof.Proof.Ref.Run
import proofs.«117565_j22136261443720_1_alg».proof.Proof.Bridge.B1
import proofs.«117565_j22136261443720_1_alg».proof.Proof.Bridge.B2
import proofs.«117565_j22136261443720_1_alg».proof.Proof.Bridge.B3
import proofs.«117565_j22136261443720_1_alg».proof.Proof.Bridge.BR
import proofs.«117565_j22136261443720_1_alg».proof.Proof.Bridge.Keep

set_option maxRecDepth 16384

noncomputable section

namespace Cert.Bridge

open Idealize.ShloMosaic Idealize.ShloMosaic.TcCoe Idealize.ShloMosaic.StableHlo Idealize.SL.Sem
open Cert.KernelIdeal.Hand

/-- The reference's launch valuation on core `c`. -/
def W0 (m' : (ℓ : Loc Cert.ReferenceIdeal.nD Cert.ReferenceIdeal.τ Cert.ReferenceIdeal.sig) → Buf (Elt Ideal) ℓ) (c : Dev Cert.ReferenceIdeal.nD) : RV := fun b => m' (c, b)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The first region's output buffer after the region. -/
theorem V4_v15 : Cert.KernelIdeal.Gen.V4 m (outs m) c (Proc.devRef .tc Cert.KernelIdeal.main_v15) = o4 m c := by
  show Function.update (Cert.KernelIdeal.Gen.V3 m c) (Proc.devRef .tc Cert.KernelIdeal.main_v15) (outs m 4 Cert.KernelIdeal.main_v15 c) (Proc.devRef .tc Cert.KernelIdeal.main_v15) = _
  rw [Function.update_self, outs_4]
/-- The second region's output buffer after the region. -/
theorem V12_v63 : Cert.KernelIdeal.Gen.V12 m (outs m) c (Proc.devRef .tc Cert.KernelIdeal.main_v63) = o12 m c := by
  show Function.update (Cert.KernelIdeal.Gen.V11 m (outs m) c) (Proc.devRef .tc Cert.KernelIdeal.main_v63) (outs m 12 Cert.KernelIdeal.main_v63 c) (Proc.devRef .tc Cert.KernelIdeal.main_v63) = _
  rw [Function.update_self, outs_12]

set_option maxHeartbeats 4000000 in
/-- The reference's fold read at its result is what the kernel program's last region leaves in its output array. -/
theorem result_eq
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) :
    StableHlo.after (Cert.ReferenceIdeal.RefRun.ops (F := Ideal)) (fun b => m' (c, b)) (Proc.devRef .tc Cert.ReferenceIdeal.main_v127) = o22 m c := by
  obtain ⟨g0, g1, g2, g3, g4, g5, g6, g7, g8, g9, g10, g11, g12, g13, g14, g15, g16⟩ := hag
  -- layer 0: the operands of the first product
  obtain ⟨e13, e14, e1⟩ := B1 (Cert.KernelIdeal.Gen.V0 m c) (W0 m' c) g0.symm g1.symm g11.symm
  have h15 : Cert.KernelIdeal.Gen.V4 m (outs m) c (Proc.devRef .tc Cert.KernelIdeal.main_v15) = (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))) (Proc.devRef .tc Cert.ReferenceIdeal.main_v18) :=
    (V4_v15 m c).trans ((arrAt0 (U3 m) c).trans ((congrArg₂ gmm0 e14 e13).trans (BR0 (after (Cert.ReferenceIdeal.RefRun.r2 (F := Ideal)) (after (Cert.ReferenceIdeal.RefRun.r1 (F := Ideal)) (after (Cert.ReferenceIdeal.RefRun.r0 (F := Ideal)) (W0 m' c))))).symm))
  have h1 : Cert.KernelIdeal.Gen.V4 m (outs m) c (Proc.devRef .tc Cert.KernelIdeal.main_v1) = (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))) (Proc.devRef .tc Cert.ReferenceIdeal.main_v1) :=
    (Cert.KernelIdeal.Gen.V4_of m (outs m) c Cert.KernelIdeal.main_v1 (by decide)).trans (e1.trans (Cert.ReferenceIdeal.RefRun.r3_keep _ Cert.ReferenceIdeal.main_v1 (by decide)).symm)
  have b7 : Cert.KernelIdeal.Gen.V4 m (outs m) c (Proc.devRef .tc Cert.KernelIdeal.main_arg7) = (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))) (Proc.devRef .tc Cert.ReferenceIdeal.main_arg7) :=
    (K4_keep m (outs m) c Cert.KernelIdeal.main_arg7 (by decide) (by decide) (by decide) (by decide)).trans ((show Cert.KernelIdeal.Gen.V0 m c (Proc.devRef .tc Cert.KernelIdeal.main_arg7) = W0 m' c (Proc.devRef .tc Cert.ReferenceIdeal.main_arg7) from g7.symm).trans (R4_keep (W0 m' c) Cert.ReferenceIdeal.main_arg7 (by decide) (by decide) (by decide) (by decide)).symm)
  have b8 : Cert.KernelIdeal.Gen.V4 m (outs m) c (Proc.devRef .tc Cert.KernelIdeal.main_arg8) = (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))) (Proc.devRef .tc Cert.ReferenceIdeal.main_arg8) :=
    (K4_keep m (outs m) c Cert.KernelIdeal.main_arg8 (by decide) (by decide) (by decide) (by decide)).trans ((show Cert.KernelIdeal.Gen.V0 m c (Proc.devRef .tc Cert.KernelIdeal.main_arg8) = W0 m' c (Proc.devRef .tc Cert.ReferenceIdeal.main_arg8) from g8.symm).trans (R4_keep (W0 m' c) Cert.ReferenceIdeal.main_arg8 (by decide) (by decide) (by decide) (by decide)).symm)
  have b12 : Cert.KernelIdeal.Gen.V4 m (outs m) c (Proc.devRef .tc Cert.KernelIdeal.main_arg12) = (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))) (Proc.devRef .tc Cert.ReferenceIdeal.main_arg12) :=
    (K4_keep m (outs m) c Cert.KernelIdeal.main_arg12 (by decide) (by decide) (by decide) (by decide)).trans ((show Cert.KernelIdeal.Gen.V0 m c (Proc.devRef .tc Cert.KernelIdeal.main_arg12) = W0 m' c (Proc.devRef .tc Cert.ReferenceIdeal.main_arg12) from g12.symm).trans (R4_keep (W0 m' c) Cert.ReferenceIdeal.main_arg12 (by decide) (by decide) (by decide) (by decide)).symm)
  have b2 : Cert.KernelIdeal.Gen.V4 m (outs m) c (Proc.devRef .tc Cert.KernelIdeal.main_arg2) = (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))) (Proc.devRef .tc Cert.ReferenceIdeal.main_arg2) :=
    (K4_keep m (outs m) c Cert.KernelIdeal.main_arg2 (by decide) (by decide) (by decide) (by decide)).trans ((show Cert.KernelIdeal.Gen.V0 m c (Proc.devRef .tc Cert.KernelIdeal.main_arg2) = W0 m' c (Proc.devRef .tc Cert.ReferenceIdeal.main_arg2) from g2.symm).trans (R4_keep (W0 m' c) Cert.ReferenceIdeal.main_arg2 (by decide) (by decide) (by decide) (by decide)).symm)
  have b13 : Cert.KernelIdeal.Gen.V4 m (outs m) c (Proc.devRef .tc Cert.KernelIdeal.main_arg13) = (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))) (Proc.devRef .tc Cert.ReferenceIdeal.main_arg13) :=
    (K4_keep m (outs m) c Cert.KernelIdeal.main_arg13 (by decide) (by decide) (by decide) (by decide)).trans ((show Cert.KernelIdeal.Gen.V0 m c (Proc.devRef .tc Cert.KernelIdeal.main_arg13) = W0 m' c (Proc.devRef .tc Cert.ReferenceIdeal.main_arg13) from g13.symm).trans (R4_keep (W0 m' c) Cert.ReferenceIdeal.main_arg13 (by decide) (by decide) (by decide) (by decide)).symm)
  have b3 : Cert.KernelIdeal.Gen.V4 m (outs m) c (Proc.devRef .tc Cert.KernelIdeal.main_arg3) = (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))) (Proc.devRef .tc Cert.ReferenceIdeal.main_arg3) :=
    (K4_keep m (outs m) c Cert.KernelIdeal.main_arg3 (by decide) (by decide) (by decide) (by decide)).trans ((show Cert.KernelIdeal.Gen.V0 m c (Proc.devRef .tc Cert.KernelIdeal.main_arg3) = W0 m' c (Proc.devRef .tc Cert.ReferenceIdeal.main_arg3) from g3.symm).trans (R4_keep (W0 m' c) Cert.ReferenceIdeal.main_arg3 (by decide) (by decide) (by decide) (by decide)).symm)
  -- layer 1
  obtain ⟨e61, e62, e37⟩ := B2 (Cert.KernelIdeal.Gen.V4 m (outs m) c) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))) h15 h1 b7 b8 b12 b2 b13 b3
  have h63 : Cert.KernelIdeal.Gen.V12 m (outs m) c (Proc.devRef .tc Cert.KernelIdeal.main_v63) = (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))) (Proc.devRef .tc Cert.ReferenceIdeal.main_v69) :=
    (V12_v63 m c).trans ((arrAt1 (U11 m) c).trans ((congrArg₂ gmm1 e62 e61).trans (BR1 (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))).symm))
  have h37 : Cert.KernelIdeal.Gen.V12 m (outs m) c (Proc.devRef .tc Cert.KernelIdeal.main_v37) = (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))) (Proc.devRef .tc Cert.ReferenceIdeal.main_v40) :=
    (Cert.KernelIdeal.Gen.V12_of m (outs m) c Cert.KernelIdeal.main_v37 (by decide)).trans (e37.trans (Cert.ReferenceIdeal.RefRun.r11_keep _ Cert.ReferenceIdeal.main_v40 (by decide)).symm)
  have d9 : Cert.KernelIdeal.Gen.V12 m (outs m) c (Proc.devRef .tc Cert.KernelIdeal.main_arg9) = (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))) (Proc.devRef .tc Cert.ReferenceIdeal.main_arg9) :=
    (K12_keep m (outs m) c Cert.KernelIdeal.main_arg9 (by decide) (by decide) (by decide) (by decide) (by decide) (by decide) (by decide) (by decide) (by decide) (by decide) (by decide) (by decide)).trans ((show Cert.KernelIdeal.Gen.V0 m c (Proc.devRef .tc Cert.KernelIdeal.main_arg9) = W0 m' c (Proc.devRef .tc Cert.ReferenceIdeal.main_arg9) from g9.symm).trans (R12_keep (W0 m' c) Cert.ReferenceIdeal.main_arg9 (by decide) (by decide) (by decide) (by decide) (by decide) (by decide) (by decide) (by decide) (by decide) (by decide) (by decide) (by decide)).symm)
  have d10 : Cert.KernelIdeal.Gen.V12 m (outs m) c (Proc.devRef .tc Cert.KernelIdeal.main_arg10) = (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))) (Proc.devRef .tc Cert.ReferenceIdeal.main_arg10) :=
    (K12_keep m (outs m) c Cert.KernelIdeal.main_arg10 (by decide) (by decide) (by decide) (by decide) (by decide) (by decide) (by decide) (by decide) (by decide) (by decide) (by decide) (by decide)).trans ((show Cert.KernelIdeal.Gen.V0 m c (Proc.devRef .tc Cert.KernelIdeal.main_arg10) = W0 m' c (Proc.devRef .tc Cert.ReferenceIdeal.main_arg10) from g10.symm).trans (R12_keep (W0 m' c) Cert.ReferenceIdeal.main_arg10 (by decide) (by decide) (by decide) (by decide) (by decide) (by decide) (by decide) (by decide) (by decide) (by decide) (by decide) (by decide)).symm)
  have d14 : Cert.KernelIdeal.Gen.V12 m (outs m) c (Proc.devRef .tc Cert.KernelIdeal.main_arg14) = (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))) (Proc.devRef .tc Cert.ReferenceIdeal.main_arg14) :=
    (K12_keep m (outs m) c Cert.KernelIdeal.main_arg14 (by decide) (by decide) (by decide) (by decide) (by decide) (by decide) (by decide) (by decide) (by decide) (by decide) (by decide) (by decide)).trans ((show Cert.KernelIdeal.Gen.V0 m c (Proc.devRef .tc Cert.KernelIdeal.main_arg14) = W0 m' c (Proc.devRef .tc Cert.ReferenceIdeal.main_arg14) from g14.symm).trans (R12_keep (W0 m' c) Cert.ReferenceIdeal.main_arg14 (by decide) (by decide) (by decide) (by decide) (by decide) (by decide) (by decide) (by decide) (by decide) (by decide) (by decide) (by decide)).symm)
  have d4 : Cert.KernelIdeal.Gen.V12 m (outs m) c (Proc.devRef .tc Cert.KernelIdeal.main_arg4) = (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))) (Proc.devRef .tc Cert.ReferenceIdeal.main_arg4) :=
    (K12_keep m (outs m) c Cert.KernelIdeal.main_arg4 (by decide) (by decide) (by decide) (by decide) (by decide) (by decide) (by decide) (by decide) (by decide) (by decide) (by decide) (by decide)).trans ((show Cert.KernelIdeal.Gen.V0 m c (Proc.devRef .tc Cert.KernelIdeal.main_arg4) = W0 m' c (Proc.devRef .tc Cert.ReferenceIdeal.main_arg4) from g4.symm).trans (R12_keep (W0 m' c) Cert.ReferenceIdeal.main_arg4 (by decide) (by decide) (by decide) (by decide) (by decide) (by decide) (by decide) (by decide) (by decide) (by decide) (by decide) (by decide)).symm)
  have d15 : Cert.KernelIdeal.Gen.V12 m (outs m) c (Proc.devRef .tc Cert.KernelIdeal.main_arg15) = (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))) (Proc.devRef .tc Cert.ReferenceIdeal.main_arg15) :=
    (K12_keep m (outs m) c Cert.KernelIdeal.main_arg15 (by decide) (by decide) (by decide) (by decide) (by decide) (by decide) (by decide) (by decide) (by decide) (by decide) (by decide) (by decide)).trans ((show Cert.KernelIdeal.Gen.V0 m c (Proc.devRef .tc Cert.KernelIdeal.main_arg15) = W0 m' c (Proc.devRef .tc Cert.ReferenceIdeal.main_arg15) from g15.symm).trans (R12_keep (W0 m' c) Cert.ReferenceIdeal.main_arg15 (by decide) (by decide) (by decide) (by decide) (by decide) (by decide) (by decide) (by decide) (by decide) (by decide) (by decide) (by decide)).symm)
  have d5 : Cert.KernelIdeal.Gen.V12 m (outs m) c (Proc.devRef .tc Cert.KernelIdeal.main_arg5) = (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))) (Proc.devRef .tc Cert.ReferenceIdeal.main_arg5) :=
    (K12_keep m (outs m) c Cert.KernelIdeal.main_arg5 (by decide) (by decide) (by decide) (by decide) (by decide) (by decide) (by decide) (by decide) (by decide) (by decide) (by decide) (by decide)).trans ((show Cert.KernelIdeal.Gen.V0 m c (Proc.devRef .tc Cert.KernelIdeal.main_arg5) = W0 m' c (Proc.devRef .tc Cert.ReferenceIdeal.main_arg5) from g5.symm).trans (R12_keep (W0 m' c) Cert.ReferenceIdeal.main_arg5 (by decide) (by decide) (by decide) (by decide) (by decide) (by decide) (by decide) (by decide) (by decide) (by decide) (by decide) (by decide)).symm)
  have d16 : Cert.KernelIdeal.Gen.V12 m (outs m) c (Proc.devRef .tc Cert.KernelIdeal.main_arg16) = (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))) (Proc.devRef .tc Cert.ReferenceIdeal.main_arg16) :=
    (K12_keep m (outs m) c Cert.KernelIdeal.main_arg16 (by decide) (by decide) (by decide) (by decide) (by decide) (by decide) (by decide) (by decide) (by decide) (by decide) (by decide) (by decide)).trans ((show Cert.KernelIdeal.Gen.V0 m c (Proc.devRef .tc Cert.KernelIdeal.main_arg16) = W0 m' c (Proc.devRef .tc Cert.ReferenceIdeal.main_arg16) from g16.symm).trans (R12_keep (W0 m' c) Cert.ReferenceIdeal.main_arg16 (by decide) (by decide) (by decide) (by decide) (by decide) (by decide) (by decide) (by decide) (by decide) (by decide) (by decide) (by decide)).symm)
  have d6 : Cert.KernelIdeal.Gen.V12 m (outs m) c (Proc.devRef .tc Cert.KernelIdeal.main_arg6) = (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))) (Proc.devRef .tc Cert.ReferenceIdeal.main_arg6) :=
    (K12_keep m (outs m) c Cert.KernelIdeal.main_arg6 (by decide) (by decide) (by decide) (by decide) (by decide) (by decide) (by decide) (by decide) (by decide) (by decide) (by decide) (by decide)).trans ((show Cert.KernelIdeal.Gen.V0 m c (Proc.devRef .tc Cert.KernelIdeal.main_arg6) = W0 m' c (Proc.devRef .tc Cert.ReferenceIdeal.main_arg6) from g6.symm).trans (R12_keep (W0 m' c) Cert.ReferenceIdeal.main_arg6 (by decide) (by decide) (by decide) (by decide) (by decide) (by decide) (by decide) (by decide) (by decide) (by decide) (by decide) (by decide)).symm)
  -- layer 2
  obtain ⟨e120, e121⟩ := B3 (Cert.KernelIdeal.Gen.V12 m (outs m) c) (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))) h63 h37 d9 d10 d14 d4 d15 d5 d16 d6
  -- the last product
  have hops : StableHlo.after (Cert.ReferenceIdeal.RefRun.ops (F := Ideal)) (fun b => m' (c, b)) (Proc.devRef .tc Cert.ReferenceIdeal.main_v127) = (after (Cert.ReferenceIdeal.RefRun.r21 (F := Ideal)) (after (Cert.ReferenceIdeal.RefRun.r20 (F := Ideal)) (after (Cert.ReferenceIdeal.RefRun.r19 (F := Ideal)) (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))))))))))))) (Proc.devRef .tc Cert.ReferenceIdeal.main_v127) :=
    congrFun (Cert.ReferenceIdeal.RefRun.after_ops (W0 m' c)) _
  exact hops.trans ((BR2 (after (Cert.ReferenceIdeal.RefRun.r20 (F := Ideal)) (after (Cert.ReferenceIdeal.RefRun.r19 (F := Ideal)) (after (Cert.ReferenceIdeal.RefRun.r18 (F := Ideal)) (after (Cert.ReferenceIdeal.RefRun.r17 (F := Ideal)) (after (Cert.ReferenceIdeal.RefRun.r16 (F := Ideal)) (after (Cert.ReferenceIdeal.RefRun.r15 (F := Ideal)) (after (Cert.ReferenceIdeal.RefRun.r14 (F := Ideal)) (after (Cert.ReferenceIdeal.RefRun.r13 (F := Ideal)) (after (Cert.ReferenceIdeal.RefRun.r12 (F := Ideal)) (after (Cert.ReferenceIdeal.RefRun.r11 (F := Ideal)) (after (Cert.ReferenceIdeal.RefRun.r10 (F := Ideal)) (after (Cert.ReferenceIdeal.RefRun.r9 (F := Ideal)) (after (Cert.ReferenceIdeal.RefRun.r8 (F := Ideal)) (after (Cert.ReferenceIdeal.RefRun.r7 (F := Ideal)) (after (Cert.ReferenceIdeal.RefRun.r6 (F := Ideal)) (after (Cert.ReferenceIdeal.RefRun.r5 (F := Ideal)) (after (Cert.ReferenceIdeal.RefRun.r4 (F := Ideal)) (after (Cert.ReferenceIdeal.RefRun.r3 (F := Ideal)) (after (Cert.ReferenceIdeal.RefRun.r2 (F := Ideal)) (after (Cert.ReferenceIdeal.RefRun.r1 (F := Ideal)) (after (Cert.ReferenceIdeal.RefRun.r0 (F := Ideal)) (W0 m' c))))))))))))))))))))))).trans ((congrArg₂ gmm2 e121 e120).symm.trans (arrAt2 (U21 m) c).symm))
end

end Cert.Bridge

end
-- ==== Proof.lean ====
/-
  The certificate. The word-level kernel program and its idealization run to the end with their argument arrays
  unchanged: the three matrix-product regions are entered from, and left at, valuations of the fold of buffer
  contents through the program, each region's body keeping the accumulator of a column block in its scratch
  buffer from one grid point to the next. The idealized reference runs to the end as the fold of its host
  operations. The idealization rewrote nothing. At the extended reals the two idealized programs, started from
  memories that agree on the seventeen arguments, end with the same result: each region's output array is the
  gated sum of products of its two operand arrays, and these operands are, layer by layer, the reference's.
-/
import proofs.«117565_j22136261443720_1_alg».proof.Defs
import proofs.«117565_j22136261443720_1_alg».proof.Proof.Gen.Kernel
import proofs.«117565_j22136261443720_1_alg».proof.Proof.Gen.KernelIdeal
import proofs.«117565_j22136261443720_1_alg».proof.Proof.Gen.ReferenceIdeal
import proofs.«117565_j22136261443720_1_alg».proof.Proof.Gen.Pre_finite_inputs
import proofs.«117565_j22136261443720_1_alg».proof.Proof.K.Frame
import proofs.«117565_j22136261443720_1_alg».proof.Proof.KI.Frame
import proofs.«117565_j22136261443720_1_alg».proof.Proof.Ref.Run
import proofs.«117565_j22136261443720_1_alg».proof.Proof.Bridge.Final
import Idealize.ShloMosaic.Adequacy
import Idealize.ShloMosaic.Init

noncomputable section

namespace Cert.Proof

open Idealize.ShloMosaic Idealize.SL.Sem

/-- The word-level program's frame. -/
theorem frame_k : Cert.frame_Kernel := fun m ρ _ => Cert.Kernel.Hand.frame m ρ
/-- The idealized program's frame. -/
theorem frame_ki : Cert.frame_KernelIdeal := fun m ρ _ => Cert.KernelIdeal.Hand.frame m ρ

/-- The two idealized programs, run from memories that agree on the arguments, end with equal results. -/
theorem algebraic : Cert.algebraic_KernelIdeal_ReferenceIdeal := by
  intro m ρ m' ρ' _ hagree
  refine ⟨fun c => Cert.KernelIdeal.Hand.o22 m c, Cert.KernelIdeal.Hand.run_result (F := Ideal) m ρ, ?_⟩
  exact (θ_run Cert.ReferenceIdeal.defs _ _).mono
    (fun r h c => ⟨(h c).1.trans (Cert.Bridge.result_eq m m' c (hagree c)), (h c).2⟩)
    (Cert.ReferenceIdeal.RefRun.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefRun.frame_ri, trivial, algebraic⟩

end Cert.Proof

end
